-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v307)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v307) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v406) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3x200000 : Shape := ⟨2, ![3, 200000]⟩
abbrev S100000 : Shape := ⟨1, ![100000]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg7 : FVec F S3x128 .f32) (main_arg8 : FVec F S128x10 .f32) (main_arg9 : FVec F S10 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg7
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x10 .f32 := Host.absf main_arg8
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg9
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x128 .f32) (main_arg1 : IVec S3x200000 32) (main_arg2 : IVec S3x200000 32) (main_arg3 : IVec S100000 32) (main_arg4 : FVec F S3x128x128 .f32) (main_arg5 : FVec F S3x128 .f32) (main_arg6 : FVec F S3x128x128 .f32) (main_arg7 : FVec F S3x128 .f32) (main_arg8 : FVec F S128x10 .f32) (main_arg9 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg4
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg5
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg6
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg7 main_arg8 main_arg9 main_v13 main_v16
-- ==== Kernel.lean ====
abbrev S100000x128 : Shape := ⟨2, ![100000, 128]⟩
abbrev S3x200000 : Shape := ⟨2, ![3, 200000]⟩
abbrev S100000 : Shape := ⟨1, ![100000]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S1x200000 : Shape := ⟨2, ![1, 200000]⟩
abbrev S200000 : Shape := ⟨1, ![200000]⟩
abbrev S_ : Shape := ⟨0, ![]⟩
abbrev S200000x1 : Shape := ⟨2, ![200000, 1]⟩
abbrev S1x100000 : Shape := ⟨2, ![1, 100000]⟩
abbrev S3x100000 : Shape := ⟨2, ![3, 100000]⟩
abbrev S100000x1 : Shape := ⟨2, ![100000, 1]⟩
abbrev S100000x3 : Shape := ⟨2, ![100000, 3]⟩
abbrev S200000x128 : Shape := ⟨2, ![200000, 128]⟩
abbrev S1x100000x128 : Shape := ⟨3, ![1, 100000, 128]⟩
abbrev S3x100000x128 : Shape := ⟨3, ![3, 100000, 128]⟩
abbrev S3x4000x128 : Shape := ⟨3, ![3, 4000, 128]⟩
abbrev S4000x3 : Shape := ⟨2, ![4000, 3]⟩
abbrev S4000x128 : Shape := ⟨2, ![4000, 128]⟩
abbrev S1x4000x128 : Shape := ⟨3, ![1, 4000, 128]⟩
abbrev S4000x1 : Shape := ⟨2, ![4000, 1]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S64 : Shape := ⟨1, ![64]⟩
abbrev S64x128 : Shape := ⟨2, ![64, 128]⟩
abbrev S64x1 : Shape := ⟨2, ![64, 1]⟩
abbrev S64x10 : Shape := ⟨2, ![64, 10]⟩
abbrev S1x10 : Shape := ⟨2, ![1, 10]⟩

abbrev nBuf : Space → Nat
  | .hbm => 411
  | .vmem => 16
  | .smem => 0
  | _ => 0

abbrev hbmTy0_0 (i : Nat) : BufTy := match i % 128 with
  | 0 => ⟨S100000x128, .f32⟩
  | 1 => ⟨S3x200000, .i32⟩
  | 2 => ⟨S3x200000, .i32⟩
  | 3 => ⟨S100000, .i32⟩
  | 4 => ⟨S3x128x128, .f32⟩
  | 5 => ⟨S3x128, .f32⟩
  | 6 => ⟨S3x128x128, .f32⟩
  | 7 => ⟨S3x128, .f32⟩
  | 8 => ⟨S128x10, .f32⟩
  | 9 => ⟨S10, .f32⟩
  | 10 => ⟨S1x200000, .i32⟩
  | 11 => ⟨S200000, .i32⟩
  | 12 => ⟨S1x200000, .i32⟩
  | 13 => ⟨S200000, .i32⟩
  | 14 => ⟨S_, .f32⟩
  | 15 => ⟨S100000, .f32⟩
  | 16 => ⟨S_, .i32⟩
  | 17 => ⟨S200000, .i32⟩
  | 18 => ⟨S200000, .i1⟩
  | 19 => ⟨S_, .i32⟩
  | 20 => ⟨S200000, .i32⟩
  | 21 => ⟨S200000, .i32⟩
  | 22 => ⟨S200000, .i32⟩
  | 23 => ⟨S200000x1, .i32⟩
  | 24 => ⟨S_, .f32⟩
  | 25 => ⟨S200000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .f32⟩
  | 32 => ⟨S100000, .f32⟩
  | 33 => ⟨S_, .i32⟩
  | 34 => ⟨S200000, .i32⟩
  | 35 => ⟨S200000, .i1⟩
  | 36 => ⟨S_, .i32⟩
  | 37 => ⟨S200000, .i32⟩
  | 38 => ⟨S200000, .i32⟩
  | 39 => ⟨S200000, .i32⟩
  | 40 => ⟨S200000x1, .i32⟩
  | 41 => ⟨S_, .f32⟩
  | 42 => ⟨S200000, .f32⟩
  | 43 => ⟨S100000, .f32⟩
  | 44 => ⟨S_, .f32⟩
  | 45 => ⟨S_, .f32⟩
  | 46 => ⟨S100000, .f32⟩
  | 47 => ⟨S100000, .f32⟩
  | 48 => ⟨S100000, .f32⟩
  | 49 => ⟨S100000, .f32⟩
  | 50 => ⟨S1x200000, .i32⟩
  | 51 => ⟨S200000, .i32⟩
  | 52 => ⟨S1x200000, .i32⟩
  | 53 => ⟨S200000, .i32⟩
  | 54 => ⟨S_, .f32⟩
  | 55 => ⟨S100000, .f32⟩
  | 56 => ⟨S_, .i32⟩
  | 57 => ⟨S200000, .i32⟩
  | 58 => ⟨S200000, .i1⟩
  | 59 => ⟨S_, .i32⟩
  | 60 => ⟨S200000, .i32⟩
  | 61 => ⟨S200000, .i32⟩
  | 62 => ⟨S200000, .i32⟩
  | 63 => ⟨S200000x1, .i32⟩
  | 64 => ⟨S_, .f32⟩
  | 65 => ⟨S200000, .f32⟩
  | 66 => ⟨S100000, .f32⟩
  | 67 => ⟨S_, .f32⟩
  | 68 => ⟨S_, .f32⟩
  | 69 => ⟨S100000, .f32⟩
  | 70 => ⟨S100000, .f32⟩
  | 71 => ⟨S_, .f32⟩
  | 72 => ⟨S100000, .f32⟩
  | 73 => ⟨S_, .i32⟩
  | 74 => ⟨S200000, .i32⟩
  | 75 => ⟨S200000, .i1⟩
  | 76 => ⟨S_, .i32⟩
  | 77 => ⟨S200000, .i32⟩
  | 78 => ⟨S200000, .i32⟩
  | 79 => ⟨S200000, .i32⟩
  | 80 => ⟨S200000x1, .i32⟩
  | 81 => ⟨S_, .f32⟩
  | 82 => ⟨S200000, .f32⟩
  | 83 => ⟨S100000, .f32⟩
  | 84 => ⟨S_, .f32⟩
  | 85 => ⟨S_, .f32⟩
  | 86 => ⟨S100000, .f32⟩
  | 87 => ⟨S100000, .f32⟩
  | 88 => ⟨S100000, .f32⟩
  | 89 => ⟨S100000, .f32⟩
  | 90 => ⟨S1x200000, .i32⟩
  | 91 => ⟨S200000, .i32⟩
  | 92 => ⟨S1x200000, .i32⟩
  | 93 => ⟨S200000, .i32⟩
  | 94 => ⟨S_, .f32⟩
  | 95 => ⟨S100000, .f32⟩
  | 96 => ⟨S_, .i32⟩
  | 97 => ⟨S200000, .i32⟩
  | 98 => ⟨S200000, .i1⟩
  | 99 => ⟨S_, .i32⟩
  | 100 => ⟨S200000, .i32⟩
  | 101 => ⟨S200000, .i32⟩
  | 102 => ⟨S200000, .i32⟩
  | 103 => ⟨S200000x1, .i32⟩
  | 104 => ⟨S_, .f32⟩
  | 105 => ⟨S200000, .f32⟩
  | 106 => ⟨S100000, .f32⟩
  | 107 => ⟨S_, .f32⟩
  | 108 => ⟨S_, .f32⟩
  | 109 => ⟨S100000, .f32⟩
  | 110 => ⟨S100000, .f32⟩
  | 111 => ⟨S_, .f32⟩
  | 112 => ⟨S100000, .f32⟩
  | 113 => ⟨S_, .i32⟩
  | 114 => ⟨S200000, .i32⟩
  | 115 => ⟨S200000, .i1⟩
  | 116 => ⟨S_, .i32⟩
  | 117 => ⟨S200000, .i32⟩
  | 118 => ⟨S200000, .i32⟩
  | 119 => ⟨S200000, .i32⟩
  | 120 => ⟨S200000x1, .i32⟩
  | 121 => ⟨S_, .f32⟩
  | 122 => ⟨S200000, .f32⟩
  | 123 => ⟨S100000, .f32⟩
  | 124 => ⟨S_, .f32⟩
  | 125 => ⟨S_, .f32⟩
  | 126 => ⟨S100000, .f32⟩
  | 127 => ⟨S100000, .f32⟩
  | _ => ⟨S100000x128, .f32⟩

abbrev hbmTy0_1 (i : Nat) : BufTy := match i % 128 with
  | 0 => ⟨S100000, .f32⟩
  | 1 => ⟨S100000, .f32⟩
  | 2 => ⟨S1x100000, .f32⟩
  | 3 => ⟨S1x100000, .f32⟩
  | 4 => ⟨S1x100000, .f32⟩
  | 5 => ⟨S3x100000, .f32⟩
  | 6 => ⟨S100000x1, .f32⟩
  | 7 => ⟨S100000x1, .f32⟩
  | 8 => ⟨S100000x1, .f32⟩
  | 9 => ⟨S100000x3, .f32⟩
  | 10 => ⟨S1x200000, .i32⟩
  | 11 => ⟨S200000, .i32⟩
  | 12 => ⟨S1x200000, .i32⟩
  | 13 => ⟨S200000, .i32⟩
  | 14 => ⟨S_, .i32⟩
  | 15 => ⟨S200000, .i32⟩
  | 16 => ⟨S200000, .i1⟩
  | 17 => ⟨S_, .i32⟩
  | 18 => ⟨S200000, .i32⟩
  | 19 => ⟨S200000, .i32⟩
  | 20 => ⟨S200000, .i32⟩
  | 21 => ⟨S200000x1, .i32⟩
  | 22 => ⟨S200000x128, .f32⟩
  | 23 => ⟨S1x100000, .f32⟩
  | 24 => ⟨S100000, .f32⟩
  | 25 => ⟨S_, .i32⟩
  | 26 => ⟨S200000, .i32⟩
  | 27 => ⟨S200000, .i1⟩
  | 28 => ⟨S_, .i32⟩
  | 29 => ⟨S200000, .i32⟩
  | 30 => ⟨S200000, .i32⟩
  | 31 => ⟨S200000, .i32⟩
  | 32 => ⟨S200000x1, .i32⟩
  | 33 => ⟨S200000, .f32⟩
  | 34 => ⟨S200000x1, .f32⟩
  | 35 => ⟨S200000x128, .f32⟩
  | 36 => ⟨S200000x128, .f32⟩
  | 37 => ⟨S_, .f32⟩
  | 38 => ⟨S100000x128, .f32⟩
  | 39 => ⟨S_, .i32⟩
  | 40 => ⟨S200000, .i32⟩
  | 41 => ⟨S200000, .i1⟩
  | 42 => ⟨S_, .i32⟩
  | 43 => ⟨S200000, .i32⟩
  | 44 => ⟨S200000, .i32⟩
  | 45 => ⟨S200000, .i32⟩
  | 46 => ⟨S200000x1, .i32⟩
  | 47 => ⟨S100000x128, .f32⟩
  | 48 => ⟨S1x200000, .i32⟩
  | 49 => ⟨S200000, .i32⟩
  | 50 => ⟨S1x200000, .i32⟩
  | 51 => ⟨S200000, .i32⟩
  | 52 => ⟨S_, .i32⟩
  | 53 => ⟨S200000, .i32⟩
  | 54 => ⟨S200000, .i1⟩
  | 55 => ⟨S_, .i32⟩
  | 56 => ⟨S200000, .i32⟩
  | 57 => ⟨S200000, .i32⟩
  | 58 => ⟨S200000, .i32⟩
  | 59 => ⟨S200000x1, .i32⟩
  | 60 => ⟨S200000x128, .f32⟩
  | 61 => ⟨S1x100000, .f32⟩
  | 62 => ⟨S100000, .f32⟩
  | 63 => ⟨S_, .i32⟩
  | 64 => ⟨S200000, .i32⟩
  | 65 => ⟨S200000, .i1⟩
  | 66 => ⟨S_, .i32⟩
  | 67 => ⟨S200000, .i32⟩
  | 68 => ⟨S200000, .i32⟩
  | 69 => ⟨S200000, .i32⟩
  | 70 => ⟨S200000x1, .i32⟩
  | 71 => ⟨S200000, .f32⟩
  | 72 => ⟨S200000x1, .f32⟩
  | 73 => ⟨S200000x128, .f32⟩
  | 74 => ⟨S200000x128, .f32⟩
  | 75 => ⟨S_, .f32⟩
  | 76 => ⟨S100000x128, .f32⟩
  | 77 => ⟨S_, .i32⟩
  | 78 => ⟨S200000, .i32⟩
  | 79 => ⟨S200000, .i1⟩
  | 80 => ⟨S_, .i32⟩
  | 81 => ⟨S200000, .i32⟩
  | 82 => ⟨S200000, .i32⟩
  | 83 => ⟨S200000, .i32⟩
  | 84 => ⟨S200000x1, .i32⟩
  | 85 => ⟨S100000x128, .f32⟩
  | 86 => ⟨S1x200000, .i32⟩
  | 87 => ⟨S200000, .i32⟩
  | 88 => ⟨S1x200000, .i32⟩
  | 89 => ⟨S200000, .i32⟩
  | 90 => ⟨S_, .i32⟩
  | 91 => ⟨S200000, .i32⟩
  | 92 => ⟨S200000, .i1⟩
  | 93 => ⟨S_, .i32⟩
  | 94 => ⟨S200000, .i32⟩
  | 95 => ⟨S200000, .i32⟩
  | 96 => ⟨S200000, .i32⟩
  | 97 => ⟨S200000x1, .i32⟩
  | 98 => ⟨S200000x128, .f32⟩
  | 99 => ⟨S1x100000, .f32⟩
  | 100 => ⟨S100000, .f32⟩
  | 101 => ⟨S_, .i32⟩
  | 102 => ⟨S200000, .i32⟩
  | 103 => ⟨S200000, .i1⟩
  | 104 => ⟨S_, .i32⟩
  | 105 => ⟨S200000, .i32⟩
  | 106 => ⟨S200000, .i32⟩
  | 107 => ⟨S200000, .i32⟩
  | 108 => ⟨S200000x1, .i32⟩
  | 109 => ⟨S200000, .f32⟩
  | 110 => ⟨S200000x1, .f32⟩
  | 111 => ⟨S200000x128, .f32⟩
  | 112 => ⟨S200000x128, .f32⟩
  | 113 => ⟨S_, .f32⟩
  | 114 => ⟨S100000x128, .f32⟩
  | 115 => ⟨S_, .i32⟩
  | 116 => ⟨S200000, .i32⟩
  | 117 => ⟨S200000, .i1⟩
  | 118 => ⟨S_, .i32⟩
  | 119 => ⟨S200000, .i32⟩
  | 120 => ⟨S200000, .i32⟩
  | 121 => ⟨S200000, .i32⟩
  | 122 => ⟨S200000x1, .i32⟩
  | 123 => ⟨S100000x128, .f32⟩
  | 124 => ⟨S1x100000x128, .f32⟩
  | 125 => ⟨S1x100000x128, .f32⟩
  | 126 => ⟨S1x100000x128, .f32⟩
  | 127 => ⟨S3x100000x128, .f32⟩
  | _ => ⟨S100000x128, .f32⟩

abbrev hbmTy0_2 (i : Nat) : BufTy := match i % 128 with
  | 0 => ⟨S100000x128, .f32⟩
  | 1 => ⟨S1x200000, .i32⟩
  | 2 => ⟨S200000, .i32⟩
  | 3 => ⟨S1x200000, .i32⟩
  | 4 => ⟨S200000, .i32⟩
  | 5 => ⟨S_, .i32⟩
  | 6 => ⟨S200000, .i32⟩
  | 7 => ⟨S200000, .i1⟩
  | 8 => ⟨S_, .i32⟩
  | 9 => ⟨S200000, .i32⟩
  | 10 => ⟨S200000, .i32⟩
  | 11 => ⟨S200000, .i32⟩
  | 12 => ⟨S200000x1, .i32⟩
  | 13 => ⟨S200000x128, .f32⟩
  | 14 => ⟨S1x100000, .f32⟩
  | 15 => ⟨S100000, .f32⟩
  | 16 => ⟨S_, .i32⟩
  | 17 => ⟨S200000, .i32⟩
  | 18 => ⟨S200000, .i1⟩
  | 19 => ⟨S_, .i32⟩
  | 20 => ⟨S200000, .i32⟩
  | 21 => ⟨S200000, .i32⟩
  | 22 => ⟨S200000, .i32⟩
  | 23 => ⟨S200000x1, .i32⟩
  | 24 => ⟨S200000, .f32⟩
  | 25 => ⟨S200000x1, .f32⟩
  | 26 => ⟨S200000x128, .f32⟩
  | 27 => ⟨S200000x128, .f32⟩
  | 28 => ⟨S_, .f32⟩
  | 29 => ⟨S100000x128, .f32⟩
  | 30 => ⟨S_, .i32⟩
  | 31 => ⟨S200000, .i32⟩
  | 32 => ⟨S200000, .i1⟩
  | 33 => ⟨S_, .i32⟩
  | 34 => ⟨S200000, .i32⟩
  | 35 => ⟨S200000, .i32⟩
  | 36 => ⟨S200000, .i32⟩
  | 37 => ⟨S200000x1, .i32⟩
  | 38 => ⟨S100000x128, .f32⟩
  | 39 => ⟨S1x200000, .i32⟩
  | 40 => ⟨S200000, .i32⟩
  | 41 => ⟨S1x200000, .i32⟩
  | 42 => ⟨S200000, .i32⟩
  | 43 => ⟨S_, .i32⟩
  | 44 => ⟨S200000, .i32⟩
  | 45 => ⟨S200000, .i1⟩
  | 46 => ⟨S_, .i32⟩
  | 47 => ⟨S200000, .i32⟩
  | 48 => ⟨S200000, .i32⟩
  | 49 => ⟨S200000, .i32⟩
  | 50 => ⟨S200000x1, .i32⟩
  | 51 => ⟨S200000x128, .f32⟩
  | 52 => ⟨S1x100000, .f32⟩
  | 53 => ⟨S100000, .f32⟩
  | 54 => ⟨S_, .i32⟩
  | 55 => ⟨S200000, .i32⟩
  | 56 => ⟨S200000, .i1⟩
  | 57 => ⟨S_, .i32⟩
  | 58 => ⟨S200000, .i32⟩
  | 59 => ⟨S200000, .i32⟩
  | 60 => ⟨S200000, .i32⟩
  | 61 => ⟨S200000x1, .i32⟩
  | 62 => ⟨S200000, .f32⟩
  | 63 => ⟨S200000x1, .f32⟩
  | 64 => ⟨S200000x128, .f32⟩
  | 65 => ⟨S200000x128, .f32⟩
  | 66 => ⟨S_, .f32⟩
  | 67 => ⟨S100000x128, .f32⟩
  | 68 => ⟨S_, .i32⟩
  | 69 => ⟨S200000, .i32⟩
  | 70 => ⟨S200000, .i1⟩
  | 71 => ⟨S_, .i32⟩
  | 72 => ⟨S200000, .i32⟩
  | 73 => ⟨S200000, .i32⟩
  | 74 => ⟨S200000, .i32⟩
  | 75 => ⟨S200000x1, .i32⟩
  | 76 => ⟨S100000x128, .f32⟩
  | 77 => ⟨S1x200000, .i32⟩
  | 78 => ⟨S200000, .i32⟩
  | 79 => ⟨S1x200000, .i32⟩
  | 80 => ⟨S200000, .i32⟩
  | 81 => ⟨S_, .i32⟩
  | 82 => ⟨S200000, .i32⟩
  | 83 => ⟨S200000, .i1⟩
  | 84 => ⟨S_, .i32⟩
  | 85 => ⟨S200000, .i32⟩
  | 86 => ⟨S200000, .i32⟩
  | 87 => ⟨S200000, .i32⟩
  | 88 => ⟨S200000x1, .i32⟩
  | 89 => ⟨S200000x128, .f32⟩
  | 90 => ⟨S1x100000, .f32⟩
  | 91 => ⟨S100000, .f32⟩
  | 92 => ⟨S_, .i32⟩
  | 93 => ⟨S200000, .i32⟩
  | 94 => ⟨S200000, .i1⟩
  | 95 => ⟨S_, .i32⟩
  | 96 => ⟨S200000, .i32⟩
  | 97 => ⟨S200000, .i32⟩
  | 98 => ⟨S200000, .i32⟩
  | 99 => ⟨S200000x1, .i32⟩
  | 100 => ⟨S200000, .f32⟩
  | 101 => ⟨S200000x1, .f32⟩
  | 102 => ⟨S200000x128, .f32⟩
  | 103 => ⟨S200000x128, .f32⟩
  | 104 => ⟨S_, .f32⟩
  | 105 => ⟨S100000x128, .f32⟩
  | 106 => ⟨S_, .i32⟩
  | 107 => ⟨S200000, .i32⟩
  | 108 => ⟨S200000, .i1⟩
  | 109 => ⟨S_, .i32⟩
  | 110 => ⟨S200000, .i32⟩
  | 111 => ⟨S200000, .i32⟩
  | 112 => ⟨S200000, .i32⟩
  | 113 => ⟨S200000x1, .i32⟩
  | 114 => ⟨S100000x128, .f32⟩
  | 115 => ⟨S1x100000x128, .f32⟩
  | 116 => ⟨S1x100000x128, .f32⟩
  | 117 => ⟨S1x100000x128, .f32⟩
  | 118 => ⟨S3x100000x128, .f32⟩
  | 119 => ⟨S100000x128, .f32⟩
  | 120 => ⟨S_, .f32⟩
  | 121 => ⟨S100000, .f32⟩
  | 122 => ⟨S_, .f32⟩
  | 123 => ⟨S64, .f32⟩
  | 124 => ⟨S100000x1, .i32⟩
  | 125 => ⟨S64, .f32⟩
  | 126 => ⟨S_, .f32⟩
  | 127 => ⟨S64x128, .f32⟩
  | _ => ⟨S100000x128, .f32⟩

abbrev hbmTy0_3 (i : Nat) : BufTy := match i % 128 with
  | 0 => ⟨S100000x1, .i32⟩
  | 1 => ⟨S64x128, .f32⟩
  | 2 => ⟨S_, .f32⟩
  | 3 => ⟨S_, .f32⟩
  | 4 => ⟨S64, .f32⟩
  | 5 => ⟨S64, .f32⟩
  | 6 => ⟨S64x1, .f32⟩
  | 7 => ⟨S64x128, .f32⟩
  | 8 => ⟨S64x128, .f32⟩
  | 9 => ⟨S64x10, .f32⟩
  | 10 => ⟨S1x10, .f32⟩
  | 11 => ⟨S64x10, .f32⟩
  | 12 => ⟨S64x10, .f32⟩
  | 13 => ⟨S_, .f32⟩
  | 14 => ⟨S10, .f32⟩
  | 15 => ⟨S_, .f32⟩
  | 16 => ⟨S10, .f32⟩
  | 17 => ⟨S10, .f32⟩
  | 18 => ⟨S1x10, .f32⟩
  | 19 => ⟨S64x10, .f32⟩
  | 20 => ⟨S64x10, .f32⟩
  | 21 => ⟨S64x10, .f32⟩
  | 22 => ⟨S_, .f32⟩
  | 23 => ⟨S10, .f32⟩
  | 24 => ⟨S1x10, .f32⟩
  | 25 => ⟨S64x10, .f32⟩
  | 26 => ⟨S64x10, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | .local _ .vmem, ⟨0, _⟩ => ⟨S3x4000x128, .f32⟩
  | .local _ .vmem, ⟨1, _⟩ => ⟨S3x4000x128, .f32⟩
  | .local _ .vmem, ⟨2, _⟩ => ⟨S4000x3, .f32⟩
  | .local _ .vmem, ⟨3, _⟩ => ⟨S4000x3, .f32⟩
  | .local _ .vmem, ⟨4, _⟩ => ⟨S3x128x128, .f32⟩
  | .local _ .vmem, ⟨5, _⟩ => ⟨S3x128, .f32⟩
  | .local _ .vmem, ⟨6, _⟩ => ⟨S4000x128, .f32⟩
  | .local _ .vmem, ⟨7, _⟩ => ⟨S4000x128, .f32⟩
  | .local _ .vmem, ⟨8, _⟩ => ⟨S3x4000x128, .f32⟩
  | .local _ .vmem, ⟨9, _⟩ => ⟨S3x4000x128, .f32⟩
  | .local _ .vmem, ⟨10, _⟩ => ⟨S4000x3, .f32⟩
  | .local _ .vmem, ⟨11, _⟩ => ⟨S4000x3, .f32⟩
  | .local _ .vmem, ⟨12, _⟩ => ⟨S3x128x128, .f32⟩
  | .local _ .vmem, ⟨13, _⟩ => ⟨S3x128, .f32⟩
  | .local _ .vmem, ⟨14, _⟩ => ⟨S4000x128, .f32⟩
  | .local _ .vmem, ⟨15, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_c_4 : Ref sig .tc := ⟨.hbm, 33, rfl⟩
abbrev main_v15 : Ref sig .tc := ⟨.hbm, 34, rfl⟩
abbrev main_v16 : Ref sig .tc := ⟨.hbm, 35, rfl⟩
abbrev main_c_5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_6 : Ref sig .tc := ⟨.hbm, 41, rfl⟩
abbrev main_v21 : Ref sig .tc := ⟨.hbm, 42, rfl⟩
abbrev main_v22 : Ref sig .tc := ⟨.hbm, 43, rfl⟩
abbrev main_cst_7 : Ref sig .tc := ⟨.hbm, 44, rfl⟩
abbrev main_call1_v0 : Ref sig .tc := ⟨.hbm, 45, rfl⟩
abbrev main_call1_v1 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_8 : Ref sig .tc := ⟨.hbm, 54, rfl⟩
abbrev main_v30 : Ref sig .tc := ⟨.hbm, 55, rfl⟩
abbrev main_c_9 : Ref sig .tc := ⟨.hbm, 56, rfl⟩
abbrev main_v31 : Ref sig .tc := ⟨.hbm, 57, rfl⟩
abbrev main_v32 : Ref sig .tc := ⟨.hbm, 58, rfl⟩
abbrev main_c_10 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_11 : Ref sig .tc := ⟨.hbm, 64, rfl⟩
abbrev main_v37 : Ref sig .tc := ⟨.hbm, 65, rfl⟩
abbrev main_v38 : Ref sig .tc := ⟨.hbm, 66, rfl⟩
abbrev main_cst_12 : Ref sig .tc := ⟨.hbm, 67, rfl⟩
abbrev main_call2_v0 : Ref sig .tc := ⟨.hbm, 68, rfl⟩
abbrev main_call2_v1 : Ref sig .tc := ⟨.hbm, 69, rfl⟩
abbrev main_v39 : Ref sig .tc := ⟨.hbm, 70, rfl⟩
abbrev main_cst_13 : Ref sig .tc := ⟨.hbm, 71, rfl⟩
abbrev main_v40 : Ref sig .tc := ⟨.hbm, 72, rfl⟩
abbrev main_c_14 : Ref sig .tc := ⟨.hbm, 73, rfl⟩
abbrev main_v41 : Ref sig .tc := ⟨.hbm, 74, rfl⟩
abbrev main_v42 : Ref sig .tc := ⟨.hbm, 75, rfl⟩
abbrev main_c_15 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_16 : Ref sig .tc := ⟨.hbm, 81, rfl⟩
abbrev main_v47 : Ref sig .tc := ⟨.hbm, 82, rfl⟩
abbrev main_v48 : Ref sig .tc := ⟨.hbm, 83, rfl⟩
abbrev main_cst_17 : Ref sig .tc := ⟨.hbm, 84, rfl⟩
abbrev main_call3_v0 : Ref sig .tc := ⟨.hbm, 85, rfl⟩
abbrev main_call3_v1 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_18 : Ref sig .tc := ⟨.hbm, 94, rfl⟩
abbrev main_v56 : Ref sig .tc := ⟨.hbm, 95, rfl⟩
abbrev main_c_19 : Ref sig .tc := ⟨.hbm, 96, rfl⟩
abbrev main_v57 : Ref sig .tc := ⟨.hbm, 97, rfl⟩
abbrev main_v58 : Ref sig .tc := ⟨.hbm, 98, rfl⟩
abbrev main_c_20 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_cst_21 : Ref sig .tc := ⟨.hbm, 104, rfl⟩
abbrev main_v63 : Ref sig .tc := ⟨.hbm, 105, rfl⟩
abbrev main_v64 : Ref sig .tc := ⟨.hbm, 106, rfl⟩
abbrev main_cst_22 : Ref sig .tc := ⟨.hbm, 107, rfl⟩
abbrev main_call4_v0 : Ref sig .tc := ⟨.hbm, 108, rfl⟩
abbrev main_call4_v1 : Ref sig .tc := ⟨.hbm, 109, rfl⟩
abbrev main_v65 : Ref sig .tc := ⟨.hbm, 110, rfl⟩
abbrev main_cst_23 : Ref sig .tc := ⟨.hbm, 111, rfl⟩
abbrev main_v66 : Ref sig .tc := ⟨.hbm, 112, rfl⟩
abbrev main_c_24 : Ref sig .tc := ⟨.hbm, 113, rfl⟩
abbrev main_v67 : Ref sig .tc := ⟨.hbm, 114, rfl⟩
abbrev main_v68 : Ref sig .tc := ⟨.hbm, 115, rfl⟩
abbrev main_c_25 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_cst_26 : Ref sig .tc := ⟨.hbm, 121, rfl⟩
abbrev main_v73 : Ref sig .tc := ⟨.hbm, 122, rfl⟩
abbrev main_v74 : Ref sig .tc := ⟨.hbm, 123, rfl⟩
abbrev main_cst_27 : Ref sig .tc := ⟨.hbm, 124, rfl⟩
abbrev main_call5_v0 : Ref sig .tc := ⟨.hbm, 125, rfl⟩
abbrev main_call5_v1 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_c_28 : Ref sig .tc := ⟨.hbm, 142, rfl⟩
abbrev main_v90 : Ref sig .tc := ⟨.hbm, 143, rfl⟩
abbrev main_v91 : Ref sig .tc := ⟨.hbm, 144, rfl⟩
abbrev main_c_29 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_c_30 : Ref sig .tc := ⟨.hbm, 153, rfl⟩
abbrev main_v99 : Ref sig .tc := ⟨.hbm, 154, rfl⟩
abbrev main_v100 : Ref sig .tc := ⟨.hbm, 155, rfl⟩
abbrev main_c_31 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_cst_32 : Ref sig .tc := ⟨.hbm, 165, rfl⟩
abbrev main_v109 : Ref sig .tc := ⟨.hbm, 166, rfl⟩
abbrev main_c_33 : Ref sig .tc := ⟨.hbm, 167, rfl⟩
abbrev main_v110 : Ref sig .tc := ⟨.hbm, 168, rfl⟩
abbrev main_v111 : Ref sig .tc := ⟨.hbm, 169, rfl⟩
abbrev main_c_34 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_c_35 : Ref sig .tc := ⟨.hbm, 180, rfl⟩
abbrev main_v121 : Ref sig .tc := ⟨.hbm, 181, rfl⟩
abbrev main_v122 : Ref sig .tc := ⟨.hbm, 182, rfl⟩
abbrev main_c_36 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_c_37 : Ref sig .tc := ⟨.hbm, 191, rfl⟩
abbrev main_v130 : Ref sig .tc := ⟨.hbm, 192, rfl⟩
abbrev main_v131 : Ref sig .tc := ⟨.hbm, 193, rfl⟩
abbrev main_c_38 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_cst_39 : Ref sig .tc := ⟨.hbm, 203, rfl⟩
abbrev main_v140 : Ref sig .tc := ⟨.hbm, 204, rfl⟩
abbrev main_c_40 : Ref sig .tc := ⟨.hbm, 205, rfl⟩
abbrev main_v141 : Ref sig .tc := ⟨.hbm, 206, rfl⟩
abbrev main_v142 : Ref sig .tc := ⟨.hbm, 207, rfl⟩
abbrev main_c_41 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_c_42 : Ref sig .tc := ⟨.hbm, 218, rfl⟩
abbrev main_v152 : Ref sig .tc := ⟨.hbm, 219, rfl⟩
abbrev main_v153 : Ref sig .tc := ⟨.hbm, 220, rfl⟩
abbrev main_c_43 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_c_44 : Ref sig .tc := ⟨.hbm, 229, rfl⟩
abbrev main_v161 : Ref sig .tc := ⟨.hbm, 230, rfl⟩
abbrev main_v162 : Ref sig .tc := ⟨.hbm, 231, rfl⟩
abbrev main_c_45 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_cst_46 : Ref sig .tc := ⟨.hbm, 241, rfl⟩
abbrev main_v171 : Ref sig .tc := ⟨.hbm, 242, rfl⟩
abbrev main_c_47 : Ref sig .tc := ⟨.hbm, 243, rfl⟩
abbrev main_v172 : Ref sig .tc := ⟨.hbm, 244, rfl⟩
abbrev main_v173 : Ref sig .tc := ⟨.hbm, 245, rfl⟩
abbrev main_c_48 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_c_49 : Ref sig .tc := ⟨.hbm, 261, rfl⟩
abbrev main_v188 : Ref sig .tc := ⟨.hbm, 262, rfl⟩
abbrev main_v189 : Ref sig .tc := ⟨.hbm, 263, rfl⟩
abbrev main_c_50 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_c_51 : Ref sig .tc := ⟨.hbm, 272, rfl⟩
abbrev main_v197 : Ref sig .tc := ⟨.hbm, 273, rfl⟩
abbrev main_v198 : Ref sig .tc := ⟨.hbm, 274, rfl⟩
abbrev main_c_52 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_cst_53 : Ref sig .tc := ⟨.hbm, 284, rfl⟩
abbrev main_v207 : Ref sig .tc := ⟨.hbm, 285, rfl⟩
abbrev main_c_54 : Ref sig .tc := ⟨.hbm, 286, rfl⟩
abbrev main_v208 : Ref sig .tc := ⟨.hbm, 287, rfl⟩
abbrev main_v209 : Ref sig .tc := ⟨.hbm, 288, rfl⟩
abbrev main_c_55 : Ref sig .tc := ⟨.hbm, 289, rfl⟩
abbrev main_v210 : Ref sig .tc := ⟨.hbm, 290, rfl⟩
abbrev main_v211 : Ref sig .tc := ⟨.hbm, 291, rfl⟩
abbrev main_v212 : Ref sig .tc := ⟨.hbm, 292, rfl⟩
abbrev main_v213 : Ref sig .tc := ⟨.hbm, 293, rfl⟩
abbrev main_v214 : Ref sig .tc := ⟨.hbm, 294, rfl⟩
abbrev main_v215 : Ref sig .tc := ⟨.hbm, 295, rfl⟩
abbrev main_v216 : Ref sig .tc := ⟨.hbm, 296, rfl⟩
abbrev main_v217 : Ref sig .tc := ⟨.hbm, 297, rfl⟩
abbrev main_v218 : Ref sig .tc := ⟨.hbm, 298, rfl⟩
abbrev main_c_56 : Ref sig .tc := ⟨.hbm, 299, rfl⟩
abbrev main_v219 : Ref sig .tc := ⟨.hbm, 300, rfl⟩
abbrev main_v220 : Ref sig .tc := ⟨.hbm, 301, rfl⟩
abbrev main_c_57 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩
abbrev main_v226 : Ref sig .tc := ⟨.hbm, 308, rfl⟩
abbrev main_v227 : Ref sig .tc := ⟨.hbm, 309, rfl⟩
abbrev main_c_58 : Ref sig .tc := ⟨.hbm, 310, rfl⟩
abbrev main_v228 : Ref sig .tc := ⟨.hbm, 311, rfl⟩
abbrev main_v229 : Ref sig .tc := ⟨.hbm, 312, rfl⟩
abbrev main_c_59 : Ref sig .tc := ⟨.hbm, 313, rfl⟩
abbrev main_v230 : Ref sig .tc := ⟨.hbm, 314, rfl⟩
abbrev main_v231 : Ref sig .tc := ⟨.hbm, 315, rfl⟩
abbrev main_v232 : Ref sig .tc := ⟨.hbm, 316, rfl⟩
abbrev main_v233 : Ref sig .tc := ⟨.hbm, 317, rfl⟩
abbrev main_v234 : Ref sig .tc := ⟨.hbm, 318, rfl⟩
abbrev main_v235 : Ref sig .tc := ⟨.hbm, 319, rfl⟩
abbrev main_v236 : Ref sig .tc := ⟨.hbm, 320, rfl⟩
abbrev main_v237 : Ref sig .tc := ⟨.hbm, 321, rfl⟩
abbrev main_cst_60 : Ref sig .tc := ⟨.hbm, 322, rfl⟩
abbrev main_v238 : Ref sig .tc := ⟨.hbm, 323, rfl⟩
abbrev main_c_61 : Ref sig .tc := ⟨.hbm, 324, rfl⟩
abbrev main_v239 : Ref sig .tc := ⟨.hbm, 325, rfl⟩
abbrev main_v240 : Ref sig .tc := ⟨.hbm, 326, rfl⟩
abbrev main_c_62 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_v244 : Ref sig .tc := ⟨.hbm, 331, rfl⟩
abbrev main_v245 : Ref sig .tc := ⟨.hbm, 332, rfl⟩
abbrev main_v246 : Ref sig .tc := ⟨.hbm, 333, rfl⟩
abbrev main_v247 : Ref sig .tc := ⟨.hbm, 334, rfl⟩
abbrev main_v248 : Ref sig .tc := ⟨.hbm, 335, rfl⟩
abbrev main_v249 : Ref sig .tc := ⟨.hbm, 336, rfl⟩
abbrev main_c_63 : Ref sig .tc := ⟨.hbm, 337, rfl⟩
abbrev main_v250 : Ref sig .tc := ⟨.hbm, 338, rfl⟩
abbrev main_v251 : Ref sig .tc := ⟨.hbm, 339, rfl⟩
abbrev main_c_64 : Ref sig .tc := ⟨.hbm, 340, rfl⟩
abbrev main_v252 : Ref sig .tc := ⟨.hbm, 341, rfl⟩
abbrev main_v253 : Ref sig .tc := ⟨.hbm, 342, rfl⟩
abbrev main_v254 : Ref sig .tc := ⟨.hbm, 343, rfl⟩
abbrev main_v255 : Ref sig .tc := ⟨.hbm, 344, rfl⟩
abbrev main_v256 : Ref sig .tc := ⟨.hbm, 345, rfl⟩
abbrev main_v257 : Ref sig .tc := ⟨.hbm, 346, rfl⟩
abbrev main_v258 : Ref sig .tc := ⟨.hbm, 347, rfl⟩
abbrev main_c_65 : Ref sig .tc := ⟨.hbm, 348, rfl⟩
abbrev main_v259 : Ref sig .tc := ⟨.hbm, 349, rfl⟩
abbrev main_v260 : Ref sig .tc := ⟨.hbm, 350, rfl⟩
abbrev main_c_66 : Ref sig .tc := ⟨.hbm, 351, rfl⟩
abbrev main_v261 : Ref sig .tc := ⟨.hbm, 352, rfl⟩
abbrev main_v262 : Ref sig .tc := ⟨.hbm, 353, rfl⟩
abbrev main_v263 : Ref sig .tc := ⟨.hbm, 354, rfl⟩
abbrev main_v264 : Ref sig .tc := ⟨.hbm, 355, rfl⟩
abbrev main_v265 : Ref sig .tc := ⟨.hbm, 356, rfl⟩
abbrev main_v266 : Ref sig .tc := ⟨.hbm, 357, rfl⟩
abbrev main_v267 : Ref sig .tc := ⟨.hbm, 358, rfl⟩
abbrev main_v268 : Ref sig .tc := ⟨.hbm, 359, rfl⟩
abbrev main_cst_67 : Ref sig .tc := ⟨.hbm, 360, rfl⟩
abbrev main_v269 : Ref sig .tc := ⟨.hbm, 361, rfl⟩
abbrev main_c_68 : Ref sig .tc := ⟨.hbm, 362, rfl⟩
abbrev main_v270 : Ref sig .tc := ⟨.hbm, 363, rfl⟩
abbrev main_v271 : Ref sig .tc := ⟨.hbm, 364, rfl⟩
abbrev main_c_69 : Ref sig .tc := ⟨.hbm, 365, rfl⟩
abbrev main_v272 : Ref sig .tc := ⟨.hbm, 366, rfl⟩
abbrev main_v273 : Ref sig .tc := ⟨.hbm, 367, rfl⟩
abbrev main_v274 : Ref sig .tc := ⟨.hbm, 368, rfl⟩
abbrev main_v275 : Ref sig .tc := ⟨.hbm, 369, rfl⟩
abbrev main_v276 : Ref sig .tc := ⟨.hbm, 370, rfl⟩
abbrev main_v277 : Ref sig .tc := ⟨.hbm, 371, rfl⟩
abbrev main_v278 : Ref sig .tc := ⟨.hbm, 372, rfl⟩
abbrev main_v279 : Ref sig .tc := ⟨.hbm, 373, rfl⟩
abbrev main_v280 : Ref sig .tc := ⟨.hbm, 374, rfl⟩
abbrev main_v281 : Ref sig .tc := ⟨.hbm, 375, rfl⟩
abbrev main_cst_70 : Ref sig .tc := ⟨.hbm, 376, rfl⟩
abbrev main_v282 : Ref sig .tc := ⟨.hbm, 377, rfl⟩
abbrev main_cst_71 : Ref sig .tc := ⟨.hbm, 378, rfl⟩
abbrev main_v283 : Ref sig .tc := ⟨.hbm, 379, rfl⟩
abbrev main_v284 : Ref sig .tc := ⟨.hbm, 380, rfl⟩
abbrev main_v285 : Ref sig .tc := ⟨.hbm, 381, rfl⟩
abbrev main_cst_72 : Ref sig .tc := ⟨.hbm, 382, rfl⟩
abbrev main_v286 : Ref sig .tc := ⟨.hbm, 383, rfl⟩
abbrev main_v287 : Ref sig .tc := ⟨.hbm, 384, rfl⟩
abbrev main_v288 : Ref sig .tc := ⟨.hbm, 385, rfl⟩
abbrev main_cst_73 : Ref sig .tc := ⟨.hbm, 386, rfl⟩
abbrev main_call6_v0 : Ref sig .tc := ⟨.hbm, 387, rfl⟩
abbrev main_call6_v1 : Ref sig .tc := ⟨.hbm, 388, rfl⟩
abbrev main_v289 : Ref sig .tc := ⟨.hbm, 389, rfl⟩
abbrev main_v290 : Ref sig .tc := ⟨.hbm, 390, rfl⟩
abbrev main_v291 : Ref sig .tc := ⟨.hbm, 391, rfl⟩
abbrev main_v292 : Ref sig .tc := ⟨.hbm, 392, rfl⟩
abbrev main_v293 : Ref sig .tc := ⟨.hbm, 393, rfl⟩
abbrev main_v294 : Ref sig .tc := ⟨.hbm, 394, rfl⟩
abbrev main_v295 : Ref sig .tc := ⟨.hbm, 395, rfl⟩
abbrev main_v296 : Ref sig .tc := ⟨.hbm, 396, rfl⟩
abbrev main_cst_74 : Ref sig .tc := ⟨.hbm, 397, rfl⟩
abbrev main_v297 : Ref sig .tc := ⟨.hbm, 398, rfl⟩
abbrev main_cst_75 : Ref sig .tc := ⟨.hbm, 399, rfl⟩
abbrev main_v298 : Ref sig .tc := ⟨.hbm, 400, rfl⟩
abbrev main_v299 : Ref sig .tc := ⟨.hbm, 401, rfl⟩
abbrev main_v300 : Ref sig .tc := ⟨.hbm, 402, rfl⟩
abbrev main_v301 : Ref sig .tc := ⟨.hbm, 403, rfl⟩
abbrev main_v302 : Ref sig .tc := ⟨.hbm, 404, rfl⟩
abbrev main_v303 : Ref sig .tc := ⟨.hbm, 405, rfl⟩
abbrev main_cst_76 : Ref sig .tc := ⟨.hbm, 406, rfl⟩
abbrev main_v304 : Ref sig .tc := ⟨.hbm, 407, rfl⟩
abbrev main_v305 : Ref sig .tc := ⟨.hbm, 408, rfl⟩
abbrev main_v306 : Ref sig .tc := ⟨.hbm, 409, rfl⟩
abbrev main_v307 : Ref sig .tc := ⟨.hbm, 410, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3x4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S3x200000_S1x200000_0_0 : S3x200000.Slices ![0, 0] S1x200000
  shapeCasts_S1x200000_S200000 : S1x200000.ShapeCasts S200000
  bcast_S_S100000 : S_.BroadcastsInDim S100000 (![] : Fin 0 → Fin S100000.rank)
  bcast_S_S200000 : S_.BroadcastsInDim S200000 (![] : Fin 0 → Fin S200000.rank)
  bcast_S200000_S200000x1_0 : S200000.BroadcastsInDim S200000x1 (![0] : Fin 1 → Fin S200000x1.rank)
  slices_S3x200000_S1x200000_1_0 : S3x200000.Slices ![1, 0] S1x200000
  slices_S3x200000_S1x200000_2_0 : S3x200000.Slices ![2, 0] S1x200000
  bcast_S100000_S1x100000_1 : S100000.BroadcastsInDim S1x100000 (![1] : Fin 1 → Fin S1x100000.rank)
  concatenates_S1x100000_S1x100000_S1x100000_S3x100000_d0 : Shape.Concatenates [S1x100000, S1x100000, S1x100000] S3x100000 0
  bcast_S100000_S100000x1_0 : S100000.BroadcastsInDim S100000x1 (![0] : Fin 1 → Fin S100000x1.rank)
  concatenates_S100000x1_S100000x1_S100000x1_S100000x3_d1 : Shape.Concatenates [S100000x1, S100000x1, S100000x1] S100000x3 1
  slices_S3x100000_S1x100000_0_0 : S3x100000.Slices ![0, 0] S1x100000
  shapeCasts_S1x100000_S100000 : S1x100000.ShapeCasts S100000
  bcast_S200000x1_S200000x128_0_1 : S200000x1.BroadcastsInDim S200000x128 (![0, 1] : Fin 2 → Fin S200000x128.rank)
  bcast_S_S100000x128 : S_.BroadcastsInDim S100000x128 (![] : Fin 0 → Fin S100000x128.rank)
  slices_S3x100000_S1x100000_1_0 : S3x100000.Slices ![1, 0] S1x100000
  slices_S3x100000_S1x100000_2_0 : S3x100000.Slices ![2, 0] S1x100000
  bcast_S100000x128_S1x100000x128_1_2 : S100000x128.BroadcastsInDim S1x100000x128 (![1, 2] : Fin 2 → Fin S1x100000x128.rank)
  concatenates_S1x100000x128_S1x100000x128_S1x100000x128_S3x100000x128_d0 : Shape.Concatenates [S1x100000x128, S1x100000x128, S1x100000x128] S3x100000x128 0
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  inb_S3x4000x128_S1x4000x128_0_0_0 : ∀ a, (![0, 0, 0] : Fin 3 → Nat) a + S1x4000x128.size a ≤ S3x4000x128.size a
  h_S1x4000x128 : 0 < S1x4000x128.numel
  shapeCasts_S1x4000x128_S4000x128 : S1x4000x128.ShapeCasts S4000x128
  slices_S4000x3_o0_0_S4000x1 : S4000x3.Slices ![0, 0] S4000x1
  broadcasts_S4000x1_S4000x128 : S4000x1.Broadcasts S4000x128
  bitsLt_bf16_f32 : FTy.bits .bf16 < FTy.bits .f32
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x4000x128_S1x4000x128_1_0_0 : ∀ a, (![1, 0, 0] : Fin 3 → Nat) a + S1x4000x128.size a ≤ S3x4000x128.size a
  slices_S4000x3_o0_1_S4000x1 : S4000x3.Slices ![0, 1] S4000x1
  inb_S3x128x128_S1x128x128_1_0_0 : ∀ a, (![1, 0, 0] : Fin 3 → Nat) a + S1x128x128.size a ≤ S3x128x128.size a
  inb_S3x4000x128_S1x4000x128_2_0_0 : ∀ a, (![2, 0, 0] : Fin 3 → Nat) a + S1x4000x128.size a ≤ S3x4000x128.size a
  slices_S4000x3_o0_2_S4000x1 : S4000x3.Slices ![0, 2] S4000x1
  inb_S3x128x128_S1x128x128_2_0_0 : ∀ a, (![2, 0, 0] : Fin 3 → Nat) a + S1x128x128.size a ≤ S3x128x128.size a
  inb_S3x128_S3x128_0_0 : ∀ a, (![0, 0] : Fin 2 → Nat) a + S3x128.size a ≤ S3x128.size a
  h_S3x128 : 0 < S3x128.numel
  reduces_S3x128_S128 : S3x128.Reduces [0] S128
  shapeCasts_S128_S1x128 : S128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S10_d0 : S64x10.ReducesTo [0] S10
  h_S_ : 0 < S_.numel
  bcast_S_S10 : S_.BroadcastsInDim S10 (![] : Fin 0 → Fin S10.rank)
  scatter_S100000_S200000x1_S200000_n_0_0_1_wf : ScatterDims.WF S100000 S200000x1 S200000 [] [0] [0] 1
  gather_S100000x128_S200000x1_S200000x128_1_0_n_n_0_1_1128_wf : GatherDims.WF S100000x128 S200000x1 S200000x128 [1] [0] [] [0] [] 1 ![1, 128]
  gather_S100000_S200000x1_S200000_n_0_n_n_0_1_1_wf : GatherDims.WF S100000 S200000x1 S200000 [] [0] [] [0] [] 1 ![1]
  scatter_S100000x128_S200000x1_S200000x128_1_0_0_1_wf : ScatterDims.WF S100000x128 S200000x1 S200000x128 [1] [0] [0] 1
  dot_S4000x128_S128x128_S4000x128_1_0_0_1_n_n_wf : DotDims.WF S4000x128 S128x128 S4000x128 [1] [0] [0] [1] [] []
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x4000x128.size a ≤ S3x100000x128.size a
  hwx0_0 : ∀ i : grid0.Coords, EltTy.bits .f32 = 32 ∨ (Rect.block (s := S3x100000x128) S3x4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x3.size a ≤ S100000x3.size a
  hwx0_1 : ∀ i : grid0.Coords, EltTy.bits .f32 = 32 ∨ (Rect.block (s := S100000x3) S4000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128x128.size a ≤ S3x128x128.size a
  hwx0_2 : ∀ i : grid0.Coords, EltTy.bits .f32 = 32 ∨ (Rect.block (s := S3x128x128) S3x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128.size a ≤ S3x128.size a
  hwx0_3 : ∀ i : grid0.Coords, EltTy.bits .f32 = 32 ∨ (Rect.block (s := S3x128) S3x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x4000x128.size a ≤ S3x100000x128.size a
  hwx1_0 : ∀ i : grid1.Coords, EltTy.bits .f32 = 32 ∨ (Rect.block (s := S3x100000x128) S3x4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x3.size a ≤ S100000x3.size a
  hwx1_1 : ∀ i : grid1.Coords, EltTy.bits .f32 = 32 ∨ (Rect.block (s := S100000x3) S4000x3.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x128x128.size a ≤ S3x128x128.size a
  hwx1_2 : ∀ i : grid1.Coords, EltTy.bits .f32 = 32 ∨ (Rect.block (s := S3x128x128) S3x128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x128.size a ≤ S3x128.size a
  hwx1_3 : ∀ i : grid1.Coords, EltTy.bits .f32 = 32 ∨ (Rect.block (s := S3x128) S3x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)

variable [Facts₀]

def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def gather_S100000_S200000x1_S200000_n_0_n_n_0_1_1 : GatherDims S100000 S200000x1 S200000 where
  offsetDims := []
  collapsedSliceDims := [0]
  operandBatchingDims := []
  startIndicesBatchingDims := []
  startIndexMap := [0]
  indexVectorDim := 1
  sliceSizes := ![1]
  wf := gather_S100000_S200000x1_S200000_n_0_n_n_0_1_1_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_v182) S3x4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v85) S4000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S3x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S3x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v183) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v280) S3x4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v85) S4000x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S3x128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S3x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v281) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S3x200000 : Shape := ⟨2, ![3, 200000]⟩
abbrev S100000 : Shape := ⟨1, ![100000]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S_ : Shape := ⟨0, ![]⟩
abbrev S1x200000 : Shape := ⟨2, ![1, 200000]⟩
abbrev S200000 : Shape := ⟨1, ![200000]⟩
abbrev S200000x1 : Shape := ⟨2, ![200000, 1]⟩
abbrev S1x128x128 : Shape := ⟨3, ![1, 128, 128]⟩
abbrev S128x128 : Shape := ⟨2, ![128, 128]⟩
abbrev S200000x128 : Shape := ⟨2, ![200000, 128]⟩
abbrev S100000x1 : Shape := ⟨2, ![100000, 1]⟩
abbrev S1x128 : Shape := ⟨2, ![1, 128]⟩
abbrev S128 : Shape := ⟨1, ![128]⟩
abbrev S64 : Shape := ⟨1, ![64]⟩
abbrev S64x128 : Shape := ⟨2, ![64, 128]⟩
abbrev S64x1 : Shape := ⟨2, ![64, 1]⟩
abbrev S64x10 : Shape := ⟨2, ![64, 10]⟩
abbrev S1x10 : Shape := ⟨2, ![1, 10]⟩

abbrev nBuf : Space → Nat
  | .hbm => 556
  | .vmem => 0
  | .smem => 0
  | _ => 0

abbrev hbmTy0_0 (i : Nat) : BufTy := match i % 128 with
  | 0 => ⟨S100000x128, .f32⟩
  | 1 => ⟨S3x200000, .i32⟩
  | 2 => ⟨S3x200000, .i32⟩
  | 3 => ⟨S100000, .i32⟩
  | 4 => ⟨S3x128x128, .f32⟩
  | 5 => ⟨S3x128, .f32⟩
  | 6 => ⟨S3x128x128, .f32⟩
  | 7 => ⟨S3x128, .f32⟩
  | 8 => ⟨S128x10, .f32⟩
  | 9 => ⟨S10, .f32⟩
  | 10 => ⟨S_, .f32⟩
  | 11 => ⟨S100000x128, .f32⟩
  | 12 => ⟨S1x200000, .i32⟩
  | 13 => ⟨S200000, .i32⟩
  | 14 => ⟨S1x200000, .i32⟩
  | 15 => ⟨S200000, .i32⟩
  | 16 => ⟨S_, .f32⟩
  | 17 => ⟨S100000, .f32⟩
  | 18 => ⟨S_, .i32⟩
  | 19 => ⟨S200000, .i32⟩
  | 20 => ⟨S200000, .i1⟩
  | 21 => ⟨S_, .i32⟩
  | 22 => ⟨S200000, .i32⟩
  | 23 => ⟨S200000, .i32⟩
  | 24 => ⟨S200000, .i32⟩
  | 25 => ⟨S200000x1, .i32⟩
  | 26 => ⟨S_, .f32⟩
  | 27 => ⟨S200000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .f32⟩
  | 34 => ⟨S100000, .f32⟩
  | 35 => ⟨S_, .i32⟩
  | 36 => ⟨S200000, .i32⟩
  | 37 => ⟨S200000, .i1⟩
  | 38 => ⟨S_, .i32⟩
  | 39 => ⟨S200000, .i32⟩
  | 40 => ⟨S200000, .i32⟩
  | 41 => ⟨S200000, .i32⟩
  | 42 => ⟨S200000x1, .i32⟩
  | 43 => ⟨S_, .f32⟩
  | 44 => ⟨S200000, .f32⟩
  | 45 => ⟨S100000, .f32⟩
  | 46 => ⟨S_, .f32⟩
  | 47 => ⟨S_, .f32⟩
  | 48 => ⟨S100000, .f32⟩
  | 49 => ⟨S100000, .f32⟩
  | 50 => ⟨S1x128x128, .f32⟩
  | 51 => ⟨S128x128, .f32⟩
  | 52 => ⟨S100000x128, .f32⟩
  | 53 => ⟨S_, .i32⟩
  | 54 => ⟨S200000, .i32⟩
  | 55 => ⟨S200000, .i1⟩
  | 56 => ⟨S_, .i32⟩
  | 57 => ⟨S200000, .i32⟩
  | 58 => ⟨S200000, .i32⟩
  | 59 => ⟨S200000, .i32⟩
  | 60 => ⟨S200000x1, .i32⟩
  | 61 => ⟨S200000x128, .f32⟩
  | 62 => ⟨S100000, .f32⟩
  | 63 => ⟨S_, .i32⟩
  | 64 => ⟨S200000, .i32⟩
  | 65 => ⟨S200000, .i1⟩
  | 66 => ⟨S_, .i32⟩
  | 67 => ⟨S200000, .i32⟩
  | 68 => ⟨S200000, .i32⟩
  | 69 => ⟨S200000, .i32⟩
  | 70 => ⟨S200000x1, .i32⟩
  | 71 => ⟨S200000, .f32⟩
  | 72 => ⟨S200000x1, .f32⟩
  | 73 => ⟨S200000x128, .f32⟩
  | 74 => ⟨S200000x128, .f32⟩
  | 75 => ⟨S_, .f32⟩
  | 76 => ⟨S100000x128, .f32⟩
  | 77 => ⟨S_, .i32⟩
  | 78 => ⟨S200000, .i32⟩
  | 79 => ⟨S200000, .i1⟩
  | 80 => ⟨S_, .i32⟩
  | 81 => ⟨S200000, .i32⟩
  | 82 => ⟨S200000, .i32⟩
  | 83 => ⟨S200000, .i32⟩
  | 84 => ⟨S200000x1, .i32⟩
  | 85 => ⟨S100000x128, .f32⟩
  | 86 => ⟨S100000, .f32⟩
  | 87 => ⟨S100000x1, .f32⟩
  | 88 => ⟨S100000x128, .f32⟩
  | 89 => ⟨S100000x128, .f32⟩
  | 90 => ⟨S100000x128, .f32⟩
  | 91 => ⟨S1x128, .f32⟩
  | 92 => ⟨S128, .f32⟩
  | 93 => ⟨S1x128, .f32⟩
  | 94 => ⟨S100000x128, .f32⟩
  | 95 => ⟨S100000x128, .f32⟩
  | 96 => ⟨S1x200000, .i32⟩
  | 97 => ⟨S200000, .i32⟩
  | 98 => ⟨S1x200000, .i32⟩
  | 99 => ⟨S200000, .i32⟩
  | 100 => ⟨S_, .f32⟩
  | 101 => ⟨S100000, .f32⟩
  | 102 => ⟨S_, .i32⟩
  | 103 => ⟨S200000, .i32⟩
  | 104 => ⟨S200000, .i1⟩
  | 105 => ⟨S_, .i32⟩
  | 106 => ⟨S200000, .i32⟩
  | 107 => ⟨S200000, .i32⟩
  | 108 => ⟨S200000, .i32⟩
  | 109 => ⟨S200000x1, .i32⟩
  | 110 => ⟨S_, .f32⟩
  | 111 => ⟨S200000, .f32⟩
  | 112 => ⟨S100000, .f32⟩
  | 113 => ⟨S_, .f32⟩
  | 114 => ⟨S_, .f32⟩
  | 115 => ⟨S100000, .f32⟩
  | 116 => ⟨S100000, .f32⟩
  | 117 => ⟨S_, .f32⟩
  | 118 => ⟨S100000, .f32⟩
  | 119 => ⟨S_, .i32⟩
  | 120 => ⟨S200000, .i32⟩
  | 121 => ⟨S200000, .i1⟩
  | 122 => ⟨S_, .i32⟩
  | 123 => ⟨S200000, .i32⟩
  | 124 => ⟨S200000, .i32⟩
  | 125 => ⟨S200000, .i32⟩
  | 126 => ⟨S200000x1, .i32⟩
  | 127 => ⟨S_, .f32⟩
  | _ => ⟨S100000x128, .f32⟩

abbrev hbmTy0_1 (i : Nat) : BufTy := match i % 128 with
  | 0 => ⟨S200000, .f32⟩
  | 1 => ⟨S100000, .f32⟩
  | 2 => ⟨S_, .f32⟩
  | 3 => ⟨S_, .f32⟩
  | 4 => ⟨S100000, .f32⟩
  | 5 => ⟨S100000, .f32⟩
  | 6 => ⟨S1x128x128, .f32⟩
  | 7 => ⟨S128x128, .f32⟩
  | 8 => ⟨S100000x128, .f32⟩
  | 9 => ⟨S_, .i32⟩
  | 10 => ⟨S200000, .i32⟩
  | 11 => ⟨S200000, .i1⟩
  | 12 => ⟨S_, .i32⟩
  | 13 => ⟨S200000, .i32⟩
  | 14 => ⟨S200000, .i32⟩
  | 15 => ⟨S200000, .i32⟩
  | 16 => ⟨S200000x1, .i32⟩
  | 17 => ⟨S200000x128, .f32⟩
  | 18 => ⟨S100000, .f32⟩
  | 19 => ⟨S_, .i32⟩
  | 20 => ⟨S200000, .i32⟩
  | 21 => ⟨S200000, .i1⟩
  | 22 => ⟨S_, .i32⟩
  | 23 => ⟨S200000, .i32⟩
  | 24 => ⟨S200000, .i32⟩
  | 25 => ⟨S200000, .i32⟩
  | 26 => ⟨S200000x1, .i32⟩
  | 27 => ⟨S200000, .f32⟩
  | 28 => ⟨S200000x1, .f32⟩
  | 29 => ⟨S200000x128, .f32⟩
  | 30 => ⟨S200000x128, .f32⟩
  | 31 => ⟨S_, .f32⟩
  | 32 => ⟨S100000x128, .f32⟩
  | 33 => ⟨S_, .i32⟩
  | 34 => ⟨S200000, .i32⟩
  | 35 => ⟨S200000, .i1⟩
  | 36 => ⟨S_, .i32⟩
  | 37 => ⟨S200000, .i32⟩
  | 38 => ⟨S200000, .i32⟩
  | 39 => ⟨S200000, .i32⟩
  | 40 => ⟨S200000x1, .i32⟩
  | 41 => ⟨S100000x128, .f32⟩
  | 42 => ⟨S100000, .f32⟩
  | 43 => ⟨S100000x1, .f32⟩
  | 44 => ⟨S100000x128, .f32⟩
  | 45 => ⟨S100000x128, .f32⟩
  | 46 => ⟨S100000x128, .f32⟩
  | 47 => ⟨S1x128, .f32⟩
  | 48 => ⟨S128, .f32⟩
  | 49 => ⟨S1x128, .f32⟩
  | 50 => ⟨S100000x128, .f32⟩
  | 51 => ⟨S100000x128, .f32⟩
  | 52 => ⟨S1x200000, .i32⟩
  | 53 => ⟨S200000, .i32⟩
  | 54 => ⟨S1x200000, .i32⟩
  | 55 => ⟨S200000, .i32⟩
  | 56 => ⟨S_, .f32⟩
  | 57 => ⟨S100000, .f32⟩
  | 58 => ⟨S_, .i32⟩
  | 59 => ⟨S200000, .i32⟩
  | 60 => ⟨S200000, .i1⟩
  | 61 => ⟨S_, .i32⟩
  | 62 => ⟨S200000, .i32⟩
  | 63 => ⟨S200000, .i32⟩
  | 64 => ⟨S200000, .i32⟩
  | 65 => ⟨S200000x1, .i32⟩
  | 66 => ⟨S_, .f32⟩
  | 67 => ⟨S200000, .f32⟩
  | 68 => ⟨S100000, .f32⟩
  | 69 => ⟨S_, .f32⟩
  | 70 => ⟨S_, .f32⟩
  | 71 => ⟨S100000, .f32⟩
  | 72 => ⟨S100000, .f32⟩
  | 73 => ⟨S_, .f32⟩
  | 74 => ⟨S100000, .f32⟩
  | 75 => ⟨S_, .i32⟩
  | 76 => ⟨S200000, .i32⟩
  | 77 => ⟨S200000, .i1⟩
  | 78 => ⟨S_, .i32⟩
  | 79 => ⟨S200000, .i32⟩
  | 80 => ⟨S200000, .i32⟩
  | 81 => ⟨S200000, .i32⟩
  | 82 => ⟨S200000x1, .i32⟩
  | 83 => ⟨S_, .f32⟩
  | 84 => ⟨S200000, .f32⟩
  | 85 => ⟨S100000, .f32⟩
  | 86 => ⟨S_, .f32⟩
  | 87 => ⟨S_, .f32⟩
  | 88 => ⟨S100000, .f32⟩
  | 89 => ⟨S100000, .f32⟩
  | 90 => ⟨S1x128x128, .f32⟩
  | 91 => ⟨S128x128, .f32⟩
  | 92 => ⟨S100000x128, .f32⟩
  | 93 => ⟨S_, .i32⟩
  | 94 => ⟨S200000, .i32⟩
  | 95 => ⟨S200000, .i1⟩
  | 96 => ⟨S_, .i32⟩
  | 97 => ⟨S200000, .i32⟩
  | 98 => ⟨S200000, .i32⟩
  | 99 => ⟨S200000, .i32⟩
  | 100 => ⟨S200000x1, .i32⟩
  | 101 => ⟨S200000x128, .f32⟩
  | 102 => ⟨S100000, .f32⟩
  | 103 => ⟨S_, .i32⟩
  | 104 => ⟨S200000, .i32⟩
  | 105 => ⟨S200000, .i1⟩
  | 106 => ⟨S_, .i32⟩
  | 107 => ⟨S200000, .i32⟩
  | 108 => ⟨S200000, .i32⟩
  | 109 => ⟨S200000, .i32⟩
  | 110 => ⟨S200000x1, .i32⟩
  | 111 => ⟨S200000, .f32⟩
  | 112 => ⟨S200000x1, .f32⟩
  | 113 => ⟨S200000x128, .f32⟩
  | 114 => ⟨S200000x128, .f32⟩
  | 115 => ⟨S_, .f32⟩
  | 116 => ⟨S100000x128, .f32⟩
  | 117 => ⟨S_, .i32⟩
  | 118 => ⟨S200000, .i32⟩
  | 119 => ⟨S200000, .i1⟩
  | 120 => ⟨S_, .i32⟩
  | 121 => ⟨S200000, .i32⟩
  | 122 => ⟨S200000, .i32⟩
  | 123 => ⟨S200000, .i32⟩
  | 124 => ⟨S200000x1, .i32⟩
  | 125 => ⟨S100000x128, .f32⟩
  | 126 => ⟨S100000, .f32⟩
  | 127 => ⟨S100000x1, .f32⟩
  | _ => ⟨S100000x128, .f32⟩

abbrev hbmTy0_2 (i : Nat) : BufTy := match i % 128 with
  | 0 => ⟨S100000x128, .f32⟩
  | 1 => ⟨S100000x128, .f32⟩
  | 2 => ⟨S100000x128, .f32⟩
  | 3 => ⟨S1x128, .f32⟩
  | 4 => ⟨S128, .f32⟩
  | 5 => ⟨S1x128, .f32⟩
  | 6 => ⟨S100000x128, .f32⟩
  | 7 => ⟨S100000x128, .f32⟩
  | 8 => ⟨S_, .f32⟩
  | 9 => ⟨S100000x128, .f32⟩
  | 10 => ⟨S100000x128, .f32⟩
  | 11 => ⟨S_, .f32⟩
  | 12 => ⟨S100000x128, .f32⟩
  | 13 => ⟨S1x200000, .i32⟩
  | 14 => ⟨S200000, .i32⟩
  | 15 => ⟨S1x200000, .i32⟩
  | 16 => ⟨S200000, .i32⟩
  | 17 => ⟨S_, .f32⟩
  | 18 => ⟨S100000, .f32⟩
  | 19 => ⟨S_, .i32⟩
  | 20 => ⟨S200000, .i32⟩
  | 21 => ⟨S200000, .i1⟩
  | 22 => ⟨S_, .i32⟩
  | 23 => ⟨S200000, .i32⟩
  | 24 => ⟨S200000, .i32⟩
  | 25 => ⟨S200000, .i32⟩
  | 26 => ⟨S200000x1, .i32⟩
  | 27 => ⟨S_, .f32⟩
  | 28 => ⟨S200000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .f32⟩
  | 35 => ⟨S100000, .f32⟩
  | 36 => ⟨S_, .i32⟩
  | 37 => ⟨S200000, .i32⟩
  | 38 => ⟨S200000, .i1⟩
  | 39 => ⟨S_, .i32⟩
  | 40 => ⟨S200000, .i32⟩
  | 41 => ⟨S200000, .i32⟩
  | 42 => ⟨S200000, .i32⟩
  | 43 => ⟨S200000x1, .i32⟩
  | 44 => ⟨S_, .f32⟩
  | 45 => ⟨S200000, .f32⟩
  | 46 => ⟨S100000, .f32⟩
  | 47 => ⟨S_, .f32⟩
  | 48 => ⟨S_, .f32⟩
  | 49 => ⟨S100000, .f32⟩
  | 50 => ⟨S100000, .f32⟩
  | 51 => ⟨S1x128x128, .f32⟩
  | 52 => ⟨S128x128, .f32⟩
  | 53 => ⟨S100000x128, .f32⟩
  | 54 => ⟨S_, .i32⟩
  | 55 => ⟨S200000, .i32⟩
  | 56 => ⟨S200000, .i1⟩
  | 57 => ⟨S_, .i32⟩
  | 58 => ⟨S200000, .i32⟩
  | 59 => ⟨S200000, .i32⟩
  | 60 => ⟨S200000, .i32⟩
  | 61 => ⟨S200000x1, .i32⟩
  | 62 => ⟨S200000x128, .f32⟩
  | 63 => ⟨S100000, .f32⟩
  | 64 => ⟨S_, .i32⟩
  | 65 => ⟨S200000, .i32⟩
  | 66 => ⟨S200000, .i1⟩
  | 67 => ⟨S_, .i32⟩
  | 68 => ⟨S200000, .i32⟩
  | 69 => ⟨S200000, .i32⟩
  | 70 => ⟨S200000, .i32⟩
  | 71 => ⟨S200000x1, .i32⟩
  | 72 => ⟨S200000, .f32⟩
  | 73 => ⟨S200000x1, .f32⟩
  | 74 => ⟨S200000x128, .f32⟩
  | 75 => ⟨S200000x128, .f32⟩
  | 76 => ⟨S_, .f32⟩
  | 77 => ⟨S100000x128, .f32⟩
  | 78 => ⟨S_, .i32⟩
  | 79 => ⟨S200000, .i32⟩
  | 80 => ⟨S200000, .i1⟩
  | 81 => ⟨S_, .i32⟩
  | 82 => ⟨S200000, .i32⟩
  | 83 => ⟨S200000, .i32⟩
  | 84 => ⟨S200000, .i32⟩
  | 85 => ⟨S200000x1, .i32⟩
  | 86 => ⟨S100000x128, .f32⟩
  | 87 => ⟨S100000, .f32⟩
  | 88 => ⟨S100000x1, .f32⟩
  | 89 => ⟨S100000x128, .f32⟩
  | 90 => ⟨S100000x128, .f32⟩
  | 91 => ⟨S100000x128, .f32⟩
  | 92 => ⟨S1x128, .f32⟩
  | 93 => ⟨S128, .f32⟩
  | 94 => ⟨S1x128, .f32⟩
  | 95 => ⟨S100000x128, .f32⟩
  | 96 => ⟨S100000x128, .f32⟩
  | 97 => ⟨S1x200000, .i32⟩
  | 98 => ⟨S200000, .i32⟩
  | 99 => ⟨S1x200000, .i32⟩
  | 100 => ⟨S200000, .i32⟩
  | 101 => ⟨S_, .f32⟩
  | 102 => ⟨S100000, .f32⟩
  | 103 => ⟨S_, .i32⟩
  | 104 => ⟨S200000, .i32⟩
  | 105 => ⟨S200000, .i1⟩
  | 106 => ⟨S_, .i32⟩
  | 107 => ⟨S200000, .i32⟩
  | 108 => ⟨S200000, .i32⟩
  | 109 => ⟨S200000, .i32⟩
  | 110 => ⟨S200000x1, .i32⟩
  | 111 => ⟨S_, .f32⟩
  | 112 => ⟨S200000, .f32⟩
  | 113 => ⟨S100000, .f32⟩
  | 114 => ⟨S_, .f32⟩
  | 115 => ⟨S_, .f32⟩
  | 116 => ⟨S100000, .f32⟩
  | 117 => ⟨S100000, .f32⟩
  | 118 => ⟨S_, .f32⟩
  | 119 => ⟨S100000, .f32⟩
  | 120 => ⟨S_, .i32⟩
  | 121 => ⟨S200000, .i32⟩
  | 122 => ⟨S200000, .i1⟩
  | 123 => ⟨S_, .i32⟩
  | 124 => ⟨S200000, .i32⟩
  | 125 => ⟨S200000, .i32⟩
  | 126 => ⟨S200000, .i32⟩
  | 127 => ⟨S200000x1, .i32⟩
  | _ => ⟨S100000x128, .f32⟩

abbrev hbmTy0_3 (i : Nat) : BufTy := match i % 128 with
  | 0 => ⟨S_, .f32⟩
  | 1 => ⟨S200000, .f32⟩
  | 2 => ⟨S100000, .f32⟩
  | 3 => ⟨S_, .f32⟩
  | 4 => ⟨S_, .f32⟩
  | 5 => ⟨S100000, .f32⟩
  | 6 => ⟨S100000, .f32⟩
  | 7 => ⟨S1x128x128, .f32⟩
  | 8 => ⟨S128x128, .f32⟩
  | 9 => ⟨S100000x128, .f32⟩
  | 10 => ⟨S_, .i32⟩
  | 11 => ⟨S200000, .i32⟩
  | 12 => ⟨S200000, .i1⟩
  | 13 => ⟨S_, .i32⟩
  | 14 => ⟨S200000, .i32⟩
  | 15 => ⟨S200000, .i32⟩
  | 16 => ⟨S200000, .i32⟩
  | 17 => ⟨S200000x1, .i32⟩
  | 18 => ⟨S200000x128, .f32⟩
  | 19 => ⟨S100000, .f32⟩
  | 20 => ⟨S_, .i32⟩
  | 21 => ⟨S200000, .i32⟩
  | 22 => ⟨S200000, .i1⟩
  | 23 => ⟨S_, .i32⟩
  | 24 => ⟨S200000, .i32⟩
  | 25 => ⟨S200000, .i32⟩
  | 26 => ⟨S200000, .i32⟩
  | 27 => ⟨S200000x1, .i32⟩
  | 28 => ⟨S200000, .f32⟩
  | 29 => ⟨S200000x1, .f32⟩
  | 30 => ⟨S200000x128, .f32⟩
  | 31 => ⟨S200000x128, .f32⟩
  | 32 => ⟨S_, .f32⟩
  | 33 => ⟨S100000x128, .f32⟩
  | 34 => ⟨S_, .i32⟩
  | 35 => ⟨S200000, .i32⟩
  | 36 => ⟨S200000, .i1⟩
  | 37 => ⟨S_, .i32⟩
  | 38 => ⟨S200000, .i32⟩
  | 39 => ⟨S200000, .i32⟩
  | 40 => ⟨S200000, .i32⟩
  | 41 => ⟨S200000x1, .i32⟩
  | 42 => ⟨S100000x128, .f32⟩
  | 43 => ⟨S100000, .f32⟩
  | 44 => ⟨S100000x1, .f32⟩
  | 45 => ⟨S100000x128, .f32⟩
  | 46 => ⟨S100000x128, .f32⟩
  | 47 => ⟨S100000x128, .f32⟩
  | 48 => ⟨S1x128, .f32⟩
  | 49 => ⟨S128, .f32⟩
  | 50 => ⟨S1x128, .f32⟩
  | 51 => ⟨S100000x128, .f32⟩
  | 52 => ⟨S100000x128, .f32⟩
  | 53 => ⟨S1x200000, .i32⟩
  | 54 => ⟨S200000, .i32⟩
  | 55 => ⟨S1x200000, .i32⟩
  | 56 => ⟨S200000, .i32⟩
  | 57 => ⟨S_, .f32⟩
  | 58 => ⟨S100000, .f32⟩
  | 59 => ⟨S_, .i32⟩
  | 60 => ⟨S200000, .i32⟩
  | 61 => ⟨S200000, .i1⟩
  | 62 => ⟨S_, .i32⟩
  | 63 => ⟨S200000, .i32⟩
  | 64 => ⟨S200000, .i32⟩
  | 65 => ⟨S200000, .i32⟩
  | 66 => ⟨S200000x1, .i32⟩
  | 67 => ⟨S_, .f32⟩
  | 68 => ⟨S200000, .f32⟩
  | 69 => ⟨S100000, .f32⟩
  | 70 => ⟨S_, .f32⟩
  | 71 => ⟨S_, .f32⟩
  | 72 => ⟨S100000, .f32⟩
  | 73 => ⟨S100000, .f32⟩
  | 74 => ⟨S_, .f32⟩
  | 75 => ⟨S100000, .f32⟩
  | 76 => ⟨S_, .i32⟩
  | 77 => ⟨S200000, .i32⟩
  | 78 => ⟨S200000, .i1⟩
  | 79 => ⟨S_, .i32⟩
  | 80 => ⟨S200000, .i32⟩
  | 81 => ⟨S200000, .i32⟩
  | 82 => ⟨S200000, .i32⟩
  | 83 => ⟨S200000x1, .i32⟩
  | 84 => ⟨S_, .f32⟩
  | 85 => ⟨S200000, .f32⟩
  | 86 => ⟨S100000, .f32⟩
  | 87 => ⟨S_, .f32⟩
  | 88 => ⟨S_, .f32⟩
  | 89 => ⟨S100000, .f32⟩
  | 90 => ⟨S100000, .f32⟩
  | 91 => ⟨S1x128x128, .f32⟩
  | 92 => ⟨S128x128, .f32⟩
  | 93 => ⟨S100000x128, .f32⟩
  | 94 => ⟨S_, .i32⟩
  | 95 => ⟨S200000, .i32⟩
  | 96 => ⟨S200000, .i1⟩
  | 97 => ⟨S_, .i32⟩
  | 98 => ⟨S200000, .i32⟩
  | 99 => ⟨S200000, .i32⟩
  | 100 => ⟨S200000, .i32⟩
  | 101 => ⟨S200000x1, .i32⟩
  | 102 => ⟨S200000x128, .f32⟩
  | 103 => ⟨S100000, .f32⟩
  | 104 => ⟨S_, .i32⟩
  | 105 => ⟨S200000, .i32⟩
  | 106 => ⟨S200000, .i1⟩
  | 107 => ⟨S_, .i32⟩
  | 108 => ⟨S200000, .i32⟩
  | 109 => ⟨S200000, .i32⟩
  | 110 => ⟨S200000, .i32⟩
  | 111 => ⟨S200000x1, .i32⟩
  | 112 => ⟨S200000, .f32⟩
  | 113 => ⟨S200000x1, .f32⟩
  | 114 => ⟨S200000x128, .f32⟩
  | 115 => ⟨S200000x128, .f32⟩
  | 116 => ⟨S_, .f32⟩
  | 117 => ⟨S100000x128, .f32⟩
  | 118 => ⟨S_, .i32⟩
  | 119 => ⟨S200000, .i32⟩
  | 120 => ⟨S200000, .i1⟩
  | 121 => ⟨S_, .i32⟩
  | 122 => ⟨S200000, .i32⟩
  | 123 => ⟨S200000, .i32⟩
  | 124 => ⟨S200000, .i32⟩
  | 125 => ⟨S200000x1, .i32⟩
  | 126 => ⟨S100000x128, .f32⟩
  | 127 => ⟨S100000, .f32⟩
  | _ => ⟨S100000x128, .f32⟩

abbrev hbmTy0_4 (i : Nat) : BufTy := match i % 128 with
  | 0 => ⟨S100000x1, .f32⟩
  | 1 => ⟨S100000x128, .f32⟩
  | 2 => ⟨S100000x128, .f32⟩
  | 3 => ⟨S100000x128, .f32⟩
  | 4 => ⟨S1x128, .f32⟩
  | 5 => ⟨S128, .f32⟩
  | 6 => ⟨S1x128, .f32⟩
  | 7 => ⟨S100000x128, .f32⟩
  | 8 => ⟨S100000x128, .f32⟩
  | 9 => ⟨S_, .f32⟩
  | 10 => ⟨S100000, .f32⟩
  | 11 => ⟨S_, .f32⟩
  | 12 => ⟨S64, .f32⟩
  | 13 => ⟨S100000x1, .i32⟩
  | 14 => ⟨S64, .f32⟩
  | 15 => ⟨S_, .f32⟩
  | 16 => ⟨S64x128, .f32⟩
  | 17 => ⟨S100000x1, .i32⟩
  | 18 => ⟨S64x128, .f32⟩
  | 19 => ⟨S_, .f32⟩
  | 20 => ⟨S_, .f32⟩
  | 21 => ⟨S64, .f32⟩
  | 22 => ⟨S64, .f32⟩
  | 23 => ⟨S64x1, .f32⟩
  | 24 => ⟨S64x128, .f32⟩
  | 25 => ⟨S64x128, .f32⟩
  | 26 => ⟨S64x10, .f32⟩
  | 27 => ⟨S1x10, .f32⟩
  | 28 => ⟨S64x10, .f32⟩
  | 29 => ⟨S64x10, .f32⟩
  | 30 => ⟨S_, .f32⟩
  | 31 => ⟨S10, .f32⟩
  | 32 => ⟨S_, .f32⟩
  | 33 => ⟨S10, .f32⟩
  | 34 => ⟨S10, .f32⟩
  | 35 => ⟨S1x10, .f32⟩
  | 36 => ⟨S64x10, .f32⟩
  | 37 => ⟨S64x10, .f32⟩
  | 38 => ⟨S64x10, .f32⟩
  | 39 => ⟨S_, .f32⟩
  | 40 => ⟨S10, .f32⟩
  | 41 => ⟨S1x10, .f32⟩
  | 42 => ⟨S64x10, .f32⟩
  | 43 => ⟨S64x10, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_c_5 : Ref sig .tc := ⟨.hbm, 35, rfl⟩
abbrev main_v16 : Ref sig .tc := ⟨.hbm, 36, rfl⟩
abbrev main_v17 : Ref sig .tc := ⟨.hbm, 37, rfl⟩
abbrev main_c_6 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_7 : Ref sig .tc := ⟨.hbm, 43, rfl⟩
abbrev main_v22 : Ref sig .tc := ⟨.hbm, 44, rfl⟩
abbrev main_v23 : Ref sig .tc := ⟨.hbm, 45, rfl⟩
abbrev main_cst_8 : Ref sig .tc := ⟨.hbm, 46, rfl⟩
abbrev main_call1_v0 : Ref sig .tc := ⟨.hbm, 47, rfl⟩
abbrev main_call1_v1 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_9 : Ref sig .tc := ⟨.hbm, 53, rfl⟩
abbrev main_v28 : Ref sig .tc := ⟨.hbm, 54, rfl⟩
abbrev main_v29 : Ref sig .tc := ⟨.hbm, 55, rfl⟩
abbrev main_c_10 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_11 : Ref sig .tc := ⟨.hbm, 63, rfl⟩
abbrev main_v36 : Ref sig .tc := ⟨.hbm, 64, rfl⟩
abbrev main_v37 : Ref sig .tc := ⟨.hbm, 65, rfl⟩
abbrev main_c_12 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_13 : Ref sig .tc := ⟨.hbm, 75, rfl⟩
abbrev main_v46 : Ref sig .tc := ⟨.hbm, 76, rfl⟩
abbrev main_c_14 : Ref sig .tc := ⟨.hbm, 77, rfl⟩
abbrev main_v47 : Ref sig .tc := ⟨.hbm, 78, rfl⟩
abbrev main_v48 : Ref sig .tc := ⟨.hbm, 79, rfl⟩
abbrev main_c_15 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_16 : Ref sig .tc := ⟨.hbm, 100, rfl⟩
abbrev main_v68 : Ref sig .tc := ⟨.hbm, 101, rfl⟩
abbrev main_c_17 : Ref sig .tc := ⟨.hbm, 102, rfl⟩
abbrev main_v69 : Ref sig .tc := ⟨.hbm, 103, rfl⟩
abbrev main_v70 : Ref sig .tc := ⟨.hbm, 104, rfl⟩
abbrev main_c_18 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_19 : Ref sig .tc := ⟨.hbm, 110, rfl⟩
abbrev main_v75 : Ref sig .tc := ⟨.hbm, 111, rfl⟩
abbrev main_v76 : Ref sig .tc := ⟨.hbm, 112, rfl⟩
abbrev main_cst_20 : Ref sig .tc := ⟨.hbm, 113, rfl⟩
abbrev main_call2_v0 : Ref sig .tc := ⟨.hbm, 114, rfl⟩
abbrev main_call2_v1 : Ref sig .tc := ⟨.hbm, 115, rfl⟩
abbrev main_v77 : Ref sig .tc := ⟨.hbm, 116, rfl⟩
abbrev main_cst_21 : Ref sig .tc := ⟨.hbm, 117, rfl⟩
abbrev main_v78 : Ref sig .tc := ⟨.hbm, 118, rfl⟩
abbrev main_c_22 : Ref sig .tc := ⟨.hbm, 119, rfl⟩
abbrev main_v79 : Ref sig .tc := ⟨.hbm, 120, rfl⟩
abbrev main_v80 : Ref sig .tc := ⟨.hbm, 121, rfl⟩
abbrev main_c_23 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_24 : Ref sig .tc := ⟨.hbm, 127, rfl⟩
abbrev main_v85 : Ref sig .tc := ⟨.hbm, 128, rfl⟩
abbrev main_v86 : Ref sig .tc := ⟨.hbm, 129, rfl⟩
abbrev main_cst_25 : Ref sig .tc := ⟨.hbm, 130, rfl⟩
abbrev main_call3_v0 : Ref sig .tc := ⟨.hbm, 131, rfl⟩
abbrev main_call3_v1 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_c_26 : Ref sig .tc := ⟨.hbm, 137, rfl⟩
abbrev main_v91 : Ref sig .tc := ⟨.hbm, 138, rfl⟩
abbrev main_v92 : Ref sig .tc := ⟨.hbm, 139, rfl⟩
abbrev main_c_27 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_c_28 : Ref sig .tc := ⟨.hbm, 147, rfl⟩
abbrev main_v99 : Ref sig .tc := ⟨.hbm, 148, rfl⟩
abbrev main_v100 : Ref sig .tc := ⟨.hbm, 149, rfl⟩
abbrev main_c_29 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_cst_30 : Ref sig .tc := ⟨.hbm, 159, rfl⟩
abbrev main_v109 : Ref sig .tc := ⟨.hbm, 160, rfl⟩
abbrev main_c_31 : Ref sig .tc := ⟨.hbm, 161, rfl⟩
abbrev main_v110 : Ref sig .tc := ⟨.hbm, 162, rfl⟩
abbrev main_v111 : Ref sig .tc := ⟨.hbm, 163, rfl⟩
abbrev main_c_32 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_33 : Ref sig .tc := ⟨.hbm, 184, rfl⟩
abbrev main_v131 : Ref sig .tc := ⟨.hbm, 185, rfl⟩
abbrev main_c_34 : Ref sig .tc := ⟨.hbm, 186, rfl⟩
abbrev main_v132 : Ref sig .tc := ⟨.hbm, 187, rfl⟩
abbrev main_v133 : Ref sig .tc := ⟨.hbm, 188, rfl⟩
abbrev main_c_35 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_cst_36 : Ref sig .tc := ⟨.hbm, 194, rfl⟩
abbrev main_v138 : Ref sig .tc := ⟨.hbm, 195, rfl⟩
abbrev main_v139 : Ref sig .tc := ⟨.hbm, 196, rfl⟩
abbrev main_cst_37 : Ref sig .tc := ⟨.hbm, 197, rfl⟩
abbrev main_call4_v0 : Ref sig .tc := ⟨.hbm, 198, rfl⟩
abbrev main_call4_v1 : Ref sig .tc := ⟨.hbm, 199, rfl⟩
abbrev main_v140 : Ref sig .tc := ⟨.hbm, 200, rfl⟩
abbrev main_cst_38 : Ref sig .tc := ⟨.hbm, 201, rfl⟩
abbrev main_v141 : Ref sig .tc := ⟨.hbm, 202, rfl⟩
abbrev main_c_39 : Ref sig .tc := ⟨.hbm, 203, rfl⟩
abbrev main_v142 : Ref sig .tc := ⟨.hbm, 204, rfl⟩
abbrev main_v143 : Ref sig .tc := ⟨.hbm, 205, rfl⟩
abbrev main_c_40 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_cst_41 : Ref sig .tc := ⟨.hbm, 211, rfl⟩
abbrev main_v148 : Ref sig .tc := ⟨.hbm, 212, rfl⟩
abbrev main_v149 : Ref sig .tc := ⟨.hbm, 213, rfl⟩
abbrev main_cst_42 : Ref sig .tc := ⟨.hbm, 214, rfl⟩
abbrev main_call5_v0 : Ref sig .tc := ⟨.hbm, 215, rfl⟩
abbrev main_call5_v1 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_c_43 : Ref sig .tc := ⟨.hbm, 221, rfl⟩
abbrev main_v154 : Ref sig .tc := ⟨.hbm, 222, rfl⟩
abbrev main_v155 : Ref sig .tc := ⟨.hbm, 223, rfl⟩
abbrev main_c_44 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_c_45 : Ref sig .tc := ⟨.hbm, 231, rfl⟩
abbrev main_v162 : Ref sig .tc := ⟨.hbm, 232, rfl⟩
abbrev main_v163 : Ref sig .tc := ⟨.hbm, 233, rfl⟩
abbrev main_c_46 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_cst_47 : Ref sig .tc := ⟨.hbm, 243, rfl⟩
abbrev main_v172 : Ref sig .tc := ⟨.hbm, 244, rfl⟩
abbrev main_c_48 : Ref sig .tc := ⟨.hbm, 245, rfl⟩
abbrev main_v173 : Ref sig .tc := ⟨.hbm, 246, rfl⟩
abbrev main_v174 : Ref sig .tc := ⟨.hbm, 247, rfl⟩
abbrev main_c_49 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_call6_cst : Ref sig .tc := ⟨.hbm, 264, rfl⟩
abbrev main_call6_v0 : Ref sig .tc := ⟨.hbm, 265, rfl⟩
abbrev main_v190 : Ref sig .tc := ⟨.hbm, 266, rfl⟩
abbrev main_cst_50 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_cst_51 : Ref sig .tc := ⟨.hbm, 273, rfl⟩
abbrev main_v196 : Ref sig .tc := ⟨.hbm, 274, rfl⟩
abbrev main_c_52 : Ref sig .tc := ⟨.hbm, 275, rfl⟩
abbrev main_v197 : Ref sig .tc := ⟨.hbm, 276, rfl⟩
abbrev main_v198 : Ref sig .tc := ⟨.hbm, 277, rfl⟩
abbrev main_c_53 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_v202 : Ref sig .tc := ⟨.hbm, 282, rfl⟩
abbrev main_cst_54 : Ref sig .tc := ⟨.hbm, 283, rfl⟩
abbrev main_v203 : Ref sig .tc := ⟨.hbm, 284, rfl⟩
abbrev main_v204 : Ref sig .tc := ⟨.hbm, 285, rfl⟩
abbrev main_cst_55 : Ref sig .tc := ⟨.hbm, 286, rfl⟩
abbrev main_call7_v0 : Ref sig .tc := ⟨.hbm, 287, rfl⟩
abbrev main_call7_v1 : Ref sig .tc := ⟨.hbm, 288, rfl⟩
abbrev main_v205 : Ref sig .tc := ⟨.hbm, 289, rfl⟩
abbrev main_cst_56 : Ref sig .tc := ⟨.hbm, 290, rfl⟩
abbrev main_v206 : Ref sig .tc := ⟨.hbm, 291, rfl⟩
abbrev main_c_57 : Ref sig .tc := ⟨.hbm, 292, rfl⟩
abbrev main_v207 : Ref sig .tc := ⟨.hbm, 293, rfl⟩
abbrev main_v208 : Ref sig .tc := ⟨.hbm, 294, rfl⟩
abbrev main_c_58 : Ref sig .tc := ⟨.hbm, 295, rfl⟩
abbrev main_v209 : Ref sig .tc := ⟨.hbm, 296, rfl⟩
abbrev main_v210 : Ref sig .tc := ⟨.hbm, 297, rfl⟩
abbrev main_v211 : Ref sig .tc := ⟨.hbm, 298, rfl⟩
abbrev main_v212 : Ref sig .tc := ⟨.hbm, 299, rfl⟩
abbrev main_cst_59 : Ref sig .tc := ⟨.hbm, 300, rfl⟩
abbrev main_v213 : Ref sig .tc := ⟨.hbm, 301, rfl⟩
abbrev main_v214 : Ref sig .tc := ⟨.hbm, 302, rfl⟩
abbrev main_cst_60 : Ref sig .tc := ⟨.hbm, 303, rfl⟩
abbrev main_call8_v0 : Ref sig .tc := ⟨.hbm, 304, rfl⟩
abbrev main_call8_v1 : Ref sig .tc := ⟨.hbm, 305, rfl⟩
abbrev main_v215 : Ref sig .tc := ⟨.hbm, 306, rfl⟩
abbrev main_v216 : Ref sig .tc := ⟨.hbm, 307, rfl⟩
abbrev main_v217 : Ref sig .tc := ⟨.hbm, 308, rfl⟩
abbrev main_v218 : Ref sig .tc := ⟨.hbm, 309, rfl⟩
abbrev main_c_61 : Ref sig .tc := ⟨.hbm, 310, rfl⟩
abbrev main_v219 : Ref sig .tc := ⟨.hbm, 311, rfl⟩
abbrev main_v220 : Ref sig .tc := ⟨.hbm, 312, rfl⟩
abbrev main_c_62 : Ref sig .tc := ⟨.hbm, 313, rfl⟩
abbrev main_v221 : Ref sig .tc := ⟨.hbm, 314, rfl⟩
abbrev main_v222 : Ref sig .tc := ⟨.hbm, 315, rfl⟩
abbrev main_v223 : Ref sig .tc := ⟨.hbm, 316, rfl⟩
abbrev main_v224 : Ref sig .tc := ⟨.hbm, 317, rfl⟩
abbrev main_v225 : Ref sig .tc := ⟨.hbm, 318, rfl⟩
abbrev main_v226 : Ref sig .tc := ⟨.hbm, 319, rfl⟩
abbrev main_c_63 : Ref sig .tc := ⟨.hbm, 320, rfl⟩
abbrev main_v227 : Ref sig .tc := ⟨.hbm, 321, rfl⟩
abbrev main_v228 : Ref sig .tc := ⟨.hbm, 322, rfl⟩
abbrev main_c_64 : Ref sig .tc := ⟨.hbm, 323, rfl⟩
abbrev main_v229 : Ref sig .tc := ⟨.hbm, 324, rfl⟩
abbrev main_v230 : Ref sig .tc := ⟨.hbm, 325, rfl⟩
abbrev main_v231 : Ref sig .tc := ⟨.hbm, 326, rfl⟩
abbrev main_v232 : Ref sig .tc := ⟨.hbm, 327, rfl⟩
abbrev main_v233 : Ref sig .tc := ⟨.hbm, 328, rfl⟩
abbrev main_v234 : Ref sig .tc := ⟨.hbm, 329, rfl⟩
abbrev main_v235 : Ref sig .tc := ⟨.hbm, 330, rfl⟩
abbrev main_v236 : Ref sig .tc := ⟨.hbm, 331, rfl⟩
abbrev main_cst_65 : Ref sig .tc := ⟨.hbm, 332, rfl⟩
abbrev main_v237 : Ref sig .tc := ⟨.hbm, 333, rfl⟩
abbrev main_c_66 : Ref sig .tc := ⟨.hbm, 334, rfl⟩
abbrev main_v238 : Ref sig .tc := ⟨.hbm, 335, rfl⟩
abbrev main_v239 : Ref sig .tc := ⟨.hbm, 336, rfl⟩
abbrev main_c_67 : Ref sig .tc := ⟨.hbm, 337, rfl⟩
abbrev main_v240 : Ref sig .tc := ⟨.hbm, 338, rfl⟩
abbrev main_v241 : Ref sig .tc := ⟨.hbm, 339, rfl⟩
abbrev main_v242 : Ref sig .tc := ⟨.hbm, 340, rfl⟩
abbrev main_v243 : Ref sig .tc := ⟨.hbm, 341, rfl⟩
abbrev main_v244 : Ref sig .tc := ⟨.hbm, 342, rfl⟩
abbrev main_v245 : Ref sig .tc := ⟨.hbm, 343, rfl⟩
abbrev main_v246 : Ref sig .tc := ⟨.hbm, 344, rfl⟩
abbrev main_v247 : Ref sig .tc := ⟨.hbm, 345, rfl⟩
abbrev main_v248 : Ref sig .tc := ⟨.hbm, 346, rfl⟩
abbrev main_v249 : Ref sig .tc := ⟨.hbm, 347, rfl⟩
abbrev main_v250 : Ref sig .tc := ⟨.hbm, 348, rfl⟩
abbrev main_v251 : Ref sig .tc := ⟨.hbm, 349, rfl⟩
abbrev main_v252 : Ref sig .tc := ⟨.hbm, 350, rfl⟩
abbrev main_v253 : Ref sig .tc := ⟨.hbm, 351, rfl⟩
abbrev main_v254 : Ref sig .tc := ⟨.hbm, 352, rfl⟩
abbrev main_v255 : Ref sig .tc := ⟨.hbm, 353, rfl⟩
abbrev main_v256 : Ref sig .tc := ⟨.hbm, 354, rfl⟩
abbrev main_v257 : Ref sig .tc := ⟨.hbm, 355, rfl⟩
abbrev main_v258 : Ref sig .tc := ⟨.hbm, 356, rfl⟩
abbrev main_cst_68 : Ref sig .tc := ⟨.hbm, 357, rfl⟩
abbrev main_v259 : Ref sig .tc := ⟨.hbm, 358, rfl⟩
abbrev main_c_69 : Ref sig .tc := ⟨.hbm, 359, rfl⟩
abbrev main_v260 : Ref sig .tc := ⟨.hbm, 360, rfl⟩
abbrev main_v261 : Ref sig .tc := ⟨.hbm, 361, rfl⟩
abbrev main_c_70 : Ref sig .tc := ⟨.hbm, 362, rfl⟩
abbrev main_v262 : Ref sig .tc := ⟨.hbm, 363, rfl⟩
abbrev main_v263 : Ref sig .tc := ⟨.hbm, 364, rfl⟩
abbrev main_v264 : Ref sig .tc := ⟨.hbm, 365, rfl⟩
abbrev main_v265 : Ref sig .tc := ⟨.hbm, 366, rfl⟩
abbrev main_cst_71 : Ref sig .tc := ⟨.hbm, 367, rfl⟩
abbrev main_v266 : Ref sig .tc := ⟨.hbm, 368, rfl⟩
abbrev main_v267 : Ref sig .tc := ⟨.hbm, 369, rfl⟩
abbrev main_cst_72 : Ref sig .tc := ⟨.hbm, 370, rfl⟩
abbrev main_call9_v0 : Ref sig .tc := ⟨.hbm, 371, rfl⟩
abbrev main_call9_v1 : Ref sig .tc := ⟨.hbm, 372, rfl⟩
abbrev main_v268 : Ref sig .tc := ⟨.hbm, 373, rfl⟩
abbrev main_cst_73 : Ref sig .tc := ⟨.hbm, 374, rfl⟩
abbrev main_v269 : Ref sig .tc := ⟨.hbm, 375, rfl⟩
abbrev main_c_74 : Ref sig .tc := ⟨.hbm, 376, rfl⟩
abbrev main_v270 : Ref sig .tc := ⟨.hbm, 377, rfl⟩
abbrev main_v271 : Ref sig .tc := ⟨.hbm, 378, rfl⟩
abbrev main_c_75 : Ref sig .tc := ⟨.hbm, 379, rfl⟩
abbrev main_v272 : Ref sig .tc := ⟨.hbm, 380, rfl⟩
abbrev main_v273 : Ref sig .tc := ⟨.hbm, 381, rfl⟩
abbrev main_v274 : Ref sig .tc := ⟨.hbm, 382, rfl⟩
abbrev main_v275 : Ref sig .tc := ⟨.hbm, 383, rfl⟩
abbrev main_cst_76 : Ref sig .tc := ⟨.hbm, 384, rfl⟩
abbrev main_v276 : Ref sig .tc := ⟨.hbm, 385, rfl⟩
abbrev main_v277 : Ref sig .tc := ⟨.hbm, 386, rfl⟩
abbrev main_cst_77 : Ref sig .tc := ⟨.hbm, 387, rfl⟩
abbrev main_call10_v0 : Ref sig .tc := ⟨.hbm, 388, rfl⟩
abbrev main_call10_v1 : Ref sig .tc := ⟨.hbm, 389, rfl⟩
abbrev main_v278 : Ref sig .tc := ⟨.hbm, 390, rfl⟩
abbrev main_v279 : Ref sig .tc := ⟨.hbm, 391, rfl⟩
abbrev main_v280 : Ref sig .tc := ⟨.hbm, 392, rfl⟩
abbrev main_v281 : Ref sig .tc := ⟨.hbm, 393, rfl⟩
abbrev main_c_78 : Ref sig .tc := ⟨.hbm, 394, rfl⟩
abbrev main_v282 : Ref sig .tc := ⟨.hbm, 395, rfl⟩
abbrev main_v283 : Ref sig .tc := ⟨.hbm, 396, rfl⟩
abbrev main_c_79 : Ref sig .tc := ⟨.hbm, 397, rfl⟩
abbrev main_v284 : Ref sig .tc := ⟨.hbm, 398, rfl⟩
abbrev main_v285 : Ref sig .tc := ⟨.hbm, 399, rfl⟩
abbrev main_v286 : Ref sig .tc := ⟨.hbm, 400, rfl⟩
abbrev main_v287 : Ref sig .tc := ⟨.hbm, 401, rfl⟩
abbrev main_v288 : Ref sig .tc := ⟨.hbm, 402, rfl⟩
abbrev main_v289 : Ref sig .tc := ⟨.hbm, 403, rfl⟩
abbrev main_c_80 : Ref sig .tc := ⟨.hbm, 404, rfl⟩
abbrev main_v290 : Ref sig .tc := ⟨.hbm, 405, rfl⟩
abbrev main_v291 : Ref sig .tc := ⟨.hbm, 406, rfl⟩
abbrev main_c_81 : Ref sig .tc := ⟨.hbm, 407, rfl⟩
abbrev main_v292 : Ref sig .tc := ⟨.hbm, 408, rfl⟩
abbrev main_v293 : Ref sig .tc := ⟨.hbm, 409, rfl⟩
abbrev main_v294 : Ref sig .tc := ⟨.hbm, 410, rfl⟩
abbrev main_v295 : Ref sig .tc := ⟨.hbm, 411, rfl⟩
abbrev main_v296 : Ref sig .tc := ⟨.hbm, 412, rfl⟩
abbrev main_v297 : Ref sig .tc := ⟨.hbm, 413, rfl⟩
abbrev main_v298 : Ref sig .tc := ⟨.hbm, 414, rfl⟩
abbrev main_v299 : Ref sig .tc := ⟨.hbm, 415, rfl⟩
abbrev main_cst_82 : Ref sig .tc := ⟨.hbm, 416, rfl⟩
abbrev main_v300 : Ref sig .tc := ⟨.hbm, 417, rfl⟩
abbrev main_c_83 : Ref sig .tc := ⟨.hbm, 418, rfl⟩
abbrev main_v301 : Ref sig .tc := ⟨.hbm, 419, rfl⟩
abbrev main_v302 : Ref sig .tc := ⟨.hbm, 420, rfl⟩
abbrev main_c_84 : Ref sig .tc := ⟨.hbm, 421, rfl⟩
abbrev main_v303 : Ref sig .tc := ⟨.hbm, 422, rfl⟩
abbrev main_v304 : Ref sig .tc := ⟨.hbm, 423, rfl⟩
abbrev main_v305 : Ref sig .tc := ⟨.hbm, 424, rfl⟩
abbrev main_v306 : Ref sig .tc := ⟨.hbm, 425, rfl⟩
abbrev main_v307 : Ref sig .tc := ⟨.hbm, 426, rfl⟩
abbrev main_v308 : Ref sig .tc := ⟨.hbm, 427, rfl⟩
abbrev main_v309 : Ref sig .tc := ⟨.hbm, 428, rfl⟩
abbrev main_v310 : Ref sig .tc := ⟨.hbm, 429, rfl⟩
abbrev main_v311 : Ref sig .tc := ⟨.hbm, 430, rfl⟩
abbrev main_v312 : Ref sig .tc := ⟨.hbm, 431, rfl⟩
abbrev main_v313 : Ref sig .tc := ⟨.hbm, 432, rfl⟩
abbrev main_v314 : Ref sig .tc := ⟨.hbm, 433, rfl⟩
abbrev main_v315 : Ref sig .tc := ⟨.hbm, 434, rfl⟩
abbrev main_v316 : Ref sig .tc := ⟨.hbm, 435, rfl⟩
abbrev main_v317 : Ref sig .tc := ⟨.hbm, 436, rfl⟩
abbrev main_v318 : Ref sig .tc := ⟨.hbm, 437, rfl⟩
abbrev main_v319 : Ref sig .tc := ⟨.hbm, 438, rfl⟩
abbrev main_v320 : Ref sig .tc := ⟨.hbm, 439, rfl⟩
abbrev main_v321 : Ref sig .tc := ⟨.hbm, 440, rfl⟩
abbrev main_cst_85 : Ref sig .tc := ⟨.hbm, 441, rfl⟩
abbrev main_v322 : Ref sig .tc := ⟨.hbm, 442, rfl⟩
abbrev main_c_86 : Ref sig .tc := ⟨.hbm, 443, rfl⟩
abbrev main_v323 : Ref sig .tc := ⟨.hbm, 444, rfl⟩
abbrev main_v324 : Ref sig .tc := ⟨.hbm, 445, rfl⟩
abbrev main_c_87 : Ref sig .tc := ⟨.hbm, 446, rfl⟩
abbrev main_v325 : Ref sig .tc := ⟨.hbm, 447, rfl⟩
abbrev main_v326 : Ref sig .tc := ⟨.hbm, 448, rfl⟩
abbrev main_v327 : Ref sig .tc := ⟨.hbm, 449, rfl⟩
abbrev main_v328 : Ref sig .tc := ⟨.hbm, 450, rfl⟩
abbrev main_cst_88 : Ref sig .tc := ⟨.hbm, 451, rfl⟩
abbrev main_v329 : Ref sig .tc := ⟨.hbm, 452, rfl⟩
abbrev main_v330 : Ref sig .tc := ⟨.hbm, 453, rfl⟩
abbrev main_cst_89 : Ref sig .tc := ⟨.hbm, 454, rfl⟩
abbrev main_call11_v0 : Ref sig .tc := ⟨.hbm, 455, rfl⟩
abbrev main_call11_v1 : Ref sig .tc := ⟨.hbm, 456, rfl⟩
abbrev main_v331 : Ref sig .tc := ⟨.hbm, 457, rfl⟩
abbrev main_cst_90 : Ref sig .tc := ⟨.hbm, 458, rfl⟩
abbrev main_v332 : Ref sig .tc := ⟨.hbm, 459, rfl⟩
abbrev main_c_91 : Ref sig .tc := ⟨.hbm, 460, rfl⟩
abbrev main_v333 : Ref sig .tc := ⟨.hbm, 461, rfl⟩
abbrev main_v334 : Ref sig .tc := ⟨.hbm, 462, rfl⟩
abbrev main_c_92 : Ref sig .tc := ⟨.hbm, 463, rfl⟩
abbrev main_v335 : Ref sig .tc := ⟨.hbm, 464, rfl⟩
abbrev main_v336 : Ref sig .tc := ⟨.hbm, 465, rfl⟩
abbrev main_v337 : Ref sig .tc := ⟨.hbm, 466, rfl⟩
abbrev main_v338 : Ref sig .tc := ⟨.hbm, 467, rfl⟩
abbrev main_cst_93 : Ref sig .tc := ⟨.hbm, 468, rfl⟩
abbrev main_v339 : Ref sig .tc := ⟨.hbm, 469, rfl⟩
abbrev main_v340 : Ref sig .tc := ⟨.hbm, 470, rfl⟩
abbrev main_cst_94 : Ref sig .tc := ⟨.hbm, 471, rfl⟩
abbrev main_call12_v0 : Ref sig .tc := ⟨.hbm, 472, rfl⟩
abbrev main_call12_v1 : Ref sig .tc := ⟨.hbm, 473, rfl⟩
abbrev main_v341 : Ref sig .tc := ⟨.hbm, 474, rfl⟩
abbrev main_v342 : Ref sig .tc := ⟨.hbm, 475, rfl⟩
abbrev main_v343 : Ref sig .tc := ⟨.hbm, 476, rfl⟩
abbrev main_v344 : Ref sig .tc := ⟨.hbm, 477, rfl⟩
abbrev main_c_95 : Ref sig .tc := ⟨.hbm, 478, rfl⟩
abbrev main_v345 : Ref sig .tc := ⟨.hbm, 479, rfl⟩
abbrev main_v346 : Ref sig .tc := ⟨.hbm, 480, rfl⟩
abbrev main_c_96 : Ref sig .tc := ⟨.hbm, 481, rfl⟩
abbrev main_v347 : Ref sig .tc := ⟨.hbm, 482, rfl⟩
abbrev main_v348 : Ref sig .tc := ⟨.hbm, 483, rfl⟩
abbrev main_v349 : Ref sig .tc := ⟨.hbm, 484, rfl⟩
abbrev main_v350 : Ref sig .tc := ⟨.hbm, 485, rfl⟩
abbrev main_v351 : Ref sig .tc := ⟨.hbm, 486, rfl⟩
abbrev main_v352 : Ref sig .tc := ⟨.hbm, 487, rfl⟩
abbrev main_c_97 : Ref sig .tc := ⟨.hbm, 488, rfl⟩
abbrev main_v353 : Ref sig .tc := ⟨.hbm, 489, rfl⟩
abbrev main_v354 : Ref sig .tc := ⟨.hbm, 490, rfl⟩
abbrev main_c_98 : Ref sig .tc := ⟨.hbm, 491, rfl⟩
abbrev main_v355 : Ref sig .tc := ⟨.hbm, 492, rfl⟩
abbrev main_v356 : Ref sig .tc := ⟨.hbm, 493, rfl⟩
abbrev main_v357 : Ref sig .tc := ⟨.hbm, 494, rfl⟩
abbrev main_v358 : Ref sig .tc := ⟨.hbm, 495, rfl⟩
abbrev main_v359 : Ref sig .tc := ⟨.hbm, 496, rfl⟩
abbrev main_v360 : Ref sig .tc := ⟨.hbm, 497, rfl⟩
abbrev main_v361 : Ref sig .tc := ⟨.hbm, 498, rfl⟩
abbrev main_v362 : Ref sig .tc := ⟨.hbm, 499, rfl⟩
abbrev main_cst_99 : Ref sig .tc := ⟨.hbm, 500, rfl⟩
abbrev main_v363 : Ref sig .tc := ⟨.hbm, 501, rfl⟩
abbrev main_c_100 : Ref sig .tc := ⟨.hbm, 502, rfl⟩
abbrev main_v364 : Ref sig .tc := ⟨.hbm, 503, rfl⟩
abbrev main_v365 : Ref sig .tc := ⟨.hbm, 504, rfl⟩
abbrev main_c_101 : Ref sig .tc := ⟨.hbm, 505, rfl⟩
abbrev main_v366 : Ref sig .tc := ⟨.hbm, 506, rfl⟩
abbrev main_v367 : Ref sig .tc := ⟨.hbm, 507, rfl⟩
abbrev main_v368 : Ref sig .tc := ⟨.hbm, 508, rfl⟩
abbrev main_v369 : Ref sig .tc := ⟨.hbm, 509, rfl⟩
abbrev main_v370 : Ref sig .tc := ⟨.hbm, 510, rfl⟩
abbrev main_v371 : Ref sig .tc := ⟨.hbm, 511, rfl⟩
abbrev main_v372 : Ref sig .tc := ⟨.hbm, 512, rfl⟩
abbrev main_v373 : Ref sig .tc := ⟨.hbm, 513, rfl⟩
abbrev main_v374 : Ref sig .tc := ⟨.hbm, 514, rfl⟩
abbrev main_v375 : Ref sig .tc := ⟨.hbm, 515, rfl⟩
abbrev main_v376 : Ref sig .tc := ⟨.hbm, 516, rfl⟩
abbrev main_v377 : Ref sig .tc := ⟨.hbm, 517, rfl⟩
abbrev main_v378 : Ref sig .tc := ⟨.hbm, 518, rfl⟩
abbrev main_v379 : Ref sig .tc := ⟨.hbm, 519, rfl⟩
abbrev main_v380 : Ref sig .tc := ⟨.hbm, 520, rfl⟩
abbrev main_cst_102 : Ref sig .tc := ⟨.hbm, 521, rfl⟩
abbrev main_v381 : Ref sig .tc := ⟨.hbm, 522, rfl⟩
abbrev main_cst_103 : Ref sig .tc := ⟨.hbm, 523, rfl⟩
abbrev main_v382 : Ref sig .tc := ⟨.hbm, 524, rfl⟩
abbrev main_v383 : Ref sig .tc := ⟨.hbm, 525, rfl⟩
abbrev main_v384 : Ref sig .tc := ⟨.hbm, 526, rfl⟩
abbrev main_cst_104 : Ref sig .tc := ⟨.hbm, 527, rfl⟩
abbrev main_v385 : Ref sig .tc := ⟨.hbm, 528, rfl⟩
abbrev main_v386 : Ref sig .tc := ⟨.hbm, 529, rfl⟩
abbrev main_v387 : Ref sig .tc := ⟨.hbm, 530, rfl⟩
abbrev main_cst_105 : Ref sig .tc := ⟨.hbm, 531, rfl⟩
abbrev main_call13_v0 : Ref sig .tc := ⟨.hbm, 532, rfl⟩
abbrev main_call13_v1 : Ref sig .tc := ⟨.hbm, 533, rfl⟩
abbrev main_v388 : Ref sig .tc := ⟨.hbm, 534, rfl⟩
abbrev main_v389 : Ref sig .tc := ⟨.hbm, 535, rfl⟩
abbrev main_v390 : Ref sig .tc := ⟨.hbm, 536, rfl⟩
abbrev main_v391 : Ref sig .tc := ⟨.hbm, 537, rfl⟩
abbrev main_v392 : Ref sig .tc := ⟨.hbm, 538, rfl⟩
abbrev main_v393 : Ref sig .tc := ⟨.hbm, 539, rfl⟩
abbrev main_v394 : Ref sig .tc := ⟨.hbm, 540, rfl⟩
abbrev main_v395 : Ref sig .tc := ⟨.hbm, 541, rfl⟩
abbrev main_cst_106 : Ref sig .tc := ⟨.hbm, 542, rfl⟩
abbrev main_v396 : Ref sig .tc := ⟨.hbm, 543, rfl⟩
abbrev main_cst_107 : Ref sig .tc := ⟨.hbm, 544, rfl⟩
abbrev main_v397 : Ref sig .tc := ⟨.hbm, 545, rfl⟩
abbrev main_v398 : Ref sig .tc := ⟨.hbm, 546, rfl⟩
abbrev main_v399 : Ref sig .tc := ⟨.hbm, 547, rfl⟩
abbrev main_v400 : Ref sig .tc := ⟨.hbm, 548, rfl⟩
abbrev main_v401 : Ref sig .tc := ⟨.hbm, 549, rfl⟩
abbrev main_v402 : Ref sig .tc := ⟨.hbm, 550, rfl⟩
abbrev main_cst_108 : Ref sig .tc := ⟨.hbm, 551, rfl⟩
abbrev main_v403 : Ref sig .tc := ⟨.hbm, 552, rfl⟩
abbrev main_v404 : Ref sig .tc := ⟨.hbm, 553, rfl⟩
abbrev main_v405 : Ref sig .tc := ⟨.hbm, 554, rfl⟩
abbrev main_v406 : Ref sig .tc := ⟨.hbm, 555, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  slices_S3x200000_S1x200000_0_0 : S3x200000.Slices ![0, 0] S1x200000
  shapeCasts_S1x200000_S200000 : S1x200000.ShapeCasts S200000
  bcast_S_S100000 : S_.BroadcastsInDim S100000 (![] : Fin 0 → Fin S100000.rank)
  bcast_S_S200000 : S_.BroadcastsInDim S200000 (![] : Fin 0 → Fin S200000.rank)
  bcast_S200000_S200000x1_0 : S200000.BroadcastsInDim S200000x1 (![0] : Fin 1 → Fin S200000x1.rank)
  slices_S3x128x128_S1x128x128_0_0_0 : S3x128x128.Slices ![0, 0, 0] S1x128x128
  shapeCasts_S1x128x128_S128x128 : S1x128x128.ShapeCasts S128x128
  bcast_S200000x1_S200000x128_0_1 : S200000x1.BroadcastsInDim S200000x128 (![0, 1] : Fin 2 → Fin S200000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x200000_S1x200000_1_0 : S3x200000.Slices ![1, 0] S1x200000
  slices_S3x128x128_S1x128x128_1_0_0 : S3x128x128.Slices ![1, 0, 0] S1x128x128
  slices_S3x128_S1x128_1_0 : S3x128.Slices ![1, 0] S1x128
  slices_S3x200000_S1x200000_2_0 : S3x200000.Slices ![2, 0] S1x200000
  slices_S3x128x128_S1x128x128_2_0_0 : S3x128x128.Slices ![2, 0, 0] S1x128x128
  slices_S3x128_S1x128_2_0 : S3x128.Slices ![2, 0] S1x128
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S10_d0 : S64x10.ReducesTo [0] S10
  h_S_ : 0 < S_.numel
  bcast_S_S10 : S_.BroadcastsInDim S10 (![] : Fin 0 → Fin S10.rank)
  scatter_S100000_S200000x1_S200000_n_0_0_1_wf : ScatterDims.WF S100000 S200000x1 S200000 [] [0] [0] 1
  dot_S100000x128_S128x128_S100000x128_1_0_0_1_n_n_wf : DotDims.WF S100000x128 S128x128 S100000x128 [1] [0] [0] [1] [] []
  gather_S100000x128_S200000x1_S200000x128_1_0_n_n_0_1_1128_wf : GatherDims.WF S100000x128 S200000x1 S200000x128 [1] [0] [] [0] [] 1 ![1, 128]
  gather_S100000_S200000x1_S200000_n_0_n_n_0_1_1_wf : GatherDims.WF S100000 S200000x1 S200000 [] [0] [] [0] [] 1 ![1]
  scatter_S100000x128_S200000x1_S200000x128_1_0_0_1_wf : ScatterDims.WF S100000x128 S200000x1 S200000x128 [1] [0] [0] 1
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x10_S64x10_1_0_0_1_n_n_wf : DotDims.WF S64x128 S128x10 S64x10 [1] [0] [0] [1] [] []

variable [Facts₀]

def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def gather_S100000_S200000x1_S200000_n_0_n_n_0_1_1 : GatherDims S100000 S200000x1 S200000 where
  offsetDims := []
  collapsedSliceDims := [0]
  operandBatchingDims := []
  startIndicesBatchingDims := []
  startIndexMap := [0]
  indexVectorDim := 1
  sliceSizes := ![1]
  wf := gather_S100000_S200000x1_S200000_n_0_n_n_0_1_1_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KFrameR0.lean ====
/- Region 0 of the kernel program (the first relational graph-convolution layer's pallas_call), at any float
   instance and at a PARAMETER `V`, the TensorCore's buffer contents when the region is entered: each window's block
   at a grid point, what the body leaves in the output window's staging buffer as a function of the four input blocks
   (one whole-buffer store), the body's triple, the pipeline's proof data and the body obligation. -/
import proofs.«118654_j25211458027582_2_alg».proof.Proof.Gen.KernelIdeal.Launch
import proofs.«118654_j25211458027582_2_alg».proof.Proof.Gen.KernelIdeal.Skeleton
import proofs.«118654_j25211458027582_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KFrame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 of @main: custom_call 0, `cc0__relation_conv_kernel` (pipeline 0), at the entry contents `V` -/

section Region0
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched
    input's block index has not moved, so the block the point before left is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not: an unfetched
    input's block index has not moved, so the block the point before left is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not: an unfetched
    input's block index has not moved, so the block the point before left is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not: an unfetched
    input's block index has not moved, so the block the point before left is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through a literal rectangle -/

/-- The whole [4000,3] block of the scaling factors. -/
abbrev rS0 : Rect S4000x3 := Rect.unit (s := S4000x3) ![0, 0] S4000x3.size inb_S4000x3_S4000x3_0_0
/-- Relation `r`'s [1,4000,128] slab of the aggregated rows. -/
abbrev rA0_0 : Rect S3x4000x128 := Rect.unit (s := S3x4000x128) ![0, 0, 0] S1x4000x128.size inb_S3x4000x128_S1x4000x128_0_0_0
abbrev rA0_1 : Rect S3x4000x128 := Rect.unit (s := S3x4000x128) ![1, 0, 0] S1x4000x128.size inb_S3x4000x128_S1x4000x128_1_0_0
abbrev rA0_2 : Rect S3x4000x128 := Rect.unit (s := S3x4000x128) ![2, 0, 0] S1x4000x128.size inb_S3x4000x128_S1x4000x128_2_0_0
/-- Relation `r`'s [1,128,128] weight matrix. -/
abbrev rW0_0 : Rect S3x128x128 := Rect.unit (s := S3x128x128) ![0, 0, 0] S1x128x128.size inb_S3x128x128_S1x128x128_0_0_0
abbrev rW0_1 : Rect S3x128x128 := Rect.unit (s := S3x128x128) ![1, 0, 0] S1x128x128.size inb_S3x128x128_S1x128x128_1_0_0
abbrev rW0_2 : Rect S3x128x128 := Rect.unit (s := S3x128x128) ![2, 0, 0] S1x128x128.size inb_S3x128x128_S1x128x128_2_0_0
/-- The whole [3,128] block of the biases. -/
abbrev rB0 : Rect S3x128 := Rect.unit (s := S3x128) ![0, 0] S3x128.size inb_S3x128_S3x128_0_0
/-- The whole [4000,128] output block. -/
abbrev rO0 : Rect S4000x128 := Rect.unit (s := S4000x128) ![0, 0] S4000x128.size inb_S4000x128_S4000x128_0_0

/-! ## What the body leaves in the output window's buffer -/

/-- Window 4's staging buffer after the body, from the four input windows' blocks: ONE store through the whole
    rectangle, of the sum over the three relations of (slab × scaling column) · weight, plus the summed biases, clamped below at zero. -/
def out0_4 (x0 : Vec F S3x4000x128 .f32) (x1 : Vec F S4000x3 .f32) (x2 : Vec F S3x128x128 .f32) (x3 : Vec F S3x128 .f32) : Vec F S4000x128 .f32 :=
  View.canon [⟨rO0, k0_pay1
    (k0_pay3 (View.ld x1 rS0) (View.ld x0 rA0_0) (View.ld x2 rW0_0) (View.ld x0 rA0_1) (View.ld x2 rW0_1))
    (k0_pay4 (View.ld x1 rS0) (View.ld x0 rA0_2) (View.ld x2 rW0_2))
    (View.ld x3 rB0)⟩]

/-- The one store tiles the buffer, so it covers it. -/
theorem cover0_4 (p0 : Vec F S4000x128 .f32) (y : S4000x128.Idx) :
    ∃ pc ∈ ([⟨rO0, p0⟩] : List (View.Piece (Elt F) S4000x128 .f32)), y ∈ pc.1.set :=
  View.cover_of_tiled [⟨rO0, p0⟩] S4000x128.size (by rfl) y

/-! ## The body's triple -/

set_option maxHeartbeats 4000000 in
/-- The kernel body on whole staging memrefs, the four inputs' at read contents `x0 … x3` and the output's at
    anything, runs to the continuation holding the inputs' as they were and the output's at `out0_4` of the inputs':
    the part loads the scaling block, then slab and weight matrix per relation; the body loads the biases, loads the
    output buffer (a value nothing reads) and stores the payload through the whole rectangle. -/
theorem sound_kernel0 (c : Dev nD) (E : Set ℕ) (i : grid0.Coords) (arg1 : Memref sig .tc .vmem S3x4000x128 .f32) (harg1 : arg1.IsWhole) (arg2 : Memref sig .tc .vmem S4000x3 .f32) (harg2 : arg2.IsWhole) (arg3 : Memref sig .tc .vmem S3x128x128 .f32) (harg3 : arg3.IsWhole) (arg4 : Memref sig .tc .vmem S3x128 .f32) (harg4 : arg4.IsWhole) (arg5 : Memref sig .tc .vmem S4000x128 .f32) (harg5 : arg5.IsWhole)
    (x0 : Vec F S3x4000x128 .f32) (x1 : Vec F S4000x3 .f32) (x2 : Vec F S3x128x128 .f32) (x3 : Vec F S3x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__relation_conv_kernel i arg1 harg1 arg2 harg2 arg3 harg3 arg4 harg4 arg5 harg5) K := by
  simp only [cc0__relation_conv_kernel_eq_skeleton]; unfold cc0__relation_conv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core `c`: the arrays as the region finds them (`V`); after the body at point
    `t` each input's buffer at its block and the output's at `out0_4` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.KFrame

end
-- ==== Proof.KFrameR1.lean ====
/- Region 1 of the kernel program (the second relational graph-convolution layer's pallas_call), at any float
   instance and at a PARAMETER `V`, the TensorCore's buffer contents when the region is entered: each window's block
   at a grid point, what the body leaves in the output window's staging buffer as a function of the four input blocks
   (one whole-buffer store), the body's triple, the pipeline's proof data and the body obligation. -/
import proofs.«118654_j25211458027582_2_alg».proof.Proof.Gen.KernelIdeal.Launch
import proofs.«118654_j25211458027582_2_alg».proof.Proof.Gen.KernelIdeal.Skeleton
import proofs.«118654_j25211458027582_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KFrame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 of @main: custom_call 1, `cc1__relation_conv_kernel` (pipeline 1), at the entry contents `V` -/

section Region1
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: an unfetched
    input's block index has not moved, so the block the point before left is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not: an unfetched
    input's block index has not moved, so the block the point before left is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not: an unfetched
    input's block index has not moved, so the block the point before left is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not: an unfetched
    input's block index has not moved, so the block the point before left is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through a literal rectangle -/

/-- The whole [4000,3] block of the scaling factors. -/
abbrev rS1 : Rect S4000x3 := Rect.unit (s := S4000x3) ![0, 0] S4000x3.size inb_S4000x3_S4000x3_0_0
/-- Relation `r`'s [1,4000,128] slab of the aggregated rows. -/
abbrev rA1_0 : Rect S3x4000x128 := Rect.unit (s := S3x4000x128) ![0, 0, 0] S1x4000x128.size inb_S3x4000x128_S1x4000x128_0_0_0
abbrev rA1_1 : Rect S3x4000x128 := Rect.unit (s := S3x4000x128) ![1, 0, 0] S1x4000x128.size inb_S3x4000x128_S1x4000x128_1_0_0
abbrev rA1_2 : Rect S3x4000x128 := Rect.unit (s := S3x4000x128) ![2, 0, 0] S1x4000x128.size inb_S3x4000x128_S1x4000x128_2_0_0
/-- Relation `r`'s [1,128,128] weight matrix. -/
abbrev rW1_0 : Rect S3x128x128 := Rect.unit (s := S3x128x128) ![0, 0, 0] S1x128x128.size inb_S3x128x128_S1x128x128_0_0_0
abbrev rW1_1 : Rect S3x128x128 := Rect.unit (s := S3x128x128) ![1, 0, 0] S1x128x128.size inb_S3x128x128_S1x128x128_1_0_0
abbrev rW1_2 : Rect S3x128x128 := Rect.unit (s := S3x128x128) ![2, 0, 0] S1x128x128.size inb_S3x128x128_S1x128x128_2_0_0
/-- The whole [3,128] block of the biases. -/
abbrev rB1 : Rect S3x128 := Rect.unit (s := S3x128) ![0, 0] S3x128.size inb_S3x128_S3x128_0_0
/-- The whole [4000,128] output block. -/
abbrev rO1 : Rect S4000x128 := Rect.unit (s := S4000x128) ![0, 0] S4000x128.size inb_S4000x128_S4000x128_0_0

/-! ## What the body leaves in the output window's buffer -/

/-- Window 4's staging buffer after the body, from the four input windows' blocks: ONE store through the whole
    rectangle, of the sum over the three relations of (slab × scaling column) · weight, plus the summed biases. -/
def out1_4 (x0 : Vec F S3x4000x128 .f32) (x1 : Vec F S4000x3 .f32) (x2 : Vec F S3x128x128 .f32) (x3 : Vec F S3x128 .f32) : Vec F S4000x128 .f32 :=
  View.canon [⟨rO1, k1_pay1
    (k1_pay3 (View.ld x1 rS1) (View.ld x0 rA1_0) (View.ld x2 rW1_0) (View.ld x0 rA1_1) (View.ld x2 rW1_1))
    (k1_pay4 (View.ld x1 rS1) (View.ld x0 rA1_2) (View.ld x2 rW1_2))
    (View.ld x3 rB1)⟩]

/-- The one store tiles the buffer, so it covers it. -/
theorem cover1_4 (p0 : Vec F S4000x128 .f32) (y : S4000x128.Idx) :
    ∃ pc ∈ ([⟨rO1, p0⟩] : List (View.Piece (Elt F) S4000x128 .f32)), y ∈ pc.1.set :=
  View.cover_of_tiled [⟨rO1, p0⟩] S4000x128.size (by rfl) y

/-! ## The body's triple -/

set_option maxHeartbeats 4000000 in
/-- The kernel body on whole staging memrefs, the four inputs' at read contents `x0 … x3` and the output's at
    anything, runs to the continuation holding the inputs' as they were and the output's at `out1_4` of the inputs':
    the part loads the scaling block, then slab and weight matrix per relation; the body loads the biases, loads the
    output buffer (a value nothing reads) and stores the payload through the whole rectangle. -/
theorem sound_kernel1 (c : Dev nD) (E : Set ℕ) (i : grid1.Coords) (arg1 : Memref sig .tc .vmem S3x4000x128 .f32) (harg1 : arg1.IsWhole) (arg2 : Memref sig .tc .vmem S4000x3 .f32) (harg2 : arg2.IsWhole) (arg3 : Memref sig .tc .vmem S3x128x128 .f32) (harg3 : arg3.IsWhole) (arg4 : Memref sig .tc .vmem S3x128 .f32) (harg4 : arg4.IsWhole) (arg5 : Memref sig .tc .vmem S4000x128 .f32) (harg5 : arg5.IsWhole)
    (x0 : Vec F S3x4000x128 .f32) (x1 : Vec F S4000x3 .f32) (x2 : Vec F S3x128x128 .f32) (x3 : Vec F S3x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__relation_conv_kernel i arg1 harg1 arg2 harg2 arg3 harg3 arg4 harg4 arg5 harg5) K := by
  simp only [cc1__relation_conv_kernel_eq_skeleton]; unfold cc1__relation_conv_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at point
    `t` each input's buffer at its block and the output's at `out1_4` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.KFrame

end
-- ==== Proof.KFrameW.lean ====
/- The buffer contents at every segment boundary of the kernel program's @main, as a fold from the launch memory:
   a host stretch's operations applied in order, a region's arrays at what its write-backs leave. No host operation
   writes an argument array (each writes one reference, and the arguments are the first ten references), and a region
   reads an argument only through an input window, so every argument is read back through the fold to its launch
   contents. -/
import proofs.«118654_j25211458027582_2_alg».proof.Proof.KFrameR0
import proofs.«118654_j25211458027582_2_alg».proof.Proof.KFrameR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KFrame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

/-- An operation keeps the arguments: it writes no reference among the first ten (the arguments of @main). -/
def KeepsArgs (op : HloOp τ sig (Elt F)) : Prop :=
  ∀ b : Ref sig .tc, b.idx.val < 10 → (Proc.devRef .tc b : DevRef τ sig) ∉ op.writes

/-- An operation whose one written reference `y` is past the arguments keeps them. -/
theorem keeps_of {op : HloOp τ sig (Elt F)} (y : Ref sig .tc) (hy : 10 ≤ y.idx.val)
    (hw : op.writes = {Proc.devRef .tc y} := by rfl) : KeepsArgs op := fun b hb hm => by
  rw [hw, Finset.mem_singleton] at hm
  have e : b = y := Proc.devRef_injective _ hm
  subst e
  exact absurd hb (Nat.not_lt.mpr hy)

/-- A stretch of such operations leaves every argument's buffer as it found it. -/
theorem after_keeps (ops : List (HloOp τ sig (Elt F))) (h : ops.Forall (KeepsArgs)) (V : Valuation τ sig (Elt F))
    (b : Ref sig .tc) (hb : b.idx.val < 10) : StableHlo.after ops V (Proc.devRef .tc b) = V (Proc.devRef .tc b) :=
  StableHlo.after_of_forall_not_mem ops V fun op hop => (List.forall_iff_forall_mem.mp h) op hop b hb

/-- No operation of `hostOps0` allocates a buffer. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl⟩
/-- Every operation of `hostOps0` writes one reference, none of them an argument. -/
theorem hostOps0_keeps : (hostOps0 : List (HloOp τ sig (Elt F))).Forall (KeepsArgs) :=
  ⟨keeps_of main_v0 (by decide), keeps_of main_v1 (by decide), keeps_of main_v2 (by decide), keeps_of main_v3 (by decide),
   keeps_of main_cst (by decide), keeps_of main_v4 (by decide), keeps_of main_c (by decide), keeps_of main_v5 (by decide),
   keeps_of main_v6 (by decide), keeps_of main_c_0 (by decide), keeps_of main_v7 (by decide), keeps_of main_v8 (by decide),
   keeps_of main_v9 (by decide), keeps_of main_v10 (by decide), keeps_of main_cst_1 (by decide), keeps_of main_v11 (by decide),
   keeps_of main_v12 (by decide), keeps_of main_cst_2 (by decide)⟩
/-- No operation of `hostOps0_1` allocates a buffer. -/
theorem hostOps0_1_fresh : (hostOps0_1 : List (HloOp τ sig (Elt F))).Forall fun op => op.fresh = ∅ :=
  ⟨rfl, rfl, rfl⟩
/-- Every operation of `hostOps0_1` writes one reference, none of them an argument. -/
theorem hostOps0_1_keeps : (hostOps0_1 : List (HloOp τ sig (Elt F))).Forall (KeepsArgs) :=
  ⟨keeps_of main_call0_v0 (by decide), keeps_of main_call0_v1 (by decide), keeps_of main_v13 (by decide)⟩
/-- No operation of `hostOps0_2` allocates a buffer. -/
theorem hostOps0_2_fresh : (hostOps0_2 : List (HloOp τ sig (Elt F))).Forall fun op => op.fresh = ∅ :=
  ⟨rfl, rfl, rfl, rfl, rfl, rfl, rfl, rfl, rfl, rfl, rfl, rfl, rfl, rfl⟩
/-- Every operation of `hostOps0_2` writes one reference, none of them an argument. -/
theorem hostOps0_2_keeps : (hostOps0_2 : List (HloOp τ sig (Elt F))).Forall (KeepsArgs) :=
  ⟨keeps_of main_cst_3 (by decide), keeps_of main_v14 (by decide), keeps_of main_c_4 (by decide), keeps_of main_v15 (by decide),
   keeps_of main_v16 (by decide), keeps_of main_c_5 (by decide), keeps_of main_v17 (by decide), keeps_of main_v18 (by decide),
   keeps_of main_v19 (by decide), keeps_of main_v20 (by decide), keeps_of main_cst_6 (by decide), keeps_of main_v21 (by decide),
   keeps_of main_v22 (by decide), keeps_of main_cst_7 (by decide)⟩
/-- No operation of `hostOps0_3` allocates a buffer. -/
theorem hostOps0_3_fresh : (hostOps0_3 : List (HloOp τ sig (Elt F))).Forall fun op => op.fresh = ∅ :=
  ⟨rfl, rfl, rfl⟩
/-- Every operation of `hostOps0_3` writes one reference, none of them an argument. -/
theorem hostOps0_3_keeps : (hostOps0_3 : List (HloOp τ sig (Elt F))).Forall (KeepsArgs) :=
  ⟨keeps_of main_call1_v0 (by decide), keeps_of main_call1_v1 (by decide), keeps_of main_v23 (by decide)⟩
/-- No operation of `hostOps0_4` allocates a buffer. -/
theorem hostOps0_4_fresh : (hostOps0_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
/-- Every operation of `hostOps0_4` writes one reference, none of them an argument. -/
theorem hostOps0_4_keeps : (hostOps0_4 : List (HloOp τ sig (Elt F))).Forall (KeepsArgs) :=
  ⟨keeps_of main_v24 (by decide), keeps_of main_v25 (by decide), keeps_of main_v26 (by decide), keeps_of main_v27 (by decide),
   keeps_of main_v28 (by decide), keeps_of main_v29 (by decide), keeps_of main_cst_8 (by decide), keeps_of main_v30 (by decide),
   keeps_of main_c_9 (by decide), keeps_of main_v31 (by decide), keeps_of main_v32 (by decide), keeps_of main_c_10 (by decide),
   keeps_of main_v33 (by decide), keeps_of main_v34 (by decide), keeps_of main_v35 (by decide), keeps_of main_v36 (by decide),
   keeps_of main_cst_11 (by decide), keeps_of main_v37 (by decide), keeps_of main_v38 (by decide), keeps_of main_cst_12 (by decide)⟩
/-- No operation of `hostOps0_5` allocates a buffer. -/
theorem hostOps0_5_fresh : (hostOps0_5 : List (HloOp τ sig (Elt F))).Forall fun op => op.fresh = ∅ :=
  ⟨rfl, rfl, rfl⟩
/-- Every operation of `hostOps0_5` writes one reference, none of them an argument. -/
theorem hostOps0_5_keeps : (hostOps0_5 : List (HloOp τ sig (Elt F))).Forall (KeepsArgs) :=
  ⟨keeps_of main_call2_v0 (by decide), keeps_of main_call2_v1 (by decide), keeps_of main_v39 (by decide)⟩
/-- No operation of `hostOps0_6` allocates a buffer. -/
theorem hostOps0_6_fresh : (hostOps0_6 : List (HloOp τ sig (Elt F))).Forall fun op => op.fresh = ∅ :=
  ⟨rfl, rfl, rfl, rfl, rfl, rfl, rfl, rfl, rfl, rfl, rfl, rfl, rfl, rfl⟩
/-- Every operation of `hostOps0_6` writes one reference, none of them an argument. -/
theorem hostOps0_6_keeps : (hostOps0_6 : List (HloOp τ sig (Elt F))).Forall (KeepsArgs) :=
  ⟨keeps_of main_cst_13 (by decide), keeps_of main_v40 (by decide), keeps_of main_c_14 (by decide), keeps_of main_v41 (by decide),
   keeps_of main_v42 (by decide), keeps_of main_c_15 (by decide), keeps_of main_v43 (by decide), keeps_of main_v44 (by decide),
   keeps_of main_v45 (by decide), keeps_of main_v46 (by decide), keeps_of main_cst_16 (by decide), keeps_of main_v47 (by decide),
   keeps_of main_v48 (by decide), keeps_of main_cst_17 (by decide)⟩
/-- No operation of `hostOps0_7` allocates a buffer. -/
theorem hostOps0_7_fresh : (hostOps0_7 : List (HloOp τ sig (Elt F))).Forall fun op => op.fresh = ∅ :=
  ⟨rfl, rfl, rfl⟩
/-- Every operation of `hostOps0_7` writes one reference, none of them an argument. -/
theorem hostOps0_7_keeps : (hostOps0_7 : List (HloOp τ sig (Elt F))).Forall (KeepsArgs) :=
  ⟨keeps_of main_call3_v0 (by decide), keeps_of main_call3_v1 (by decide), keeps_of main_v49 (by decide)⟩
/-- No operation of `hostOps0_8` allocates a buffer. -/
theorem hostOps0_8_fresh : (hostOps0_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
/-- Every operation of `hostOps0_8` writes one reference, none of them an argument. -/
theorem hostOps0_8_keeps : (hostOps0_8 : List (HloOp τ sig (Elt F))).Forall (KeepsArgs) :=
  ⟨keeps_of main_v50 (by decide), keeps_of main_v51 (by decide), keeps_of main_v52 (by decide), keeps_of main_v53 (by decide),
   keeps_of main_v54 (by decide), keeps_of main_v55 (by decide), keeps_of main_cst_18 (by decide), keeps_of main_v56 (by decide),
   keeps_of main_c_19 (by decide), keeps_of main_v57 (by decide), keeps_of main_v58 (by decide), keeps_of main_c_20 (by decide),
   keeps_of main_v59 (by decide), keeps_of main_v60 (by decide), keeps_of main_v61 (by decide), keeps_of main_v62 (by decide),
   keeps_of main_cst_21 (by decide), keeps_of main_v63 (by decide), keeps_of main_v64 (by decide), keeps_of main_cst_22 (by decide)⟩
/-- No operation of `hostOps0_9` allocates a buffer. -/
theorem hostOps0_9_fresh : (hostOps0_9 : List (HloOp τ sig (Elt F))).Forall fun op => op.fresh = ∅ :=
  ⟨rfl, rfl, rfl⟩
/-- Every operation of `hostOps0_9` writes one reference, none of them an argument. -/
theorem hostOps0_9_keeps : (hostOps0_9 : List (HloOp τ sig (Elt F))).Forall (KeepsArgs) :=
  ⟨keeps_of main_call4_v0 (by decide), keeps_of main_call4_v1 (by decide), keeps_of main_v65 (by decide)⟩
/-- No operation of `hostOps0_10` allocates a buffer. -/
theorem hostOps0_10_fresh : (hostOps0_10 : List (HloOp τ sig (Elt F))).Forall fun op => op.fresh = ∅ :=
  ⟨rfl, rfl, rfl, rfl, rfl, rfl, rfl, rfl, rfl, rfl, rfl, rfl, rfl, rfl⟩
/-- Every operation of `hostOps0_10` writes one reference, none of them an argument. -/
theorem hostOps0_10_keeps : (hostOps0_10 : List (HloOp τ sig (Elt F))).Forall (KeepsArgs) :=
  ⟨keeps_of main_cst_23 (by decide), keeps_of main_v66 (by decide), keeps_of main_c_24 (by decide), keeps_of main_v67 (by decide),
   keeps_of main_v68 (by decide), keeps_of main_c_25 (by decide), keeps_of main_v69 (by decide), keeps_of main_v70 (by decide),
   keeps_of main_v71 (by decide), keeps_of main_v72 (by decide), keeps_of main_cst_26 (by decide), keeps_of main_v73 (by decide),
   keeps_of main_v74 (by decide), keeps_of main_cst_27 (by decide)⟩
/-- No operation of `hostOps0_11` allocates a buffer. -/
theorem hostOps0_11_fresh : (hostOps0_11 : List (HloOp τ sig (Elt F))).Forall fun op => op.fresh = ∅ :=
  ⟨rfl, rfl, rfl⟩
/-- Every operation of `hostOps0_11` writes one reference, none of them an argument. -/
theorem hostOps0_11_keeps : (hostOps0_11 : List (HloOp τ sig (Elt F))).Forall (KeepsArgs) :=
  ⟨keeps_of main_call5_v0 (by decide), keeps_of main_call5_v1 (by decide), keeps_of main_v75 (by decide)⟩
set_option maxHeartbeats 40000000 in
/-- No operation of `hostOps0_12` allocates a buffer. -/
theorem hostOps0_12_fresh : (hostOps0_12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxHeartbeats 40000000 in
/-- Every operation of `hostOps0_12` writes one reference, none of them an argument. -/
theorem hostOps0_12_keeps : (hostOps0_12 : List (HloOp τ sig (Elt F))).Forall (KeepsArgs) :=
  ⟨keeps_of main_v76 (by decide), keeps_of main_v77 (by decide), keeps_of main_v78 (by decide), keeps_of main_v79 (by decide),
   keeps_of main_v80 (by decide), keeps_of main_v81 (by decide), keeps_of main_v82 (by decide), keeps_of main_v83 (by decide),
   keeps_of main_v84 (by decide), keeps_of main_v85 (by decide), keeps_of main_v86 (by decide), keeps_of main_v87 (by decide),
   keeps_of main_v88 (by decide), keeps_of main_v89 (by decide), keeps_of main_c_28 (by decide), keeps_of main_v90 (by decide),
   keeps_of main_v91 (by decide), keeps_of main_c_29 (by decide), keeps_of main_v92 (by decide), keeps_of main_v93 (by decide),
   keeps_of main_v94 (by decide), keeps_of main_v95 (by decide), keeps_of main_v96 (by decide), keeps_of main_v97 (by decide),
   keeps_of main_v98 (by decide), keeps_of main_c_30 (by decide), keeps_of main_v99 (by decide), keeps_of main_v100 (by decide),
   keeps_of main_c_31 (by decide), keeps_of main_v101 (by decide), keeps_of main_v102 (by decide), keeps_of main_v103 (by decide),
   keeps_of main_v104 (by decide), keeps_of main_v105 (by decide), keeps_of main_v106 (by decide), keeps_of main_v107 (by decide),
   keeps_of main_v108 (by decide), keeps_of main_cst_32 (by decide), keeps_of main_v109 (by decide), keeps_of main_c_33 (by decide),
   keeps_of main_v110 (by decide), keeps_of main_v111 (by decide), keeps_of main_c_34 (by decide), keeps_of main_v112 (by decide),
   keeps_of main_v113 (by decide), keeps_of main_v114 (by decide), keeps_of main_v115 (by decide), keeps_of main_v116 (by decide),
   keeps_of main_v117 (by decide), keeps_of main_v118 (by decide), keeps_of main_v119 (by decide), keeps_of main_v120 (by decide),
   keeps_of main_c_35 (by decide), keeps_of main_v121 (by decide), keeps_of main_v122 (by decide), keeps_of main_c_36 (by decide),
   keeps_of main_v123 (by decide), keeps_of main_v124 (by decide), keeps_of main_v125 (by decide), keeps_of main_v126 (by decide),
   keeps_of main_v127 (by decide), keeps_of main_v128 (by decide), keeps_of main_v129 (by decide), keeps_of main_c_37 (by decide),
   keeps_of main_v130 (by decide), keeps_of main_v131 (by decide), keeps_of main_c_38 (by decide), keeps_of main_v132 (by decide),
   keeps_of main_v133 (by decide), keeps_of main_v134 (by decide), keeps_of main_v135 (by decide), keeps_of main_v136 (by decide),
   keeps_of main_v137 (by decide), keeps_of main_v138 (by decide), keeps_of main_v139 (by decide), keeps_of main_cst_39 (by decide),
   keeps_of main_v140 (by decide), keeps_of main_c_40 (by decide), keeps_of main_v141 (by decide), keeps_of main_v142 (by decide),
   keeps_of main_c_41 (by decide), keeps_of main_v143 (by decide), keeps_of main_v144 (by decide), keeps_of main_v145 (by decide),
   keeps_of main_v146 (by decide), keeps_of main_v147 (by decide), keeps_of main_v148 (by decide), keeps_of main_v149 (by decide),
   keeps_of main_v150 (by decide), keeps_of main_v151 (by decide), keeps_of main_c_42 (by decide), keeps_of main_v152 (by decide),
   keeps_of main_v153 (by decide), keeps_of main_c_43 (by decide), keeps_of main_v154 (by decide), keeps_of main_v155 (by decide),
   keeps_of main_v156 (by decide), keeps_of main_v157 (by decide), keeps_of main_v158 (by decide), keeps_of main_v159 (by decide),
   keeps_of main_v160 (by decide), keeps_of main_c_44 (by decide), keeps_of main_v161 (by decide), keeps_of main_v162 (by decide),
   keeps_of main_c_45 (by decide), keeps_of main_v163 (by decide), keeps_of main_v164 (by decide), keeps_of main_v165 (by decide),
   keeps_of main_v166 (by decide), keeps_of main_v167 (by decide), keeps_of main_v168 (by decide), keeps_of main_v169 (by decide),
   keeps_of main_v170 (by decide), keeps_of main_cst_46 (by decide), keeps_of main_v171 (by decide), keeps_of main_c_47 (by decide),
   keeps_of main_v172 (by decide), keeps_of main_v173 (by decide), keeps_of main_c_48 (by decide), keeps_of main_v174 (by decide),
   keeps_of main_v175 (by decide), keeps_of main_v176 (by decide), keeps_of main_v177 (by decide), keeps_of main_v178 (by decide),
   keeps_of main_v179 (by decide), keeps_of main_v180 (by decide), keeps_of main_v181 (by decide), keeps_of main_v182 (by decide)⟩
set_option maxHeartbeats 40000000 in
/-- No operation of `hostOps1` allocates a buffer. -/
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl⟩
set_option maxHeartbeats 40000000 in
/-- Every operation of `hostOps1` writes one reference, none of them an argument. -/
theorem hostOps1_keeps : (hostOps1 : List (HloOp τ sig (Elt F))).Forall (KeepsArgs) :=
  ⟨keeps_of main_v184 (by decide), keeps_of main_v185 (by decide), keeps_of main_v186 (by decide), keeps_of main_v187 (by decide),
   keeps_of main_c_49 (by decide), keeps_of main_v188 (by decide), keeps_of main_v189 (by decide), keeps_of main_c_50 (by decide),
   keeps_of main_v190 (by decide), keeps_of main_v191 (by decide), keeps_of main_v192 (by decide), keeps_of main_v193 (by decide),
   keeps_of main_v194 (by decide), keeps_of main_v195 (by decide), keeps_of main_v196 (by decide), keeps_of main_c_51 (by decide),
   keeps_of main_v197 (by decide), keeps_of main_v198 (by decide), keeps_of main_c_52 (by decide), keeps_of main_v199 (by decide),
   keeps_of main_v200 (by decide), keeps_of main_v201 (by decide), keeps_of main_v202 (by decide), keeps_of main_v203 (by decide),
   keeps_of main_v204 (by decide), keeps_of main_v205 (by decide), keeps_of main_v206 (by decide), keeps_of main_cst_53 (by decide),
   keeps_of main_v207 (by decide), keeps_of main_c_54 (by decide), keeps_of main_v208 (by decide), keeps_of main_v209 (by decide),
   keeps_of main_c_55 (by decide), keeps_of main_v210 (by decide), keeps_of main_v211 (by decide), keeps_of main_v212 (by decide),
   keeps_of main_v213 (by decide), keeps_of main_v214 (by decide), keeps_of main_v215 (by decide), keeps_of main_v216 (by decide),
   keeps_of main_v217 (by decide), keeps_of main_v218 (by decide), keeps_of main_c_56 (by decide), keeps_of main_v219 (by decide),
   keeps_of main_v220 (by decide), keeps_of main_c_57 (by decide), keeps_of main_v221 (by decide), keeps_of main_v222 (by decide),
   keeps_of main_v223 (by decide), keeps_of main_v224 (by decide), keeps_of main_v225 (by decide), keeps_of main_v226 (by decide),
   keeps_of main_v227 (by decide), keeps_of main_c_58 (by decide), keeps_of main_v228 (by decide), keeps_of main_v229 (by decide),
   keeps_of main_c_59 (by decide), keeps_of main_v230 (by decide), keeps_of main_v231 (by decide), keeps_of main_v232 (by decide),
   keeps_of main_v233 (by decide), keeps_of main_v234 (by decide), keeps_of main_v235 (by decide), keeps_of main_v236 (by decide),
   keeps_of main_v237 (by decide), keeps_of main_cst_60 (by decide), keeps_of main_v238 (by decide), keeps_of main_c_61 (by decide),
   keeps_of main_v239 (by decide), keeps_of main_v240 (by decide), keeps_of main_c_62 (by decide), keeps_of main_v241 (by decide),
   keeps_of main_v242 (by decide), keeps_of main_v243 (by decide), keeps_of main_v244 (by decide), keeps_of main_v245 (by decide),
   keeps_of main_v246 (by decide), keeps_of main_v247 (by decide), keeps_of main_v248 (by decide), keeps_of main_v249 (by decide),
   keeps_of main_c_63 (by decide), keeps_of main_v250 (by decide), keeps_of main_v251 (by decide), keeps_of main_c_64 (by decide),
   keeps_of main_v252 (by decide), keeps_of main_v253 (by decide), keeps_of main_v254 (by decide), keeps_of main_v255 (by decide),
   keeps_of main_v256 (by decide), keeps_of main_v257 (by decide), keeps_of main_v258 (by decide), keeps_of main_c_65 (by decide),
   keeps_of main_v259 (by decide), keeps_of main_v260 (by decide), keeps_of main_c_66 (by decide), keeps_of main_v261 (by decide),
   keeps_of main_v262 (by decide), keeps_of main_v263 (by decide), keeps_of main_v264 (by decide), keeps_of main_v265 (by decide),
   keeps_of main_v266 (by decide), keeps_of main_v267 (by decide), keeps_of main_v268 (by decide), keeps_of main_cst_67 (by decide),
   keeps_of main_v269 (by decide), keeps_of main_c_68 (by decide), keeps_of main_v270 (by decide), keeps_of main_v271 (by decide),
   keeps_of main_c_69 (by decide), keeps_of main_v272 (by decide), keeps_of main_v273 (by decide), keeps_of main_v274 (by decide),
   keeps_of main_v275 (by decide), keeps_of main_v276 (by decide), keeps_of main_v277 (by decide), keeps_of main_v278 (by decide),
   keeps_of main_v279 (by decide), keeps_of main_v280 (by decide)⟩
/-- No operation of `hostOps2` allocates a buffer. -/
theorem hostOps2_fresh : (hostOps2 : List (HloOp τ sig (Elt F))).Forall fun op => op.fresh = ∅ :=
  ⟨rfl, rfl, rfl, rfl, rfl, rfl, rfl, rfl, rfl, rfl, rfl⟩
/-- Every operation of `hostOps2` writes one reference, none of them an argument. -/
theorem hostOps2_keeps : (hostOps2 : List (HloOp τ sig (Elt F))).Forall (KeepsArgs) :=
  ⟨keeps_of main_cst_70 (by decide), keeps_of main_v282 (by decide), keeps_of main_cst_71 (by decide), keeps_of main_v283 (by decide),
   keeps_of main_v284 (by decide), keeps_of main_v285 (by decide), keeps_of main_cst_72 (by decide), keeps_of main_v286 (by decide),
   keeps_of main_v287 (by decide), keeps_of main_v288 (by decide), keeps_of main_cst_73 (by decide)⟩
/-- No operation of `hostOps2_1` allocates a buffer. -/
theorem hostOps2_1_fresh : (hostOps2_1 : List (HloOp τ sig (Elt F))).Forall fun op => op.fresh = ∅ :=
  ⟨rfl, rfl, rfl⟩
/-- Every operation of `hostOps2_1` writes one reference, none of them an argument. -/
theorem hostOps2_1_keeps : (hostOps2_1 : List (HloOp τ sig (Elt F))).Forall (KeepsArgs) :=
  ⟨keeps_of main_call6_v0 (by decide), keeps_of main_call6_v1 (by decide), keeps_of main_v289 (by decide)⟩
/-- No operation of `hostOps2_2` allocates a buffer. -/
theorem hostOps2_2_fresh : (hostOps2_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- Every operation of `hostOps2_2` writes one reference, none of them an argument. -/
theorem hostOps2_2_keeps : (hostOps2_2 : List (HloOp τ sig (Elt F))).Forall (KeepsArgs) :=
  ⟨keeps_of main_v290 (by decide), keeps_of main_v291 (by decide), keeps_of main_v292 (by decide), keeps_of main_v293 (by decide),
   keeps_of main_v294 (by decide), keeps_of main_v295 (by decide), keeps_of main_v296 (by decide), keeps_of main_cst_74 (by decide),
   keeps_of main_v297 (by decide), keeps_of main_cst_75 (by decide), keeps_of main_v298 (by decide), keeps_of main_v299 (by decide),
   keeps_of main_v300 (by decide), keeps_of main_v301 (by decide), keeps_of main_v302 (by decide), keeps_of main_v303 (by decide),
   keeps_of main_cst_76 (by decide), keeps_of main_v304 (by decide), keeps_of main_v305 (by decide), keeps_of main_v306 (by decide),
   keeps_of main_v307 (by decide)⟩

/-! ## The buffer contents at each segment boundary -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4`. -/
abbrev W5 : Dev nD → Valuation τ sig (Elt F) := fun c => StableHlo.after hostOps0_4 (W4 m ρ c)
/-- After `hostOps0_5`. -/
abbrev W6 : Dev nD → Valuation τ sig (Elt F) := fun c => StableHlo.after hostOps0_5 (W5 m ρ c)
/-- After `hostOps0_6`. -/
abbrev W7 : Dev nD → Valuation τ sig (Elt F) := fun c => StableHlo.after hostOps0_6 (W6 m ρ c)
/-- After `hostOps0_7`. -/
abbrev W8 : Dev nD → Valuation τ sig (Elt F) := fun c => StableHlo.after hostOps0_7 (W7 m ρ c)
/-- After `hostOps0_8`. -/
abbrev W9 : Dev nD → Valuation τ sig (Elt F) := fun c => StableHlo.after hostOps0_8 (W8 m ρ c)
/-- After `hostOps0_9`. -/
abbrev W10 : Dev nD → Valuation τ sig (Elt F) := fun c => StableHlo.after hostOps0_9 (W9 m ρ c)
/-- After `hostOps0_10`. -/
abbrev W11 : Dev nD → Valuation τ sig (Elt F) := fun c => StableHlo.after hostOps0_10 (W10 m ρ c)
/-- After `hostOps0_11`. -/
abbrev W12 : Dev nD → Valuation τ sig (Elt F) := fun c => StableHlo.after hostOps0_11 (W11 m ρ c)
/-- After `hostOps0_12` (region 0's entry). -/
abbrev W13 : Dev nD → Valuation τ sig (Elt F) := fun c => StableHlo.after hostOps0_12 (W12 m ρ c)

/-- Region 0's entry contents are the thirteen stretches folded over the launch contents. -/
theorem W13_eq (c : Dev nD) : W13 m ρ c = StableHlo.after hostOps0_12 (StableHlo.after hostOps0_11 (StableHlo.after hostOps0_10
    (StableHlo.after hostOps0_9 (StableHlo.after hostOps0_8 (StableHlo.after hostOps0_7 (StableHlo.after hostOps0_6
    (StableHlo.after hostOps0_5 (StableHlo.after hostOps0_4 (StableHlo.after hostOps0_3 (StableHlo.after hostOps0_2
    (StableHlo.after hostOps0_1 (StableHlo.after hostOps0 (W0 m ρ c))))))))))))) := rfl
/-- The same read at the TensorCore's references (what region 0's proof data take). -/
abbrev V13 : (c : Dev nD) → (b : Ref sig .tc) → Buf (Elt F) ((c : Thread nD τ).loc b) := fun c b => W13 m ρ c b
/-- At region 0's exit: its arrays at what the pipeline leaves (the inputs as entered, the output's write-backs folded),
    every other buffer as entered. -/
def W14 (c : Dev nD) : Valuation τ sig (Elt F) :=
  Pipeline.withArrays spec0 c (W13 m ρ c) fun w => (dat0 (V13 m ρ) c).arrAt w cfg0.N
theorem W14_arr (c : Dev nD) (w : Fin cfg0.W) :
    W14 m ρ c (Proc.devRef .tc (Pipeline.arrRef spec0 w)) = (dat0 (V13 m ρ) c).arrAt w cfg0.N := by
  unfold W14; exact Pipeline.withArrays_arr spec0 launch0.win.arr_inj c _ _ w
theorem W14_of_ne (c : Dev nD) (b : Ref sig .tc) (hb : ∀ w, Pipeline.arrRef spec0 w ≠ b) :
    W14 m ρ c (Proc.devRef .tc b) = W13 m ρ c (Proc.devRef .tc b) := by
  unfold W14; exact Pipeline.withArrays_of_ne spec0 c _ _ b hb
/-- Region 0's output array (`main_v183`) at its exit: the write-backs folded. -/
theorem W14_out (c : Dev nD) : W14 m ρ c (Proc.devRef .tc main_v183) = (dat0 (V13 m ρ) c).arrAt 4 cfg0.N := W14_arr m ρ c 4
/-- The same read at the TensorCore's references (region 0's exit contents). -/
abbrev V14 : (c : Dev nD) → (b : Ref sig .tc) → Buf (Elt F) ((c : Thread nD τ).loc b) := fun c b => W14 m ρ c b
theorem hF0 (c : Dev nD) (w : Fin cfg0.W) : (dat0 (V13 m ρ) c).arrAt w cfg0.N = V14 m ρ c (Pipeline.arrRef spec0 w) :=
  (W14_arr m ρ c w).symm
theorem hrest0 (c : Dev nD) : ∀ b, b ∉ Finset.univ.image (Pipeline.arrRef spec0) → V14 m ρ c b = V13 m ρ c b :=
  fun b hb => W14_of_ne m ρ c b fun w e => hb (Finset.mem_image.mpr ⟨w, Finset.mem_univ _, e⟩)

/-- After `hostOps1` (region 1's entry). -/
abbrev W15 : Dev nD → Valuation τ sig (Elt F) := fun c => StableHlo.after hostOps1 (W14 m ρ c)
/-- The same read at the TensorCore's references (what region 1's proof data take). -/
abbrev V15 : (c : Dev nD) → (b : Ref sig .tc) → Buf (Elt F) ((c : Thread nD τ).loc b) := fun c b => W15 m ρ c b
/-- At region 1's exit. -/
def W16 (c : Dev nD) : Valuation τ sig (Elt F) :=
  Pipeline.withArrays spec1 c (W15 m ρ c) fun w => (dat1 (V15 m ρ) c).arrAt w cfg1.N
theorem W16_arr (c : Dev nD) (w : Fin cfg1.W) :
    W16 m ρ c (Proc.devRef .tc (Pipeline.arrRef spec1 w)) = (dat1 (V15 m ρ) c).arrAt w cfg1.N := by
  unfold W16; exact Pipeline.withArrays_arr spec1 launch1.win.arr_inj c _ _ w
theorem W16_of_ne (c : Dev nD) (b : Ref sig .tc) (hb : ∀ w, Pipeline.arrRef spec1 w ≠ b) :
    W16 m ρ c (Proc.devRef .tc b) = W15 m ρ c (Proc.devRef .tc b) := by
  unfold W16; exact Pipeline.withArrays_of_ne spec1 c _ _ b hb
/-- Region 1's output array (`main_v281`) at its exit: the write-backs folded. -/
theorem W16_out (c : Dev nD) : W16 m ρ c (Proc.devRef .tc main_v281) = (dat1 (V15 m ρ) c).arrAt 4 cfg1.N := W16_arr m ρ c 4
/-- The same read at the TensorCore's references (region 1's exit contents). -/
abbrev V16 : (c : Dev nD) → (b : Ref sig .tc) → Buf (Elt F) ((c : Thread nD τ).loc b) := fun c b => W16 m ρ c b
theorem hF1 (c : Dev nD) (w : Fin cfg1.W) : (dat1 (V15 m ρ) c).arrAt w cfg1.N = V16 m ρ c (Pipeline.arrRef spec1 w) :=
  (W16_arr m ρ c w).symm
theorem hrest1 (c : Dev nD) : ∀ b, b ∉ Finset.univ.image (Pipeline.arrRef spec1) → V16 m ρ c b = V15 m ρ c b :=
  fun b hb => W16_of_ne m ρ c b fun w e => hb (Finset.mem_image.mpr ⟨w, Finset.mem_univ _, e⟩)

/-- After `hostOps2`, -/
abbrev W17 : Dev nD → Valuation τ sig (Elt F) := fun c => StableHlo.after hostOps2 (W16 m ρ c)
/-- after `hostOps2_1`, -/
abbrev W18 : Dev nD → Valuation τ sig (Elt F) := fun c => StableHlo.after hostOps2_1 (W17 m ρ c)
/-- and after `hostOps2_2`: the contents @main returns with. -/
abbrev W19 : Dev nD → Valuation τ sig (Elt F) := fun c => StableHlo.after hostOps2_2 (W18 m ρ c)
theorem W19_eq (c : Dev nD) : W19 m ρ c = StableHlo.after hostOps2_2 (StableHlo.after hostOps2_1 (StableHlo.after hostOps2 (W16 m ρ c))) := rfl

/-! ## The arguments end as launched -/

/-- Region 0 leaves every argument as it found it: an argument among its arrays (`main_arg4`, `main_arg5`) is an
    input window's, which ends as entered; any other bypasses the region. -/
theorem W14_arg (c : Dev nD) (b : Ref sig .tc) (hb : b.idx.val < 10) :
    W14 m ρ c (Proc.devRef .tc b) = W13 m ρ c (Proc.devRef .tc b) := by
  by_cases h : ∃ w, Pipeline.arrRef spec0 w = b
  · obtain ⟨w, rfl⟩ := h
    have hw : w = 2 ∨ w = 3 := by
      revert hb; revert w; decide
    rcases hw with rfl | rfl
    · exact (W14_arr m ρ c 2).trans (((dat0 (V13 m ρ) c).arrAt_in 2 rfl _).trans (A_eq0 (V13 m ρ) c 2))
    · exact (W14_arr m ρ c 3).trans (((dat0 (V13 m ρ) c).arrAt_in 3 rfl _).trans (A_eq0 (V13 m ρ) c 3))
  · exact W14_of_ne m ρ c b fun w e => h ⟨w, e⟩

/-- Region 1 likewise (`main_arg6`, `main_arg7` are its input windows 2 and 3). -/
theorem W16_arg (c : Dev nD) (b : Ref sig .tc) (hb : b.idx.val < 10) :
    W16 m ρ c (Proc.devRef .tc b) = W15 m ρ c (Proc.devRef .tc b) := by
  by_cases h : ∃ w, Pipeline.arrRef spec1 w = b
  · obtain ⟨w, rfl⟩ := h
    have hw : w = 2 ∨ w = 3 := by
      revert hb; revert w; decide
    rcases hw with rfl | rfl
    · exact (W16_arr m ρ c 2).trans (((dat1 (V15 m ρ) c).arrAt_in 2 rfl _).trans (A_eq1 (V15 m ρ) c 2))
    · exact (W16_arr m ρ c 3).trans (((dat1 (V15 m ρ) c).arrAt_in 3 rfl _).trans (A_eq1 (V15 m ρ) c 3))
  · exact W16_of_ne m ρ c b fun w e => h ⟨w, e⟩

/-- Region 0's entry contents at an argument: the launch contents. -/
theorem W13_arg (c : Dev nD) (b : Ref sig .tc) (hb : b.idx.val < 10) :
    W13 m ρ c (Proc.devRef .tc b) = m ((c : Thread nD τ).loc b) :=
  (after_keeps hostOps0_12 hostOps0_12_keeps _ b hb).trans <| (after_keeps hostOps0_11 hostOps0_11_keeps _ b hb).trans <|
  (after_keeps hostOps0_10 hostOps0_10_keeps _ b hb).trans <| (after_keeps hostOps0_9 hostOps0_9_keeps _ b hb).trans <|
  (after_keeps hostOps0_8 hostOps0_8_keeps _ b hb).trans <| (after_keeps hostOps0_7 hostOps0_7_keeps _ b hb).trans <|
  (after_keeps hostOps0_6 hostOps0_6_keeps _ b hb).trans <| (after_keeps hostOps0_5 hostOps0_5_keeps _ b hb).trans <|
  (after_keeps hostOps0_4 hostOps0_4_keeps _ b hb).trans <| (after_keeps hostOps0_3 hostOps0_3_keeps _ b hb).trans <|
  (after_keeps hostOps0_2 hostOps0_2_keeps _ b hb).trans <| (after_keeps hostOps0_1 hostOps0_1_keeps _ b hb).trans <|
  (after_keeps hostOps0 hostOps0_keeps _ b hb).trans rfl

/-- Every argument's buffer ends holding its launch contents. -/
theorem W19_arg (c : Dev nD) (b : Ref sig .tc) (hb : b.idx.val < 10) :
    W19 m ρ c (Proc.devRef .tc b) = m ((c : Thread nD τ).loc b) :=
  (after_keeps hostOps2_2 hostOps2_2_keeps _ b hb).trans <| (after_keeps hostOps2_1 hostOps2_1_keeps _ b hb).trans <|
  (after_keeps hostOps2 hostOps2_keeps _ b hb).trans <| (W16_arg m ρ c b hb).trans <|
  (after_keeps hostOps1 hostOps1_keeps _ b hb).trans <| (W14_arg m ρ c b hb).trans <| W13_arg m ρ c b hb

theorem W19_main_arg0 (c : Dev nD) : W19 m ρ c (Proc.devRef .tc main_arg0) = m ((c : Thread nD τ).loc main_arg0) :=
  W19_arg m ρ c main_arg0 (by decide)
theorem W19_main_arg1 (c : Dev nD) : W19 m ρ c (Proc.devRef .tc main_arg1) = m ((c : Thread nD τ).loc main_arg1) :=
  W19_arg m ρ c main_arg1 (by decide)
theorem W19_main_arg2 (c : Dev nD) : W19 m ρ c (Proc.devRef .tc main_arg2) = m ((c : Thread nD τ).loc main_arg2) :=
  W19_arg m ρ c main_arg2 (by decide)
theorem W19_main_arg3 (c : Dev nD) : W19 m ρ c (Proc.devRef .tc main_arg3) = m ((c : Thread nD τ).loc main_arg3) :=
  W19_arg m ρ c main_arg3 (by decide)
theorem W19_main_arg4 (c : Dev nD) : W19 m ρ c (Proc.devRef .tc main_arg4) = m ((c : Thread nD τ).loc main_arg4) :=
  W19_arg m ρ c main_arg4 (by decide)
theorem W19_main_arg5 (c : Dev nD) : W19 m ρ c (Proc.devRef .tc main_arg5) = m ((c : Thread nD τ).loc main_arg5) :=
  W19_arg m ρ c main_arg5 (by decide)
theorem W19_main_arg6 (c : Dev nD) : W19 m ρ c (Proc.devRef .tc main_arg6) = m ((c : Thread nD τ).loc main_arg6) :=
  W19_arg m ρ c main_arg6 (by decide)
theorem W19_main_arg7 (c : Dev nD) : W19 m ρ c (Proc.devRef .tc main_arg7) = m ((c : Thread nD τ).loc main_arg7) :=
  W19_arg m ρ c main_arg7 (by decide)
theorem W19_main_arg8 (c : Dev nD) : W19 m ρ c (Proc.devRef .tc main_arg8) = m ((c : Thread nD τ).loc main_arg8) :=
  W19_arg m ρ c main_arg8 (by decide)
theorem W19_main_arg9 (c : Dev nD) : W19 m ρ c (Proc.devRef .tc main_arg9) = m ((c : Thread nD τ).loc main_arg9) :=
  W19_arg m ρ c main_arg9 (by decide)

end Cert.KernelIdeal.KFrame

end
-- ==== Proof.KFrameRun.lean ====
/- The frame run of the kernel program's @main at any float instance: its nineteen segments (thirteen host stretches,
   the first layer's region, a host stretch, the second layer's region, three host stretches) run over the thread
   state "every unscoped buffer at the boundary's contents, the generator register at some state, nothing owed"; the
   run ends with every unscoped buffer at the last boundary's contents, and each argument array at its launch
   contents. -/
import proofs.«118654_j25211458027582_2_alg».proof.Proof.KFrameW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KFrame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V13 m ρ) c
  | ⟨1, _⟩ => fun c => dat1 (V15 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W19`, the
    generator register at some state. -/
abbrev Tₙ (c : Dev nD) : sProp 𝕄 := iprop(StableHlo.held (c : Thread nD τ) (Pipeline.ucRefs τ sig) (W19 m ρ c) ∗ ∃ r, prngReg c r)

/-- The last host stretch's exit state is the last thread state beside the core owing nothing. -/
theorem last_state (c : Dev nD) : iprop(StableHlo.held (c : Thread nD τ) (Pipeline.ucRefs τ sig) (W19 m ρ c) ∗ R c)
    ⊢ iprop(Tₙ m ρ c ∗ ∃ W, owes (c : Thread nD τ) (0 : CellTallies nD τ sig Unit) W) := by
  iintro ⟨Hh, Hp, Ho⟩
  isplitl [Hh Hp]
  · isplitl [Hh]; · iexact Hh
    iexact Hp
  iexact Ho

/-! ## The regions as segments -/

-- `iapply` of a library lemma stated over `pin pcs a p` unifies with the pinned configuration only when unification may
-- unfold plain definitions in a metavariable's type
set_option backward.isDefEq.respectTransparency.types false in
/-- Region 0 (custom_call 0) over the thread state: entered from every unscoped buffer at `W13`, left at `W14`.
    Its arrays are split out of the unscoped buffers and put back at the exit contents; the generator register goes
    into the class invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V13 m ρ) c).loose
  hwaits := Pipeline.hwaits_of_owed_zero _ _ _ _ L lv 0 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec0 c (V13 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V13 m ρ c) (V14 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 (custom_call 1) over the thread state: entered from every unscoped buffer at `W15`, left at `W16`.
    Its arrays are split out of the unscoped buffers and put back at the exit contents; the generator register goes
    into the class invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V15 m ρ) c).loose
  hwaits := Pipeline.hwaits_of_owed_zero _ _ _ _ L lv 1 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec1 c (V15 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V15 m ρ c) (V16 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 19 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .region (reg0 m ρ),
    .host (hseg hostOps1 hostOps1_sub hostOps1_fresh (W14 m ρ)),
    .region (reg1 m ρ),
    .host (hseg hostOps2 hostOps2_sub hostOps2_fresh (W16 m ρ)),
    .host (hseg hostOps2_1 hostOps2_1_sub hostOps2_1_fresh (W17 m ρ)),
    .host (hseg hostOps2_2 hostOps2_2_sub hostOps2_2_fresh (W18 m ρ)) ]

set_option maxHeartbeats 40000000 in
/-- @main IS the run of the segments: the chain of its items, against which the segments' run is checked by
    definitional unfolding. -/
theorem main_run (c : Dev nD) : main (F := F) c = Pipeline.Seg.run (segs m ρ) := (main_chain c).trans (by chain_rfl)

set_option maxHeartbeats 40000000 in
-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has each unscoped buffer at the last boundary's
    contents `W19`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h => h)

/-- THE FRAME: the frame claim's statement at any `F` — every weakly fair execution of @main terminates, nothing
    faulting, and every final state has the ten argument arrays as launched: the run's post read at each argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W19_main_arg0 m ρ c),
     (h c _ (mem_uc main_arg1 (by decide))).trans (W19_main_arg1 m ρ c),
     (h c _ (mem_uc main_arg2 (by decide))).trans (W19_main_arg2 m ρ c),
     (h c _ (mem_uc main_arg3 (by decide))).trans (W19_main_arg3 m ρ c),
     (h c _ (mem_uc main_arg4 (by decide))).trans (W19_main_arg4 m ρ c),
     (h c _ (mem_uc main_arg5 (by decide))).trans (W19_main_arg5 m ρ c),
     (h c _ (mem_uc main_arg6 (by decide))).trans (W19_main_arg6 m ρ c),
     (h c _ (mem_uc main_arg7 (by decide))).trans (W19_main_arg7 m ρ c),
     (h c _ (mem_uc main_arg8 (by decide))).trans (W19_main_arg8 m ρ c),
     (h c _ (mem_uc main_arg9 (by decide))).trans (W19_main_arg9 m ρ c)⟩)
    (run_main m ρ)

/-- info: 'Cert.KernelIdeal.KFrame.frame' depends on axioms: [propext, Classical.choice, Quot.sound] -/
#guard_msgs in #print axioms frame

end Cert.KernelIdeal.KFrame

end
-- ==== Proof.KFrameBR0.lean ====
/- Region 0 of the word-level kernel program (the first relational graph-convolution layer's pallas_call), at any float
   instance and at a PARAMETER `V`, the TensorCore's buffer contents when the region is entered: each window's block
   at a grid point, what the body leaves in the output window's staging buffer as a function of the four input blocks
   (one whole-buffer store), the body's triple, the pipeline's proof data and the body obligation. -/
import proofs.«118654_j25211458027582_2_alg».proof.Proof.Gen.Kernel.Launch
import proofs.«118654_j25211458027582_2_alg».proof.Proof.Gen.Kernel.Skeleton
import proofs.«118654_j25211458027582_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KFrame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 of @main: custom_call 0, `cc0__relation_conv_kernel` (pipeline 0), at the entry contents `V` -/

section Region0
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched
    input's block index has not moved, so the block the point before left is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not: an unfetched
    input's block index has not moved, so the block the point before left is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not: an unfetched
    input's block index has not moved, so the block the point before left is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not: an unfetched
    input's block index has not moved, so the block the point before left is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through a literal rectangle -/

/-- The whole [4000,3] block of the scaling factors. -/
abbrev rS0 : Rect S4000x3 := Rect.unit (s := S4000x3) ![0, 0] S4000x3.size inb_S4000x3_S4000x3_0_0
/-- Relation `r`'s [1,4000,128] slab of the aggregated rows. -/
abbrev rA0_0 : Rect S3x4000x128 := Rect.unit (s := S3x4000x128) ![0, 0, 0] S1x4000x128.size inb_S3x4000x128_S1x4000x128_0_0_0
abbrev rA0_1 : Rect S3x4000x128 := Rect.unit (s := S3x4000x128) ![1, 0, 0] S1x4000x128.size inb_S3x4000x128_S1x4000x128_1_0_0
abbrev rA0_2 : Rect S3x4000x128 := Rect.unit (s := S3x4000x128) ![2, 0, 0] S1x4000x128.size inb_S3x4000x128_S1x4000x128_2_0_0
/-- Relation `r`'s [1,128,128] weight matrix. -/
abbrev rW0_0 : Rect S3x128x128 := Rect.unit (s := S3x128x128) ![0, 0, 0] S1x128x128.size inb_S3x128x128_S1x128x128_0_0_0
abbrev rW0_1 : Rect S3x128x128 := Rect.unit (s := S3x128x128) ![1, 0, 0] S1x128x128.size inb_S3x128x128_S1x128x128_1_0_0
abbrev rW0_2 : Rect S3x128x128 := Rect.unit (s := S3x128x128) ![2, 0, 0] S1x128x128.size inb_S3x128x128_S1x128x128_2_0_0
/-- The whole [3,128] block of the biases. -/
abbrev rB0 : Rect S3x128 := Rect.unit (s := S3x128) ![0, 0] S3x128.size inb_S3x128_S3x128_0_0
/-- The whole [4000,128] output block. -/
abbrev rO0 : Rect S4000x128 := Rect.unit (s := S4000x128) ![0, 0] S4000x128.size inb_S4000x128_S4000x128_0_0

/-! ## What the body leaves in the output window's buffer -/

/-- Window 4's staging buffer after the body, from the four input windows' blocks: ONE store through the whole
    rectangle, of the sum over the three relations of (slab × scaling column) · weight, plus the summed biases, clamped below at zero. -/
def out0_4 (x0 : Vec F S3x4000x128 .f32) (x1 : Vec F S4000x3 .f32) (x2 : Vec F S3x128x128 .f32) (x3 : Vec F S3x128 .f32) : Vec F S4000x128 .f32 :=
  View.canon [⟨rO0, k0_pay1
    (k0_pay3 (View.ld x1 rS0) (View.ld x0 rA0_0) (View.ld x2 rW0_0) (View.ld x0 rA0_1) (View.ld x2 rW0_1))
    (k0_pay4 (View.ld x1 rS0) (View.ld x0 rA0_2) (View.ld x2 rW0_2))
    (View.ld x3 rB0)⟩]

/-- The one store tiles the buffer, so it covers it. -/
theorem cover0_4 (p0 : Vec F S4000x128 .f32) (y : S4000x128.Idx) :
    ∃ pc ∈ ([⟨rO0, p0⟩] : List (View.Piece (Elt F) S4000x128 .f32)), y ∈ pc.1.set :=
  View.cover_of_tiled [⟨rO0, p0⟩] S4000x128.size (by rfl) y

/-! ## The body's triple -/

set_option maxHeartbeats 4000000 in
/-- The kernel body on whole staging memrefs, the four inputs' at read contents `x0 … x3` and the output's at
    anything, runs to the continuation holding the inputs' as they were and the output's at `out0_4` of the inputs':
    the part loads the scaling block, then slab and weight matrix per relation; the body loads the biases, loads the
    output buffer (a value nothing reads) and stores the payload through the whole rectangle. -/
theorem sound_kernel0 (c : Dev nD) (E : Set ℕ) (i : grid0.Coords) (arg1 : Memref sig .tc .vmem S3x4000x128 .f32) (harg1 : arg1.IsWhole) (arg2 : Memref sig .tc .vmem S4000x3 .f32) (harg2 : arg2.IsWhole) (arg3 : Memref sig .tc .vmem S3x128x128 .f32) (harg3 : arg3.IsWhole) (arg4 : Memref sig .tc .vmem S3x128 .f32) (harg4 : arg4.IsWhole) (arg5 : Memref sig .tc .vmem S4000x128 .f32) (harg5 : arg5.IsWhole)
    (x0 : Vec F S3x4000x128 .f32) (x1 : Vec F S4000x3 .f32) (x2 : Vec F S3x128x128 .f32) (x3 : Vec F S3x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__relation_conv_kernel i arg1 harg1 arg2 harg2 arg3 harg3 arg4 harg4 arg5 harg5) K := by
  simp only [cc0__relation_conv_kernel_eq_skeleton]; unfold cc0__relation_conv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core `c`: the arrays as the region finds them (`V`); after the body at point
    `t` each input's buffer at its block and the output's at `out0_4` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.KFrame

end
-- ==== Proof.KFrameBR1.lean ====
/- Region 1 of the word-level kernel program (the second relational graph-convolution layer's pallas_call), at any float
   instance and at a PARAMETER `V`, the TensorCore's buffer contents when the region is entered: each window's block
   at a grid point, what the body leaves in the output window's staging buffer as a function of the four input blocks
   (one whole-buffer store), the body's triple, the pipeline's proof data and the body obligation. -/
import proofs.«118654_j25211458027582_2_alg».proof.Proof.Gen.Kernel.Launch
import proofs.«118654_j25211458027582_2_alg».proof.Proof.Gen.Kernel.Skeleton
import proofs.«118654_j25211458027582_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KFrame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 of @main: custom_call 1, `cc1__relation_conv_kernel` (pipeline 1), at the entry contents `V` -/

section Region1
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: an unfetched
    input's block index has not moved, so the block the point before left is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not: an unfetched
    input's block index has not moved, so the block the point before left is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not: an unfetched
    input's block index has not moved, so the block the point before left is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not: an unfetched
    input's block index has not moved, so the block the point before left is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through a literal rectangle -/

/-- The whole [4000,3] block of the scaling factors. -/
abbrev rS1 : Rect S4000x3 := Rect.unit (s := S4000x3) ![0, 0] S4000x3.size inb_S4000x3_S4000x3_0_0
/-- Relation `r`'s [1,4000,128] slab of the aggregated rows. -/
abbrev rA1_0 : Rect S3x4000x128 := Rect.unit (s := S3x4000x128) ![0, 0, 0] S1x4000x128.size inb_S3x4000x128_S1x4000x128_0_0_0
abbrev rA1_1 : Rect S3x4000x128 := Rect.unit (s := S3x4000x128) ![1, 0, 0] S1x4000x128.size inb_S3x4000x128_S1x4000x128_1_0_0
abbrev rA1_2 : Rect S3x4000x128 := Rect.unit (s := S3x4000x128) ![2, 0, 0] S1x4000x128.size inb_S3x4000x128_S1x4000x128_2_0_0
/-- Relation `r`'s [1,128,128] weight matrix. -/
abbrev rW1_0 : Rect S3x128x128 := Rect.unit (s := S3x128x128) ![0, 0, 0] S1x128x128.size inb_S3x128x128_S1x128x128_0_0_0
abbrev rW1_1 : Rect S3x128x128 := Rect.unit (s := S3x128x128) ![1, 0, 0] S1x128x128.size inb_S3x128x128_S1x128x128_1_0_0
abbrev rW1_2 : Rect S3x128x128 := Rect.unit (s := S3x128x128) ![2, 0, 0] S1x128x128.size inb_S3x128x128_S1x128x128_2_0_0
/-- The whole [3,128] block of the biases. -/
abbrev rB1 : Rect S3x128 := Rect.unit (s := S3x128) ![0, 0] S3x128.size inb_S3x128_S3x128_0_0
/-- The whole [4000,128] output block. -/
abbrev rO1 : Rect S4000x128 := Rect.unit (s := S4000x128) ![0, 0] S4000x128.size inb_S4000x128_S4000x128_0_0

/-! ## What the body leaves in the output window's buffer -/

/-- Window 4's staging buffer after the body, from the four input windows' blocks: ONE store through the whole
    rectangle, of the sum over the three relations of (slab × scaling column) · weight, plus the summed biases. -/
def out1_4 (x0 : Vec F S3x4000x128 .f32) (x1 : Vec F S4000x3 .f32) (x2 : Vec F S3x128x128 .f32) (x3 : Vec F S3x128 .f32) : Vec F S4000x128 .f32 :=
  View.canon [⟨rO1, k1_pay1
    (k1_pay3 (View.ld x1 rS1) (View.ld x0 rA1_0) (View.ld x2 rW1_0) (View.ld x0 rA1_1) (View.ld x2 rW1_1))
    (k1_pay4 (View.ld x1 rS1) (View.ld x0 rA1_2) (View.ld x2 rW1_2))
    (View.ld x3 rB1)⟩]

/-- The one store tiles the buffer, so it covers it. -/
theorem cover1_4 (p0 : Vec F S4000x128 .f32) (y : S4000x128.Idx) :
    ∃ pc ∈ ([⟨rO1, p0⟩] : List (View.Piece (Elt F) S4000x128 .f32)), y ∈ pc.1.set :=
  View.cover_of_tiled [⟨rO1, p0⟩] S4000x128.size (by rfl) y

/-! ## The body's triple -/

set_option maxHeartbeats 4000000 in
/-- The kernel body on whole staging memrefs, the four inputs' at read contents `x0 … x3` and the output's at
    anything, runs to the continuation holding the inputs' as they were and the output's at `out1_4` of the inputs':
    the part loads the scaling block, then slab and weight matrix per relation; the body loads the biases, loads the
    output buffer (a value nothing reads) and stores the payload through the whole rectangle. -/
theorem sound_kernel1 (c : Dev nD) (E : Set ℕ) (i : grid1.Coords) (arg1 : Memref sig .tc .vmem S3x4000x128 .f32) (harg1 : arg1.IsWhole) (arg2 : Memref sig .tc .vmem S4000x3 .f32) (harg2 : arg2.IsWhole) (arg3 : Memref sig .tc .vmem S3x128x128 .f32) (harg3 : arg3.IsWhole) (arg4 : Memref sig .tc .vmem S3x128 .f32) (harg4 : arg4.IsWhole) (arg5 : Memref sig .tc .vmem S4000x128 .f32) (harg5 : arg5.IsWhole)
    (x0 : Vec F S3x4000x128 .f32) (x1 : Vec F S4000x3 .f32) (x2 : Vec F S3x128x128 .f32) (x3 : Vec F S3x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__relation_conv_kernel i arg1 harg1 arg2 harg2 arg3 harg3 arg4 harg4 arg5 harg5) K := by
  simp only [cc1__relation_conv_kernel_eq_skeleton]; unfold cc1__relation_conv_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at point
    `t` each input's buffer at its block and the output's at `out1_4` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.KFrame

end
-- ==== Proof.KFrameBW.lean ====
/- The buffer contents at every segment boundary of the word-level kernel program's @main, as a fold from the launch memory:
   a host stretch's operations applied in order, a region's arrays at what its write-backs leave. No host operation
   writes an argument array (each writes one reference, and the arguments are the first ten references), and a region
   reads an argument only through an input window, so every argument is read back through the fold to its launch
   contents. -/
import proofs.«118654_j25211458027582_2_alg».proof.Proof.KFrameBR0
import proofs.«118654_j25211458027582_2_alg».proof.Proof.KFrameBR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KFrame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

/-- An operation keeps the arguments: it writes no reference among the first ten (the arguments of @main). -/
def KeepsArgs (op : HloOp τ sig (Elt F)) : Prop :=
  ∀ b : Ref sig .tc, b.idx.val < 10 → (Proc.devRef .tc b : DevRef τ sig) ∉ op.writes

/-- An operation whose one written reference `y` is past the arguments keeps them. -/
theorem keeps_of {op : HloOp τ sig (Elt F)} (y : Ref sig .tc) (hy : 10 ≤ y.idx.val)
    (hw : op.writes = {Proc.devRef .tc y} := by rfl) : KeepsArgs op := fun b hb hm => by
  rw [hw, Finset.mem_singleton] at hm
  have e : b = y := Proc.devRef_injective _ hm
  subst e
  exact absurd hb (Nat.not_lt.mpr hy)

/-- A stretch of such operations leaves every argument's buffer as it found it. -/
theorem after_keeps (ops : List (HloOp τ sig (Elt F))) (h : ops.Forall (KeepsArgs)) (V : Valuation τ sig (Elt F))
    (b : Ref sig .tc) (hb : b.idx.val < 10) : StableHlo.after ops V (Proc.devRef .tc b) = V (Proc.devRef .tc b) :=
  StableHlo.after_of_forall_not_mem ops V fun op hop => (List.forall_iff_forall_mem.mp h) op hop b hb

/-- No operation of `hostOps0` allocates a buffer. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl⟩
/-- Every operation of `hostOps0` writes one reference, none of them an argument. -/
theorem hostOps0_keeps : (hostOps0 : List (HloOp τ sig (Elt F))).Forall (KeepsArgs) :=
  ⟨keeps_of main_v0 (by decide), keeps_of main_v1 (by decide), keeps_of main_v2 (by decide), keeps_of main_v3 (by decide),
   keeps_of main_cst (by decide), keeps_of main_v4 (by decide), keeps_of main_c (by decide), keeps_of main_v5 (by decide),
   keeps_of main_v6 (by decide), keeps_of main_c_0 (by decide), keeps_of main_v7 (by decide), keeps_of main_v8 (by decide),
   keeps_of main_v9 (by decide), keeps_of main_v10 (by decide), keeps_of main_cst_1 (by decide), keeps_of main_v11 (by decide),
   keeps_of main_v12 (by decide), keeps_of main_cst_2 (by decide)⟩
/-- No operation of `hostOps0_1` allocates a buffer. -/
theorem hostOps0_1_fresh : (hostOps0_1 : List (HloOp τ sig (Elt F))).Forall fun op => op.fresh = ∅ :=
  ⟨rfl, rfl, rfl⟩
/-- Every operation of `hostOps0_1` writes one reference, none of them an argument. -/
theorem hostOps0_1_keeps : (hostOps0_1 : List (HloOp τ sig (Elt F))).Forall (KeepsArgs) :=
  ⟨keeps_of main_call0_v0 (by decide), keeps_of main_call0_v1 (by decide), keeps_of main_v13 (by decide)⟩
/-- No operation of `hostOps0_2` allocates a buffer. -/
theorem hostOps0_2_fresh : (hostOps0_2 : List (HloOp τ sig (Elt F))).Forall fun op => op.fresh = ∅ :=
  ⟨rfl, rfl, rfl, rfl, rfl, rfl, rfl, rfl, rfl, rfl, rfl, rfl, rfl, rfl⟩
/-- Every operation of `hostOps0_2` writes one reference, none of them an argument. -/
theorem hostOps0_2_keeps : (hostOps0_2 : List (HloOp τ sig (Elt F))).Forall (KeepsArgs) :=
  ⟨keeps_of main_cst_3 (by decide), keeps_of main_v14 (by decide), keeps_of main_c_4 (by decide), keeps_of main_v15 (by decide),
   keeps_of main_v16 (by decide), keeps_of main_c_5 (by decide), keeps_of main_v17 (by decide), keeps_of main_v18 (by decide),
   keeps_of main_v19 (by decide), keeps_of main_v20 (by decide), keeps_of main_cst_6 (by decide), keeps_of main_v21 (by decide),
   keeps_of main_v22 (by decide), keeps_of main_cst_7 (by decide)⟩
/-- No operation of `hostOps0_3` allocates a buffer. -/
theorem hostOps0_3_fresh : (hostOps0_3 : List (HloOp τ sig (Elt F))).Forall fun op => op.fresh = ∅ :=
  ⟨rfl, rfl, rfl⟩
/-- Every operation of `hostOps0_3` writes one reference, none of them an argument. -/
theorem hostOps0_3_keeps : (hostOps0_3 : List (HloOp τ sig (Elt F))).Forall (KeepsArgs) :=
  ⟨keeps_of main_call1_v0 (by decide), keeps_of main_call1_v1 (by decide), keeps_of main_v23 (by decide)⟩
/-- No operation of `hostOps0_4` allocates a buffer. -/
theorem hostOps0_4_fresh : (hostOps0_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
/-- Every operation of `hostOps0_4` writes one reference, none of them an argument. -/
theorem hostOps0_4_keeps : (hostOps0_4 : List (HloOp τ sig (Elt F))).Forall (KeepsArgs) :=
  ⟨keeps_of main_v24 (by decide), keeps_of main_v25 (by decide), keeps_of main_v26 (by decide), keeps_of main_v27 (by decide),
   keeps_of main_v28 (by decide), keeps_of main_v29 (by decide), keeps_of main_cst_8 (by decide), keeps_of main_v30 (by decide),
   keeps_of main_c_9 (by decide), keeps_of main_v31 (by decide), keeps_of main_v32 (by decide), keeps_of main_c_10 (by decide),
   keeps_of main_v33 (by decide), keeps_of main_v34 (by decide), keeps_of main_v35 (by decide), keeps_of main_v36 (by decide),
   keeps_of main_cst_11 (by decide), keeps_of main_v37 (by decide), keeps_of main_v38 (by decide), keeps_of main_cst_12 (by decide)⟩
/-- No operation of `hostOps0_5` allocates a buffer. -/
theorem hostOps0_5_fresh : (hostOps0_5 : List (HloOp τ sig (Elt F))).Forall fun op => op.fresh = ∅ :=
  ⟨rfl, rfl, rfl⟩
/-- Every operation of `hostOps0_5` writes one reference, none of them an argument. -/
theorem hostOps0_5_keeps : (hostOps0_5 : List (HloOp τ sig (Elt F))).Forall (KeepsArgs) :=
  ⟨keeps_of main_call2_v0 (by decide), keeps_of main_call2_v1 (by decide), keeps_of main_v39 (by decide)⟩
/-- No operation of `hostOps0_6` allocates a buffer. -/
theorem hostOps0_6_fresh : (hostOps0_6 : List (HloOp τ sig (Elt F))).Forall fun op => op.fresh = ∅ :=
  ⟨rfl, rfl, rfl, rfl, rfl, rfl, rfl, rfl, rfl, rfl, rfl, rfl, rfl, rfl⟩
/-- Every operation of `hostOps0_6` writes one reference, none of them an argument. -/
theorem hostOps0_6_keeps : (hostOps0_6 : List (HloOp τ sig (Elt F))).Forall (KeepsArgs) :=
  ⟨keeps_of main_cst_13 (by decide), keeps_of main_v40 (by decide), keeps_of main_c_14 (by decide), keeps_of main_v41 (by decide),
   keeps_of main_v42 (by decide), keeps_of main_c_15 (by decide), keeps_of main_v43 (by decide), keeps_of main_v44 (by decide),
   keeps_of main_v45 (by decide), keeps_of main_v46 (by decide), keeps_of main_cst_16 (by decide), keeps_of main_v47 (by decide),
   keeps_of main_v48 (by decide), keeps_of main_cst_17 (by decide)⟩
/-- No operation of `hostOps0_7` allocates a buffer. -/
theorem hostOps0_7_fresh : (hostOps0_7 : List (HloOp τ sig (Elt F))).Forall fun op => op.fresh = ∅ :=
  ⟨rfl, rfl, rfl⟩
/-- Every operation of `hostOps0_7` writes one reference, none of them an argument. -/
theorem hostOps0_7_keeps : (hostOps0_7 : List (HloOp τ sig (Elt F))).Forall (KeepsArgs) :=
  ⟨keeps_of main_call3_v0 (by decide), keeps_of main_call3_v1 (by decide), keeps_of main_v49 (by decide)⟩
/-- No operation of `hostOps0_8` allocates a buffer. -/
theorem hostOps0_8_fresh : (hostOps0_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
/-- Every operation of `hostOps0_8` writes one reference, none of them an argument. -/
theorem hostOps0_8_keeps : (hostOps0_8 : List (HloOp τ sig (Elt F))).Forall (KeepsArgs) :=
  ⟨keeps_of main_v50 (by decide), keeps_of main_v51 (by decide), keeps_of main_v52 (by decide), keeps_of main_v53 (by decide),
   keeps_of main_v54 (by decide), keeps_of main_v55 (by decide), keeps_of main_cst_18 (by decide), keeps_of main_v56 (by decide),
   keeps_of main_c_19 (by decide), keeps_of main_v57 (by decide), keeps_of main_v58 (by decide), keeps_of main_c_20 (by decide),
   keeps_of main_v59 (by decide), keeps_of main_v60 (by decide), keeps_of main_v61 (by decide), keeps_of main_v62 (by decide),
   keeps_of main_cst_21 (by decide), keeps_of main_v63 (by decide), keeps_of main_v64 (by decide), keeps_of main_cst_22 (by decide)⟩
/-- No operation of `hostOps0_9` allocates a buffer. -/
theorem hostOps0_9_fresh : (hostOps0_9 : List (HloOp τ sig (Elt F))).Forall fun op => op.fresh = ∅ :=
  ⟨rfl, rfl, rfl⟩
/-- Every operation of `hostOps0_9` writes one reference, none of them an argument. -/
theorem hostOps0_9_keeps : (hostOps0_9 : List (HloOp τ sig (Elt F))).Forall (KeepsArgs) :=
  ⟨keeps_of main_call4_v0 (by decide), keeps_of main_call4_v1 (by decide), keeps_of main_v65 (by decide)⟩
/-- No operation of `hostOps0_10` allocates a buffer. -/
theorem hostOps0_10_fresh : (hostOps0_10 : List (HloOp τ sig (Elt F))).Forall fun op => op.fresh = ∅ :=
  ⟨rfl, rfl, rfl, rfl, rfl, rfl, rfl, rfl, rfl, rfl, rfl, rfl, rfl, rfl⟩
/-- Every operation of `hostOps0_10` writes one reference, none of them an argument. -/
theorem hostOps0_10_keeps : (hostOps0_10 : List (HloOp τ sig (Elt F))).Forall (KeepsArgs) :=
  ⟨keeps_of main_cst_23 (by decide), keeps_of main_v66 (by decide), keeps_of main_c_24 (by decide), keeps_of main_v67 (by decide),
   keeps_of main_v68 (by decide), keeps_of main_c_25 (by decide), keeps_of main_v69 (by decide), keeps_of main_v70 (by decide),
   keeps_of main_v71 (by decide), keeps_of main_v72 (by decide), keeps_of main_cst_26 (by decide), keeps_of main_v73 (by decide),
   keeps_of main_v74 (by decide), keeps_of main_cst_27 (by decide)⟩
/-- No operation of `hostOps0_11` allocates a buffer. -/
theorem hostOps0_11_fresh : (hostOps0_11 : List (HloOp τ sig (Elt F))).Forall fun op => op.fresh = ∅ :=
  ⟨rfl, rfl, rfl⟩
/-- Every operation of `hostOps0_11` writes one reference, none of them an argument. -/
theorem hostOps0_11_keeps : (hostOps0_11 : List (HloOp τ sig (Elt F))).Forall (KeepsArgs) :=
  ⟨keeps_of main_call5_v0 (by decide), keeps_of main_call5_v1 (by decide), keeps_of main_v75 (by decide)⟩
set_option maxHeartbeats 40000000 in
/-- No operation of `hostOps0_12` allocates a buffer. -/
theorem hostOps0_12_fresh : (hostOps0_12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxHeartbeats 40000000 in
/-- Every operation of `hostOps0_12` writes one reference, none of them an argument. -/
theorem hostOps0_12_keeps : (hostOps0_12 : List (HloOp τ sig (Elt F))).Forall (KeepsArgs) :=
  ⟨keeps_of main_v76 (by decide), keeps_of main_v77 (by decide), keeps_of main_v78 (by decide), keeps_of main_v79 (by decide),
   keeps_of main_v80 (by decide), keeps_of main_v81 (by decide), keeps_of main_v82 (by decide), keeps_of main_v83 (by decide),
   keeps_of main_v84 (by decide), keeps_of main_v85 (by decide), keeps_of main_v86 (by decide), keeps_of main_v87 (by decide),
   keeps_of main_v88 (by decide), keeps_of main_v89 (by decide), keeps_of main_c_28 (by decide), keeps_of main_v90 (by decide),
   keeps_of main_v91 (by decide), keeps_of main_c_29 (by decide), keeps_of main_v92 (by decide), keeps_of main_v93 (by decide),
   keeps_of main_v94 (by decide), keeps_of main_v95 (by decide), keeps_of main_v96 (by decide), keeps_of main_v97 (by decide),
   keeps_of main_v98 (by decide), keeps_of main_c_30 (by decide), keeps_of main_v99 (by decide), keeps_of main_v100 (by decide),
   keeps_of main_c_31 (by decide), keeps_of main_v101 (by decide), keeps_of main_v102 (by decide), keeps_of main_v103 (by decide),
   keeps_of main_v104 (by decide), keeps_of main_v105 (by decide), keeps_of main_v106 (by decide), keeps_of main_v107 (by decide),
   keeps_of main_v108 (by decide), keeps_of main_cst_32 (by decide), keeps_of main_v109 (by decide), keeps_of main_c_33 (by decide),
   keeps_of main_v110 (by decide), keeps_of main_v111 (by decide), keeps_of main_c_34 (by decide), keeps_of main_v112 (by decide),
   keeps_of main_v113 (by decide), keeps_of main_v114 (by decide), keeps_of main_v115 (by decide), keeps_of main_v116 (by decide),
   keeps_of main_v117 (by decide), keeps_of main_v118 (by decide), keeps_of main_v119 (by decide), keeps_of main_v120 (by decide),
   keeps_of main_c_35 (by decide), keeps_of main_v121 (by decide), keeps_of main_v122 (by decide), keeps_of main_c_36 (by decide),
   keeps_of main_v123 (by decide), keeps_of main_v124 (by decide), keeps_of main_v125 (by decide), keeps_of main_v126 (by decide),
   keeps_of main_v127 (by decide), keeps_of main_v128 (by decide), keeps_of main_v129 (by decide), keeps_of main_c_37 (by decide),
   keeps_of main_v130 (by decide), keeps_of main_v131 (by decide), keeps_of main_c_38 (by decide), keeps_of main_v132 (by decide),
   keeps_of main_v133 (by decide), keeps_of main_v134 (by decide), keeps_of main_v135 (by decide), keeps_of main_v136 (by decide),
   keeps_of main_v137 (by decide), keeps_of main_v138 (by decide), keeps_of main_v139 (by decide), keeps_of main_cst_39 (by decide),
   keeps_of main_v140 (by decide), keeps_of main_c_40 (by decide), keeps_of main_v141 (by decide), keeps_of main_v142 (by decide),
   keeps_of main_c_41 (by decide), keeps_of main_v143 (by decide), keeps_of main_v144 (by decide), keeps_of main_v145 (by decide),
   keeps_of main_v146 (by decide), keeps_of main_v147 (by decide), keeps_of main_v148 (by decide), keeps_of main_v149 (by decide),
   keeps_of main_v150 (by decide), keeps_of main_v151 (by decide), keeps_of main_c_42 (by decide), keeps_of main_v152 (by decide),
   keeps_of main_v153 (by decide), keeps_of main_c_43 (by decide), keeps_of main_v154 (by decide), keeps_of main_v155 (by decide),
   keeps_of main_v156 (by decide), keeps_of main_v157 (by decide), keeps_of main_v158 (by decide), keeps_of main_v159 (by decide),
   keeps_of main_v160 (by decide), keeps_of main_c_44 (by decide), keeps_of main_v161 (by decide), keeps_of main_v162 (by decide),
   keeps_of main_c_45 (by decide), keeps_of main_v163 (by decide), keeps_of main_v164 (by decide), keeps_of main_v165 (by decide),
   keeps_of main_v166 (by decide), keeps_of main_v167 (by decide), keeps_of main_v168 (by decide), keeps_of main_v169 (by decide),
   keeps_of main_v170 (by decide), keeps_of main_cst_46 (by decide), keeps_of main_v171 (by decide), keeps_of main_c_47 (by decide),
   keeps_of main_v172 (by decide), keeps_of main_v173 (by decide), keeps_of main_c_48 (by decide), keeps_of main_v174 (by decide),
   keeps_of main_v175 (by decide), keeps_of main_v176 (by decide), keeps_of main_v177 (by decide), keeps_of main_v178 (by decide),
   keeps_of main_v179 (by decide), keeps_of main_v180 (by decide), keeps_of main_v181 (by decide), keeps_of main_v182 (by decide)⟩
set_option maxHeartbeats 40000000 in
/-- No operation of `hostOps1` allocates a buffer. -/
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl⟩
set_option maxHeartbeats 40000000 in
/-- Every operation of `hostOps1` writes one reference, none of them an argument. -/
theorem hostOps1_keeps : (hostOps1 : List (HloOp τ sig (Elt F))).Forall (KeepsArgs) :=
  ⟨keeps_of main_v184 (by decide), keeps_of main_v185 (by decide), keeps_of main_v186 (by decide), keeps_of main_v187 (by decide),
   keeps_of main_c_49 (by decide), keeps_of main_v188 (by decide), keeps_of main_v189 (by decide), keeps_of main_c_50 (by decide),
   keeps_of main_v190 (by decide), keeps_of main_v191 (by decide), keeps_of main_v192 (by decide), keeps_of main_v193 (by decide),
   keeps_of main_v194 (by decide), keeps_of main_v195 (by decide), keeps_of main_v196 (by decide), keeps_of main_c_51 (by decide),
   keeps_of main_v197 (by decide), keeps_of main_v198 (by decide), keeps_of main_c_52 (by decide), keeps_of main_v199 (by decide),
   keeps_of main_v200 (by decide), keeps_of main_v201 (by decide), keeps_of main_v202 (by decide), keeps_of main_v203 (by decide),
   keeps_of main_v204 (by decide), keeps_of main_v205 (by decide), keeps_of main_v206 (by decide), keeps_of main_cst_53 (by decide),
   keeps_of main_v207 (by decide), keeps_of main_c_54 (by decide), keeps_of main_v208 (by decide), keeps_of main_v209 (by decide),
   keeps_of main_c_55 (by decide), keeps_of main_v210 (by decide), keeps_of main_v211 (by decide), keeps_of main_v212 (by decide),
   keeps_of main_v213 (by decide), keeps_of main_v214 (by decide), keeps_of main_v215 (by decide), keeps_of main_v216 (by decide),
   keeps_of main_v217 (by decide), keeps_of main_v218 (by decide), keeps_of main_c_56 (by decide), keeps_of main_v219 (by decide),
   keeps_of main_v220 (by decide), keeps_of main_c_57 (by decide), keeps_of main_v221 (by decide), keeps_of main_v222 (by decide),
   keeps_of main_v223 (by decide), keeps_of main_v224 (by decide), keeps_of main_v225 (by decide), keeps_of main_v226 (by decide),
   keeps_of main_v227 (by decide), keeps_of main_c_58 (by decide), keeps_of main_v228 (by decide), keeps_of main_v229 (by decide),
   keeps_of main_c_59 (by decide), keeps_of main_v230 (by decide), keeps_of main_v231 (by decide), keeps_of main_v232 (by decide),
   keeps_of main_v233 (by decide), keeps_of main_v234 (by decide), keeps_of main_v235 (by decide), keeps_of main_v236 (by decide),
   keeps_of main_v237 (by decide), keeps_of main_cst_60 (by decide), keeps_of main_v238 (by decide), keeps_of main_c_61 (by decide),
   keeps_of main_v239 (by decide), keeps_of main_v240 (by decide), keeps_of main_c_62 (by decide), keeps_of main_v241 (by decide),
   keeps_of main_v242 (by decide), keeps_of main_v243 (by decide), keeps_of main_v244 (by decide), keeps_of main_v245 (by decide),
   keeps_of main_v246 (by decide), keeps_of main_v247 (by decide), keeps_of main_v248 (by decide), keeps_of main_v249 (by decide),
   keeps_of main_c_63 (by decide), keeps_of main_v250 (by decide), keeps_of main_v251 (by decide), keeps_of main_c_64 (by decide),
   keeps_of main_v252 (by decide), keeps_of main_v253 (by decide), keeps_of main_v254 (by decide), keeps_of main_v255 (by decide),
   keeps_of main_v256 (by decide), keeps_of main_v257 (by decide), keeps_of main_v258 (by decide), keeps_of main_c_65 (by decide),
   keeps_of main_v259 (by decide), keeps_of main_v260 (by decide), keeps_of main_c_66 (by decide), keeps_of main_v261 (by decide),
   keeps_of main_v262 (by decide), keeps_of main_v263 (by decide), keeps_of main_v264 (by decide), keeps_of main_v265 (by decide),
   keeps_of main_v266 (by decide), keeps_of main_v267 (by decide), keeps_of main_v268 (by decide), keeps_of main_cst_67 (by decide),
   keeps_of main_v269 (by decide), keeps_of main_c_68 (by decide), keeps_of main_v270 (by decide), keeps_of main_v271 (by decide),
   keeps_of main_c_69 (by decide), keeps_of main_v272 (by decide), keeps_of main_v273 (by decide), keeps_of main_v274 (by decide),
   keeps_of main_v275 (by decide), keeps_of main_v276 (by decide), keeps_of main_v277 (by decide), keeps_of main_v278 (by decide),
   keeps_of main_v279 (by decide), keeps_of main_v280 (by decide)⟩
/-- No operation of `hostOps2` allocates a buffer. -/
theorem hostOps2_fresh : (hostOps2 : List (HloOp τ sig (Elt F))).Forall fun op => op.fresh = ∅ :=
  ⟨rfl, rfl, rfl, rfl, rfl, rfl, rfl, rfl, rfl, rfl, rfl⟩
/-- Every operation of `hostOps2` writes one reference, none of them an argument. -/
theorem hostOps2_keeps : (hostOps2 : List (HloOp τ sig (Elt F))).Forall (KeepsArgs) :=
  ⟨keeps_of main_cst_70 (by decide), keeps_of main_v282 (by decide), keeps_of main_cst_71 (by decide), keeps_of main_v283 (by decide),
   keeps_of main_v284 (by decide), keeps_of main_v285 (by decide), keeps_of main_cst_72 (by decide), keeps_of main_v286 (by decide),
   keeps_of main_v287 (by decide), keeps_of main_v288 (by decide), keeps_of main_cst_73 (by decide)⟩
/-- No operation of `hostOps2_1` allocates a buffer. -/
theorem hostOps2_1_fresh : (hostOps2_1 : List (HloOp τ sig (Elt F))).Forall fun op => op.fresh = ∅ :=
  ⟨rfl, rfl, rfl⟩
/-- Every operation of `hostOps2_1` writes one reference, none of them an argument. -/
theorem hostOps2_1_keeps : (hostOps2_1 : List (HloOp τ sig (Elt F))).Forall (KeepsArgs) :=
  ⟨keeps_of main_call6_v0 (by decide), keeps_of main_call6_v1 (by decide), keeps_of main_v289 (by decide)⟩
/-- No operation of `hostOps2_2` allocates a buffer. -/
theorem hostOps2_2_fresh : (hostOps2_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- Every operation of `hostOps2_2` writes one reference, none of them an argument. -/
theorem hostOps2_2_keeps : (hostOps2_2 : List (HloOp τ sig (Elt F))).Forall (KeepsArgs) :=
  ⟨keeps_of main_v290 (by decide), keeps_of main_v291 (by decide), keeps_of main_v292 (by decide), keeps_of main_v293 (by decide),
   keeps_of main_v294 (by decide), keeps_of main_v295 (by decide), keeps_of main_v296 (by decide), keeps_of main_cst_74 (by decide),
   keeps_of main_v297 (by decide), keeps_of main_cst_75 (by decide), keeps_of main_v298 (by decide), keeps_of main_v299 (by decide),
   keeps_of main_v300 (by decide), keeps_of main_v301 (by decide), keeps_of main_v302 (by decide), keeps_of main_v303 (by decide),
   keeps_of main_cst_76 (by decide), keeps_of main_v304 (by decide), keeps_of main_v305 (by decide), keeps_of main_v306 (by decide),
   keeps_of main_v307 (by decide)⟩

/-! ## The buffer contents at each segment boundary -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4`. -/
abbrev W5 : Dev nD → Valuation τ sig (Elt F) := fun c => StableHlo.after hostOps0_4 (W4 m ρ c)
/-- After `hostOps0_5`. -/
abbrev W6 : Dev nD → Valuation τ sig (Elt F) := fun c => StableHlo.after hostOps0_5 (W5 m ρ c)
/-- After `hostOps0_6`. -/
abbrev W7 : Dev nD → Valuation τ sig (Elt F) := fun c => StableHlo.after hostOps0_6 (W6 m ρ c)
/-- After `hostOps0_7`. -/
abbrev W8 : Dev nD → Valuation τ sig (Elt F) := fun c => StableHlo.after hostOps0_7 (W7 m ρ c)
/-- After `hostOps0_8`. -/
abbrev W9 : Dev nD → Valuation τ sig (Elt F) := fun c => StableHlo.after hostOps0_8 (W8 m ρ c)
/-- After `hostOps0_9`. -/
abbrev W10 : Dev nD → Valuation τ sig (Elt F) := fun c => StableHlo.after hostOps0_9 (W9 m ρ c)
/-- After `hostOps0_10`. -/
abbrev W11 : Dev nD → Valuation τ sig (Elt F) := fun c => StableHlo.after hostOps0_10 (W10 m ρ c)
/-- After `hostOps0_11`. -/
abbrev W12 : Dev nD → Valuation τ sig (Elt F) := fun c => StableHlo.after hostOps0_11 (W11 m ρ c)
/-- After `hostOps0_12` (region 0's entry). -/
abbrev W13 : Dev nD → Valuation τ sig (Elt F) := fun c => StableHlo.after hostOps0_12 (W12 m ρ c)

/-- Region 0's entry contents are the thirteen stretches folded over the launch contents. -/
theorem W13_eq (c : Dev nD) : W13 m ρ c = StableHlo.after hostOps0_12 (StableHlo.after hostOps0_11 (StableHlo.after hostOps0_10
    (StableHlo.after hostOps0_9 (StableHlo.after hostOps0_8 (StableHlo.after hostOps0_7 (StableHlo.after hostOps0_6
    (StableHlo.after hostOps0_5 (StableHlo.after hostOps0_4 (StableHlo.after hostOps0_3 (StableHlo.after hostOps0_2
    (StableHlo.after hostOps0_1 (StableHlo.after hostOps0 (W0 m ρ c))))))))))))) := rfl
/-- The same read at the TensorCore's references (what region 0's proof data take). -/
abbrev V13 : (c : Dev nD) → (b : Ref sig .tc) → Buf (Elt F) ((c : Thread nD τ).loc b) := fun c b => W13 m ρ c b
/-- At region 0's exit: its arrays at what the pipeline leaves (the inputs as entered, the output's write-backs folded),
    every other buffer as entered. -/
def W14 (c : Dev nD) : Valuation τ sig (Elt F) :=
  Pipeline.withArrays spec0 c (W13 m ρ c) fun w => (dat0 (V13 m ρ) c).arrAt w cfg0.N
theorem W14_arr (c : Dev nD) (w : Fin cfg0.W) :
    W14 m ρ c (Proc.devRef .tc (Pipeline.arrRef spec0 w)) = (dat0 (V13 m ρ) c).arrAt w cfg0.N := by
  unfold W14; exact Pipeline.withArrays_arr spec0 launch0.win.arr_inj c _ _ w
theorem W14_of_ne (c : Dev nD) (b : Ref sig .tc) (hb : ∀ w, Pipeline.arrRef spec0 w ≠ b) :
    W14 m ρ c (Proc.devRef .tc b) = W13 m ρ c (Proc.devRef .tc b) := by
  unfold W14; exact Pipeline.withArrays_of_ne spec0 c _ _ b hb
/-- Region 0's output array (`main_v183`) at its exit: the write-backs folded. -/
theorem W14_out (c : Dev nD) : W14 m ρ c (Proc.devRef .tc main_v183) = (dat0 (V13 m ρ) c).arrAt 4 cfg0.N := W14_arr m ρ c 4
/-- The same read at the TensorCore's references (region 0's exit contents). -/
abbrev V14 : (c : Dev nD) → (b : Ref sig .tc) → Buf (Elt F) ((c : Thread nD τ).loc b) := fun c b => W14 m ρ c b
theorem hF0 (c : Dev nD) (w : Fin cfg0.W) : (dat0 (V13 m ρ) c).arrAt w cfg0.N = V14 m ρ c (Pipeline.arrRef spec0 w) :=
  (W14_arr m ρ c w).symm
theorem hrest0 (c : Dev nD) : ∀ b, b ∉ Finset.univ.image (Pipeline.arrRef spec0) → V14 m ρ c b = V13 m ρ c b :=
  fun b hb => W14_of_ne m ρ c b fun w e => hb (Finset.mem_image.mpr ⟨w, Finset.mem_univ _, e⟩)

/-- After `hostOps1` (region 1's entry). -/
abbrev W15 : Dev nD → Valuation τ sig (Elt F) := fun c => StableHlo.after hostOps1 (W14 m ρ c)
/-- The same read at the TensorCore's references (what region 1's proof data take). -/
abbrev V15 : (c : Dev nD) → (b : Ref sig .tc) → Buf (Elt F) ((c : Thread nD τ).loc b) := fun c b => W15 m ρ c b
/-- At region 1's exit. -/
def W16 (c : Dev nD) : Valuation τ sig (Elt F) :=
  Pipeline.withArrays spec1 c (W15 m ρ c) fun w => (dat1 (V15 m ρ) c).arrAt w cfg1.N
theorem W16_arr (c : Dev nD) (w : Fin cfg1.W) :
    W16 m ρ c (Proc.devRef .tc (Pipeline.arrRef spec1 w)) = (dat1 (V15 m ρ) c).arrAt w cfg1.N := by
  unfold W16; exact Pipeline.withArrays_arr spec1 launch1.win.arr_inj c _ _ w
theorem W16_of_ne (c : Dev nD) (b : Ref sig .tc) (hb : ∀ w, Pipeline.arrRef spec1 w ≠ b) :
    W16 m ρ c (Proc.devRef .tc b) = W15 m ρ c (Proc.devRef .tc b) := by
  unfold W16; exact Pipeline.withArrays_of_ne spec1 c _ _ b hb
/-- Region 1's output array (`main_v281`) at its exit: the write-backs folded. -/
theorem W16_out (c : Dev nD) : W16 m ρ c (Proc.devRef .tc main_v281) = (dat1 (V15 m ρ) c).arrAt 4 cfg1.N := W16_arr m ρ c 4
/-- The same read at the TensorCore's references (region 1's exit contents). -/
abbrev V16 : (c : Dev nD) → (b : Ref sig .tc) → Buf (Elt F) ((c : Thread nD τ).loc b) := fun c b => W16 m ρ c b
theorem hF1 (c : Dev nD) (w : Fin cfg1.W) : (dat1 (V15 m ρ) c).arrAt w cfg1.N = V16 m ρ c (Pipeline.arrRef spec1 w) :=
  (W16_arr m ρ c w).symm
theorem hrest1 (c : Dev nD) : ∀ b, b ∉ Finset.univ.image (Pipeline.arrRef spec1) → V16 m ρ c b = V15 m ρ c b :=
  fun b hb => W16_of_ne m ρ c b fun w e => hb (Finset.mem_image.mpr ⟨w, Finset.mem_univ _, e⟩)

/-- After `hostOps2`, -/
abbrev W17 : Dev nD → Valuation τ sig (Elt F) := fun c => StableHlo.after hostOps2 (W16 m ρ c)
/-- after `hostOps2_1`, -/
abbrev W18 : Dev nD → Valuation τ sig (Elt F) := fun c => StableHlo.after hostOps2_1 (W17 m ρ c)
/-- and after `hostOps2_2`: the contents @main returns with. -/
abbrev W19 : Dev nD → Valuation τ sig (Elt F) := fun c => StableHlo.after hostOps2_2 (W18 m ρ c)
theorem W19_eq (c : Dev nD) : W19 m ρ c = StableHlo.after hostOps2_2 (StableHlo.after hostOps2_1 (StableHlo.after hostOps2 (W16 m ρ c))) := rfl

/-! ## The arguments end as launched -/

/-- Region 0 leaves every argument as it found it: an argument among its arrays (`main_arg4`, `main_arg5`) is an
    input window's, which ends as entered; any other bypasses the region. -/
theorem W14_arg (c : Dev nD) (b : Ref sig .tc) (hb : b.idx.val < 10) :
    W14 m ρ c (Proc.devRef .tc b) = W13 m ρ c (Proc.devRef .tc b) := by
  by_cases h : ∃ w, Pipeline.arrRef spec0 w = b
  · obtain ⟨w, rfl⟩ := h
    have hw : w = 2 ∨ w = 3 := by
      revert hb; revert w; decide
    rcases hw with rfl | rfl
    · exact (W14_arr m ρ c 2).trans (((dat0 (V13 m ρ) c).arrAt_in 2 rfl _).trans (A_eq0 (V13 m ρ) c 2))
    · exact (W14_arr m ρ c 3).trans (((dat0 (V13 m ρ) c).arrAt_in 3 rfl _).trans (A_eq0 (V13 m ρ) c 3))
  · exact W14_of_ne m ρ c b fun w e => h ⟨w, e⟩

/-- Region 1 likewise (`main_arg6`, `main_arg7` are its input windows 2 and 3). -/
theorem W16_arg (c : Dev nD) (b : Ref sig .tc) (hb : b.idx.val < 10) :
    W16 m ρ c (Proc.devRef .tc b) = W15 m ρ c (Proc.devRef .tc b) := by
  by_cases h : ∃ w, Pipeline.arrRef spec1 w = b
  · obtain ⟨w, rfl⟩ := h
    have hw : w = 2 ∨ w = 3 := by
      revert hb; revert w; decide
    rcases hw with rfl | rfl
    · exact (W16_arr m ρ c 2).trans (((dat1 (V15 m ρ) c).arrAt_in 2 rfl _).trans (A_eq1 (V15 m ρ) c 2))
    · exact (W16_arr m ρ c 3).trans (((dat1 (V15 m ρ) c).arrAt_in 3 rfl _).trans (A_eq1 (V15 m ρ) c 3))
  · exact W16_of_ne m ρ c b fun w e => h ⟨w, e⟩

/-- Region 0's entry contents at an argument: the launch contents. -/
theorem W13_arg (c : Dev nD) (b : Ref sig .tc) (hb : b.idx.val < 10) :
    W13 m ρ c (Proc.devRef .tc b) = m ((c : Thread nD τ).loc b) :=
  (after_keeps hostOps0_12 hostOps0_12_keeps _ b hb).trans <| (after_keeps hostOps0_11 hostOps0_11_keeps _ b hb).trans <|
  (after_keeps hostOps0_10 hostOps0_10_keeps _ b hb).trans <| (after_keeps hostOps0_9 hostOps0_9_keeps _ b hb).trans <|
  (after_keeps hostOps0_8 hostOps0_8_keeps _ b hb).trans <| (after_keeps hostOps0_7 hostOps0_7_keeps _ b hb).trans <|
  (after_keeps hostOps0_6 hostOps0_6_keeps _ b hb).trans <| (after_keeps hostOps0_5 hostOps0_5_keeps _ b hb).trans <|
  (after_keeps hostOps0_4 hostOps0_4_keeps _ b hb).trans <| (after_keeps hostOps0_3 hostOps0_3_keeps _ b hb).trans <|
  (after_keeps hostOps0_2 hostOps0_2_keeps _ b hb).trans <| (after_keeps hostOps0_1 hostOps0_1_keeps _ b hb).trans <|
  (after_keeps hostOps0 hostOps0_keeps _ b hb).trans rfl

/-- Every argument's buffer ends holding its launch contents. -/
theorem W19_arg (c : Dev nD) (b : Ref sig .tc) (hb : b.idx.val < 10) :
    W19 m ρ c (Proc.devRef .tc b) = m ((c : Thread nD τ).loc b) :=
  (after_keeps hostOps2_2 hostOps2_2_keeps _ b hb).trans <| (after_keeps hostOps2_1 hostOps2_1_keeps _ b hb).trans <|
  (after_keeps hostOps2 hostOps2_keeps _ b hb).trans <| (W16_arg m ρ c b hb).trans <|
  (after_keeps hostOps1 hostOps1_keeps _ b hb).trans <| (W14_arg m ρ c b hb).trans <| W13_arg m ρ c b hb

theorem W19_main_arg0 (c : Dev nD) : W19 m ρ c (Proc.devRef .tc main_arg0) = m ((c : Thread nD τ).loc main_arg0) :=
  W19_arg m ρ c main_arg0 (by decide)
theorem W19_main_arg1 (c : Dev nD) : W19 m ρ c (Proc.devRef .tc main_arg1) = m ((c : Thread nD τ).loc main_arg1) :=
  W19_arg m ρ c main_arg1 (by decide)
theorem W19_main_arg2 (c : Dev nD) : W19 m ρ c (Proc.devRef .tc main_arg2) = m ((c : Thread nD τ).loc main_arg2) :=
  W19_arg m ρ c main_arg2 (by decide)
theorem W19_main_arg3 (c : Dev nD) : W19 m ρ c (Proc.devRef .tc main_arg3) = m ((c : Thread nD τ).loc main_arg3) :=
  W19_arg m ρ c main_arg3 (by decide)
theorem W19_main_arg4 (c : Dev nD) : W19 m ρ c (Proc.devRef .tc main_arg4) = m ((c : Thread nD τ).loc main_arg4) :=
  W19_arg m ρ c main_arg4 (by decide)
theorem W19_main_arg5 (c : Dev nD) : W19 m ρ c (Proc.devRef .tc main_arg5) = m ((c : Thread nD τ).loc main_arg5) :=
  W19_arg m ρ c main_arg5 (by decide)
theorem W19_main_arg6 (c : Dev nD) : W19 m ρ c (Proc.devRef .tc main_arg6) = m ((c : Thread nD τ).loc main_arg6) :=
  W19_arg m ρ c main_arg6 (by decide)
theorem W19_main_arg7 (c : Dev nD) : W19 m ρ c (Proc.devRef .tc main_arg7) = m ((c : Thread nD τ).loc main_arg7) :=
  W19_arg m ρ c main_arg7 (by decide)
theorem W19_main_arg8 (c : Dev nD) : W19 m ρ c (Proc.devRef .tc main_arg8) = m ((c : Thread nD τ).loc main_arg8) :=
  W19_arg m ρ c main_arg8 (by decide)
theorem W19_main_arg9 (c : Dev nD) : W19 m ρ c (Proc.devRef .tc main_arg9) = m ((c : Thread nD τ).loc main_arg9) :=
  W19_arg m ρ c main_arg9 (by decide)

end Cert.Kernel.KFrame

end
-- ==== Proof.KFrameBRun.lean ====
/- The frame run of the word-level kernel program's @main at any float instance: its nineteen segments (thirteen host stretches,
   the first layer's region, a host stretch, the second layer's region, three host stretches) run over the thread
   state "every unscoped buffer at the boundary's contents, the generator register at some state, nothing owed"; the
   run ends with every unscoped buffer at the last boundary's contents, and each argument array at its launch
   contents. -/
import proofs.«118654_j25211458027582_2_alg».proof.Proof.KFrameBW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KFrame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V13 m ρ) c
  | ⟨1, _⟩ => fun c => dat1 (V15 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W19`, the
    generator register at some state. -/
abbrev Tₙ (c : Dev nD) : sProp 𝕄 := iprop(StableHlo.held (c : Thread nD τ) (Pipeline.ucRefs τ sig) (W19 m ρ c) ∗ ∃ r, prngReg c r)

/-- The last host stretch's exit state is the last thread state beside the core owing nothing. -/
theorem last_state (c : Dev nD) : iprop(StableHlo.held (c : Thread nD τ) (Pipeline.ucRefs τ sig) (W19 m ρ c) ∗ R c)
    ⊢ iprop(Tₙ m ρ c ∗ ∃ W, owes (c : Thread nD τ) (0 : CellTallies nD τ sig Unit) W) := by
  iintro ⟨Hh, Hp, Ho⟩
  isplitl [Hh Hp]
  · isplitl [Hh]; · iexact Hh
    iexact Hp
  iexact Ho

/-! ## The regions as segments -/

-- `iapply` of a library lemma stated over `pin pcs a p` unifies with the pinned configuration only when unification may
-- unfold plain definitions in a metavariable's type
set_option backward.isDefEq.respectTransparency.types false in
/-- Region 0 (custom_call 0) over the thread state: entered from every unscoped buffer at `W13`, left at `W14`.
    Its arrays are split out of the unscoped buffers and put back at the exit contents; the generator register goes
    into the class invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V13 m ρ) c).loose
  hwaits := Pipeline.hwaits_of_owed_zero _ _ _ _ L lv 0 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec0 c (V13 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V13 m ρ c) (V14 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 (custom_call 1) over the thread state: entered from every unscoped buffer at `W15`, left at `W16`.
    Its arrays are split out of the unscoped buffers and put back at the exit contents; the generator register goes
    into the class invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V15 m ρ) c).loose
  hwaits := Pipeline.hwaits_of_owed_zero _ _ _ _ L lv 1 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec1 c (V15 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V15 m ρ c) (V16 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 19 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .region (reg0 m ρ),
    .host (hseg hostOps1 hostOps1_sub hostOps1_fresh (W14 m ρ)),
    .region (reg1 m ρ),
    .host (hseg hostOps2 hostOps2_sub hostOps2_fresh (W16 m ρ)),
    .host (hseg hostOps2_1 hostOps2_1_sub hostOps2_1_fresh (W17 m ρ)),
    .host (hseg hostOps2_2 hostOps2_2_sub hostOps2_2_fresh (W18 m ρ)) ]

set_option maxHeartbeats 40000000 in
/-- @main IS the run of the segments: the chain of its items, against which the segments' run is checked by
    definitional unfolding. -/
theorem main_run (c : Dev nD) : main (F := F) c = Pipeline.Seg.run (segs m ρ) := (main_chain c).trans (by chain_rfl)

set_option maxHeartbeats 40000000 in
-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has each unscoped buffer at the last boundary's
    contents `W19`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h => h)

/-- THE FRAME: the frame claim's statement at any `F` — every weakly fair execution of @main terminates, nothing
    faulting, and every final state has the ten argument arrays as launched: the run's post read at each argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W19_main_arg0 m ρ c),
     (h c _ (mem_uc main_arg1 (by decide))).trans (W19_main_arg1 m ρ c),
     (h c _ (mem_uc main_arg2 (by decide))).trans (W19_main_arg2 m ρ c),
     (h c _ (mem_uc main_arg3 (by decide))).trans (W19_main_arg3 m ρ c),
     (h c _ (mem_uc main_arg4 (by decide))).trans (W19_main_arg4 m ρ c),
     (h c _ (mem_uc main_arg5 (by decide))).trans (W19_main_arg5 m ρ c),
     (h c _ (mem_uc main_arg6 (by decide))).trans (W19_main_arg6 m ρ c),
     (h c _ (mem_uc main_arg7 (by decide))).trans (W19_main_arg7 m ρ c),
     (h c _ (mem_uc main_arg8 (by decide))).trans (W19_main_arg8 m ρ c),
     (h c _ (mem_uc main_arg9 (by decide))).trans (W19_main_arg9 m ρ c)⟩)
    (run_main m ρ)

/-- info: 'Cert.Kernel.KFrame.frame' depends on axioms: [propext, Classical.choice, Quot.sound] -/
#guard_msgs in #print axioms frame

end Cert.Kernel.KFrame

end
-- ==== Proof.KConvPay.lean ====
/-
  What one grid point of the relational graph convolution stores, read at one element on the extended reals.

  The body scales relation r's slab of aggregated rows by column r of the destination weights, multiplies the scaled
  slab by relation r's weight matrix on the matrix unit (into a zero tile), adds the three products up from a zero
  tile in order, and adds the three bias rows summed along the relation axis (layer 1 then takes the maximum with
  zero). On the extended reals a change of float format is the identity and the matrix unit's product is the plain
  sum over the feature axis, so element (p, j) of the stored tile is
      max ((((0 + Σ_k (A₀ p k · s p 0) · W₀ k j) + Σ_k (A₁ p k · s p 1) · W₁ k j) + Σ_k (A₂ p k · s p 2) · W₂ k j)
            + (0 + Σ_r b r j)) 0
  (layer 2: the same without the maximum).
-/
import proofs.«118654_j25211458027582_2_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.KConv

open Idealize.ShloMosaic Idealize.ShloMosaic.ValueIdx Cert.KernelIdeal Cert.KernelIdeal.Gen

/-! ## The layout steps, read at an element -/

/-- A column [a, 1] broadcast over b columns reads, at (p, c), the column at (p, 0). -/
theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column c of the destination weights, cut out as a [4000, 1] column from offset o = c and broadcast over the 128
    feature columns, reads at (p, k) the weight of row p for relation c. -/
theorem weightCol_apply (o : Nat) (x : FVec Ideal S4000x3 .f32) (hs : S4000x3.Slices ![0, o] S4000x1)
    (c : Fin 3) (hc : c.val = o) (p : Fin 4000) (k : Fin 128) :
    broadcastTo S4000x128 (extractStridedSlice S4000x1 ![0, o] x hs) broadcasts_S4000x1_S4000x128 (ix2 p k)
      = x (ix2 p c) :=
  (colBroadcast_apply _ broadcasts_S4000x1_S4000x128 p k).trans
    (slice2_axis1_apply o x hs p (0 : Fin 1) c (by rw [hc]; rfl))

/-- The index a reduction along the rows of an [a, b] matrix inserts: row r, column c. -/
theorem lift_rows {a b : ℕ} (h : (⟨2, ![a, b]⟩ : Shape).Reduces [0] ⟨1, ![b]⟩) (c : Fin b) (r : Fin a) :
    h.lift (ix1 c) r = ix2 r c :=
  funext fun ax => Fin.ext (by match ax with | ⟨0, _⟩ => rfl | ⟨1, _⟩ => rfl)

/-- The sum along the rows of an [a, b] matrix at column c: the sum of the column's entries. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ r : Fin a, src (ix2 r c) := by
  refine (Ideal.multiReduction_add_single src acc h hφ hacc (ix1 c)).trans ?_
  exact Finset.sum_congr rfl fun r _ => congrArg src (lift_rows h c r)

/-! ## The pieces of the body -/

/-- The left operand of relation r's product: the slab, each row scaled by the row's destination weight. -/
def scaled (o : Nat) (x : FVec Ideal S4000x3 .f32) (v : Vec Ideal S1x4000x128 .f32) (hs : S4000x3.Slices ![0, o] S4000x1) :
    FVec Ideal S4000x128 .bf16 :=
  truncf .bf16 (mulf (shapeCast S4000x128 v shapeCasts_S1x4000x128_S4000x128)
    (broadcastTo S4000x128 (extractStridedSlice S4000x1 ![0, o] x hs) broadcasts_S4000x1_S4000x128)) bitsLt_bf16_f32

/-- The right operand: relation r's weight matrix. -/
def weight (w : Vec Ideal S1x128x128 .f32) : FVec Ideal S128x128 .bf16 :=
  truncf .bf16 (shapeCast S128x128 w shapeCasts_S1x128x128_S128x128) bitsLt_bf16_f32

/-- Relation r's product on the matrix unit, into a zero tile. -/
def prod (o : Nat) (x : FVec Ideal S4000x3 .f32) (v : Vec Ideal S1x4000x128 .f32) (w : Vec Ideal S1x128x128 .f32)
    (hs : S4000x3.Slices ![0, o] S4000x1) : FVec Ideal S4000x128 .f32 :=
  matmul dot_S4000x128_S128x128_S4000x128_1_0_0_1_n_n none (scaled o x v hs) (weight w)
    (constant (F := Ideal) S4000x128 .f32 0x00000000#32)

/-- The three bias rows summed along the relation axis, as a row repeated over the 4000 rows. -/
def biasRow (b : Vec Ideal S3x128 .f32) : FVec Ideal S4000x128 .f32 :=
  broadcastTo S4000x128 (shapeCast S1x128
    (multiReduction (F := Ideal) .add [0] S128 b 0x00000000#32 reduces_S3x128_S128 (.inl rfl) rfl) shapeCasts_S128_S1x128)
    broadcasts_S1x128_S4000x128

theorem scaled_apply (o : Nat) (x : FVec Ideal S4000x3 .f32) (v : Vec Ideal S1x4000x128 .f32)
    (hs : S4000x3.Slices ![0, o] S4000x1) (c : Fin 3) (hc : c.val = o) (p : Fin 4000) (k : Fin 128) :
    scaled o x v hs (ix2 p k) = v (ix3 (0 : Fin 1) p k) * x (ix2 p c) := by
  show shapeCast S4000x128 v shapeCasts_S1x4000x128_S4000x128 (ix2 p k)
      * broadcastTo S4000x128 (extractStridedSlice S4000x1 ![0, o] x hs) broadcasts_S4000x1_S4000x128 (ix2 p k) = _
  rw [weightCol_apply o x hs c hc p k]
  exact congrArg (· * x (ix2 p c)) (shapeCast_1ab_ab_apply v shapeCasts_S1x4000x128_S4000x128 p k)

theorem weight_apply (w : Vec Ideal S1x128x128 .f32) (k j : Fin 128) : weight w (ix2 k j) = w (ix3 (0 : Fin 1) k j) :=
  shapeCast_1ab_ab_apply w shapeCasts_S1x128x128_S128x128 k j

theorem biasRow_apply (b : Vec Ideal S3x128 .f32) (p : Fin 4000) (j : Fin 128) :
    biasRow b (ix2 p j) = ∑ r : Fin 3, b (ix2 r j) :=
  (broadcastTo_1b_ab_apply _ broadcasts_S1x128_S4000x128 p j).trans
    ((shapeCast_a_1a_apply _ shapeCasts_S128_S1x128 (0 : Fin 1) j).trans
      (colSum_apply b 0x00000000#32 reduces_S3x128_S128 (.inl rfl) rfl j))

/-! ## The matrix unit's product at an entry -/

theorem dot_lhs0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem dot_lhs1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem dot_rhs0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem dot_rhs1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The matrix unit's product of a [4000, 128] tile and a [128, 128] matrix into a zero tile is, at (p, j), the plain
    sum over the shared axis. -/
theorem tileDot_apply (A : FVec Ideal S4000x128 .bf16) (B : FVec Ideal S128x128 .bf16) (p : Fin 4000) (j : Fin 128) :
    matmul dot_S4000x128_S128x128_S4000x128_1_0_0_1_n_n none A B (constant (F := Ideal) S4000x128 .f32 0x00000000#32) (ix2 p j)
      = ∑ k : Fin 128, A (ix2 p k) * B (ix2 k j) := by
  refine (Ideal.matmul_constant_zero_apply dot_S4000x128_S128x128_S4000x128_1_0_0_1_n_n none A B (ix2 p j)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p j)
      ((contrEquiv1 dot_S4000x128_S128x128_S4000x128_1_0_0_1_n_n 128 rfl rfl).symm k) = ix2 p k :=
    funext fun a => Fin.ext (by
      match a with
      | ⟨0, _⟩ => exact dot_lhs0 _ _
      | ⟨1, _⟩ => exact (dot_lhs1 _ _).trans hk)
  have er : dot_S4000x128_S128x128_S4000x128_1_0_0_1_n_n.rhsIdx (ix2 p j)
      ((contrEquiv1 dot_S4000x128_S128x128_S4000x128_1_0_0_1_n_n 128 rfl rfl).symm k) = ix2 k j :=
    funext fun a => Fin.ext (by
      match a with
      | ⟨0, _⟩ => exact (dot_rhs0 _ _).trans hk
      | ⟨1, _⟩ => exact dot_rhs1 _ _)
  rw [el, er]

/-- Relation r's product at (p, j): the sum over the feature axis of (slab · weight of row p) · weight matrix. -/
theorem prod_apply (o : Nat) (x : FVec Ideal S4000x3 .f32) (v : Vec Ideal S1x4000x128 .f32) (w : Vec Ideal S1x128x128 .f32)
    (hs : S4000x3.Slices ![0, o] S4000x1) (c : Fin 3) (hc : c.val = o) (p : Fin 4000) (j : Fin 128) :
    prod o x v w hs (ix2 p j) = ∑ k : Fin 128, (v (ix3 (0 : Fin 1) p k) * x (ix2 p c)) * w (ix3 (0 : Fin 1) k j) :=
  (tileDot_apply (scaled o x v hs) (weight w) p j).trans
    (Finset.sum_congr rfl fun k _ => congrArg₂ (· * ·) (scaled_apply o x v hs c hc p k) (weight_apply w k j))

/-! ## The stored tile at an element -/

/-- The destination weights pass through a cast to their own shape. -/
theorem k0_pay2_eq (v0 : Vec Ideal S4000x3 .f32) : k0_pay2 (F := Ideal) v0 = v0 := shapeCast_self v0 _
theorem k1_pay2_eq (v0 : Vec Ideal S4000x3 .f32) : k1_pay2 (F := Ideal) v0 = v0 := shapeCast_self v0 _

/-- Layer 1's stored tile as the pieces above. -/
theorem k0_tile_eq (v0 : Vec Ideal S4000x3 .f32) (v3 v14 v25 : Vec Ideal S1x4000x128 .f32) (v9 v20 v31 : Vec Ideal S1x128x128 .f32)
    (v36 : Vec Ideal S3x128 .f32) (i : S4000x128.Idx) :
    k0_pay1 (F := Ideal) (k0_pay3 v0 v3 v9 v14 v20) (k0_pay4 v0 v25 v31) v36 i
      = max ((((Ideal.ofBits .f32 0x00000000#32 + prod 0 (k0_pay2 v0) v3 v9 slices_S4000x3_o0_0_S4000x1 i)
            + prod 1 (k0_pay2 v0) v14 v20 slices_S4000x3_o0_1_S4000x1 i)
          + prod 2 (k0_pay2 v0) v25 v31 slices_S4000x3_o0_2_S4000x1 i) + biasRow v36 i)
        (Ideal.ofBits .f32 0x00000000#32) := rfl

/-- Layer 2's stored tile as the pieces above. -/
theorem k1_tile_eq (v0 : Vec Ideal S4000x3 .f32) (v3 v14 v25 : Vec Ideal S1x4000x128 .f32) (v9 v20 v31 : Vec Ideal S1x128x128 .f32)
    (v36 : Vec Ideal S3x128 .f32) (i : S4000x128.Idx) :
    k1_pay1 (F := Ideal) (k1_pay3 v0 v3 v9 v14 v20) (k1_pay4 v0 v25 v31) v36 i
      = (((Ideal.ofBits .f32 0x00000000#32 + prod 0 (k1_pay2 v0) v3 v9 slices_S4000x3_o0_0_S4000x1 i)
            + prod 1 (k1_pay2 v0) v14 v20 slices_S4000x3_o0_1_S4000x1 i)
          + prod 2 (k1_pay2 v0) v25 v31 slices_S4000x3_o0_2_S4000x1 i) + biasRow v36 i := rfl

/-- LAYER 1'S STORED TILE AT (p, j). -/
theorem k0_tile_apply (v0 : Vec Ideal S4000x3 .f32) (v3 v14 v25 : Vec Ideal S1x4000x128 .f32) (v9 v20 v31 : Vec Ideal S1x128x128 .f32)
    (v36 : Vec Ideal S3x128 .f32) (p : Fin 4000) (j : Fin 128) :
    k0_pay1 (F := Ideal) (k0_pay3 v0 v3 v9 v14 v20) (k0_pay4 v0 v25 v31) v36 (ix2 p j)
      = max ((((0 + ∑ k : Fin 128, (v3 (ix3 (0 : Fin 1) p k) * v0 (ix2 p (0 : Fin 3))) * v9 (ix3 (0 : Fin 1) k j))
            + ∑ k : Fin 128, (v14 (ix3 (0 : Fin 1) p k) * v0 (ix2 p (1 : Fin 3))) * v20 (ix3 (0 : Fin 1) k j))
          + ∑ k : Fin 128, (v25 (ix3 (0 : Fin 1) p k) * v0 (ix2 p (2 : Fin 3))) * v31 (ix3 (0 : Fin 1) k j))
        + (0 + ∑ r : Fin 3, v36 (ix2 r j))) 0 := by
  rw [k0_tile_eq, k0_pay2_eq, prod_apply 0 v0 v3 v9 _ (0 : Fin 3) rfl p j, prod_apply 1 v0 v14 v20 _ (1 : Fin 3) rfl p j,
    prod_apply 2 v0 v25 v31 _ (2 : Fin 3) rfl p j, biasRow_apply, Ideal.ofBits_zero_f32, zero_add (∑ r : Fin 3, v36 (ix2 r j))]

/-- LAYER 2'S STORED TILE AT (p, j). -/
theorem k1_tile_apply (v0 : Vec Ideal S4000x3 .f32) (v3 v14 v25 : Vec Ideal S1x4000x128 .f32) (v9 v20 v31 : Vec Ideal S1x128x128 .f32)
    (v36 : Vec Ideal S3x128 .f32) (p : Fin 4000) (j : Fin 128) :
    k1_pay1 (F := Ideal) (k1_pay3 v0 v3 v9 v14 v20) (k1_pay4 v0 v25 v31) v36 (ix2 p j)
      = (((0 + ∑ k : Fin 128, (v3 (ix3 (0 : Fin 1) p k) * v0 (ix2 p (0 : Fin 3))) * v9 (ix3 (0 : Fin 1) k j))
            + ∑ k : Fin 128, (v14 (ix3 (0 : Fin 1) p k) * v0 (ix2 p (1 : Fin 3))) * v20 (ix3 (0 : Fin 1) k j))
          + ∑ k : Fin 128, (v25 (ix3 (0 : Fin 1) p k) * v0 (ix2 p (2 : Fin 3))) * v31 (ix3 (0 : Fin 1) k j))
        + (0 + ∑ r : Fin 3, v36 (ix2 r j)) := by
  rw [k1_tile_eq, k1_pay2_eq, prod_apply 0 v0 v3 v9 _ (0 : Fin 3) rfl p j, prod_apply 1 v0 v14 v20 _ (1 : Fin 3) rfl p j,
    prod_apply 2 v0 v25 v31 _ (2 : Fin 3) rfl p j, biasRow_apply, Ideal.ofBits_zero_f32, zero_add (∑ r : Fin 3, v36 (ix2 r j))]

end Cert.KernelIdeal.KConv

end
-- ==== Proof.KConvLd.lean ====
/-
  Loads through the body's rectangles, read at an element: the whole-block rectangles read the block itself, and
  relation r's slab rectangle of a [3, a, b] block, read at (0, p, k), reads the block at (r, p, k).
-/
import proofs.«118654_j25211458027582_2_alg».proof.Proof.KConvPay
import Idealize.ShloMosaic.Lib.Pipeline.FrameBody
import Idealize.ShloMosaic.Lib.Pipeline.Value

noncomputable section

namespace Cert.KernelIdeal.KConv

open Cert.KernelIdeal Cert.KernelIdeal.Gen
open Idealize.ShloMosaic Idealize.ShloMosaic.ValueIdx

/-- The zero offsets of a rank-2 rectangle. -/
theorem hz2 : (![0, 0] : Fin 2 → Nat) = fun _ => 0 := funext fun a => by fin_cases a <;> rfl

/-- Relation r's slab of a [3, 4000, 128] block, read at (0, p, k), is the block at (r, p, k). -/
theorem ld_slab (x0 : Vec Ideal S3x4000x128 .f32) (o : Nat) (inb : ∀ a, (![o, 0, 0] : Fin 3 → Nat) a + S1x4000x128.size a ≤ S3x4000x128.size a)
    (r : Fin 3) (hr : r.val = o) (p : Fin 4000) (k : Fin 128) :
    View.ld x0 (Rect.unit (s := S3x4000x128) ![o, 0, 0] S1x4000x128.size inb) (ix3 (0 : Fin 1) p k) = x0 (ix3 r p k) :=
  congrArg x0 (funext fun a => Fin.ext (by
    match a with
    | ⟨0, _⟩ => show o + 1 * 0 = r.val; omega
    | ⟨1, _⟩ => show 0 + 1 * p.val = p.val; omega
    | ⟨2, _⟩ => show 0 + 1 * k.val = k.val; omega))

/-- Relation r's matrix of a [3, 128, 128] block, read at (0, k, j), is the block at (r, k, j). -/
theorem ld_wslab (x2 : Vec Ideal S3x128x128 .f32) (o : Nat) (inb : ∀ a, (![o, 0, 0] : Fin 3 → Nat) a + S1x128x128.size a ≤ S3x128x128.size a)
    (r : Fin 3) (hr : r.val = o) (k j : Fin 128) :
    View.ld x2 (Rect.unit (s := S3x128x128) ![o, 0, 0] S1x128x128.size inb) (ix3 (0 : Fin 1) k j) = x2 (ix3 r k j) :=
  congrArg x2 (funext fun a => Fin.ext (by
    match a with
    | ⟨0, _⟩ => show o + 1 * 0 = r.val; omega
    | ⟨1, _⟩ => show 0 + 1 * k.val = k.val; omega
    | ⟨2, _⟩ => show 0 + 1 * j.val = j.val; omega))

end Cert.KernelIdeal.KConv

end
-- ==== Proof.Stages.lean ====
/-
  The stages both programs are built from, as functions of whole arrays (at any float instance).

  A row of an index table is cut out and read as a vector; an index vector is made a column after
  wrapping its negative words by the number of nodes (idxCol). The inverse square root of a clipped degree
  (degRs) counts, per node, the positions of an index vector that name it, clips the count below at one
  and takes the inverse square root. One relation's aggregate (agg) looks up the rows of a feature matrix
  at the source positions, scales each by the source node's weight, and adds them into the rows the
  destination positions name. The kernel's host code stacks three weight vectors as rows and as columns and
  three aggregates along a new leading axis, and cuts a row of the stacked weights out again.
-/
import proofs.«118654_j25211458027582_2_alg».proof.Proof.Gen.KernelIdeal
import proofs.«118654_j25211458027582_2_alg».proof.Proof.Gen.ReferenceIdeal
import Idealize.ShloMosaic.PureOps.Ideal
import Idealize.ShloMosaic.Lib.ValueIdx

noncomputable section

namespace Cert.Stages

open Idealize.ShloMosaic Cert.KernelIdeal Cert.KernelIdeal.Facts₀ Cert.KernelIdeal.Facts

variable {F : FTy → Type} [FloatOps F]

local notation "C[" S ", " e "]" => (BufTy.Contents (Elt F) (⟨S, e⟩ : BufTy))

/-- Row 0 of a [3, 200000] index table, as a vector. -/
def row0 (A : C[S3x200000, .i32]) : C[S200000, .i32] :=
  shapeCast _ (extractStridedSlice S1x200000 ![0, 0] A slices_S3x200000_S1x200000_0_0) shapeCasts_S1x200000_S200000
/-- Row 1 of a [3, 200000] index table, as a vector. -/
def row1 (A : C[S3x200000, .i32]) : C[S200000, .i32] :=
  shapeCast _ (extractStridedSlice S1x200000 ![1, 0] A slices_S3x200000_S1x200000_1_0) shapeCasts_S1x200000_S200000
/-- Row 2 of a [3, 200000] index table, as a vector. -/
def row2 (A : C[S3x200000, .i32]) : C[S200000, .i32] :=
  shapeCast _ (extractStridedSlice S1x200000 ![2, 0] A slices_S3x200000_S1x200000_2_0) shapeCasts_S1x200000_S200000

/-- An index vector as an [M, 1] column, its negative words wrapped by adding the number of nodes. -/
def idxCol (v : C[S200000, .i32]) : C[S200000x1, .i32] :=
  broadcastInDim S200000x1 ![0] bcast_S200000_S200000x1_0
    (select (cmpi .slt v (broadcastInDim S200000 ![] bcast_S_S200000 (constantI S_ 32 0#32)))
      (addi v (broadcastInDim S200000 ![] bcast_S_S200000 (constantI S_ 32 100000#32))) v)

/-- Per node: the number of positions of `v` naming it, clipped below at one, inverse square root. -/
def degRs (v : C[S200000, .i32]) : C[S100000, .f32] :=
  Host.rsqrt (maximumf (broadcastInDim S100000 ![] bcast_S_S100000 (id (constant S_ .f32 0x3F800000#32)))
    (Host.scatterAdd scatter_S100000_S200000x1_S200000_n_0_0_1
      (broadcastInDim S100000 ![] bcast_S_S100000 (constant S_ .f32 0x00000000#32)) (idxCol v)
      (broadcastInDim S200000 ![] bcast_S_S200000 (constant S_ .f32 0x3F800000#32))))

/-- One relation's aggregate: rows of `h` at the source positions, each scaled by the source node's weight,
    added into the rows the destination positions name (from zero). -/
def agg (h : C[S100000x128, .f32]) (vs vd : C[S200000, .i32]) (so : C[S100000, .f32]) : C[S100000x128, .f32] :=
  Host.scatterAdd scatter_S100000x128_S200000x1_S200000x128_1_0_0_1
    (broadcastInDim S100000x128 ![] bcast_S_S100000x128 (constant S_ .f32 0x00000000#32)) (idxCol vd)
    (mulf (Host.gather gather_S100000x128_S200000x1_S200000x128_1_0_n_n_0_1_1128 h (idxCol vs))
      (broadcastInDim S200000x128 ![0, 1] bcast_S200000x1_S200000x128_0_1
        (broadcastInDim S200000x1 ![0] bcast_S200000_S200000x1_0
          (Host.gather gather_S100000_S200000x1_S200000_n_0_n_n_0_1_1 so (idxCol vs)))))

/-- Three weight vectors stacked as the rows of a [3, N] matrix. -/
def stackRows (a b c : C[S100000, .f32]) : C[S3x100000, .f32] :=
  concatenate S3x100000 0 [⟨S1x100000, broadcastInDim S1x100000 ![1] bcast_S100000_S1x100000_1 a⟩,
    ⟨S1x100000, broadcastInDim S1x100000 ![1] bcast_S100000_S1x100000_1 b⟩,
    ⟨S1x100000, broadcastInDim S1x100000 ![1] bcast_S100000_S1x100000_1 c⟩]
    concatenates_S1x100000_S1x100000_S1x100000_S3x100000_d0

/-- Row 0, 1, 2 of a [3, N] matrix, as a vector. -/
def unstack0 (s : C[S3x100000, .f32]) : C[S100000, .f32] :=
  shapeCast _ (extractStridedSlice S1x100000 ![0, 0] s slices_S3x100000_S1x100000_0_0) shapeCasts_S1x100000_S100000
def unstack1 (s : C[S3x100000, .f32]) : C[S100000, .f32] :=
  shapeCast _ (extractStridedSlice S1x100000 ![1, 0] s slices_S3x100000_S1x100000_1_0) shapeCasts_S1x100000_S100000
def unstack2 (s : C[S3x100000, .f32]) : C[S100000, .f32] :=
  shapeCast _ (extractStridedSlice S1x100000 ![2, 0] s slices_S3x100000_S1x100000_2_0) shapeCasts_S1x100000_S100000

/-- Three weight vectors stacked as the columns of an [N, 3] matrix. -/
def stackCols (a b c : C[S100000, .f32]) : C[S100000x3, .f32] :=
  concatenate S100000x3 1 [⟨S100000x1, broadcastInDim S100000x1 ![0] bcast_S100000_S100000x1_0 a⟩,
    ⟨S100000x1, broadcastInDim S100000x1 ![0] bcast_S100000_S100000x1_0 b⟩,
    ⟨S100000x1, broadcastInDim S100000x1 ![0] bcast_S100000_S100000x1_0 c⟩]
    concatenates_S100000x1_S100000x1_S100000x1_S100000x3_d1

/-- Three [N, D] aggregates stacked along a new leading axis. -/
def stackAgg (a b c : C[S100000x128, .f32]) : C[S3x100000x128, .f32] :=
  concatenate S3x100000x128 0 [⟨S1x100000x128, broadcastInDim S1x100000x128 ![1, 2] bcast_S100000x128_S1x100000x128_1_2 a⟩,
    ⟨S1x100000x128, broadcastInDim S1x100000x128 ![1, 2] bcast_S100000x128_S1x100000x128_1_2 b⟩,
    ⟨S1x100000x128, broadcastInDim S1x100000x128 ![1, 2] bcast_S100000x128_S1x100000x128_1_2 c⟩]
    concatenates_S1x100000x128_S1x100000x128_S1x100000x128_S3x100000x128_d0

/-! ## The reference's layer: one relation after another -/

/-- Relation 0, 1, 2 of a [3, D, D] weight tensor, as a matrix. -/
def wsel0 (W : C[S3x128x128, .f32]) : C[S128x128, .f32] :=
  shapeCast _ (extractStridedSlice S1x128x128 ![0, 0, 0] W Cert.ReferenceIdeal.Facts₀.slices_S3x128x128_S1x128x128_0_0_0) shapeCasts_S1x128x128_S128x128
def wsel1 (W : C[S3x128x128, .f32]) : C[S128x128, .f32] :=
  shapeCast _ (extractStridedSlice S1x128x128 ![1, 0, 0] W Cert.ReferenceIdeal.Facts₀.slices_S3x128x128_S1x128x128_1_0_0) shapeCasts_S1x128x128_S128x128
def wsel2 (W : C[S3x128x128, .f32]) : C[S128x128, .f32] :=
  shapeCast _ (extractStridedSlice S1x128x128 ![2, 0, 0] W Cert.ReferenceIdeal.Facts₀.slices_S3x128x128_S1x128x128_2_0_0) shapeCasts_S1x128x128_S128x128

/-- Relation 0, 1, 2 of a [3, D] bias table, as a vector. -/
def bsel0 (b : C[S3x128, .f32]) : C[S128, .f32] :=
  shapeCast _ (extractStridedSlice S1x128 ![0, 0] b Cert.ReferenceIdeal.Facts₀.slices_S3x128_S1x128_0_0) Cert.ReferenceIdeal.Facts₀.shapeCasts_S1x128_S128
def bsel1 (b : C[S3x128, .f32]) : C[S128, .f32] :=
  shapeCast _ (extractStridedSlice S1x128 ![1, 0] b Cert.ReferenceIdeal.Facts₀.slices_S3x128_S1x128_1_0) Cert.ReferenceIdeal.Facts₀.shapeCasts_S1x128_S128
def bsel2 (b : C[S3x128, .f32]) : C[S128, .f32] :=
  shapeCast _ (extractStridedSlice S1x128 ![2, 0] b Cert.ReferenceIdeal.Facts₀.slices_S3x128_S1x128_2_0) Cert.ReferenceIdeal.Facts₀.shapeCasts_S1x128_S128

/-- One relation's contribution added to the running output: the aggregate of the projected features
    `h · Wr`, each row scaled by the destination node's weight, plus the relation's bias row. -/
def refStep (out h : C[S100000x128, .f32]) (vs vd : C[S200000, .i32]) (Wr : C[S128x128, .f32]) (br : C[S128, .f32]) :
    C[S100000x128, .f32] :=
  addf (addf out
      (mulf (agg (Host.dotGeneral Cert.ReferenceIdeal.dot_S100000x128_S128x128_S100000x128_1_0_0_1_n_n none h Wr) vs vd (degRs vs))
        (broadcastInDim S100000x128 ![0, 1] Cert.ReferenceIdeal.Facts₀.bcast_S100000x1_S100000x128_0_1
          (broadcastInDim S100000x1 ![0] bcast_S100000_S100000x1_0 (degRs vd)))))
    (broadcastInDim S100000x128 ![0, 1] Cert.ReferenceIdeal.Facts₀.bcast_S1x128_S100000x128_0_1
      (broadcastInDim S1x128 ![1] Cert.ReferenceIdeal.Facts₀.bcast_S128_S1x128_1 br))

/-- The reference's layer: the three relations' contributions added to zero, in order. -/
def refLayer (h : C[S100000x128, .f32]) (src dst : C[S3x200000, .i32]) (W : C[S3x128x128, .f32]) (b : C[S3x128, .f32]) :
    C[S100000x128, .f32] :=
  refStep (refStep (refStep (broadcastInDim S100000x128 ![] bcast_S_S100000x128 (constant S_ .f32 0x00000000#32))
      h (row0 src) (row0 dst) (wsel0 W) (bsel0 b))
    h (row1 src) (row1 dst) (wsel1 W) (bsel1 b))
    h (row2 src) (row2 dst) (wsel2 W) (bsel2 b)

/-- The maximum with zero between the layers. -/
def relu (x : C[S100000x128, .f32]) : C[S100000x128, .f32] :=
  maximumf x (broadcastInDim S100000x128 ![] bcast_S_S100000x128 (constant S_ .f32 0x00000000#32))

/-! ## The kernel's layer -/

/-- The three aggregates of the features `h`, stacked: what the kernel's host code hands the pallas_call
    (the source weights are read back out of their stacked table). -/
def kAgg (h : C[S100000x128, .f32]) (src dst : C[S3x200000, .i32]) (so : C[S3x100000, .f32]) : C[S3x100000x128, .f32] :=
  stackAgg (agg h (row0 src) (row0 dst) (unstack0 so)) (agg h (row1 src) (row1 dst) (unstack1 so))
    (agg h (row2 src) (row2 dst) (unstack2 so))

/-- The stacked source weights and the stacked destination weights. -/
def kSo (src : C[S3x200000, .i32]) : C[S3x100000, .f32] := stackRows (degRs (row0 src)) (degRs (row1 src)) (degRs (row2 src))
def kSi (dst : C[S3x200000, .i32]) : C[S100000x3, .f32] := stackCols (degRs (row0 dst)) (degRs (row1 dst)) (degRs (row2 dst))

end Cert.Stages

namespace Cert.Stages

open Idealize.ShloMosaic Idealize.ShloMosaic.ValueIdx Cert.KernelIdeal

/-- What one pallas_call leaves in its whole output array, element (d, j), on the extended reals: the three
    products `(A r d · · S d r) · W r · j` summed over the feature axis and added up from zero in order,
    plus the three bias entries summed from zero. -/
def convAt (A : S3x100000x128.Idx → EReal) (S : S100000x3.Idx → EReal) (W : S3x128x128.Idx → EReal) (b : S3x128.Idx → EReal)
    (d : Fin 100000) (j : Fin 128) : EReal :=
  (((0 + ∑ k : Fin 128, (A (ix3 (0 : Fin 3) d k) * S (ix2 d (0 : Fin 3))) * W (ix3 (0 : Fin 3) k j))
      + ∑ k : Fin 128, (A (ix3 (1 : Fin 3) d k) * S (ix2 d (1 : Fin 3))) * W (ix3 (1 : Fin 3) k j))
    + ∑ k : Fin 128, (A (ix3 (2 : Fin 3) d k) * S (ix2 d (2 : Fin 3))) * W (ix3 (2 : Fin 3) k j))
  + (0 + ∑ r : Fin 3, b (ix2 r j))

/-- Layer 1's pallas_call (with the closing maximum with zero) and layer 2's (without), as whole arrays. -/
def conv1 (A : S3x100000x128.Idx → EReal) (S : S100000x3.Idx → EReal) (W : S3x128x128.Idx → EReal) (b : S3x128.Idx → EReal) :
    S100000x128.Idx → EReal := fun i => max (convAt A S W b (i 0) (i 1)) 0
def conv2 (A : S3x100000x128.Idx → EReal) (S : S100000x3.Idx → EReal) (W : S3x128x128.Idx → EReal) (b : S3x128.Idx → EReal) :
    S100000x128.Idx → EReal := fun i => convAt A S W b (i 0) (i 1)

end Cert.Stages

end
-- ==== Proof.KConvArr0.lean ====
/-
  What pallas_call 0 (layer 1 of the relational graph convolution) leaves in its whole [100000, 128] output array, on
  the extended reals. The grid has 25 points; point t reads rows 4000 t … 4000 t + 3999 of the three stacked aggregates and of
  the destination weights, the whole weight tensor and the whole bias table, and writes rows 4000 t … 4000 t + 3999 of the
  output. Element (p, j) of the tile it stores is the layer's value at row d = 4000 t + p: for each relation r the sum
  over the feature index k of (A(r, d, k) · s(d, r)) · W(r, k, j), the three sums added up from zero in order, plus the three
  bias entries b(r, j) summed from zero, then the maximum with zero. The 25 row tiles cover the array (row d lies in
  tile d / 4000), so the array ends holding that value at every element.
-/
import proofs.«118654_j25211458027582_2_alg».proof.Proof.KFrameR0
import proofs.«118654_j25211458027582_2_alg».proof.Proof.KConvLd
import proofs.«118654_j25211458027582_2_alg».proof.Proof.Stages
import Idealize.ShloMosaic.Lib.Pipeline.Value

noncomputable section

namespace Cert.KernelIdeal.KConv

open Cert.KernelIdeal Cert.KernelIdeal.Gen Cert.KernelIdeal.KFrame
open Idealize.ShloMosaic Idealize.ShloMosaic.ValueIdx Idealize.ShloMosaic.TcCoe Idealize.SL.Sem
open Idealize.ShloMosaic.Pipeline (Dat)

/-! ## Region 0: what the body leaves, and what the run leaves in the output array -/

/-- What the body leaves in the output buffer, at (p, j), from the four input blocks. -/
theorem out0_4_apply (x0 : Vec Ideal S3x4000x128 .f32) (x1 : Vec Ideal S4000x3 .f32) (x2 : Vec Ideal S3x128x128 .f32) (x3 : Vec Ideal S3x128 .f32)
    (p : Fin 4000) (j : Fin 128) :
    out0_4 (F := Ideal) x0 x1 x2 x3 (ix2 p j)
      = max ((((0 + ∑ k : Fin 128, (x0 (ix3 (0 : Fin 3) p k) * x1 (ix2 p (0 : Fin 3))) * x2 (ix3 (0 : Fin 3) k j))
            + ∑ k : Fin 128, (x0 (ix3 (1 : Fin 3) p k) * x1 (ix2 p (1 : Fin 3))) * x2 (ix3 (1 : Fin 3) k j))
          + ∑ k : Fin 128, (x0 (ix3 (2 : Fin 3) p k) * x1 (ix2 p (2 : Fin 3))) * x2 (ix3 (2 : Fin 3) k j))
        + (0 + ∑ r : Fin 3, x3 (ix2 r j))) 0 := by
  have e1 : View.ld x1 rS0 = x1 := View.ld_unit_zero (S := S4000x3) hz2 inb_S4000x3_S4000x3_0_0 x1
  have e3 : View.ld x3 rB0 = x3 := View.ld_unit_zero (S := S3x128) hz2 inb_S3x128_S3x128_0_0 x3
  unfold out0_4
  rw [View.canon_unit_zero hz2, e1, e3, k0_tile_apply]
  simp only [ld_slab x0 0 _ (0 : Fin 3) rfl, ld_slab x0 1 _ (1 : Fin 3) rfl, ld_slab x0 2 _ (2 : Fin 3) rfl,
    ld_wslab x2 0 _ (0 : Fin 3) rfl, ld_wslab x2 1 _ (1 : Fin 3) rfl, ld_wslab x2 2 _ (2 : Fin 3) rfl]

/-- The same from blocks that are, at row p and column j, rows and columns of whole arrays: the layer's value at
    (d, j). -/
theorem out0_4_of_blocks (A : S3x100000x128.Idx → EReal) (S : S100000x3.Idx → EReal) (W : S3x128x128.Idx → EReal) (b : S3x128.Idx → EReal)
    (x0 : Vec Ideal S3x4000x128 .f32) (x1 : Vec Ideal S4000x3 .f32) (x2 : Vec Ideal S3x128x128 .f32) (x3 : Vec Ideal S3x128 .f32)
    (d : Fin 100000) (p : Fin 4000) (j : Fin 128)
    (h0 : ∀ (r : Fin 3) (k : Fin 128), x0 (ix3 r p k) = A (ix3 r d k))
    (h1 : ∀ r : Fin 3, x1 (ix2 p r) = S (ix2 d r))
    (h2 : ∀ (r : Fin 3) (k : Fin 128), x2 (ix3 r k j) = W (ix3 r k j))
    (h3 : ∀ r : Fin 3, x3 (ix2 r j) = b (ix2 r j)) :
    out0_4 (F := Ideal) x0 x1 x2 x3 (ix2 p j) = max (Cert.Stages.convAt A S W b d j) 0 := by
  rw [out0_4_apply]
  unfold Cert.Stages.convAt
  simp only [h0, h1, h2, h3]

section Region0
variable (V : (c : Dev nD) → (b : Ref sig .tc) → Buf (Elt Ideal) ((c : Thread nD τ).loc b))

/-- The printed index maps, decided over the 25 grid points: the aggregates' and the destination weights' blocks move
    with the output's row tile, the weights' and biases' blocks stay. -/
theorem idx_facts0 : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT t WRITES BACK is block t of the layer's value on the arrays as the region finds them. -/
theorem flushed0_eq (c : Dev nD) (t : Fin cfg0.N) :
    (dat0 V c).flushed 4 t = ((cfg0.win 4).blk t).view.read (Elt Ideal)
      (Cert.Stages.conv1 (V c main_v182) (V c main_v85) (V c main_arg4) (V c main_arg5)) := by
  show (cfg0.win 4).cut (grid0.coords t) ((dat0 V c).after 4 t) = _
  rw [after0_4]
  funext y
  obtain ⟨p, j, rfl⟩ : ∃ (p : Fin 4000) (j : Fin 128), y = ix2 p j := ⟨y 0, y 1, eq_ix2 y⟩
  obtain ⟨f00, f01, f02, f10, f11, f20, f21, f22, f30, f31, f40, f41⟩ := idx_facts0 t
  have ht : t.val < 25 := lt_of_lt_of_eq t.isLt N_0
  have hp : p.val < 4000 := p.isLt
  have hd : ((cfg0.win 4).blk t).view.emb (ix2 p j) = ix2 (⟨t.val * 4000 + p.val, by omega⟩ : Fin 100000) j :=
    funext fun a => Fin.ext (by
      match a with
      | ⟨0, _⟩ => show win0_4.index t (0 : Fin 2) * 4000 + 1 * p.val = t.val * 4000 + p.val; rw [f40]; omega
      | ⟨1, _⟩ => show win0_4.index t (1 : Fin 2) * 128 + 1 * j.val = j.val; rw [f41]; omega)
  show out0_4 (iblk0 V c 0 t) (iblk0 V c 1 t) (iblk0 V c 2 t) (iblk0 V c 3 t) (ix2 p j)
    = Cert.Stages.conv1 (V c main_v182) (V c main_v85) (V c main_arg4) (V c main_arg5) (((cfg0.win 4).blk t).view.emb (ix2 p j))
  rw [hd]
  refine out0_4_of_blocks (V c main_v182) (V c main_v85) (V c main_arg4) (V c main_arg5)
    (iblk0 V c 0 t) (iblk0 V c 1 t) (iblk0 V c 2 t) (iblk0 V c 3 t)
    (⟨t.val * 4000 + p.val, by omega⟩ : Fin 100000) p j ?_ ?_ ?_ ?_
  · intro r k
    show V c main_v182 (((cfg0.win 0).blk t).view.emb (ix3 r p k)) = V c main_v182 _
    refine congrArg _ (funext fun a => Fin.ext ?_)
    match a with
    | ⟨0, _⟩ => show win0_0.index t (0 : Fin 3) * 3 + 1 * r.val = r.val; rw [f00]; omega
    | ⟨1, _⟩ => show win0_0.index t (1 : Fin 3) * 4000 + 1 * p.val = t.val * 4000 + p.val; rw [f01]; omega
    | ⟨2, _⟩ => show win0_0.index t (2 : Fin 3) * 128 + 1 * k.val = k.val; rw [f02]; omega
  · intro r
    show V c main_v85 (((cfg0.win 1).blk t).view.emb (ix2 p r)) = V c main_v85 _
    refine congrArg _ (funext fun a => Fin.ext ?_)
    match a with
    | ⟨0, _⟩ => show win0_1.index t (0 : Fin 2) * 4000 + 1 * p.val = t.val * 4000 + p.val; rw [f10]; omega
    | ⟨1, _⟩ => show win0_1.index t (1 : Fin 2) * 3 + 1 * r.val = r.val; rw [f11]; omega
  · intro r k
    show V c main_arg4 (((cfg0.win 2).blk t).view.emb (ix3 r k j)) = V c main_arg4 _
    refine congrArg _ (funext fun a => Fin.ext ?_)
    match a with
    | ⟨0, _⟩ => show win0_2.index t (0 : Fin 3) * 3 + 1 * r.val = r.val; rw [f20]; omega
    | ⟨1, _⟩ => show win0_2.index t (1 : Fin 3) * 128 + 1 * k.val = k.val; rw [f21]; omega
    | ⟨2, _⟩ => show win0_2.index t (2 : Fin 3) * 128 + 1 * j.val = j.val; rw [f22]; omega
  · intro r
    show V c main_arg5 (((cfg0.win 3).blk t).view.emb (ix2 r j)) = V c main_arg5 _
    refine congrArg _ (funext fun a => Fin.ext ?_)
    match a with
    | ⟨0, _⟩ => show win0_3.index t (0 : Fin 2) * 3 + 1 * r.val = r.val; rw [f30]; omega
    | ⟨1, _⟩ => show win0_3.index t (1 : Fin 2) * 128 + 1 * j.val = j.val; rw [f31]; omega

/-- An index of the output array is in point t's block iff each coordinate is in the block's range on its axis. -/
theorem mem_blk0 (t : Fin cfg0.N) (i : S100000x128.Idx) :
    i ∈ ((cfg0.win 4).blk t).view.set ↔ ∀ a : Fin 2, win0_4.index t a * S4000x128.size a ≤ (i a).val
      ∧ (i a).val < win0_4.index t a * S4000x128.size a + S4000x128.size a := by
  show i ∈ ((View.whole main_v183).slice (win0_4.rect t)).set ↔ _
  rw [View.set_slice_whole, Rect.mem_set_unit]
  exact Iff.rfl

/-- Row d of the output array is in the block of point d / 4000. -/
theorem cover0 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 25 := N_0
  refine ⟨⟨(i 0).val / 4000, by rw [hN]; omega⟩, flush0_4 _, ?_⟩
  obtain ⟨f00, f01, f02, f10, f11, f20, f21, f22, f30, f31, f40, f41⟩ := idx_facts0 ⟨(i 0).val / 4000, by rw [hN]; omega⟩
  rw [mem_blk0]
  intro a
  match a with
  | ⟨0, _⟩ =>
    show win0_4.index _ (0 : Fin 2) * 4000 ≤ (i 0).val ∧ (i 0).val < win0_4.index _ (0 : Fin 2) * 4000 + 4000
    rw [f40]; show (i 0).val / 4000 * 4000 ≤ (i 0).val ∧ (i 0).val < (i 0).val / 4000 * 4000 + 4000; omega
  | ⟨1, _⟩ =>
    show win0_4.index _ (1 : Fin 2) * 128 ≤ (i 1).val ∧ (i 1).val < win0_4.index _ (1 : Fin 2) * 128 + 128
    rw [f41]; omega

/-- THE OUTPUT ARRAY after the region's run: the layer's value on the arrays as the region finds them. -/
theorem arr0_eq (c : Dev nD) :
    (dat0 V c).arrAt 4 cfg0.N = Cert.Stages.conv1 (V c main_v182) (V c main_v85) (V c main_arg4) (V c main_arg5) :=
  (dat0 V c).arrAt_eq_of_cover 4 _ (fun t _ => flushed0_eq V c t) (cover0)

end Region0

end Cert.KernelIdeal.KConv

end
-- ==== Proof.KConvArr1.lean ====
/-
  What pallas_call 1 (layer 2 of the relational graph convolution) leaves in its whole [100000, 128] output array, on
  the extended reals. The grid has 25 points; point t reads rows 4000 t … 4000 t + 3999 of the three stacked aggregates and of
  the destination weights, the whole weight tensor and the whole bias table, and writes rows 4000 t … 4000 t + 3999 of the
  output. Element (p, j) of the tile it stores is the layer's value at row d = 4000 t + p: for each relation r the sum
  over the feature index k of (A(r, d, k) · s(d, r)) · W(r, k, j), the three sums added up from zero in order, plus the three
  bias entries b(r, j) summed from zero. The 25 row tiles cover the array (row d lies in tile d / 4000), so the array ends
  holding that value at every element.
-/
import proofs.«118654_j25211458027582_2_alg».proof.Proof.KFrameR1
import proofs.«118654_j25211458027582_2_alg».proof.Proof.KConvLd
import proofs.«118654_j25211458027582_2_alg».proof.Proof.Stages
import Idealize.ShloMosaic.Lib.Pipeline.Value

noncomputable section

namespace Cert.KernelIdeal.KConv

open Cert.KernelIdeal Cert.KernelIdeal.Gen Cert.KernelIdeal.KFrame
open Idealize.ShloMosaic Idealize.ShloMosaic.ValueIdx Idealize.ShloMosaic.TcCoe Idealize.SL.Sem
open Idealize.ShloMosaic.Pipeline (Dat)

/-! ## Region 1: what the body leaves, and what the run leaves in the output array -/

/-- What the body leaves in the output buffer, at (p, j), from the four input blocks. -/
theorem out1_4_apply (x0 : Vec Ideal S3x4000x128 .f32) (x1 : Vec Ideal S4000x3 .f32) (x2 : Vec Ideal S3x128x128 .f32) (x3 : Vec Ideal S3x128 .f32)
    (p : Fin 4000) (j : Fin 128) :
    out1_4 (F := Ideal) x0 x1 x2 x3 (ix2 p j)
      = (((0 + ∑ k : Fin 128, (x0 (ix3 (0 : Fin 3) p k) * x1 (ix2 p (0 : Fin 3))) * x2 (ix3 (0 : Fin 3) k j))
            + ∑ k : Fin 128, (x0 (ix3 (1 : Fin 3) p k) * x1 (ix2 p (1 : Fin 3))) * x2 (ix3 (1 : Fin 3) k j))
          + ∑ k : Fin 128, (x0 (ix3 (2 : Fin 3) p k) * x1 (ix2 p (2 : Fin 3))) * x2 (ix3 (2 : Fin 3) k j))
        + (0 + ∑ r : Fin 3, x3 (ix2 r j)) := by
  have e1 : View.ld x1 rS1 = x1 := View.ld_unit_zero (S := S4000x3) hz2 inb_S4000x3_S4000x3_0_0 x1
  have e3 : View.ld x3 rB1 = x3 := View.ld_unit_zero (S := S3x128) hz2 inb_S3x128_S3x128_0_0 x3
  unfold out1_4
  rw [View.canon_unit_zero hz2, e1, e3, k1_tile_apply]
  simp only [ld_slab x0 0 _ (0 : Fin 3) rfl, ld_slab x0 1 _ (1 : Fin 3) rfl, ld_slab x0 2 _ (2 : Fin 3) rfl,
    ld_wslab x2 0 _ (0 : Fin 3) rfl, ld_wslab x2 1 _ (1 : Fin 3) rfl, ld_wslab x2 2 _ (2 : Fin 3) rfl]

/-- The same from blocks that are, at row p and column j, rows and columns of whole arrays: the layer's value at
    (d, j). -/
theorem out1_4_of_blocks (A : S3x100000x128.Idx → EReal) (S : S100000x3.Idx → EReal) (W : S3x128x128.Idx → EReal) (b : S3x128.Idx → EReal)
    (x0 : Vec Ideal S3x4000x128 .f32) (x1 : Vec Ideal S4000x3 .f32) (x2 : Vec Ideal S3x128x128 .f32) (x3 : Vec Ideal S3x128 .f32)
    (d : Fin 100000) (p : Fin 4000) (j : Fin 128)
    (h0 : ∀ (r : Fin 3) (k : Fin 128), x0 (ix3 r p k) = A (ix3 r d k))
    (h1 : ∀ r : Fin 3, x1 (ix2 p r) = S (ix2 d r))
    (h2 : ∀ (r : Fin 3) (k : Fin 128), x2 (ix3 r k j) = W (ix3 r k j))
    (h3 : ∀ r : Fin 3, x3 (ix2 r j) = b (ix2 r j)) :
    out1_4 (F := Ideal) x0 x1 x2 x3 (ix2 p j) = Cert.Stages.convAt A S W b d j := by
  rw [out1_4_apply]
  unfold Cert.Stages.convAt
  simp only [h0, h1, h2, h3]

section Region1
variable (V : (c : Dev nD) → (b : Ref sig .tc) → Buf (Elt Ideal) ((c : Thread nD τ).loc b))

/-- The printed index maps, decided over the 25 grid points: the aggregates' and the destination weights' blocks move
    with the output's row tile, the weights' and biases' blocks stay. -/
theorem idx_facts1 : ∀ t : Fin cfg1.N,
    win1_0.index t (0 : Fin 3) = 0 ∧ win1_0.index t (1 : Fin 3) = t.val ∧ win1_0.index t (2 : Fin 3) = 0
    ∧ win1_1.index t (0 : Fin 2) = t.val ∧ win1_1.index t (1 : Fin 2) = 0
    ∧ win1_2.index t (0 : Fin 3) = 0 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT t WRITES BACK is block t of the layer's value on the arrays as the region finds them. -/
theorem flushed1_eq (c : Dev nD) (t : Fin cfg1.N) :
    (dat1 V c).flushed 4 t = ((cfg1.win 4).blk t).view.read (Elt Ideal)
      (Cert.Stages.conv2 (V c main_v280) (V c main_v85) (V c main_arg6) (V c main_arg7)) := by
  show (cfg1.win 4).cut (grid1.coords t) ((dat1 V c).after 4 t) = _
  rw [after1_4]
  funext y
  obtain ⟨p, j, rfl⟩ : ∃ (p : Fin 4000) (j : Fin 128), y = ix2 p j := ⟨y 0, y 1, eq_ix2 y⟩
  obtain ⟨f00, f01, f02, f10, f11, f20, f21, f22, f30, f31, f40, f41⟩ := idx_facts1 t
  have ht : t.val < 25 := lt_of_lt_of_eq t.isLt N_1
  have hp : p.val < 4000 := p.isLt
  have hd : ((cfg1.win 4).blk t).view.emb (ix2 p j) = ix2 (⟨t.val * 4000 + p.val, by omega⟩ : Fin 100000) j :=
    funext fun a => Fin.ext (by
      match a with
      | ⟨0, _⟩ => show win1_4.index t (0 : Fin 2) * 4000 + 1 * p.val = t.val * 4000 + p.val; rw [f40]; omega
      | ⟨1, _⟩ => show win1_4.index t (1 : Fin 2) * 128 + 1 * j.val = j.val; rw [f41]; omega)
  show out1_4 (iblk1 V c 0 t) (iblk1 V c 1 t) (iblk1 V c 2 t) (iblk1 V c 3 t) (ix2 p j)
    = Cert.Stages.conv2 (V c main_v280) (V c main_v85) (V c main_arg6) (V c main_arg7) (((cfg1.win 4).blk t).view.emb (ix2 p j))
  rw [hd]
  refine out1_4_of_blocks (V c main_v280) (V c main_v85) (V c main_arg6) (V c main_arg7)
    (iblk1 V c 0 t) (iblk1 V c 1 t) (iblk1 V c 2 t) (iblk1 V c 3 t)
    (⟨t.val * 4000 + p.val, by omega⟩ : Fin 100000) p j ?_ ?_ ?_ ?_
  · intro r k
    show V c main_v280 (((cfg1.win 0).blk t).view.emb (ix3 r p k)) = V c main_v280 _
    refine congrArg _ (funext fun a => Fin.ext ?_)
    match a with
    | ⟨0, _⟩ => show win1_0.index t (0 : Fin 3) * 3 + 1 * r.val = r.val; rw [f00]; omega
    | ⟨1, _⟩ => show win1_0.index t (1 : Fin 3) * 4000 + 1 * p.val = t.val * 4000 + p.val; rw [f01]; omega
    | ⟨2, _⟩ => show win1_0.index t (2 : Fin 3) * 128 + 1 * k.val = k.val; rw [f02]; omega
  · intro r
    show V c main_v85 (((cfg1.win 1).blk t).view.emb (ix2 p r)) = V c main_v85 _
    refine congrArg _ (funext fun a => Fin.ext ?_)
    match a with
    | ⟨0, _⟩ => show win1_1.index t (0 : Fin 2) * 4000 + 1 * p.val = t.val * 4000 + p.val; rw [f10]; omega
    | ⟨1, _⟩ => show win1_1.index t (1 : Fin 2) * 3 + 1 * r.val = r.val; rw [f11]; omega
  · intro r k
    show V c main_arg6 (((cfg1.win 2).blk t).view.emb (ix3 r k j)) = V c main_arg6 _
    refine congrArg _ (funext fun a => Fin.ext ?_)
    match a with
    | ⟨0, _⟩ => show win1_2.index t (0 : Fin 3) * 3 + 1 * r.val = r.val; rw [f20]; omega
    | ⟨1, _⟩ => show win1_2.index t (1 : Fin 3) * 128 + 1 * k.val = k.val; rw [f21]; omega
    | ⟨2, _⟩ => show win1_2.index t (2 : Fin 3) * 128 + 1 * j.val = j.val; rw [f22]; omega
  · intro r
    show V c main_arg7 (((cfg1.win 3).blk t).view.emb (ix2 r j)) = V c main_arg7 _
    refine congrArg _ (funext fun a => Fin.ext ?_)
    match a with
    | ⟨0, _⟩ => show win1_3.index t (0 : Fin 2) * 3 + 1 * r.val = r.val; rw [f30]; omega
    | ⟨1, _⟩ => show win1_3.index t (1 : Fin 2) * 128 + 1 * j.val = j.val; rw [f31]; omega

/-- An index of the output array is in point t's block iff each coordinate is in the block's range on its axis. -/
theorem mem_blk1 (t : Fin cfg1.N) (i : S100000x128.Idx) :
    i ∈ ((cfg1.win 4).blk t).view.set ↔ ∀ a : Fin 2, win1_4.index t a * S4000x128.size a ≤ (i a).val
      ∧ (i a).val < win1_4.index t a * S4000x128.size a + S4000x128.size a := by
  show i ∈ ((View.whole main_v281).slice (win1_4.rect t)).set ↔ _
  rw [View.set_slice_whole, Rect.mem_set_unit]
  exact Iff.rfl

/-- Row d of the output array is in the block of point d / 4000. -/
theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 25 := N_1
  refine ⟨⟨(i 0).val / 4000, by rw [hN]; omega⟩, flush1_4 _, ?_⟩
  obtain ⟨f00, f01, f02, f10, f11, f20, f21, f22, f30, f31, f40, f41⟩ := idx_facts1 ⟨(i 0).val / 4000, by rw [hN]; omega⟩
  rw [mem_blk1]
  intro a
  match a with
  | ⟨0, _⟩ =>
    show win1_4.index _ (0 : Fin 2) * 4000 ≤ (i 0).val ∧ (i 0).val < win1_4.index _ (0 : Fin 2) * 4000 + 4000
    rw [f40]; show (i 0).val / 4000 * 4000 ≤ (i 0).val ∧ (i 0).val < (i 0).val / 4000 * 4000 + 4000; omega
  | ⟨1, _⟩ =>
    show win1_4.index _ (1 : Fin 2) * 128 ≤ (i 1).val ∧ (i 1).val < win1_4.index _ (1 : Fin 2) * 128 + 128
    rw [f41]; omega

/-- THE OUTPUT ARRAY after the region's run: the layer's value on the arrays as the region finds them. -/
theorem arr1_eq (c : Dev nD) :
    (dat1 V c).arrAt 4 cfg1.N = Cert.Stages.conv2 (V c main_v280) (V c main_v85) (V c main_arg6) (V c main_arg7) :=
  (dat1 V c).arrAt_eq_of_cover 4 _ (fun t _ => flushed1_eq V c t) (cover1)

end Region1

end Cert.KernelIdeal.KConv

end
-- ==== Proof.StagesTail.lean ====
/-
  The tail both programs end with, as one function of whole arrays (at any float instance).

  From the node features h : [100000, 128] and the graph id g : [100000] of every node: the number of nodes of
  each of the 64 graphs (ones added into the position the node's graph id names, from zero), clipped below at
  one; the sum of the feature rows of each graph (rows added into the row the graph id names, from zero); their
  quotient, the mean feature row of every graph, [64, 128]. Then the dense layer: the mean rows times
  wc : [128, 10] plus the bias row bc. Then the softmax over axis 0 (over the 64 graphs, separately for each of
  the 10 columns): subtract the column's maximum (the maximum of -inf and the running maximum from -inf),
  exponentiate, divide by the column's sum (from zero).
-/
import proofs.«118654_j25211458027582_2_alg».proof.Proof.Gen.KernelIdeal
import proofs.«118654_j25211458027582_2_alg».proof.Proof.Gen.ReferenceIdeal
import Idealize.ShloMosaic.PureOps.Ideal
import Idealize.ShloMosaic.Lib.ValueIdx

noncomputable section

namespace Cert.Stages

open Idealize.ShloMosaic Cert.KernelIdeal Cert.KernelIdeal.Facts₀ Cert.KernelIdeal.Facts

variable {F : FTy → Type} [FloatOps F]

local notation "C[" S ", " e "]" => (BufTy.Contents (Elt F) (⟨S, e⟩ : BufTy))

/-- The tail: per graph, the mean of its nodes' feature rows (the row sums over the graph's nodes divided by
    the number of its nodes clipped below at one); the dense layer `mean · wc + bc`; the softmax of the result
    down every column (over the 64 graphs). `h` are the node features, `g` the graph id of every node. -/
def tail (h : C[S100000x128, .f32]) (g : C[S100000, .i32]) (wc : C[S128x10, .f32]) (bc : C[S10, .f32]) :
    C[S64x10, .f32] :=
  -- the dense layer applied to the per-graph mean rows
  let logits : C[S64x10, .f32] :=
    addf
      (Host.dotGeneral dot_S64x128_S128x10_S64x10_1_0_0_1_n_n none
        (Host.divf
          (Host.scatterAdd scatter_S64x128_S100000x1_S100000x128_1_0_0_1
            (broadcastInDim S64x128 ![] bcast_S_S64x128 (constant (F := F) S_ .f32 0x00000000#32))
            (broadcastInDim S100000x1 ![0] bcast_S100000_S100000x1_0 g) h)
          (broadcastInDim S64x128 ![0, 1] bcast_S64x1_S64x128_0_1
            (broadcastInDim S64x1 ![0] bcast_S64_S64x1_0
              (maximumf (broadcastInDim S64 ![] bcast_S_S64 (id (constant (F := F) S_ .f32 0x3F800000#32)))
                (Host.scatterAdd scatter_S64_S100000x1_S100000_n_0_0_1
                  (broadcastInDim S64 ![] bcast_S_S64 (constant (F := F) S_ .f32 0x00000000#32))
                  (broadcastInDim S100000x1 ![0] bcast_S100000_S100000x1_0 g)
                  (broadcastInDim S100000 ![] bcast_S_S100000 (constant (F := F) S_ .f32 0x3F800000#32)))))))
        wc)
      (broadcastInDim S64x10 ![0, 1] bcast_S1x10_S64x10_0_1 (broadcastInDim S1x10 ![1] bcast_S10_S1x10_1 bc))
  -- exponentials of the logits less their column's maximum
  let e : C[S64x10, .f32] :=
    Host.exp
      (subf logits
        (broadcastInDim S64x10 ![0, 1] bcast_S1x10_S64x10_0_1
          (broadcastInDim S1x10 ![1] bcast_S10_S1x10_1
            (maximumf (broadcastInDim S10 ![] bcast_S_S10 (constant (F := F) S_ .f32 0xFF800000#32))
              (Host.reduce FloatOps.maximumf logits (constant (F := F) S_ .f32 0xFF800000#32) reducesTo_S64x10_S10_d0 h_S_)))))
  Host.divf e
    (broadcastInDim S64x10 ![0, 1] bcast_S1x10_S64x10_0_1
      (broadcastInDim S1x10 ![1] bcast_S10_S1x10_1
        (Host.reduceAdd e (constant (F := F) S_ .f32 0x00000000#32) reducesTo_S64x10_S10_d0 h_S_)))

end Cert.Stages

end
-- ==== Proof.KHostTail.lean ====
/-
  The kernel program's last three host stretches (the 35 operations after the second pallas_call) compute the
  shared tail `Cert.Stages.tail` of the second layer's output, the graph ids, and the dense layer's weights and
  bias; and they write none of the program's arguments.
-/
import proofs.«118654_j25211458027582_2_alg».proof.Proof.Gen.KernelIdeal.Launch
import proofs.«118654_j25211458027582_2_alg».proof.Proof.StagesTail
import Idealize.ShloMosaic.Lib.StableHlo.Run

noncomputable section

namespace Cert.KernelIdeal.KHost

open Idealize.ShloMosaic Cert.KernelIdeal Cert.KernelIdeal.Gen

variable {F : FTy → Type} [FloatOps F]

/-- The program's ten arguments. -/
abbrev args : List (Ref sig .tc) :=
  [main_arg0, main_arg1, main_arg2, main_arg3, main_arg4, main_arg5, main_arg6, main_arg7, main_arg8, main_arg9]

set_option maxHeartbeats 2000000 in
/-- After the three closing stretches the result buffer holds the tail of the second layer's output. -/
theorem tail_eq (W : Valuation τ sig (Elt F)) :
    StableHlo.after hostOps2_2 (StableHlo.after hostOps2_1 (StableHlo.after hostOps2 W)) (Proc.devRef .tc main_v307)
      = Cert.Stages.tail (W (Proc.devRef .tc main_v281)) (W (Proc.devRef .tc main_arg3))
          (W (Proc.devRef .tc main_arg8)) (W (Proc.devRef .tc main_arg9)) := by
  simp only [hostOps2, hostOps2_1, hostOps2_2]
  after_results_simp
  rfl

set_option maxHeartbeats 2000000 in
/-- No operation of the first closing stretch writes an argument. -/
theorem hostOps2_arg (W : Valuation τ sig (Elt F)) {r : Ref sig .tc} (h : r ∈ args) :
    StableHlo.after hostOps2 W (Proc.devRef .tc r) = W (Proc.devRef .tc r) := by
  simp only [args, List.mem_cons, List.not_mem_nil, or_false] at h
  rcases h with rfl | rfl | rfl | rfl | rfl | rfl | rfl | rfl | rfl | rfl <;>
    (simp only [hostOps2]; after_results_simp)

set_option maxHeartbeats 2000000 in
/-- No operation of the inlined clip writes an argument. -/
theorem hostOps2_1_arg (W : Valuation τ sig (Elt F)) {r : Ref sig .tc} (h : r ∈ args) :
    StableHlo.after hostOps2_1 W (Proc.devRef .tc r) = W (Proc.devRef .tc r) := by
  simp only [args, List.mem_cons, List.not_mem_nil, or_false] at h
  rcases h with rfl | rfl | rfl | rfl | rfl | rfl | rfl | rfl | rfl | rfl <;>
    (simp only [hostOps2_1]; after_results_simp)

set_option maxHeartbeats 2000000 in
/-- No operation of the last stretch writes an argument. -/
theorem hostOps2_2_arg (W : Valuation τ sig (Elt F)) {r : Ref sig .tc} (h : r ∈ args) :
    StableHlo.after hostOps2_2 W (Proc.devRef .tc r) = W (Proc.devRef .tc r) := by
  simp only [args, List.mem_cons, List.not_mem_nil, or_false] at h
  rcases h with rfl | rfl | rfl | rfl | rfl | rfl | rfl | rfl | rfl | rfl <;>
    (simp only [hostOps2_2]; after_results_simp)

/-- The three closing stretches leave every argument as it was. -/
theorem tail_arg (W : Valuation τ sig (Elt F)) {r : Ref sig .tc} (h : r ∈ args) :
    StableHlo.after hostOps2_2 (StableHlo.after hostOps2_1 (StableHlo.after hostOps2 W)) (Proc.devRef .tc r)
      = W (Proc.devRef .tc r) := by
  rw [hostOps2_2_arg _ h, hostOps2_1_arg _ h, hostOps2_arg _ h]

end Cert.KernelIdeal.KHost

end
-- ==== Proof.KHostLib.lean ====
/-
  Reading a three-operand concatenate's result: the operands' contents each at its own reference, so that a
  fold over a stretch of host operations goes on through them.
-/
import Idealize.ShloMosaic.Lib.StableHlo.Run

noncomputable section

namespace Cert.KernelIdeal.KHost

open Idealize.ShloMosaic Idealize.ShloMosaic.StableHlo

variable {τ : Topo} {sig : RefSig} {Val : EltTy → Type}

/-- A three-operand operation over a literal family of references leaves at its result the function of the
    three operands' contents, each read at its own reference. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a))
          (Fin.cons (F (Proc.devRef .tc b)) (fun i => i.elim0)))) := by
  rw [nary_result]; congr 1; funext k; fin_cases k <;> rfl

/-- The results of a stretch of host operations by one simp pass: each operation's result at its own result
    reference is its function's value, at any other reference what was there before; a three-operand operation
    is read with its operands at their own references. -/
macro "host_results" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

end Cert.KernelIdeal.KHost

end
-- ==== Proof.KHostPreDef.lean ====
/-
  The unscoped buffers when the first pallas_call is entered: the thirteen host stretches before it, in order,
  from any contents.
-/
import proofs.«118654_j25211458027582_2_alg».proof.Proof.Gen.KernelIdeal.Launch
import proofs.«118654_j25211458027582_2_alg».proof.Proof.KHostLib

noncomputable section

namespace Cert.KernelIdeal.KHost

open Idealize.ShloMosaic Cert.KernelIdeal Cert.KernelIdeal.Gen

variable {F : FTy → Type} [FloatOps F]

/-- The buffers' contents after the thirteen stretches of host operations that precede the first pallas_call,
    run in order from contents `W`. -/
abbrev pre (W : Valuation τ sig (Elt F)) : Valuation τ sig (Elt F) :=
  StableHlo.after hostOps0_12 (StableHlo.after hostOps0_11 (StableHlo.after hostOps0_10 (StableHlo.after hostOps0_9
    (StableHlo.after hostOps0_8 (StableHlo.after hostOps0_7 (StableHlo.after hostOps0_6 (StableHlo.after hostOps0_5
      (StableHlo.after hostOps0_4 (StableHlo.after hostOps0_3 (StableHlo.after hostOps0_2 (StableHlo.after hostOps0_1
        (StableHlo.after hostOps0 W))))))))))))

end Cert.KernelIdeal.KHost

end
-- ==== Proof.KHostMid.lean ====
/-
  The kernel program's middle host stretch (the 118 operations between the two pallas_calls) computes, from the
  first layer's output, the two index tables and the stacked source weights, the three relations' aggregates
  stacked along a new leading axis; and it writes none of the program's arguments, nor the stacked weights, nor
  the first layer's output.
-/
import proofs.«118654_j25211458027582_2_alg».proof.Proof.Gen.KernelIdeal.Launch
import proofs.«118654_j25211458027582_2_alg».proof.Proof.Stages
import proofs.«118654_j25211458027582_2_alg».proof.Proof.KHostLib
import Idealize.ShloMosaic.Lib.StableHlo.Run

noncomputable section

namespace Cert.KernelIdeal.KHost

open Idealize.ShloMosaic Idealize.ShloMosaic.StableHlo Cert.KernelIdeal Cert.KernelIdeal.Gen

variable {F : FTy → Type} [FloatOps F]

set_option maxHeartbeats 4000000 in
/-- After the middle stretch the stacked-aggregate buffer holds the three aggregates of the first layer's output. -/
theorem mid_eq (W : Valuation τ sig (Elt F)) :
    StableHlo.after hostOps1 W (Proc.devRef .tc main_v280)
      = Cert.Stages.kAgg (W (Proc.devRef .tc main_v183)) (W (Proc.devRef .tc main_arg1))
          (W (Proc.devRef .tc main_arg2)) (W (Proc.devRef .tc main_v81)) := by
  simp only [hostOps1]
  host_results
  rfl

/-! ## What the middle stretch leaves alone -/

/-- An operation whose one written buffer is among the references `L` writes within `L`. -/
theorem mid_writes_sub_of_mem {L : List (Ref sig .tc)} (y : Ref sig .tc) {op : HloOp τ sig (Elt F)}
    (hw : op.writes = {Proc.devRef .tc y}) (hy : y ∈ L) :
    op.writes ⊆ (L.map (Proc.devRef (τ := τ) .tc)).toFinset := by
  rw [hw, Finset.singleton_subset_iff, List.mem_toFinset]
  exact List.mem_map.mpr ⟨y, hy, rfl⟩

/-- The references the middle stretch writes: one per operation, in order. -/
abbrev midWritten : List (Ref sig .tc) :=
  [
   main_v184, main_v185, main_v186, main_v187, main_c_49, main_v188, main_v189, main_c_50, main_v190, main_v191,
   main_v192, main_v193, main_v194, main_v195, main_v196, main_c_51, main_v197, main_v198, main_c_52, main_v199,
   main_v200, main_v201, main_v202, main_v203, main_v204, main_v205, main_v206, main_cst_53, main_v207, main_c_54,
   main_v208, main_v209, main_c_55, main_v210, main_v211, main_v212, main_v213, main_v214, main_v215, main_v216,
   main_v217, main_v218, main_c_56, main_v219, main_v220, main_c_57, main_v221, main_v222, main_v223, main_v224,
   main_v225, main_v226, main_v227, main_c_58, main_v228, main_v229, main_c_59, main_v230, main_v231, main_v232,
   main_v233, main_v234, main_v235, main_v236, main_v237, main_cst_60, main_v238, main_c_61, main_v239, main_v240,
   main_c_62, main_v241, main_v242, main_v243, main_v244, main_v245, main_v246, main_v247, main_v248, main_v249,
   main_c_63, main_v250, main_v251, main_c_64, main_v252, main_v253, main_v254, main_v255, main_v256, main_v257,
   main_v258, main_c_65, main_v259, main_v260, main_c_66, main_v261, main_v262, main_v263, main_v264, main_v265,
   main_v266, main_v267, main_v268, main_cst_67, main_v269, main_c_68, main_v270, main_v271, main_c_69, main_v272,
   main_v273, main_v274, main_v275, main_v276, main_v277, main_v278, main_v279, main_v280]

set_option maxRecDepth 8192 in
set_option maxHeartbeats 4000000 in
/-- Every operation of the middle stretch writes one of the listed references. -/
theorem mid_writes : (hostOps1 : List (HloOp τ sig (Elt F))).Forall fun op =>
    op.writes ⊆ (midWritten.map (Proc.devRef (τ := τ) .tc)).toFinset :=
  ⟨
   mid_writes_sub_of_mem main_v184 rfl (by decide),
   mid_writes_sub_of_mem main_v185 rfl (by decide),
   mid_writes_sub_of_mem main_v186 rfl (by decide),
   mid_writes_sub_of_mem main_v187 rfl (by decide),
   mid_writes_sub_of_mem main_c_49 rfl (by decide),
   mid_writes_sub_of_mem main_v188 rfl (by decide),
   mid_writes_sub_of_mem main_v189 rfl (by decide),
   mid_writes_sub_of_mem main_c_50 rfl (by decide),
   mid_writes_sub_of_mem main_v190 rfl (by decide),
   mid_writes_sub_of_mem main_v191 rfl (by decide),
   mid_writes_sub_of_mem main_v192 rfl (by decide),
   mid_writes_sub_of_mem main_v193 rfl (by decide),
   mid_writes_sub_of_mem main_v194 rfl (by decide),
   mid_writes_sub_of_mem main_v195 rfl (by decide),
   mid_writes_sub_of_mem main_v196 rfl (by decide),
   mid_writes_sub_of_mem main_c_51 rfl (by decide),
   mid_writes_sub_of_mem main_v197 rfl (by decide),
   mid_writes_sub_of_mem main_v198 rfl (by decide),
   mid_writes_sub_of_mem main_c_52 rfl (by decide),
   mid_writes_sub_of_mem main_v199 rfl (by decide),
   mid_writes_sub_of_mem main_v200 rfl (by decide),
   mid_writes_sub_of_mem main_v201 rfl (by decide),
   mid_writes_sub_of_mem main_v202 rfl (by decide),
   mid_writes_sub_of_mem main_v203 rfl (by decide),
   mid_writes_sub_of_mem main_v204 rfl (by decide),
   mid_writes_sub_of_mem main_v205 rfl (by decide),
   mid_writes_sub_of_mem main_v206 rfl (by decide),
   mid_writes_sub_of_mem main_cst_53 rfl (by decide),
   mid_writes_sub_of_mem main_v207 rfl (by decide),
   mid_writes_sub_of_mem main_c_54 rfl (by decide),
   mid_writes_sub_of_mem main_v208 rfl (by decide),
   mid_writes_sub_of_mem main_v209 rfl (by decide),
   mid_writes_sub_of_mem main_c_55 rfl (by decide),
   mid_writes_sub_of_mem main_v210 rfl (by decide),
   mid_writes_sub_of_mem main_v211 rfl (by decide),
   mid_writes_sub_of_mem main_v212 rfl (by decide),
   mid_writes_sub_of_mem main_v213 rfl (by decide),
   mid_writes_sub_of_mem main_v214 rfl (by decide),
   mid_writes_sub_of_mem main_v215 rfl (by decide),
   mid_writes_sub_of_mem main_v216 rfl (by decide),
   mid_writes_sub_of_mem main_v217 rfl (by decide),
   mid_writes_sub_of_mem main_v218 rfl (by decide),
   mid_writes_sub_of_mem main_c_56 rfl (by decide),
   mid_writes_sub_of_mem main_v219 rfl (by decide),
   mid_writes_sub_of_mem main_v220 rfl (by decide),
   mid_writes_sub_of_mem main_c_57 rfl (by decide),
   mid_writes_sub_of_mem main_v221 rfl (by decide),
   mid_writes_sub_of_mem main_v222 rfl (by decide),
   mid_writes_sub_of_mem main_v223 rfl (by decide),
   mid_writes_sub_of_mem main_v224 rfl (by decide),
   mid_writes_sub_of_mem main_v225 rfl (by decide),
   mid_writes_sub_of_mem main_v226 rfl (by decide),
   mid_writes_sub_of_mem main_v227 rfl (by decide),
   mid_writes_sub_of_mem main_c_58 rfl (by decide),
   mid_writes_sub_of_mem main_v228 rfl (by decide),
   mid_writes_sub_of_mem main_v229 rfl (by decide),
   mid_writes_sub_of_mem main_c_59 rfl (by decide),
   mid_writes_sub_of_mem main_v230 rfl (by decide),
   mid_writes_sub_of_mem main_v231 rfl (by decide),
   mid_writes_sub_of_mem main_v232 rfl (by decide),
   mid_writes_sub_of_mem main_v233 rfl (by decide),
   mid_writes_sub_of_mem main_v234 rfl (by decide),
   mid_writes_sub_of_mem main_v235 rfl (by decide),
   mid_writes_sub_of_mem main_v236 rfl (by decide),
   mid_writes_sub_of_mem main_v237 rfl (by decide),
   mid_writes_sub_of_mem main_cst_60 rfl (by decide),
   mid_writes_sub_of_mem main_v238 rfl (by decide),
   mid_writes_sub_of_mem main_c_61 rfl (by decide),
   mid_writes_sub_of_mem main_v239 rfl (by decide),
   mid_writes_sub_of_mem main_v240 rfl (by decide),
   mid_writes_sub_of_mem main_c_62 rfl (by decide),
   mid_writes_sub_of_mem main_v241 rfl (by decide),
   mid_writes_sub_of_mem main_v242 rfl (by decide),
   mid_writes_sub_of_mem main_v243 rfl (by decide),
   mid_writes_sub_of_mem main_v244 rfl (by decide),
   mid_writes_sub_of_mem main_v245 rfl (by decide),
   mid_writes_sub_of_mem main_v246 rfl (by decide),
   mid_writes_sub_of_mem main_v247 rfl (by decide),
   mid_writes_sub_of_mem main_v248 rfl (by decide),
   mid_writes_sub_of_mem main_v249 rfl (by decide),
   mid_writes_sub_of_mem main_c_63 rfl (by decide),
   mid_writes_sub_of_mem main_v250 rfl (by decide),
   mid_writes_sub_of_mem main_v251 rfl (by decide),
   mid_writes_sub_of_mem main_c_64 rfl (by decide),
   mid_writes_sub_of_mem main_v252 rfl (by decide),
   mid_writes_sub_of_mem main_v253 rfl (by decide),
   mid_writes_sub_of_mem main_v254 rfl (by decide),
   mid_writes_sub_of_mem main_v255 rfl (by decide),
   mid_writes_sub_of_mem main_v256 rfl (by decide),
   mid_writes_sub_of_mem main_v257 rfl (by decide),
   mid_writes_sub_of_mem main_v258 rfl (by decide),
   mid_writes_sub_of_mem main_c_65 rfl (by decide),
   mid_writes_sub_of_mem main_v259 rfl (by decide),
   mid_writes_sub_of_mem main_v260 rfl (by decide),
   mid_writes_sub_of_mem main_c_66 rfl (by decide),
   mid_writes_sub_of_mem main_v261 rfl (by decide),
   mid_writes_sub_of_mem main_v262 rfl (by decide),
   mid_writes_sub_of_mem main_v263 rfl (by decide),
   mid_writes_sub_of_mem main_v264 rfl (by decide),
   mid_writes_sub_of_mem main_v265 rfl (by decide),
   mid_writes_sub_of_mem main_v266 rfl (by decide),
   mid_writes_sub_of_mem main_v267 rfl (by decide),
   mid_writes_sub_of_mem main_v268 rfl (by decide),
   mid_writes_sub_of_mem main_cst_67 rfl (by decide),
   mid_writes_sub_of_mem main_v269 rfl (by decide),
   mid_writes_sub_of_mem main_c_68 rfl (by decide),
   mid_writes_sub_of_mem main_v270 rfl (by decide),
   mid_writes_sub_of_mem main_v271 rfl (by decide),
   mid_writes_sub_of_mem main_c_69 rfl (by decide),
   mid_writes_sub_of_mem main_v272 rfl (by decide),
   mid_writes_sub_of_mem main_v273 rfl (by decide),
   mid_writes_sub_of_mem main_v274 rfl (by decide),
   mid_writes_sub_of_mem main_v275 rfl (by decide),
   mid_writes_sub_of_mem main_v276 rfl (by decide),
   mid_writes_sub_of_mem main_v277 rfl (by decide),
   mid_writes_sub_of_mem main_v278 rfl (by decide),
   mid_writes_sub_of_mem main_v279 rfl (by decide),
   mid_writes_sub_of_mem main_v280 rfl (by decide)⟩

/-- A reference the middle stretch does not write keeps its contents. -/
theorem mid_frame (W : Valuation τ sig (Elt F)) {r : Ref sig .tc} (hr : r ∉ midWritten) :
    StableHlo.after hostOps1 W (Proc.devRef .tc r) = W (Proc.devRef .tc r) :=
  StableHlo.after_of_writes_sub hostOps1 W mid_writes hr

/-- The program's ten arguments, the first layer's stacked destination and source weights, and the first
    layer's output. -/
abbrev midKept : List (Ref sig .tc) :=
  [main_arg0, main_arg1, main_arg2, main_arg3, main_arg4, main_arg5, main_arg6, main_arg7, main_arg8, main_arg9,
   main_v85, main_v81, main_v183]

/-- The middle stretch writes none of the arguments, the stacked weights, or the first layer's output. -/
theorem mid_keeps (W : Valuation τ sig (Elt F)) (r : Ref sig .tc) (hr : r ∈ midKept) :
    StableHlo.after hostOps1 W (Proc.devRef .tc r) = W (Proc.devRef .tc r) :=
  mid_frame W (by revert r; decide)

end Cert.KernelIdeal.KHost

end
-- ==== Proof.KValue.lean ====
/- The kernel program's result as a function of its arguments: the buffer contents at the boundaries of its host
   stretches and its two pallas_calls, read back one boundary at a time — the host code before the first call stacks
   the degree weights and the three aggregates of the input features, the first call leaves the first layer's output,
   the host code between the calls stacks the aggregates of that output, the second call leaves the second layer's
   output, and the closing host code takes the readout. -/
import proofs.«118654_j25211458027582_2_alg».proof.Proof.KFrameW
import proofs.«118654_j25211458027582_2_alg».proof.Proof.KConvArr0
import proofs.«118654_j25211458027582_2_alg».proof.Proof.KConvArr1
import proofs.«118654_j25211458027582_2_alg».proof.Proof.KHostTail
import proofs.«118654_j25211458027582_2_alg».proof.Proof.KHostPreDef
import proofs.«118654_j25211458027582_2_alg».proof.Proof.KHostMid
import proofs.«118654_j25211458027582_2_alg».proof.Proof.Stages
import proofs.«118654_j25211458027582_2_alg».proof.Proof.StagesTail

noncomputable section

namespace Cert.KernelIdeal.KValue

open Cert.KernelIdeal Cert.KernelIdeal.Gen Cert.KernelIdeal.KFrame Cert.KernelIdeal.KHost Cert.KernelIdeal.KConv
open Idealize.ShloMosaic Idealize.ShloMosaic.TcCoe Idealize.SL.Sem

variable (m : (ℓ : Loc nD τ sig) → Buf (Elt Ideal) ℓ) (ρ : Dev nD → PrngReg) (c : Dev nD)

/-- What the host stretches before the first call compute, over any contents `W` of the buffers: the stacked source
    weights, the stacked destination weights and the stacked aggregates of the input features. -/
structure HostFacts : Prop where
  pre81 : ∀ W : Valuation τ sig (Elt Ideal), pre W (Proc.devRef .tc main_v81) = Cert.Stages.kSo (W (Proc.devRef .tc main_arg1))
  pre85 : ∀ W : Valuation τ sig (Elt Ideal), pre W (Proc.devRef .tc main_v85) = Cert.Stages.kSi (W (Proc.devRef .tc main_arg2))
  pre182 : ∀ W : Valuation τ sig (Elt Ideal), pre W (Proc.devRef .tc main_v182)
      = Cert.Stages.kAgg (W (Proc.devRef .tc main_arg0)) (W (Proc.devRef .tc main_arg1)) (W (Proc.devRef .tc main_arg2)) (Cert.Stages.kSo (W (Proc.devRef .tc main_arg1)))

variable (H : HostFacts)

/-! ## Region 0's entry -/

theorem W0_arg (b : Ref sig .tc) : W0 m ρ c (Proc.devRef .tc b) = m ((c : Thread nD τ).loc b) := rfl

include H in
theorem W13_v81 : W13 m ρ c (Proc.devRef .tc main_v81) = (Cert.Stages.kSo (F := Ideal) (m ((c : Thread nD τ).loc main_arg1))) :=
  (congrFun (W13_eq m ρ c) _).trans (H.pre81 (W0 m ρ c))

include H in
theorem W13_v85 : W13 m ρ c (Proc.devRef .tc main_v85) = (Cert.Stages.kSi (F := Ideal) (m ((c : Thread nD τ).loc main_arg2))) :=
  (congrFun (W13_eq m ρ c) _).trans (H.pre85 (W0 m ρ c))

include H in
theorem W13_v182 : W13 m ρ c (Proc.devRef .tc main_v182) = (Cert.Stages.kAgg (F := Ideal) (m ((c : Thread nD τ).loc main_arg0)) (m ((c : Thread nD τ).loc main_arg1)) (m ((c : Thread nD τ).loc main_arg2)) (Cert.Stages.kSo (F := Ideal) (m ((c : Thread nD τ).loc main_arg1)))) :=
  (congrFun (W13_eq m ρ c) _).trans (H.pre182 (W0 m ρ c))

/-! ## Region 0's exit -/

include H in
/-- The first pallas_call leaves the first layer's output. -/
theorem W14_v183 : W14 m ρ c (Proc.devRef .tc main_v183) = (Cert.Stages.conv1 (Cert.Stages.kAgg (F := Ideal) (m ((c : Thread nD τ).loc main_arg0)) (m ((c : Thread nD τ).loc main_arg1)) (m ((c : Thread nD τ).loc main_arg2)) (Cert.Stages.kSo (F := Ideal) (m ((c : Thread nD τ).loc main_arg1)))) (Cert.Stages.kSi (F := Ideal) (m ((c : Thread nD τ).loc main_arg2))) (m ((c : Thread nD τ).loc main_arg4)) (m ((c : Thread nD τ).loc main_arg5))) := by
  refine (W14_out m ρ c).trans ((arr0_eq (V13 m ρ) c).trans ?_)
  show Cert.Stages.conv1 (W13 m ρ c (Proc.devRef .tc main_v182)) (W13 m ρ c (Proc.devRef .tc main_v85)) (W13 m ρ c (Proc.devRef .tc main_arg4)) (W13 m ρ c (Proc.devRef .tc main_arg5)) = _
  rw [W13_v182 m ρ c H, W13_v85 m ρ c H, W13_arg m ρ c main_arg4 (by decide), W13_arg m ρ c main_arg5 (by decide)]

/-- The stacked destination weights are an input of the first call: it leaves them as it found them. -/
theorem W14_v85 : W14 m ρ c (Proc.devRef .tc main_v85) = W13 m ρ c (Proc.devRef .tc main_v85) :=
  (W14_arr m ρ c 1).trans (((dat0 (V13 m ρ) c).arrAt_in 1 rfl _).trans (A_eq0 (V13 m ρ) c 1))

/-- The stacked source weights are not among the first call's arrays. -/
theorem W14_v81 : W14 m ρ c (Proc.devRef .tc main_v81) = W13 m ρ c (Proc.devRef .tc main_v81) :=
  W14_of_ne m ρ c main_v81 (by decide)

theorem W14_argm (b : Ref sig .tc) (hb : b.idx.val < 10) : W14 m ρ c (Proc.devRef .tc b) = m ((c : Thread nD τ).loc b) :=
  (W14_arg m ρ c b hb).trans (W13_arg m ρ c b hb)

/-! ## Region 1's entry -/

theorem W15_argm (b : Ref sig .tc) (hb : b.idx.val < 10) : W15 m ρ c (Proc.devRef .tc b) = m ((c : Thread nD τ).loc b) :=
  (after_keeps hostOps1 hostOps1_keeps _ b hb).trans (W14_argm m ρ c b hb)

include H in
theorem W15_v280 : W15 m ρ c (Proc.devRef .tc main_v280) = (Cert.Stages.kAgg (F := Ideal) (Cert.Stages.conv1 (Cert.Stages.kAgg (F := Ideal) (m ((c : Thread nD τ).loc main_arg0)) (m ((c : Thread nD τ).loc main_arg1)) (m ((c : Thread nD τ).loc main_arg2)) (Cert.Stages.kSo (F := Ideal) (m ((c : Thread nD τ).loc main_arg1)))) (Cert.Stages.kSi (F := Ideal) (m ((c : Thread nD τ).loc main_arg2))) (m ((c : Thread nD τ).loc main_arg4)) (m ((c : Thread nD τ).loc main_arg5))) (m ((c : Thread nD τ).loc main_arg1)) (m ((c : Thread nD τ).loc main_arg2)) (Cert.Stages.kSo (F := Ideal) (m ((c : Thread nD τ).loc main_arg1)))) := by
  refine (mid_eq (W14 m ρ c)).trans ?_
  rw [W14_v183 m ρ c H, W14_argm m ρ c main_arg1 (by decide), W14_argm m ρ c main_arg2 (by decide),
    W14_v81 m ρ c, W13_v81 m ρ c H]

include H in
theorem W15_v85 : W15 m ρ c (Proc.devRef .tc main_v85) = (Cert.Stages.kSi (F := Ideal) (m ((c : Thread nD τ).loc main_arg2))) :=
  (mid_keeps (W14 m ρ c) main_v85 (by decide)).trans ((W14_v85 m ρ c).trans (W13_v85 m ρ c H))

/-! ## Region 1's exit -/

include H in
/-- The second pallas_call leaves the second layer's output. -/
theorem W16_v281 : W16 m ρ c (Proc.devRef .tc main_v281) = (Cert.Stages.conv2 (Cert.Stages.kAgg (F := Ideal) (Cert.Stages.conv1 (Cert.Stages.kAgg (F := Ideal) (m ((c : Thread nD τ).loc main_arg0)) (m ((c : Thread nD τ).loc main_arg1)) (m ((c : Thread nD τ).loc main_arg2)) (Cert.Stages.kSo (F := Ideal) (m ((c : Thread nD τ).loc main_arg1)))) (Cert.Stages.kSi (F := Ideal) (m ((c : Thread nD τ).loc main_arg2))) (m ((c : Thread nD τ).loc main_arg4)) (m ((c : Thread nD τ).loc main_arg5))) (m ((c : Thread nD τ).loc main_arg1)) (m ((c : Thread nD τ).loc main_arg2)) (Cert.Stages.kSo (F := Ideal) (m ((c : Thread nD τ).loc main_arg1)))) (Cert.Stages.kSi (F := Ideal) (m ((c : Thread nD τ).loc main_arg2))) (m ((c : Thread nD τ).loc main_arg6)) (m ((c : Thread nD τ).loc main_arg7))) := by
  refine (W16_out m ρ c).trans ((arr1_eq (V15 m ρ) c).trans ?_)
  show Cert.Stages.conv2 (W15 m ρ c (Proc.devRef .tc main_v280)) (W15 m ρ c (Proc.devRef .tc main_v85)) (W15 m ρ c (Proc.devRef .tc main_arg6)) (W15 m ρ c (Proc.devRef .tc main_arg7)) = _
  rw [W15_v280 m ρ c H, W15_v85 m ρ c H, W15_argm m ρ c main_arg6 (by decide), W15_argm m ρ c main_arg7 (by decide)]

theorem W16_argm (b : Ref sig .tc) (hb : b.idx.val < 10) : W16 m ρ c (Proc.devRef .tc b) = m ((c : Thread nD τ).loc b) :=
  (W16_arg m ρ c b hb).trans (W15_argm m ρ c b hb)

/-! ## The result -/

include H in
/-- The kernel program's result buffer at the end, as a function of the launch memory's arguments. -/
theorem kernel_value_of : W19 m ρ c (Proc.devRef .tc main_v307) = Cert.Stages.tail (F := Ideal) (Cert.Stages.conv2 (Cert.Stages.kAgg (F := Ideal) (Cert.Stages.conv1 (Cert.Stages.kAgg (F := Ideal) (m ((c : Thread nD τ).loc main_arg0)) (m ((c : Thread nD τ).loc main_arg1)) (m ((c : Thread nD τ).loc main_arg2)) (Cert.Stages.kSo (F := Ideal) (m ((c : Thread nD τ).loc main_arg1)))) (Cert.Stages.kSi (F := Ideal) (m ((c : Thread nD τ).loc main_arg2))) (m ((c : Thread nD τ).loc main_arg4)) (m ((c : Thread nD τ).loc main_arg5))) (m ((c : Thread nD τ).loc main_arg1)) (m ((c : Thread nD τ).loc main_arg2)) (Cert.Stages.kSo (F := Ideal) (m ((c : Thread nD τ).loc main_arg1)))) (Cert.Stages.kSi (F := Ideal) (m ((c : Thread nD τ).loc main_arg2))) (m ((c : Thread nD τ).loc main_arg6)) (m ((c : Thread nD τ).loc main_arg7))) (m ((c : Thread nD τ).loc main_arg3)) (m ((c : Thread nD τ).loc main_arg8)) (m ((c : Thread nD τ).loc main_arg9)) := by
  refine (congrFun (W19_eq m ρ c) _).trans ((tail_eq (W16 m ρ c)).trans ?_)
  rw [W16_v281 m ρ c H, W16_argm m ρ c main_arg3 (by decide), W16_argm m ρ c main_arg8 (by decide),
    W16_argm m ρ c main_arg9 (by decide)]

end Cert.KernelIdeal.KValue

end
-- ==== Proof.LibBcast.lean ====
/-
  Layout operations of small ranks read at an index given by coordinates: a vector made a column or a row, a column or a
  row repeated along the other axis, a scalar repeated everywhere. Each reads the operand at the coordinates it keeps.
-/
import Idealize.ShloMosaic.Lib.ValueIdx
import Idealize.ShloMosaic.Lib.Pipeline.Value
import Idealize.ShloMosaic.Lib.ValueLayout

namespace Cert.LibBcast

open Idealize.ShloMosaic Idealize.ShloMosaic.ValueIdx

variable {α : Type}

/-- A length-`a` vector broadcast to an `[a, 1]` column reads, at `(p, u)`, the vector at `p`. -/
theorem bid_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v (ix2 p u) (ix1 p) (fun d => by
    match d with
    | ⟨0, _⟩ =>
      show p.val = if a = 1 then 0 else p.val
      split_ifs with h1
      · have := p.isLt; omega
      · rfl)

/-- A length-`b` vector broadcast to a `[1, b]` row reads, at `(u, q)`, the vector at `q`. -/
theorem bid_row_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h v (ix2 u q) = v (ix1 q) :=
  broadcastInDim_apply _ h v (ix2 u q) (ix1 q) (fun d => by
    match d with
    | ⟨0, _⟩ =>
      show q.val = if b = 1 then 0 else q.val
      split_ifs with h1
      · have := q.isLt; omega
      · rfl)

/-- An `[a, 1]` column repeated over `b` columns reads, at `(p, q)`, the column at `(p, 0)`. -/
theorem bid_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ ![0, 1] h v (ix2 p q) = v (ix2 p (0 : Fin 1)) :=
  broadcastInDim_apply _ h v (ix2 p q) (ix2 p (0 : Fin 1)) (fun d => by
    match d with
    | ⟨0, _⟩ =>
      show p.val = if a = 1 then 0 else p.val
      split_ifs with h1
      · have := p.isLt; omega
      · rfl
    | ⟨1, _⟩ =>
      show (0 : ℕ) = if (1 : ℕ) = 1 then 0 else q.val
      rw [if_pos rfl])

/-- A `[1, b]` row repeated over `a` rows reads, at `(p, q)`, the row at `(0, q)`. -/
theorem bid_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ ![0, 1] h v (ix2 p q) = v (ix2 (0 : Fin 1) q) :=
  broadcastInDim_apply _ h v (ix2 p q) (ix2 (0 : Fin 1) q) (fun d => by
    match d with
    | ⟨0, _⟩ =>
      show (0 : ℕ) = if (1 : ℕ) = 1 then 0 else p.val
      rw [if_pos rfl]
    | ⟨1, _⟩ =>
      show q.val = if b = 1 then 0 else q.val
      split_ifs with h1
      · have := q.isLt; omega
      · rfl)

/-- A scalar repeated over any shape reads the scalar everywhere. -/
theorem bid_scalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 (fun d => d.elim0)

/-- A length-`a` vector cast to an `[a, 1]` column reads, at `(p, u)`, the vector at `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

end Cert.LibBcast
-- ==== Proof.LayerLayout.lean ====
/-
  The layout stages of the layer read at coordinates.

  Three arrays stacked along a new leading axis read, at (r, d, k), the r-th array at (d, k); three vectors stacked as
  the columns of a matrix read, at (d, r), the r-th vector at d; a row cut out of three vectors stacked as rows is the
  vector that was put there; relation r of a stack of weight matrices reads, at (k, j), the stack at (r, k, j), and
  relation r of a bias table reads, at j, the table at (r, j). Each is a re-reading of entries: a joined array reads the
  piece its coordinate along the joined axis falls in, a slice reads the operand shifted by its offsets, and a change of
  shape that only drops a leading axis of extent one keeps the row-major position.
-/
import proofs.«118654_j25211458027582_2_alg».proof.Proof.Stages
import proofs.«118654_j25211458027582_2_alg».proof.Proof.LibBcast
import Idealize.ShloMosaic.Lib.Pipeline.Value

noncomputable section

namespace Cert.Layer

open Idealize.ShloMosaic Idealize.ShloMosaic.ValueIdx Cert.KernelIdeal Cert.Stages

section Generic
variable {α : Type}

/-- An `[a, b]` matrix given a leading axis of extent one reads, at `(u, p, q)`, the matrix at `(p, q)`. -/
theorem bid_ab_1ab_apply {a b : ℕ} (v : (⟨2, ![a, b]⟩ : Shape).Idx → α)
    (h : (⟨2, ![a, b]⟩ : Shape).BroadcastsInDim ⟨3, ![1, a, b]⟩ (![1, 2] : Fin 2 → Fin 3)) (u : Fin 1) (p : Fin a) (q : Fin b) :
    broadcastInDim ⟨3, ![1, a, b]⟩ ![1, 2] h v (ix3 u p q) = v (ix2 p q) :=
  broadcastInDim_apply _ h v (ix3 u p q) (ix2 p q) (fun d => by
    match d with
    | ⟨0, _⟩ =>
      show p.val = if a = 1 then 0 else p.val
      split_ifs with h1
      · have := p.isLt; omega
      · rfl
    | ⟨1, _⟩ =>
      show q.val = if b = 1 then 0 else q.val
      split_ifs with h1
      · have := q.isLt; omega
      · rfl)

/-- Row `r` of an `[n, m]` matrix cut out as a `[1, m]` block and read as a vector: at `p`, the matrix at `(r, p)`. -/
theorem row_apply {n m : ℕ} (r : Fin n) (x : (⟨2, ![n, m]⟩ : Shape).Idx → α)
    (hs : (⟨2, ![n, m]⟩ : Shape).Slices ![r.val, 0] ⟨2, ![1, m]⟩) (hc : (⟨2, ![1, m]⟩ : Shape).ShapeCasts ⟨1, ![m]⟩) (p : Fin m) :
    shapeCast ⟨1, ![m]⟩ (extractStridedSlice ⟨2, ![1, m]⟩ ![r.val, 0] x hs) hc (ix1 p) = x (ix2 r p) := by
  refine (shapeCast_apply _ hc (ix1 p) (ix2 (0 : Fin 1) p) ?_).trans ?_
  · rw [Shape.rowMajor_val_two, Shape.rowMajor_val_one]
    show 0 * m + p.val = p.val
    omega
  · refine extractStridedSlice_apply _ x hs (ix2 (0 : Fin 1) p) (ix2 r p) fun a => ?_
    match a with
    | ⟨0, _⟩ => show r.val = r.val + 0; omega
    | ⟨1, _⟩ => show p.val = 0 + p.val; omega

/-- Block `r` of an `[n, m, l]` stack cut out as a `[1, m, l]` block and read as a matrix: at `(p, q)`, the stack at
    `(r, p, q)`. -/
theorem slab_apply {n m l : ℕ} (r : Fin n) (x : (⟨3, ![n, m, l]⟩ : Shape).Idx → α)
    (hs : (⟨3, ![n, m, l]⟩ : Shape).Slices ![r.val, 0, 0] ⟨3, ![1, m, l]⟩) (hc : (⟨3, ![1, m, l]⟩ : Shape).ShapeCasts ⟨2, ![m, l]⟩)
    (p : Fin m) (q : Fin l) :
    shapeCast ⟨2, ![m, l]⟩ (extractStridedSlice ⟨3, ![1, m, l]⟩ ![r.val, 0, 0] x hs) hc (ix2 p q) = x (ix3 r p q) := by
  refine (shapeCast_apply _ hc (ix2 p q) (ix3 (0 : Fin 1) p q) ?_).trans ?_
  · rw [Shape.rowMajor_val_three, Shape.rowMajor_val_two]
    show (0 * m + p.val) * l + q.val = p.val * l + q.val
    rw [Nat.zero_mul, Nat.zero_add]
  · refine extractStridedSlice_apply _ x hs (ix3 (0 : Fin 1) p q) (ix3 r p q) fun a => ?_
    match a with
    | ⟨0, _⟩ => show r.val = r.val + 0; omega
    | ⟨1, _⟩ => show p.val = 0 + p.val; omega
    | ⟨2, _⟩ => show q.val = 0 + q.val; omega

end Generic

/-! ## Three aggregates stacked along a new leading axis -/

section StackAgg
variable (a0 a1 a2 : S100000x128.Idx → EReal) (d : Fin 100000) (k : Fin 128)

theorem stackAgg_0 : stackAgg (F := Ideal) a0 a1 a2 (ix3 (0 : Fin 3) d k) = a0 (ix2 d k) := by
  unfold stackAgg
  refine Eq.trans (concatenate_apply_piece (0 : Fin 3) _ _ (ix3 (0 : Fin 3) d k) 0 (by simp) S1x100000x128 _ rfl rfl 0 rfl
    (ix3 (0 : Fin 1) d k) ?_ rfl) (bid_ab_1ab_apply a0 _ 0 d k)
  intro b hb
  match b with
  | ⟨0, _⟩ => exact absurd rfl hb
  | ⟨1, _⟩ => rfl
  | ⟨2, _⟩ => rfl

theorem stackAgg_1 : stackAgg (F := Ideal) a0 a1 a2 (ix3 (1 : Fin 3) d k) = a1 (ix2 d k) := by
  unfold stackAgg
  refine Eq.trans (concatenate_apply_piece (0 : Fin 3) _ _ (ix3 (1 : Fin 3) d k) 1 (by simp) S1x100000x128 _ rfl rfl 1 rfl
    (ix3 (0 : Fin 1) d k) ?_ rfl) (bid_ab_1ab_apply a1 _ 0 d k)
  intro b hb
  match b with
  | ⟨0, _⟩ => exact absurd rfl hb
  | ⟨1, _⟩ => rfl
  | ⟨2, _⟩ => rfl

theorem stackAgg_2 : stackAgg (F := Ideal) a0 a1 a2 (ix3 (2 : Fin 3) d k) = a2 (ix2 d k) := by
  unfold stackAgg
  refine Eq.trans (concatenate_apply_piece (0 : Fin 3) _ _ (ix3 (2 : Fin 3) d k) 2 (by simp) S1x100000x128 _ rfl rfl 2 rfl
    (ix3 (0 : Fin 1) d k) ?_ rfl) (bid_ab_1ab_apply a2 _ 0 d k)
  intro b hb
  match b with
  | ⟨0, _⟩ => exact absurd rfl hb
  | ⟨1, _⟩ => rfl
  | ⟨2, _⟩ => rfl

end StackAgg

/-! ## Three weight vectors stacked as columns -/

section StackCols
variable (s0 s1 s2 : S100000.Idx → EReal) (d : Fin 100000)

theorem stackCols_0 : stackCols (F := Ideal) s0 s1 s2 (ix2 d (0 : Fin 3)) = s0 (ix1 d) := by
  unfold stackCols
  refine Eq.trans (concatenate_apply_piece (1 : Fin 2) _ _ (ix2 d (0 : Fin 3)) 0 (by simp) S100000x1 _ rfl rfl 0 rfl
    (ix2 d (0 : Fin 1)) ?_ rfl) (LibBcast.bid_col_apply s0 _ d 0)
  intro b hb
  match b with
  | ⟨0, _⟩ => rfl
  | ⟨1, _⟩ => exact absurd rfl hb

theorem stackCols_1 : stackCols (F := Ideal) s0 s1 s2 (ix2 d (1 : Fin 3)) = s1 (ix1 d) := by
  unfold stackCols
  refine Eq.trans (concatenate_apply_piece (1 : Fin 2) _ _ (ix2 d (1 : Fin 3)) 1 (by simp) S100000x1 _ rfl rfl 1 rfl
    (ix2 d (0 : Fin 1)) ?_ rfl) (LibBcast.bid_col_apply s1 _ d 0)
  intro b hb
  match b with
  | ⟨0, _⟩ => rfl
  | ⟨1, _⟩ => exact absurd rfl hb

theorem stackCols_2 : stackCols (F := Ideal) s0 s1 s2 (ix2 d (2 : Fin 3)) = s2 (ix1 d) := by
  unfold stackCols
  refine Eq.trans (concatenate_apply_piece (1 : Fin 2) _ _ (ix2 d (2 : Fin 3)) 2 (by simp) S100000x1 _ rfl rfl 2 rfl
    (ix2 d (0 : Fin 1)) ?_ rfl) (LibBcast.bid_col_apply s2 _ d 0)
  intro b hb
  match b with
  | ⟨0, _⟩ => rfl
  | ⟨1, _⟩ => exact absurd rfl hb

end StackCols

/-! ## Three weight vectors stacked as rows, and a row cut out again -/

section StackRows
variable (s0 s1 s2 : S100000.Idx → EReal) (p : Fin 100000)

theorem stackRows_0 : stackRows (F := Ideal) s0 s1 s2 (ix2 (0 : Fin 3) p) = s0 (ix1 p) := by
  unfold stackRows
  refine Eq.trans (concatenate_apply_piece (0 : Fin 2) _ _ (ix2 (0 : Fin 3) p) 0 (by simp) S1x100000 _ rfl rfl 0 rfl
    (ix2 (0 : Fin 1) p) ?_ rfl) (LibBcast.bid_row_apply s0 _ 0 p)
  intro b hb
  match b with
  | ⟨0, _⟩ => exact absurd rfl hb
  | ⟨1, _⟩ => rfl

theorem stackRows_1 : stackRows (F := Ideal) s0 s1 s2 (ix2 (1 : Fin 3) p) = s1 (ix1 p) := by
  unfold stackRows
  refine Eq.trans (concatenate_apply_piece (0 : Fin 2) _ _ (ix2 (1 : Fin 3) p) 1 (by simp) S1x100000 _ rfl rfl 1 rfl
    (ix2 (0 : Fin 1) p) ?_ rfl) (LibBcast.bid_row_apply s1 _ 0 p)
  intro b hb
  match b with
  | ⟨0, _⟩ => exact absurd rfl hb
  | ⟨1, _⟩ => rfl

theorem stackRows_2 : stackRows (F := Ideal) s0 s1 s2 (ix2 (2 : Fin 3) p) = s2 (ix1 p) := by
  unfold stackRows
  refine Eq.trans (concatenate_apply_piece (0 : Fin 2) _ _ (ix2 (2 : Fin 3) p) 2 (by simp) S1x100000 _ rfl rfl 2 rfl
    (ix2 (0 : Fin 1) p) ?_ rfl) (LibBcast.bid_row_apply s2 _ 0 p)
  intro b hb
  match b with
  | ⟨0, _⟩ => exact absurd rfl hb
  | ⟨1, _⟩ => rfl

end StackRows

/-- Row 0 of three vectors stacked as rows is the first vector. -/
theorem unstack0_stackRows (s0 s1 s2 : S100000.Idx → EReal) : unstack0 (F := Ideal) (stackRows (F := Ideal) s0 s1 s2) = s0 := by
  funext i
  obtain ⟨p, rfl⟩ : ∃ p : Fin 100000, i = ix1 p := ⟨i 0, eq_ix1 i⟩
  unfold unstack0
  exact (row_apply (0 : Fin 3) _ _ _ p).trans (stackRows_0 s0 s1 s2 p)

/-- Row 1 of three vectors stacked as rows is the second vector. -/
theorem unstack1_stackRows (s0 s1 s2 : S100000.Idx → EReal) : unstack1 (F := Ideal) (stackRows (F := Ideal) s0 s1 s2) = s1 := by
  funext i
  obtain ⟨p, rfl⟩ : ∃ p : Fin 100000, i = ix1 p := ⟨i 0, eq_ix1 i⟩
  unfold unstack1
  exact (row_apply (1 : Fin 3) _ _ _ p).trans (stackRows_1 s0 s1 s2 p)

/-- Row 2 of three vectors stacked as rows is the third vector. -/
theorem unstack2_stackRows (s0 s1 s2 : S100000.Idx → EReal) : unstack2 (F := Ideal) (stackRows (F := Ideal) s0 s1 s2) = s2 := by
  funext i
  obtain ⟨p, rfl⟩ : ∃ p : Fin 100000, i = ix1 p := ⟨i 0, eq_ix1 i⟩
  unfold unstack2
  exact (row_apply (2 : Fin 3) _ _ _ p).trans (stackRows_2 s0 s1 s2 p)

/-! ## One relation of the weight tensor and of the bias table -/

section Sel
variable (W : S3x128x128.Idx → EReal) (b : S3x128.Idx → EReal) (k j : Fin 128)

theorem wsel0_apply : wsel0 (F := Ideal) W (ix2 k j) = W (ix3 (0 : Fin 3) k j) := by
  unfold wsel0; exact slab_apply (0 : Fin 3) W _ _ k j
theorem wsel1_apply : wsel1 (F := Ideal) W (ix2 k j) = W (ix3 (1 : Fin 3) k j) := by
  unfold wsel1; exact slab_apply (1 : Fin 3) W _ _ k j
theorem wsel2_apply : wsel2 (F := Ideal) W (ix2 k j) = W (ix3 (2 : Fin 3) k j) := by
  unfold wsel2; exact slab_apply (2 : Fin 3) W _ _ k j

theorem bsel0_apply : bsel0 (F := Ideal) b (ix1 j) = b (ix2 (0 : Fin 3) j) := by
  unfold bsel0; exact row_apply (0 : Fin 3) b _ _ j
theorem bsel1_apply : bsel1 (F := Ideal) b (ix1 j) = b (ix2 (1 : Fin 3) j) := by
  unfold bsel1; exact row_apply (1 : Fin 3) b _ _ j
theorem bsel2_apply : bsel2 (F := Ideal) b (ix1 j) = b (ix2 (2 : Fin 3) j) := by
  unfold bsel2; exact row_apply (2 : Fin 3) b _ _ j

end Sel

end Cert.Layer

end
-- ==== Proof.LayerStep.lean ====
/-
  One relation's step of the reference's layer, read at an element.

  The step adds to the running output, entry by entry, the aggregate of the projected features scaled by the
  destination node's weight, and the relation's bias. The weight is a vector made a column and repeated along the
  feature axis, the bias a vector made a row and repeated along the node axis, so at (d, j) they read the weight at d
  and the bias at j; the sum and the product of arrays are entrywise on the extended reals.
-/
import proofs.«118654_j25211458027582_2_alg».proof.Proof.Stages
import proofs.«118654_j25211458027582_2_alg».proof.Proof.LibBcast
import Idealize.ShloMosaic.PureOps.Ideal.Laws

noncomputable section

namespace Cert.Layer

open Idealize.ShloMosaic Idealize.ShloMosaic.ValueIdx Cert.KernelIdeal Cert.Stages

/-- The all-zero feature matrix reads zero everywhere. -/
theorem zeros_apply (i : S100000x128.Idx) :
    broadcastInDim S100000x128 ![] Cert.KernelIdeal.Facts₀.bcast_S_S100000x128 (constant (F := Ideal) S_ .f32 0x00000000#32) i = 0 :=
  (LibBcast.bid_scalar_apply _ _ _).trans ((constant_apply _ _).trans Ideal.ofBits_zero_f32)

/-- ONE STEP AT (d, j): the running output's entry, plus the aggregate of the projected features at (d, j) times the
    destination weight of d, plus the bias at j. -/
theorem refStep_apply (out h : S100000x128.Idx → EReal) (vs vd : S200000.Idx → BitVec 32) (Wr : S128x128.Idx → EReal)
    (br : S128.Idx → EReal) (d : Fin 100000) (j : Fin 128) :
    refStep (F := Ideal) out h vs vd Wr br (ix2 d j)
      = (out (ix2 d j)
          + agg (F := Ideal) (Host.dotGeneral (F := Ideal) (φ₁ := .f32) (φ₂ := .f32) Cert.ReferenceIdeal.dot_S100000x128_S128x128_S100000x128_1_0_0_1_n_n none h Wr)
              vs vd (degRs (F := Ideal) vs) (ix2 d j) * degRs (F := Ideal) vd (ix1 d))
        + br (ix1 j) := by
  unfold refStep
  refine (addf_apply _ _ _).trans (congrArg₂ (· + ·) ((addf_apply _ _ _).trans (congrArg₂ (· + ·) rfl
    ((mulf_apply _ _ _).trans (congrArg₂ (· * ·) rfl ?_)))) ?_)
  · exact (LibBcast.bid_a1_ab_apply _ _ d j).trans (LibBcast.bid_col_apply _ _ d 0)
  · exact (LibBcast.bid_1b_ab_apply _ _ d j).trans (LibBcast.bid_row_apply _ _ 0 j)

end Cert.Layer

end
-- ==== Proof.LibERealCoe.lean ====
/-
  The reals inside the extended reals.

  The inclusion of the real numbers into the extended reals is an order embedding and an additive map on the reals, so
  it commutes with finite sums, with `min` and with `max`: an expression built from real entries by these operations may
  be computed in the reals and included afterwards.
-/
import Mathlib.Data.EReal.Operations
import Mathlib.Algebra.BigOperators.Fin

namespace Cert.LibERealCoe

/-- The inclusion of the reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with `min`. -/
theorem coe_min (a b : ℝ) : ((min a b : ℝ) : EReal) = min (a : EReal) (b : EReal) :=
  (EReal.coe_strictMono.monotone).map_min

/-- The inclusion of the reals commutes with `max`. -/
theorem coe_max (a b : ℝ) : ((max a b : ℝ) : EReal) = max (a : EReal) (b : EReal) :=
  (EReal.coe_strictMono.monotone).map_max

end Cert.LibERealCoe
-- ==== Proof.LibRealOps.lean ====
/-
  Real numbers among the extended reals, and the host operations that keep an array of real numbers real.

  An extended real is REAL when it is the image of a real number. Finite sums, products and differences of real numbers
  are real. At the exact instance of the float operations:
  * a layout operation — a broadcast, a lookup along index words, two arrays joined along an axis — only re-reads entries
    of its operands, so its result is real when they are;
  * an entrywise product of two real arrays is real;
  * a sum of update entries into the entries of an array (the host's accumulating scatter) is, at every entry, that entry
    plus a finite sum of update entries: real when the operand and the updates are, whatever the index words;
  * a matrix product at an entry is a finite sum of products of entries: real when both operands are;
  * the reciprocal square root of `d` where `d > 0` and another real array elsewhere (the guarded form
    `where(d > 0, rsqrt(d), e)`) is real for every real `d`, although the unguarded reciprocal square root is infinite at
    zero and undefined below it.
  None of this opens a sum or evaluates an index: the statements hold for arrays of any size.
-/
import Mathlib.Data.EReal.Operations
import Mathlib.Algebra.BigOperators.Fin
import Idealize.ShloMosaic.PureOps.Ideal
import Idealize.ShloMosaic.PureOps.Ideal.Laws

noncomputable section

namespace Cert.LibRealOps

open Idealize.ShloMosaic

/-- The exact instance of the float operations. -/
abbrev I := Idealize.ShloMosaic.Ideal

/-! ## Real numbers among the extended reals -/

/-- An extended real that is the image of a real number. -/
def IsReal (a : EReal) : Prop := ∃ r : ℝ, a = (r : EReal)
/-- An array all of whose entries are real. -/
def AllReal {ι : Type} (v : ι → EReal) : Prop := ∀ i, IsReal (v i)

theorem IsReal.coe (r : ℝ) : IsReal (r : EReal) := ⟨r, rfl⟩
theorem isReal_zero : IsReal 0 := ⟨0, rfl⟩
theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
/-- A finite sum of real numbers is real. -/
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-! ## Realness through the host operations -/

section Closure
variable {s t : Shape}

/-- A broadcast re-reads entries of its operand. -/
theorem real_bcast {dims : Fin s.rank → Fin t.rank} (h : s.BroadcastsInDim t dims) {x : s.Idx → EReal} (hx : AllReal x) :
    AllReal (broadcastInDim t dims h x) := fun _ => hx _
/-- A lookup along index words re-reads entries of its operand, whatever the words. -/
theorem real_gather {si : Shape} {w : Nat} (d : GatherDims s si t) {x : s.Idx → EReal} (idx : IVec si w) (hx : AllReal x) :
    AllReal (Host.gather d x idx) := fun _ => hx _
theorem real_mulf {x y : FVec I s .f32} (hx : AllReal x) (hy : AllReal y) : AllReal (mulf (F := I) x y) :=
  fun i => (hx i).mul (hy i)
theorem real_const (b : BitVec 32) (hb : IsReal (Ideal.ofBits .f32 b)) : AllReal (constant (F := I) s .f32 b) := fun _ => hb
/-- The host's accumulating scatter: each entry is the operand's plus a finite sum of update entries. -/
theorem real_scatterAdd {si u : Shape} {w : Nat} (d : ScatterDims s si u) {x : FVec I s .f32} (idx : IVec si w) {upd : FVec I u .f32}
    (hx : AllReal x) (hu : AllReal upd) : AllReal (Host.scatterAdd (F := I) d x idx upd) :=
  fun i => (hx i).add (IsReal.sum _ (fun j => upd j) fun j _ => hu j)
/-- A matrix product at an entry is a finite sum of products of entries. -/
theorem real_dot {sl sr so : Shape} (d : DotDims sl sr so) {A : FVec I sl .f32} {B : FVec I sr .f32} (hA : AllReal A) (hB : AllReal B) :
    AllReal (Host.dotGeneral (F := I) d none A B) := fun j => by
  show IsReal (FloatOps.dotGeneral d none .single A B j)
  rw [Ideal.dotGeneral_apply]
  exact IsReal.sum _ _ fun k _ => (hA _).mul (hB _)

/-- Two arrays joined along an axis: every entry is an entry of one of the two. -/
theorem real_concat2 {sa sb : Shape} (ax : Fin t.rank) {a : sa.Idx → EReal} {b : sb.Idx → EReal}
    (h : Shape.Concatenates (([⟨sa, a⟩, ⟨sb, b⟩] : List ((s : Shape) × (s.Idx → EReal))).map (·.1)) t ax)
    (ha : AllReal a) (hb : AllReal b) : AllReal (concatenate t ax [⟨sa, a⟩, ⟨sb, b⟩] h) := by
  intro j
  have key : ∀ p : (s : Shape) × (s.Idx → EReal), p ∈ ([⟨sa, a⟩, ⟨sb, b⟩] : List ((s : Shape) × (s.Idx → EReal))) →
      ∀ i, IsReal (p.2 i) := by
    intro p hp i
    rcases List.mem_cons.mp hp with rfl | hp
    · exact ha i
    · rcases List.mem_cons.mp hp with rfl | hp
      · exact hb i
      · exact absurd hp (List.not_mem_nil)
  unfold concatenate
  exact key _ (List.getElem_mem _) _

/-- The reciprocal square root where the argument is positive, a real elsewhere: real on real arguments. -/
theorem real_guarded_rsqrt {d z e : FVec I s .f32} (hd : AllReal d) (hz : ∀ i, z i = 0) (he : AllReal e) :
    AllReal (select (cmpf (F := I) .ogt d z) (Host.rsqrt (F := I) d) e) := by
  intro i
  show IsReal (if Ideal.cmp .ogt (d i) (z i) = 1 then Ideal.rsqrt (d i) else e i)
  obtain ⟨r, hr⟩ := hd i
  rw [hr, hz i]
  by_cases hpos : (0 : ℝ) < r
  · rw [Ideal.rsqrt_coe, if_neg (not_lt.mpr hpos.le), if_neg hpos.ne']
    split <;> [exact IsReal.coe _; exact he i]
  · have hc : Ideal.cmp .ogt (r : EReal) 0 ≠ 1 := by
      unfold Ideal.cmp
      have : ¬ ((0 : EReal) < (r : EReal)) := by exact_mod_cast hpos
      simp [this]
    rw [if_neg hc]; exact he i

end Closure

end Cert.LibRealOps

end
-- ==== Proof.LayerAlg.lean ====
/-
  One layer of the relational graph convolution at one output entry, arranged in two ways, on real numbers.

  Fix a destination node and an output feature. For each of the three relations `r` let `a r k` be the node's
  aggregated input feature `k`, `s r` the node's weight, `w r k` the entry of the relation's weight matrix from input
  feature `k` to the output feature, and `b r` the relation's bias at the output feature.

  One arrangement scales the aggregate first and multiplies by the weight matrix afterwards, adds the three relations'
  sums up from zero and then adds the three biases summed from zero:
      (((0 + ∑ₖ (a 0 k · s 0) · w 0 k) + ∑ₖ (a 1 k · s 1) · w 1 k) + ∑ₖ (a 2 k · s 2) · w 2 k) + (0 + ∑ᵣ b r).
  The other multiplies by the weight matrix first, scales the sum afterwards and adds each relation's bias as it goes:
      (((((0 + (∑ₖ a 0 k · w 0 k) · s 0) + b 0) + (∑ₖ a 1 k · w 1 k) · s 1) + b 1) + (∑ₖ a 2 k · w 2 k) · s 2) + b 2.
  On real numbers a factor moves across a finite sum and addition is associative and commutative, so the two agree. On
  the extended reals the same holds when every entry is real, because the inclusion of the reals commutes with sums and
  products; the common value is then real as well.
-/
import Mathlib.Data.EReal.Operations
import Mathlib.Algebra.BigOperators.Fin
import Mathlib.Tactic.Ring
import proofs.«118654_j25211458027582_2_alg».proof.Proof.LibERealCoe
import proofs.«118654_j25211458027582_2_alg».proof.Proof.LibRealOps

namespace Cert.Layer

open Cert.LibRealOps

/-- A factor moves out of a finite sum of real numbers: `∑ₖ (a k · s) · w k = (∑ₖ a k · w k) · s`. -/
theorem sum_scale_mul {K : Type} [Fintype K] (a w : K → ℝ) (s : ℝ) :
    ∑ k, (a k * s) * w k = (∑ k, a k * w k) * s := by
  rw [Finset.sum_mul]
  exact Finset.sum_congr rfl fun k _ => by ring

/-- The two arrangements of one entry of a layer agree on real numbers. -/
theorem layer_real {K : Type} [Fintype K] (a0 a1 a2 w0 w1 w2 : K → ℝ) (s0 s1 s2 : ℝ) (b : Fin 3 → ℝ) :
    (((0 + ∑ k, (a0 k * s0) * w0 k) + ∑ k, (a1 k * s1) * w1 k) + ∑ k, (a2 k * s2) * w2 k) + (0 + ∑ r : Fin 3, b r)
      = (((((0 + (∑ k, a0 k * w0 k) * s0) + b 0) + (∑ k, a1 k * w1 k) * s1) + b 1) + (∑ k, a2 k * w2 k) * s2) + b 2 := by
  rw [sum_scale_mul, sum_scale_mul, sum_scale_mul, Fin.sum_univ_three]
  ring

/-- A family of real entries of the extended reals is the inclusion of a family of real numbers. -/
theorem exists_real_family {ι : Type} (v : ι → EReal) (hv : ∀ i, IsReal (v i)) : ∃ f : ι → ℝ, v = fun i => (f i : EReal) :=
  ⟨fun i => (hv i).choose, funext fun i => (hv i).choose_spec⟩

/-- The two arrangements of one entry of a layer agree on the extended reals when every entry is real, and the common
    value is real. -/
theorem layer_ereal {K : Type} [Fintype K] (a0 a1 a2 w0 w1 w2 : K → EReal) (s0 s1 s2 : EReal) (b : Fin 3 → EReal)
    (ha0 : ∀ k, IsReal (a0 k)) (ha1 : ∀ k, IsReal (a1 k)) (ha2 : ∀ k, IsReal (a2 k))
    (hw0 : ∀ k, IsReal (w0 k)) (hw1 : ∀ k, IsReal (w1 k)) (hw2 : ∀ k, IsReal (w2 k))
    (hs0 : IsReal s0) (hs1 : IsReal s1) (hs2 : IsReal s2) (hb : ∀ r, IsReal (b r)) :
    ((((0 + ∑ k, (a0 k * s0) * w0 k) + ∑ k, (a1 k * s1) * w1 k) + ∑ k, (a2 k * s2) * w2 k) + (0 + ∑ r : Fin 3, b r)
      = (((((0 + (∑ k, a0 k * w0 k) * s0) + b 0) + (∑ k, a1 k * w1 k) * s1) + b 1) + (∑ k, a2 k * w2 k) * s2) + b 2)
    ∧ IsReal ((((((0 + (∑ k, a0 k * w0 k) * s0) + b 0) + (∑ k, a1 k * w1 k) * s1) + b 1) + (∑ k, a2 k * w2 k) * s2) + b 2) := by
  obtain ⟨a0, rfl⟩ := exists_real_family a0 ha0
  obtain ⟨a1, rfl⟩ := exists_real_family a1 ha1
  obtain ⟨a2, rfl⟩ := exists_real_family a2 ha2
  obtain ⟨w0, rfl⟩ := exists_real_family w0 hw0
  obtain ⟨w1, rfl⟩ := exists_real_family w1 hw1
  obtain ⟨w2, rfl⟩ := exists_real_family w2 hw2
  obtain ⟨b, rfl⟩ := exists_real_family b hb
  obtain ⟨s0, rfl⟩ := hs0
  obtain ⟨s1, rfl⟩ := hs1
  obtain ⟨s2, rfl⟩ := hs2
  have hL : ((((0 : EReal) + ∑ k, ((a0 k : EReal) * (s0 : EReal)) * (w0 k : EReal)) + ∑ k, ((a1 k : EReal) * (s1 : EReal)) * (w1 k : EReal))
        + ∑ k, ((a2 k : EReal) * (s2 : EReal)) * (w2 k : EReal)) + (0 + ∑ r : Fin 3, (b r : EReal))
      = (((((0 + ∑ k, (a0 k * s0) * w0 k) + ∑ k, (a1 k * s1) * w1 k) + ∑ k, (a2 k * s2) * w2 k) + (0 + ∑ r : Fin 3, b r) : ℝ) : EReal) := by
    simp only [EReal.coe_add, EReal.coe_mul, Cert.LibERealCoe.coe_sum, EReal.coe_zero]
  have hR : (((((((0 : EReal) + (∑ k, (a0 k : EReal) * (w0 k : EReal)) * (s0 : EReal)) + (b 0 : EReal)) + (∑ k, (a1 k : EReal) * (w1 k : EReal)) * (s1 : EReal))
        + (b 1 : EReal)) + (∑ k, (a2 k : EReal) * (w2 k : EReal)) * (s2 : EReal)) + (b 2 : EReal))
      = (((((((0 + (∑ k, a0 k * w0 k) * s0) + b 0) + (∑ k, a1 k * w1 k) * s1) + b 1) + (∑ k, a2 k * w2 k) * s2) + b 2 : ℝ) : EReal) := by
    simp only [EReal.coe_add, EReal.coe_mul, Cert.LibERealCoe.coe_sum, EReal.coe_zero]
  refine ⟨?_, ?_⟩
  · exact hL.trans ((congrArg (fun x : ℝ => (x : EReal)) (layer_real a0 a1 a2 w0 w1 w2 s0 s1 s2 b)).trans hR.symm)
  · exact ⟨_, hR⟩

end Cert.Layer
-- ==== Proof.LayerId.lean ====
/-
  The layer identity: the stacked-aggregate arrangement of a layer equals the relation-by-relation arrangement, on the
  extended reals, for real inputs.

  With a_r the aggregate of the features along relation r (source weights the inverse square roots of the clipped
  out-degrees) and s_r the inverse square roots of the clipped in-degrees, one arrangement reads, at (d, j),
      (((0 + ∑ₖ (a₀(d,k)·s₀(d))·W(0,k,j)) + ∑ₖ (a₁(d,k)·s₁(d))·W(1,k,j)) + ∑ₖ (a₂(d,k)·s₂(d))·W(2,k,j)) + (0 + ∑ᵣ b(r,j)),
  the three aggregates being read out of their stack and the three weights out of the columns of a matrix. The other
  aggregates the projected features h·W_r relation by relation; for real entries the aggregate of a product is the
  product of the aggregate, so each relation contributes (∑ₖ a_r(d,k)·W(r,k,j))·s_r(d) + b(r,j) to a running sum from
  zero. All entries are real — the features, weights and biases by hypothesis, an aggregate of real features with real
  weights and an inverse square root of a clipped degree always — so a factor moves across the finite sums and the two
  arrangements agree, with a real value. The maximum with zero of a real number is real, which carries the identity
  through the first layer into the second.

  The facts about one relation's aggregate and about the matrix product used here are taken as hypotheses:
  the matrix product at an entry is the sum over the shared axis; for real arrays the aggregate of a matrix product is
  the matrix product of the aggregate; an aggregate of real features with real weights is real; the inverse square root
  of a clipped degree is real.
-/
import proofs.«118654_j25211458027582_2_alg».proof.Proof.Stages
import proofs.«118654_j25211458027582_2_alg».proof.Proof.LayerLayout
import proofs.«118654_j25211458027582_2_alg».proof.Proof.LayerStep
import proofs.«118654_j25211458027582_2_alg».proof.Proof.LayerAlg
import proofs.«118654_j25211458027582_2_alg».proof.Proof.LibRealOps

noncomputable section

namespace Cert.Layer

open Idealize.ShloMosaic Idealize.ShloMosaic.ValueIdx Cert.KernelIdeal Cert.Stages Cert.LibRealOps

/-! ## The facts taken as hypotheses -/

/-- The matrix product of the features with one relation's weight matrix, at (n, j): the sum over the shared axis. -/
abbrev HDot : Prop :=
  ∀ (h : S100000x128.Idx → EReal) (W : S128x128.Idx → EReal) (n : Fin 100000) (j : Fin 128),
    Host.dotGeneral (F := Ideal) (φ₁ := .f32) (φ₂ := .f32) Cert.ReferenceIdeal.dot_S100000x128_S128x128_S100000x128_1_0_0_1_n_n none h W (ix2 n j)
      = ∑ k : Fin 128, h (ix2 n k) * W (ix2 k j)

/-- For real arrays, aggregating the rows of `h · W` is multiplying the aggregate of `h` by `W`. -/
abbrev HAggDot : Prop :=
  ∀ (h : S100000x128.Idx → EReal) (W : S128x128.Idx → EReal) (vs vd : S200000.Idx → BitVec 32) (so : S100000.Idx → EReal),
    AllReal h → AllReal W → AllReal so →
    agg (F := Ideal) (Host.dotGeneral (F := Ideal) (φ₁ := .f32) (φ₂ := .f32) Cert.ReferenceIdeal.dot_S100000x128_S128x128_S100000x128_1_0_0_1_n_n none h W) vs vd so
      = Host.dotGeneral (F := Ideal) (φ₁ := .f32) (φ₂ := .f32) Cert.ReferenceIdeal.dot_S100000x128_S128x128_S100000x128_1_0_0_1_n_n none
          (agg (F := Ideal) h vs vd so) W

/-- An aggregate of real features with real weights is real. -/
abbrev HAggReal : Prop :=
  ∀ (h : S100000x128.Idx → EReal) (vs vd : S200000.Idx → BitVec 32) (so : S100000.Idx → EReal),
    AllReal h → AllReal so → AllReal (agg (F := Ideal) h vs vd so)

/-- The inverse square root of a clipped degree is real. -/
abbrev HDegReal : Prop := ∀ v : S200000.Idx → BitVec 32, AllReal (degRs (F := Ideal) v)

/-! ## The relation-by-relation arrangement at an entry -/

/-- The relation-by-relation arrangement at (d, j) over three aggregates, three weight vectors, the weight tensor and
    the bias table: each relation's sum over the feature axis scaled by the node's weight, then its bias, added to a
    running sum from zero. -/
def refAt (a0 a1 a2 : S100000x128.Idx → EReal) (s0 s1 s2 : S100000.Idx → EReal) (W : S3x128x128.Idx → EReal)
    (b : S3x128.Idx → EReal) (d : Fin 100000) (j : Fin 128) : EReal :=
  (((((0 + (∑ k : Fin 128, a0 (ix2 d k) * W (ix3 (0 : Fin 3) k j)) * s0 (ix1 d)) + b (ix2 (0 : Fin 3) j))
      + (∑ k : Fin 128, a1 (ix2 d k) * W (ix3 (1 : Fin 3) k j)) * s1 (ix1 d)) + b (ix2 (1 : Fin 3) j))
    + (∑ k : Fin 128, a2 (ix2 d k) * W (ix3 (2 : Fin 3) k j)) * s2 (ix1 d)) + b (ix2 (2 : Fin 3) j)

/-- THE KERNEL'S ENTRY over three stacked real aggregates and three real weight vectors stacked as columns is the
    relation-by-relation arrangement of the same arrays, and that is real. -/
theorem convAt_stack (a0 a1 a2 : S100000x128.Idx → EReal) (s0 s1 s2 : S100000.Idx → EReal) (W : S3x128x128.Idx → EReal)
    (b : S3x128.Idx → EReal) (ha0 : AllReal a0) (ha1 : AllReal a1) (ha2 : AllReal a2) (hs0 : AllReal s0) (hs1 : AllReal s1)
    (hs2 : AllReal s2) (hW : AllReal W) (hb : AllReal b) (d : Fin 100000) (j : Fin 128) :
    convAt (stackAgg (F := Ideal) a0 a1 a2) (stackCols (F := Ideal) s0 s1 s2) W b d j = refAt a0 a1 a2 s0 s1 s2 W b d j
      ∧ IsReal (refAt a0 a1 a2 s0 s1 s2 W b d j) := by
  unfold convAt refAt
  simp only [stackAgg_0, stackAgg_1, stackAgg_2, stackCols_0, stackCols_1, stackCols_2]
  exact layer_ereal (fun k => a0 (ix2 d k)) (fun k => a1 (ix2 d k)) (fun k => a2 (ix2 d k))
    (fun k => W (ix3 (0 : Fin 3) k j)) (fun k => W (ix3 (1 : Fin 3) k j)) (fun k => W (ix3 (2 : Fin 3) k j))
    (s0 (ix1 d)) (s1 (ix1 d)) (s2 (ix1 d)) (fun r => b (ix2 r j))
    (fun _ => ha0 _) (fun _ => ha1 _) (fun _ => ha2 _) (fun _ => hW _) (fun _ => hW _) (fun _ => hW _)
    (hs0 _) (hs1 _) (hs2 _) (fun _ => hb _)

/-! ## The reference's layer at an entry -/

/-- One relation of a real weight tensor is real. -/
theorem wsel0_real {W : S3x128x128.Idx → EReal} (hW : AllReal W) : AllReal (wsel0 (F := Ideal) W) := fun _ => hW _
theorem wsel1_real {W : S3x128x128.Idx → EReal} (hW : AllReal W) : AllReal (wsel1 (F := Ideal) W) := fun _ => hW _
theorem wsel2_real {W : S3x128x128.Idx → EReal} (hW : AllReal W) : AllReal (wsel2 (F := Ideal) W) := fun _ => hW _

/-- One step at (d, j) for real features and a real weight matrix: the aggregate of the projected features is the
    projected aggregate, read as the sum over the feature axis. -/
theorem refStep_real_apply (hdot : HDot) (haggdot : HAggDot) (hdeg : HDegReal)
    (out h : S100000x128.Idx → EReal) (vs vd : S200000.Idx → BitVec 32) (Wr : S128x128.Idx → EReal) (br : S128.Idx → EReal)
    (hh : AllReal h) (hWr : AllReal Wr) (d : Fin 100000) (j : Fin 128) :
    refStep (F := Ideal) out h vs vd Wr br (ix2 d j)
      = (out (ix2 d j)
          + (∑ k : Fin 128, agg (F := Ideal) h vs vd (degRs (F := Ideal) vs) (ix2 d k) * Wr (ix2 k j)) * degRs (F := Ideal) vd (ix1 d))
        + br (ix1 j) := by
  rw [refStep_apply, haggdot h Wr vs vd _ hh hWr (hdeg vs), hdot]

/-- THE REFERENCE'S LAYER AT (d, j) for real features and weights: the relation-by-relation arrangement over the three
    relations' aggregates and destination weights. -/
theorem refLayer_apply (hdot : HDot) (haggdot : HAggDot) (hdeg : HDegReal)
    (h : S100000x128.Idx → EReal) (src dst : S3x200000.Idx → BitVec 32) (W : S3x128x128.Idx → EReal) (b : S3x128.Idx → EReal)
    (hh : AllReal h) (hW : AllReal W) (d : Fin 100000) (j : Fin 128) :
    refLayer (F := Ideal) h src dst W b (ix2 d j)
      = refAt (agg (F := Ideal) h (row0 src) (row0 dst) (degRs (F := Ideal) (row0 src)))
          (agg (F := Ideal) h (row1 src) (row1 dst) (degRs (F := Ideal) (row1 src)))
          (agg (F := Ideal) h (row2 src) (row2 dst) (degRs (F := Ideal) (row2 src)))
          (degRs (F := Ideal) (row0 dst)) (degRs (F := Ideal) (row1 dst)) (degRs (F := Ideal) (row2 dst)) W b d j := by
  unfold refLayer refAt
  rw [refStep_real_apply hdot haggdot hdeg _ h _ _ _ _ hh (wsel2_real hW),
    refStep_real_apply hdot haggdot hdeg _ h _ _ _ _ hh (wsel1_real hW),
    refStep_real_apply hdot haggdot hdeg _ h _ _ _ _ hh (wsel0_real hW), zeros_apply]
  simp only [wsel0_apply, wsel1_apply, wsel2_apply, bsel0_apply, bsel1_apply, bsel2_apply]

/-! ## The maximum with zero -/

/-- The maximum of a real number with zero is real. -/
theorem isReal_max_zero {a : EReal} (ha : IsReal a) : IsReal (max a 0) := by
  rcases max_choice a 0 with e | e <;> rw [e]
  · exact ha
  · exact isReal_zero

/-- The maximum with zero at an entry. -/
theorem relu_apply (x : S100000x128.Idx → EReal) (i : S100000x128.Idx) : relu (F := Ideal) x i = max (x i) 0 := by
  unfold relu
  exact (maximumf_apply _ _ _).trans (congrArg (max (x i)) (zeros_apply i))

/-- The maximum with zero of a real array is real. -/
theorem relu_real {x : S100000x128.Idx → EReal} (hx : AllReal x) : AllReal (relu (F := Ideal) x) := fun i => by
  rw [relu_apply]; exact isReal_max_zero (hx i)

/-! ## The layer identity -/

section Identity
variable (hdot : HDot) (haggdot : HAggDot) (haggreal : HAggReal) (hdeg : HDegReal)
variable (h : S100000x128.Idx → EReal) (src dst : S3x200000.Idx → BitVec 32) (W : S3x128x128.Idx → EReal) (b : S3x128.Idx → EReal)
include hdot haggdot haggreal hdeg

/-- At every entry: the kernel's arrangement over its stacked aggregates and stacked weights is the reference's layer,
    and the value is real. -/
theorem convAt_eq_refLayer (hh : AllReal h) (hW : AllReal W) (hb : AllReal b) (d : Fin 100000) (j : Fin 128) :
    convAt (kAgg (F := Ideal) h src dst (kSo (F := Ideal) src)) (kSi (F := Ideal) dst) W b d j
        = refLayer (F := Ideal) h src dst W b (ix2 d j)
      ∧ IsReal (refLayer (F := Ideal) h src dst W b (ix2 d j)) := by
  have hk : kAgg (F := Ideal) h src dst (kSo (F := Ideal) src)
      = stackAgg (F := Ideal) (agg (F := Ideal) h (row0 src) (row0 dst) (degRs (F := Ideal) (row0 src)))
          (agg (F := Ideal) h (row1 src) (row1 dst) (degRs (F := Ideal) (row1 src)))
          (agg (F := Ideal) h (row2 src) (row2 dst) (degRs (F := Ideal) (row2 src))) := by
    unfold kAgg kSo
    rw [unstack0_stackRows, unstack1_stackRows, unstack2_stackRows]
  rw [hk, refLayer_apply hdot haggdot hdeg h src dst W b hh hW d j]
  unfold kSi
  exact convAt_stack _ _ _ _ _ _ W b (haggreal h _ _ _ hh (hdeg _)) (haggreal h _ _ _ hh (hdeg _))
    (haggreal h _ _ _ hh (hdeg _)) (hdeg _) (hdeg _) (hdeg _) hW hb d j

/-- THE LAYER IDENTITY, second layer's form (no closing maximum): the pallas_call on the stacked aggregates is the
    reference's layer, and the result is real. -/
theorem conv2_eq_refLayer (hh : AllReal h) (hW : AllReal W) (hb : AllReal b) :
    conv2 (kAgg (F := Ideal) h src dst (kSo (F := Ideal) src)) (kSi (F := Ideal) dst) W b = refLayer (F := Ideal) h src dst W b
      ∧ AllReal (refLayer (F := Ideal) h src dst W b) := by
  refine ⟨funext fun i => ?_, fun i => ?_⟩
  · obtain ⟨d, j, rfl⟩ : ∃ (d : Fin 100000) (j : Fin 128), i = ix2 d j := ⟨i 0, i 1, eq_ix2 i⟩
    exact (convAt_eq_refLayer hdot haggdot haggreal hdeg h src dst W b hh hW hb d j).1
  · obtain ⟨d, j, rfl⟩ : ∃ (d : Fin 100000) (j : Fin 128), i = ix2 d j := ⟨i 0, i 1, eq_ix2 i⟩
    exact (convAt_eq_refLayer hdot haggdot haggreal hdeg h src dst W b hh hW hb d j).2

/-- THE LAYER IDENTITY, first layer's form (with the closing maximum with zero), and the result is real. -/
theorem conv1_eq_relu_refLayer (hh : AllReal h) (hW : AllReal W) (hb : AllReal b) :
    conv1 (kAgg (F := Ideal) h src dst (kSo (F := Ideal) src)) (kSi (F := Ideal) dst) W b
        = relu (F := Ideal) (refLayer (F := Ideal) h src dst W b)
      ∧ AllReal (relu (F := Ideal) (refLayer (F := Ideal) h src dst W b)) := by
  obtain ⟨e, hr⟩ := conv2_eq_refLayer hdot haggdot haggreal hdeg h src dst W b hh hW hb
  refine ⟨funext fun i => ?_, relu_real hr⟩
  rw [relu_apply, ← e]
  rfl

end Identity

end Cert.Layer

end
-- ==== Proof.LibSegment.lean ====
/-
  Segment sums and row lookups on the host, read at one element.

  An accumulating scatter along the leading axis (what a segment sum lowers to) adds update position e to
  the operand's position col(e), where col(e) is the index word at e read as a SIGNED integer and NOT clamped:
  an index outside 0 … L - 1 names no position and its update is dropped. So, at the extended reals, position n of
  the result is the operand's entry plus the sum of the updates over the FIBRE { e | col(e) = n } — for a vector of
  updates (vecDims) and, column by column, for a matrix of update rows (rowDims).

  A gather along the leading axis (what x[idx] lowers to) reads, at position e, the operand at the index word at e
  read signed and CLAMPED into 0 … L - 1 — for a vector (vecTake) and, column by column, for the rows of a matrix
  (rowTake).

  The two meet in keep_of_toInt_eq: a word that reads as a position n < L is not negative, so the
  wrap of negative indices leaves it alone, and the clamp leaves it at n. Hence on the fibre of n the gather at the
  wrapped word reads position n.
-/
import Idealize.ShloMosaic.PureOps.ShapeOps
import Idealize.ShloMosaic.PureOps.Ideal
import Idealize.ShloMosaic.Lib.ValueIdx
import Mathlib.Algebra.BigOperators.Fin

noncomputable section

open scoped BigOperators

namespace Idealize.ShloMosaic.LibSegment

open Idealize.ShloMosaic Idealize.ShloMosaic.ValueIdx

/-! ## Which element an update position names -/

/-- An update position names the element i exactly when, on every axis, its start plus its window coordinate is
    i's coordinate (in particular it is then inside the operand). -/
theorem resultIdx?_eq_some_iff {s si u : Shape} {w : Nat} (d : ScatterDims s si u) (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e0 := congrArg (fun f : s.Idx => (f a).val) (Option.some.inj e)
      have := h a
      simp only at e0
      omega
    · intro e
      refine congrArg some (funext fun a => Fin.ext ?_)
      have := e a
      show (d.start j idx a + (d.window j a : Int)).toNat = (i a).val
      omega
  · rename_i h
    constructor
    · intro e; exact absurd e (by simp)
    · intro e
      exfalso
      apply h
      intro a
      have := e a
      have := (i a).isLt
      omega

variable {L K M w : Nat}

/-! ## A vector of updates added into a vector -/

/-- The dimension numbers of a segment sum of M scalars into a vector of length L. -/
abbrev vecDims (L M : Nat) (wf : ScatterDims.WF ⟨1, ![L]⟩ ⟨2, ![M, 1]⟩ ⟨1, ![M]⟩ [] [0] [0] 1) :
    ScatterDims ⟨1, ![L]⟩ ⟨2, ![M, 1]⟩ ⟨1, ![M]⟩ :=
  { updateWindowDims := [], insertedWindowDims := [0], scatterDimsToOperandDims := [0], indexVectorDim := 1, wf := wf }

section Vec
variable (wf : ScatterDims.WF ⟨1, ![L]⟩ ⟨2, ![M, 1]⟩ ⟨1, ![M]⟩ [] [0] [0] 1)

theorem vec_siIdx (e : Fin M) (c : Fin 1) : (vecDims L M wf).siIdx (ix1 e) c = ix2 e (0 : Fin 1) := by
  funext b
  match b with
  | ⟨0, _⟩ => rfl
  | ⟨1, _⟩ => exact Fin.ext (by have := c.isLt; show c.val = 0; omega)

theorem vec_start (e : Fin M) (idx : IVec ⟨2, ![M, 1]⟩ w) :
    (vecDims L M wf).start (ix1 e) idx 0 = (idx (ix2 e (0 : Fin 1))).toInt := by
  unfold ScatterDims.start
  rw [dif_pos (List.mem_singleton.2 rfl)]
  exact congrArg (fun k => (idx k).toInt) (vec_siIdx wf e _)

theorem vec_window (e : Fin M) : (vecDims L M wf).window (ix1 e) 0 = 0 := by
  unfold ScatterDims.window
  rw [dif_neg (by simp [ScatterDims.sKept, Shape.kept, List.finRange_succ])]

/-- Update position e names position n exactly when the index word at e, read signed, is n. -/
theorem vec_names_iff (e : Fin M) (idx : IVec ⟨2, ![M, 1]⟩ w) (n : Fin L) :
    (vecDims L M wf).resultIdx? (ix1 e) idx = some (ix1 n) ↔ (idx (ix2 e (0 : Fin 1))).toInt = (n.val : Int) := by
  rw [resultIdx?_eq_some_iff]
  constructor
  · intro h
    have := h 0
    rw [vec_start, vec_window] at this
    simp only [Nat.cast_zero, add_zero] at this
    exact this
  · intro h a
    match a with
    | ⟨0, _⟩ =>
      show (vecDims L M wf).start (ix1 e) idx 0 + (((vecDims L M wf).window (ix1 e) 0 : Nat) : Int) = (n.val : Int)
      rw [vec_start, vec_window, h]; simp

/-- A rank-1 index set is its one coordinate range. -/
def idxEquiv1 {n : Nat} : (⟨1, ![n]⟩ : Shape).Idx ≃ Fin n where
  toFun i := i 0
  invFun := ix1
  left_inv i := (eq_ix1 i).symm
  right_inv _ := rfl

/-- THE SEGMENT SUM OF SCALARS AT POSITION n: the operand's entry plus the updates over the fibre of n. -/
theorem hostScatterAdd_vec_apply (x : (⟨1, ![L]⟩ : Shape).Idx → EReal) (idx : IVec ⟨2, ![M, 1]⟩ w)
    (upd : (⟨1, ![M]⟩ : Shape).Idx → EReal) (n : Fin L) :
    Ideal.hostScatterAdd (vecDims L M wf) x idx upd (ix1 n)
      = x (ix1 n) + ∑ e ∈ Finset.univ.filter (fun e : Fin M => (idx (ix2 e (0 : Fin 1))).toInt = (n.val : Int)),
          upd (ix1 e) := by
  unfold Ideal.hostScatterAdd
  congr 1
  refine Finset.sum_equiv idxEquiv1 (fun j => ?_) (fun j _ => ?_)
  · simp only [Finset.mem_filter, Finset.mem_univ, true_and]
    conv_lhs => rw [eq_ix1 j]
    exact vec_names_iff wf (j 0) idx n
  · conv_lhs => rw [eq_ix1 j]
    rfl

end Vec

/-! ## A matrix of update rows added into the rows of a matrix -/

/-- The dimension numbers of a segment sum of M rows of length K into an L × K matrix. -/
abbrev rowDims (L K M : Nat) (wf : ScatterDims.WF ⟨2, ![L, K]⟩ ⟨2, ![M, 1]⟩ ⟨2, ![M, K]⟩ [1] [0] [0] 1) :
    ScatterDims ⟨2, ![L, K]⟩ ⟨2, ![M, 1]⟩ ⟨2, ![M, K]⟩ :=
  { updateWindowDims := [1], insertedWindowDims := [0], scatterDimsToOperandDims := [0], indexVectorDim := 1, wf := wf }

section Row
variable (wf : ScatterDims.WF ⟨2, ![L, K]⟩ ⟨2, ![M, 1]⟩ ⟨2, ![M, K]⟩ [1] [0] [0] 1)

theorem row_siIdx (e : Fin M) (c : Fin K) (k : Fin 1) : (rowDims L K M wf).siIdx (ix2 e c) k = ix2 e (0 : Fin 1) := by
  funext b
  match b with
  | ⟨0, _⟩ => rfl
  | ⟨1, _⟩ => exact Fin.ext (by have := k.isLt; show k.val = 0; omega)

theorem row_start0 (e : Fin M) (c : Fin K) (idx : IVec ⟨2, ![M, 1]⟩ w) :
    (rowDims L K M wf).start (ix2 e c) idx 0 = (idx (ix2 e (0 : Fin 1))).toInt := by
  unfold ScatterDims.start
  rw [dif_pos (List.mem_singleton.2 rfl)]
  exact congrArg (fun k => (idx k).toInt) (row_siIdx wf e c _)

theorem row_start1 (e : Fin M) (c : Fin K) (idx : IVec ⟨2, ![M, 1]⟩ w) :
    (rowDims L K M wf).start (ix2 e c) idx 1 = 0 := by
  unfold ScatterDims.start
  rw [dif_neg (fun h => absurd (congrArg Fin.val (List.mem_singleton.1 h)) Nat.one_ne_zero)]

theorem row_window0 (e : Fin M) (c : Fin K) : (rowDims L K M wf).window (ix2 e c) 0 = 0 := by
  unfold ScatterDims.window
  rw [dif_neg (by simp [ScatterDims.sKept, Shape.kept, List.finRange_succ])]

theorem row_window1 (e : Fin M) (c : Fin K) : (rowDims L K M wf).window (ix2 e c) 1 = c.val := by
  unfold ScatterDims.window
  rw [dif_pos (by simp [ScatterDims.sKept, Shape.kept, List.finRange_succ])]
  rfl

/-- Update position (e, c) names element (n, c') exactly when the index word at e, read signed, is n and the
    columns agree. -/
theorem row_names_iff (e : Fin M) (c : Fin K) (idx : IVec ⟨2, ![M, 1]⟩ w) (n : Fin L) (c' : Fin K) :
    (rowDims L K M wf).resultIdx? (ix2 e c) idx = some (ix2 n c')
      ↔ (idx (ix2 e (0 : Fin 1))).toInt = (n.val : Int) ∧ c = c' := by
  rw [resultIdx?_eq_some_iff]
  constructor
  · intro h
    have h0 := h 0
    have h1 := h 1
    rw [row_start0, row_window0] at h0
    rw [row_start1, row_window1] at h1
    simp only [Nat.cast_zero, add_zero] at h0
    simp only [zero_add] at h1
    have h1' : ((c.val : Nat) : Int) = ((c'.val : Nat) : Int) := h1
    exact ⟨h0, Fin.ext (by exact_mod_cast h1')⟩
  · rintro ⟨h, rfl⟩ a
    match a with
    | ⟨0, _⟩ =>
      show (rowDims L K M wf).start (ix2 e c) idx 0 + (((rowDims L K M wf).window (ix2 e c) 0 : Nat) : Int) = (n.val : Int)
      rw [row_start0, row_window0, h]; simp
    | ⟨1, _⟩ =>
      show (rowDims L K M wf).start (ix2 e c) idx 1 + (((rowDims L K M wf).window (ix2 e c) 1 : Nat) : Int) = (c.val : Int)
      rw [row_start1, row_window1]; simp

/-- THE SEGMENT SUM OF ROWS AT ELEMENT (n, c): the operand's entry plus column c of the update rows over the fibre of n. -/
theorem hostScatterAdd_row_apply (x : (⟨2, ![L, K]⟩ : Shape).Idx → EReal) (idx : IVec ⟨2, ![M, 1]⟩ w)
    (upd : (⟨2, ![M, K]⟩ : Shape).Idx → EReal) (n : Fin L) (c : Fin K) :
    Ideal.hostScatterAdd (rowDims L K M wf) x idx upd (ix2 n c)
      = x (ix2 n c) + ∑ e ∈ Finset.univ.filter (fun e : Fin M => (idx (ix2 e (0 : Fin 1))).toInt = (n.val : Int)),
          upd (ix2 e c) := by
  unfold Ideal.hostScatterAdd
  congr 1
  have hP : ∀ j : (⟨2, ![M, K]⟩ : Shape).Idx, (rowDims L K M wf).resultIdx? j idx = some (ix2 n c)
      ↔ (idx (ix2 (j 0) (0 : Fin 1))).toInt = (n.val : Int) ∧ j 1 = c := fun j => by
    conv_lhs => rw [eq_ix2 j]
    exact row_names_iff wf (j 0) (j 1) idx n c
  refine Finset.sum_nbij' (fun j => (j 0 : Fin M)) (fun e => ix2 e c) ?_ ?_ ?_ ?_ ?_
  · intro j hj
    exact Finset.mem_filter.2 ⟨Finset.mem_univ _, ((hP j).1 (Finset.mem_filter.1 hj).2).1⟩
  · intro e he
    exact Finset.mem_filter.2 ⟨Finset.mem_univ _, (hP (ix2 e c)).2 ⟨(Finset.mem_filter.1 he).2, rfl⟩⟩
  · intro j hj
    have h1 : j 1 = c := ((hP j).1 (Finset.mem_filter.1 hj).2).2
    show ix2 (j 0) c = j
    rw [← h1]; exact (eq_ix2 j).symm
  · intro e _; rfl
  · intro j hj
    have h1 : j 1 = c := ((hP j).1 (Finset.mem_filter.1 hj).2).2
    show upd j = upd (ix2 (j 0) c)
    rw [← h1]; exact congrArg upd (eq_ix2 j)

end Row

/-! ## Lookups along the leading axis -/

/-- The dimension numbers of x[idx] for a vector x of length L and M index words. -/
abbrev vecTake (L M : Nat) (wf : GatherDims.WF ⟨1, ![L]⟩ ⟨2, ![M, 1]⟩ ⟨1, ![M]⟩ [] [0] [] [0] [] 1 ![1]) :
    GatherDims ⟨1, ![L]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE LOOKUP IN A VECTOR AT e: the operand at the index word at e, read signed and clamped into 0 … L - 1. -/
theorem gather_vec_apply {α : Type} (hL : 0 < L)
    (wf : GatherDims.WF ⟨1, ![L]⟩ ⟨2, ![M, 1]⟩ ⟨1, ![M]⟩ [] [0] [] [0] [] 1 ![1])
    (x : (⟨1, ![L]⟩ : Shape).Idx → α) (idx : IVec ⟨2, ![M, 1]⟩ w) (e : Fin M) :
    Host.gather (vecTake L M wf) x idx (ix1 e)
      = x (ix1 ⟨min (idx (ix2 e (0 : Fin 1))).toInt.toNat (L - 1), by omega⟩) := by
  unfold Host.gather
  congr 1
  funext a
  obtain rfl : a = 0 := Subsingleton.elim _ _
  refine Fin.ext ?_
  show (vecTake L M wf).start (ix1 e) idx 0 + (vecTake L M wf).batchCoord (ix1 e) 0 + (vecTake L M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecTake L M wf).startIndexMap from List.mem_singleton.mpr rfl)]
  have hsi : (vecTake L M wf).siIdx (ix1 e) ⟨List.idxOf (0 : Fin 1) (vecTake L M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of x[idx] for the rows of an L × K matrix x and M index words. -/
abbrev rowTake (L K M : Nat) (wf : GatherDims.WF ⟨2, ![L, K]⟩ ⟨2, ![M, 1]⟩ ⟨2, ![M, K]⟩ [1] [0] [] [0] [] 1 ![1, K]) :
    GatherDims ⟨2, ![L, K]⟩ ⟨2, ![M, 1]⟩ ⟨2, ![M, K]⟩ where
  offsetDims := [1]
  collapsedSliceDims := [0]
  operandBatchingDims := []
  startIndicesBatchingDims := []
  startIndexMap := [0]
  indexVectorDim := 1
  sliceSizes := ![1, K]
  wf := wf

/-- THE LOOKUP OF A ROW AT (e, c): column c of the operand's row at the index word at e, read signed and clamped
    into 0 … L - 1. -/
theorem gather_row_apply {α : Type} (hL : 0 < L)
    (wf : GatherDims.WF ⟨2, ![L, K]⟩ ⟨2, ![M, 1]⟩ ⟨2, ![M, K]⟩ [1] [0] [] [0] [] 1 ![1, K])
    (x : (⟨2, ![L, K]⟩ : Shape).Idx → α) (idx : IVec ⟨2, ![M, 1]⟩ w) (e : Fin M) (c : Fin K) :
    Host.gather (rowTake L K M wf) x idx (ix2 e c)
      = x (ix2 ⟨min (idx (ix2 e (0 : Fin 1))).toInt.toNat (L - 1), by omega⟩ c) := by
  unfold Host.gather
  congr 1
  funext a
  refine Fin.ext ?_
  match a with
  | ⟨0, _⟩ =>
    show (rowTake L K M wf).start (ix2 e c) idx 0 + (rowTake L K M wf).batchCoord (ix2 e c) 0
      + (rowTake L K M wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTake L K M wf).startIndexMap from List.mem_singleton.mpr rfl)]
    have hsi : (rowTake L K M wf).siIdx (ix2 e c) ⟨List.idxOf (0 : Fin 2) (rowTake L K M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowTake L K M wf).start (ix2 e c) idx 1 + (rowTake L K M wf).batchCoord (ix2 e c) 1
      + (rowTake L K M wf).offCoord (ix2 e c) 1 = c.val
    have hk : (1 : Fin 2) ∈ (rowTake L K M wf).sKept :=
      (GatherDims.mem_sKept _ _).2 ⟨fun h => absurd (congrArg Fin.val (List.mem_singleton.1 h)) Nat.one_ne_zero, List.not_mem_nil⟩
    rw [GatherDims.batchCoord_eq_zero _ _ _ List.not_mem_nil]
    unfold GatherDims.start GatherDims.offCoord
    rw [dif_neg (fun h => absurd (congrArg Fin.val (List.mem_singleton.1 h)) Nat.one_ne_zero), dif_pos hk]
    simp only [Nat.zero_add]
    rfl

/-! ## The index words -/

/-- A word that reads, signed, as a position n < L is not negative: the wrap of negative indices (add L when the
    word is below zero) leaves it alone, and the clamp into 0 … L - 1 leaves it at n. -/
theorem keep_of_toInt_eq (x Lw : BitVec 32) (n : Fin L) (h : x.toInt = (n.val : Int)) :
    min (Scalar.select (IntOp.cmpi .slt x 0#32) (IntOp.addi x Lw) x).toInt.toNat (L - 1) = n.val := by
  have hs : IntOp.cmpi .slt x 0#32 = 0#1 := by
    unfold IntOp.cmpi
    have : x.slt 0#32 = false := by
      rw [BitVec.slt_eq_decide]
      simp only [BitVec.toInt_zero, decide_eq_false_iff_not, not_lt]
      omega
    simp [this]
  rw [hs, select_zero, h]
  have := n.isLt
  omega

end Idealize.ShloMosaic.LibSegment

end
-- ==== Proof.AggRead.lean ====
/-
  One relation's aggregate read at an element, and its exchange with a matrix product, on the extended reals.

  The aggregate of a feature matrix h along source positions vs and destination positions vd with node weights so
  has, at (d, k), the value  0 + ∑ over the positions e whose destination word names d of  h (cl e, k) · so (cl e),
  where cl e is the source word at e read signed and clamped into the node range. A matrix product at (n, j) is the
  sum over the shared axis. For real entries the two exchange: aggregating the rows of h · W is multiplying the
  aggregate of h by W, because a finite sum of real products distributes.
-/
import proofs.«118654_j25211458027582_2_alg».proof.Proof.Stages
import proofs.«118654_j25211458027582_2_alg».proof.Proof.LibSegment
import proofs.«118654_j25211458027582_2_alg».proof.Proof.LibRealOps
import proofs.«118654_j25211458027582_2_alg».proof.Proof.LibERealCoe
import proofs.«118654_j25211458027582_2_alg».proof.Proof.LibBcast
import Idealize.ShloMosaic.Lib.StackMember
import Idealize.ShloMosaic.Lib.IdealHost

noncomputable section

open scoped BigOperators

namespace Cert.Agg

open Idealize.ShloMosaic Idealize.ShloMosaic.ValueIdx Cert.KernelIdeal Cert.KernelIdeal.Facts₀ Cert.LibRealOps

/-- The source position at e: the index word read signed and clamped into the node range. -/
def cl (v : S200000.Idx → BitVec 32) (e : Fin 200000) : Fin 100000 :=
  ⟨min ((Cert.Stages.idxCol (F := Ideal) v) (ix2 e (0 : Fin 1))).toInt.toNat 99999, by omega⟩

/-- The positions whose index word, read signed, names node d. -/
def fib (v : S200000.Idx → BitVec 32) (d : Fin 100000) : Finset (Fin 200000) :=
  Finset.univ.filter fun e => ((Cert.Stages.idxCol (F := Ideal) v) (ix2 e (0 : Fin 1))).toInt = (d.val : Int)

/-! ## The host operations of the aggregate over arbitrary arrays -/

/-- Rows added into rows, at (n, c): the operand's entry plus column c of the update rows over the fibre of n. -/
theorem scatterRows_apply (x : S100000x128.Idx → EReal) (idx : IVec S200000x1 32) (upd : S200000x128.Idx → EReal)
    (n : Fin 100000) (c : Fin 128) :
    Host.scatterAdd (F := Ideal) (φ := .f32) scatter_S100000x128_S200000x1_S200000x128_1_0_0_1 x idx upd (ix2 n c)
      = x (ix2 n c) + ∑ e ∈ Finset.univ.filter (fun e : Fin 200000 => (idx (ix2 e (0 : Fin 1))).toInt = (n.val : Int)),
          upd (ix2 e c) :=
  LibSegment.hostScatterAdd_row_apply (L := 100000) (K := 128) (M := 200000)
    scatter_S100000x128_S200000x1_S200000x128_1_0_0_1_wf x idx upd n c

/-- A row looked up at (e, c): column c of the operand's row at the index word read signed and clamped. -/
theorem gatherRows_apply (x : S100000x128.Idx → EReal) (idx : IVec S200000x1 32) (e : Fin 200000) (c : Fin 128) :
    Host.gather gather_S100000x128_S200000x1_S200000x128_1_0_n_n_0_1_1128 x idx (ix2 e c)
      = x (ix2 (⟨min (idx (ix2 e (0 : Fin 1))).toInt.toNat 99999, by omega⟩ : Fin 100000) c) :=
  LibSegment.gather_row_apply (L := 100000) (K := 128) (M := 200000) (by norm_num)
    gather_S100000x128_S200000x1_S200000x128_1_0_n_n_0_1_1128_wf x idx e c

/-- An entry looked up at e: the operand at the index word read signed and clamped. -/
theorem gatherVec_apply (x : S100000.Idx → EReal) (idx : IVec S200000x1 32) (e : Fin 200000) :
    Host.gather gather_S100000_S200000x1_S200000_n_0_n_n_0_1_1 x idx (ix1 e)
      = x (ix1 (⟨min (idx (ix2 e (0 : Fin 1))).toInt.toNat 99999, by omega⟩ : Fin 100000)) :=
  LibSegment.gather_vec_apply (L := 100000) (M := 200000) (by norm_num)
    gather_S100000_S200000x1_S200000_n_0_n_n_0_1_1_wf x idx e

/-! ## The aggregate at an element -/

/-- ONE RELATION'S AGGREGATE AT (d, k): zero plus, over the positions whose destination word names d, the source
    row's entry in column k times the source node's weight. -/
theorem agg_apply (h : S100000x128.Idx → EReal) (vs vd : S200000.Idx → BitVec 32) (so : S100000.Idx → EReal)
    (d : Fin 100000) (k : Fin 128) :
    Cert.Stages.agg (F := Ideal) h vs vd so (ix2 d k)
      = 0 + ∑ e ∈ fib vd d, h (ix2 (cl vs e) k) * so (ix1 (cl vs e)) := by
  unfold Cert.Stages.agg
  refine (scatterRows_apply _ _ _ d k).trans ?_
  refine congrArg₂ (· + ·) ?_ (Finset.sum_congr rfl fun e _ => ?_)
  · exact (LibBcast.bid_scalar_apply _ _ _).trans ((constant_apply _ _).trans Ideal.ofBits_zero_f32)
  · refine (mulf_apply _ _ _).trans (congrArg₂ (· * ·) ?_ ?_)
    · exact gatherRows_apply h _ e k
    · exact (LibBcast.bid_a1_ab_apply _ _ e k).trans
        ((LibBcast.bid_col_apply _ _ e (0 : Fin 1)).trans (gatherVec_apply so _ e))

/-! ## The matrix product at an entry -/

/-- The product of the feature matrix with a relation's weight matrix at (n, j): the sum over the shared axis. -/
theorem dot_apply (h : S100000x128.Idx → EReal) (W : S128x128.Idx → EReal) (n : Fin 100000) (j : Fin 128) :
    Host.dotGeneral (F := Ideal) (φ₁ := .f32) (φ₂ := .f32) Cert.ReferenceIdeal.dot_S100000x128_S128x128_S100000x128_1_0_0_1_n_n none h W (ix2 n j)
      = ∑ k : Fin 128, h (ix2 n k) * W (ix2 k j) :=
  StackMember.dotGeneral_plain_apply (m := 100000) (k := 128) (n := 128) (φ₁ := .f32) (φ₂ := .f32) none h W n j

/-! ## Realness -/

/-- The aggregate of real features with real weights is real. -/
theorem agg_real {h : S100000x128.Idx → EReal} {so : S100000.Idx → EReal} (hh : AllReal h) (hso : AllReal so)
    (vs vd : S200000.Idx → BitVec 32) : AllReal (Cert.Stages.agg (F := Ideal) h vs vd so) := by
  unfold Cert.Stages.agg
  exact real_scatterAdd _ _ (real_bcast _ (real_const _ ⟨0, Ideal.ofBits_zero_f32.trans EReal.coe_zero.symm⟩))
    (real_mulf (real_gather _ _ hh) (real_bcast _ (real_bcast _ (real_gather _ _ hso))))

/-- The product of real matrices is real. -/
theorem dot_real {h : S100000x128.Idx → EReal} {W : S128x128.Idx → EReal} (hh : AllReal h) (hW : AllReal W) :
    AllReal (Host.dotGeneral (F := Ideal) (φ₁ := .f32) (φ₂ := .f32)
      Cert.ReferenceIdeal.dot_S100000x128_S128x128_S100000x128_1_0_0_1_n_n none h W) :=
  real_dot _ hh hW

/-! ## The exchange -/

/-- For real entries, a sum over e of (a row of products summed over k) times a weight is the sum over k of
    (the weighted sum over e) times the factor: both are the double sum of a e k · c e · w k. -/
theorem sum_exchange {ι κ : Type} (s : Finset ι) (t : Finset κ) (a : ι → κ → EReal) (w : κ → EReal) (c : ι → EReal)
    (ha : ∀ e k, IsReal (a e k)) (hw : ∀ k, IsReal (w k)) (hc : ∀ e, IsReal (c e)) :
    0 + ∑ e ∈ s, (∑ k ∈ t, a e k * w k) * c e = ∑ k ∈ t, (0 + ∑ e ∈ s, a e k * c e) * w k := by
  choose ar har using ha
  choose wr hwr using hw
  choose cr hcr using hc
  have hL : ∀ e, (∑ k ∈ t, a e k * w k) * c e = (((∑ k ∈ t, ar e k * wr k) * cr e : ℝ) : EReal) := fun e => by
    rw [EReal.coe_mul, LibERealCoe.coe_sum, hcr e]
    refine congrArg (· * (cr e : EReal)) (Finset.sum_congr rfl fun k _ => ?_)
    rw [har e k, hwr k, EReal.coe_mul]
  have hR : ∀ k, (0 + ∑ e ∈ s, a e k * c e) * w k = (((0 + ∑ e ∈ s, ar e k * cr e) * wr k : ℝ) : EReal) := fun k => by
    rw [EReal.coe_mul, EReal.coe_add, LibERealCoe.coe_sum, EReal.coe_zero, hwr k]
    refine congrArg (fun z => (0 + z) * (wr k : EReal)) (Finset.sum_congr rfl fun e _ => ?_)
    rw [har e k, hcr e, EReal.coe_mul]
  calc 0 + ∑ e ∈ s, (∑ k ∈ t, a e k * w k) * c e
      = 0 + ∑ e ∈ s, (((∑ k ∈ t, ar e k * wr k) * cr e : ℝ) : EReal) :=
        congrArg (0 + ·) (Finset.sum_congr rfl fun e _ => hL e)
    _ = ((0 + ∑ e ∈ s, (∑ k ∈ t, ar e k * wr k) * cr e : ℝ) : EReal) := by
        rw [EReal.coe_add, LibERealCoe.coe_sum, EReal.coe_zero]
    _ = ((∑ k ∈ t, (0 + ∑ e ∈ s, ar e k * cr e) * wr k : ℝ) : EReal) := by
        refine congrArg _ ?_
        simp only [zero_add, Finset.sum_mul]
        rw [Finset.sum_comm]
        exact Finset.sum_congr rfl fun k _ => Finset.sum_congr rfl fun e _ => by ring
    _ = ∑ k ∈ t, (((0 + ∑ e ∈ s, ar e k * cr e) * wr k : ℝ) : EReal) := LibERealCoe.coe_sum _ _
    _ = ∑ k ∈ t, (0 + ∑ e ∈ s, a e k * c e) * w k := (Finset.sum_congr rfl fun k _ => hR k).symm

/-- THE EXCHANGE: for real features, weights and factor matrix, the aggregate of the projected features is the
    projection of the aggregate. -/
theorem agg_dot (h : S100000x128.Idx → EReal) (W : S128x128.Idx → EReal) (so : S100000.Idx → EReal)
    (hh : AllReal h) (hW : AllReal W) (hso : AllReal so) (vs vd : S200000.Idx → BitVec 32) :
    Cert.Stages.agg (F := Ideal)
        (Host.dotGeneral (F := Ideal) (φ₁ := .f32) (φ₂ := .f32)
          Cert.ReferenceIdeal.dot_S100000x128_S128x128_S100000x128_1_0_0_1_n_n none h W) vs vd so
      = Host.dotGeneral (F := Ideal) (φ₁ := .f32) (φ₂ := .f32)
          Cert.ReferenceIdeal.dot_S100000x128_S128x128_S100000x128_1_0_0_1_n_n none
          (Cert.Stages.agg (F := Ideal) h vs vd so) W := by
  funext i
  obtain ⟨d, j, rfl⟩ : ∃ (d : Fin 100000) (j : Fin 128), i = ix2 d j := ⟨i 0, i 1, eq_ix2 i⟩
  refine (agg_apply _ vs vd so d j).trans (Eq.trans ?_ (dot_apply _ W d j).symm)
  have e1 : ∀ e : Fin 200000, Host.dotGeneral (F := Ideal) (φ₁ := .f32) (φ₂ := .f32)
      Cert.ReferenceIdeal.dot_S100000x128_S128x128_S100000x128_1_0_0_1_n_n none h W (ix2 (cl vs e) j)
        = ∑ k : Fin 128, h (ix2 (cl vs e) k) * W (ix2 k j) := fun e => dot_apply h W _ j
  have e2 : ∀ k : Fin 128, Cert.Stages.agg (F := Ideal) h vs vd so (ix2 d k)
      = 0 + ∑ e ∈ fib vd d, h (ix2 (cl vs e) k) * so (ix1 (cl vs e)) := fun k => agg_apply h vs vd so d k
  refine Eq.trans (congrArg (0 + ·) (Finset.sum_congr rfl fun e _ => congrArg (· * so (ix1 (cl vs e))) (e1 e))) ?_
  refine Eq.trans ?_ (Finset.sum_congr rfl fun k _ => congrArg (· * W (ix2 k j)) (e2 k)).symm
  exact sum_exchange (fib vd d) Finset.univ (fun e k => h (ix2 (cl vs e) k)) (fun k => W (ix2 k j))
    (fun e => so (ix1 (cl vs e))) (fun _ _ => hh _) (fun _ => hW _) (fun _ => hso _)

/-! ## The inverse square root of a clipped degree -/

/-- The inverse square root of the maximum of one and a real number is real: the maximum is at least one. -/
theorem rsqrt_max_one_real {s : Shape} (a b : s.Idx → EReal) (ha : ∀ i, a i = 1) (hb : AllReal b) :
    AllReal (Host.rsqrt (F := Ideal) (φ := .f32) (maximumf (F := Ideal) (φ := .f32) a b)) := by
  intro i
  obtain ⟨r, hr⟩ := hb i
  have hv : Host.rsqrt (F := Ideal) (φ := .f32) (maximumf (F := Ideal) (φ := .f32) a b) i
      = Ideal.rsqrt (max (a i) (b i)) := rfl
  have h1 : (1 : EReal) = ((1 : ℝ) : EReal) := EReal.coe_one.symm
  have hpos : (0 : ℝ) < max 1 r := lt_of_lt_of_le one_pos (le_max_left _ _)
  rw [hv, ha i, hr, h1, ← LibERealCoe.coe_max, Ideal.rsqrt_coe, if_neg (not_lt.mpr hpos.le), if_neg hpos.ne']
  exact IsReal.coe _

/-- The inverse square roots of the clipped degrees are real numbers. -/
theorem degRs_real (v : S200000.Idx → BitVec 32) : AllReal (Cert.Stages.degRs (F := Ideal) v) := by
  unfold Cert.Stages.degRs
  refine rsqrt_max_one_real _ _ (fun i => ?_) ?_
  · exact (LibBcast.bid_scalar_apply _ _ i).trans ((constant_apply _ _).trans Ideal.ofBits_one_f32)
  · exact real_scatterAdd _ _ (real_bcast _ (real_const _ ⟨0, Ideal.ofBits_zero_f32.trans EReal.coe_zero.symm⟩))
      (real_bcast _ (real_const _ ⟨1, Ideal.ofBits_one_f32.trans EReal.coe_one.symm⟩))

end Cert.Agg

end
-- ==== Proof.LayerTwo.lean ====
/-
  The two layers composed.

  The facts about one relation's aggregate and the matrix product — the product at an entry is the sum over the shared
  axis, an aggregate of a product of real arrays is the product of the aggregate, aggregates of real arrays and inverse
  square roots of clipped degrees are real — close the layer identity for real features, weights and biases. The first
  layer ends in the maximum with zero and its result is again a real feature matrix, so the identity applies a second
  time: the stacked-aggregate arrangement of the two layers equals the reference's two layers.
-/
import proofs.«118654_j25211458027582_2_alg».proof.Proof.LayerId
import proofs.«118654_j25211458027582_2_alg».proof.Proof.AggRead

noncomputable section

namespace Cert.Layer

open Idealize.ShloMosaic Idealize.ShloMosaic.ValueIdx Cert.KernelIdeal Cert.Stages Cert.LibRealOps

theorem hDot : HDot := fun h W n j => Cert.Agg.dot_apply h W n j
theorem hAggDot : HAggDot := fun h W vs vd so hh hW hso => Cert.Agg.agg_dot h W so hh hW hso vs vd
theorem hAggReal : HAggReal := fun _ vs vd _ hh hso => Cert.Agg.agg_real hh hso vs vd
theorem hDegReal : HDegReal := fun v => Cert.Agg.degRs_real v

section
variable (h : S100000x128.Idx → EReal) (src dst : S3x200000.Idx → BitVec 32) (W : S3x128x128.Idx → EReal) (b : S3x128.Idx → EReal)

/-- The second layer's form: the pallas_call on the stacked aggregates of real features is the reference's layer, and
    the result is real. -/
theorem layer2_eq (hh : AllReal h) (hW : AllReal W) (hb : AllReal b) :
    conv2 (kAgg (F := Ideal) h src dst (kSo (F := Ideal) src)) (kSi (F := Ideal) dst) W b = refLayer (F := Ideal) h src dst W b
      ∧ AllReal (refLayer (F := Ideal) h src dst W b) :=
  conv2_eq_refLayer hDot hAggDot hAggReal hDegReal h src dst W b hh hW hb

/-- The first layer's form, with the closing maximum with zero, and the result is real. -/
theorem layer1_eq (hh : AllReal h) (hW : AllReal W) (hb : AllReal b) :
    conv1 (kAgg (F := Ideal) h src dst (kSo (F := Ideal) src)) (kSi (F := Ideal) dst) W b
        = relu (F := Ideal) (refLayer (F := Ideal) h src dst W b)
      ∧ AllReal (relu (F := Ideal) (refLayer (F := Ideal) h src dst W b)) :=
  conv1_eq_relu_refLayer hDot hAggDot hAggReal hDegReal h src dst W b hh hW hb

end

/-- THE TWO LAYERS: for real features, weights and biases the kernel's two pallas_calls on their stacked aggregates
    compute the reference's two layers, and the result is real. -/
theorem two_layers (x : S100000x128.Idx → EReal) (src dst : S3x200000.Idx → BitVec 32)
    (W1 : S3x128x128.Idx → EReal) (b1 : S3x128.Idx → EReal) (W2 : S3x128x128.Idx → EReal) (b2 : S3x128.Idx → EReal)
    (hx : AllReal x) (hW1 : AllReal W1) (hb1 : AllReal b1) (hW2 : AllReal W2) (hb2 : AllReal b2) :
    conv2 (kAgg (F := Ideal) (conv1 (kAgg (F := Ideal) x src dst (kSo (F := Ideal) src)) (kSi (F := Ideal) dst) W1 b1) src dst
          (kSo (F := Ideal) src)) (kSi (F := Ideal) dst) W2 b2
        = refLayer (F := Ideal) (relu (F := Ideal) (refLayer (F := Ideal) x src dst W1 b1)) src dst W2 b2
      ∧ AllReal (refLayer (F := Ideal) (relu (F := Ideal) (refLayer (F := Ideal) x src dst W1 b1)) src dst W2 b2) := by
  obtain ⟨e1, r1⟩ := layer1_eq x src dst W1 b1 hx hW1 hb1
  rw [e1]
  exact layer2_eq _ src dst W2 b2 r1 hW2 hb2

end Cert.Layer

end
-- ==== Proof.Finite.lean ====
/-
  From the precondition to real numbers.

  The precondition says, array by array, that every entry's absolute value is below plus infinity, the
  answers joined by "and". An extended real whose absolute value is below plus infinity is neither
  infinity, so it is a real number. Hence every float argument array holds real numbers only.
-/
import proofs.«118654_j25211458027582_2_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs Cert.Pre_finite_inputs.Facts

instance : Subsingleton S_.Idx := ⟨fun a b => funext fun d => d.elim0⟩

/-- The word of plus infinity denotes the top element. -/
theorem ofBits_inf : Ideal.ofBits .f32 0x7F800000#32 = (⊤ : EReal) := by simp [Ideal.ofBits, Ideal.ieee]

/-- An extended real whose absolute value compares below plus infinity is a real number. -/
theorem real_of_abs_lt (x : EReal)
    (h : Ideal.cmp .olt (max x (-x)) (Ideal.ofBits .f32 0x7F800000#32) = 1#1) : ∃ r : ℝ, x = (r : EReal) := by
  rw [ofBits_inf] at h
  have hlt : max x (-x) < ⊤ := by
    unfold Ideal.cmp at h
    by_contra hn
    simp [hn] at h
  induction x using EReal.rec with
  | bot => simp at hlt
  | coe r => exact ⟨r, rfl⟩
  | top => simp at hlt

/-- Entrywise: an array all of whose "absolute value below plus infinity" answers are true holds reals. -/
theorem real_of_all {s : Shape} (x : FVec Ideal s .f32) (hb : S_.BroadcastsInDim s (![] : Fin 0 → Fin s.rank))
    (h : ∀ i, cmpf (F := Ideal) .olt (Host.absf x) (broadcastInDim s ![] hb (constant S_ .f32 0x7F800000#32)) i = 1#1) :
    ∀ i, ∃ r : ℝ, x i = (r : EReal) := fun i => real_of_abs_lt (x i) (h i)

/-- Under the precondition every float argument array holds real numbers. -/
theorem reals_of_pre (x0 : FVec Ideal S100000x128 .f32) (x1 x2 : IVec S3x200000 32) (x3 : IVec S100000 32)
    (x4 : FVec Ideal S3x128x128 .f32) (x5 : FVec Ideal S3x128 .f32) (x6 : FVec Ideal S3x128x128 .f32)
    (x7 : FVec Ideal S3x128 .f32) (x8 : FVec Ideal S128x10 .f32) (x9 : FVec Ideal S10 .f32)
    (h : fn (F := Ideal) x0 x1 x2 x3 x4 x5 x6 x7 x8 x9 = fun _ => 1#1) :
    (∀ i, ∃ r : ℝ, x0 i = (r : EReal)) ∧ (∀ i, ∃ r : ℝ, x4 i = (r : EReal)) ∧ (∀ i, ∃ r : ℝ, x5 i = (r : EReal))
      ∧ (∀ i, ∃ r : ℝ, x6 i = (r : EReal)) ∧ (∀ i, ∃ r : ℝ, x7 i = (r : EReal)) := by
  have h0 := congrFun h ValueIdx.ix0
  dsimp only [fn, fn_part1] at h0
  obtain ⟨h1, -⟩ := IntOp.andi_eq_one.1 h0
  obtain ⟨h2, -⟩ := IntOp.andi_eq_one.1 h1
  obtain ⟨h3, e7⟩ := IntOp.andi_eq_one.1 h2
  obtain ⟨h4, e6⟩ := IntOp.andi_eq_one.1 h3
  obtain ⟨h5, e5⟩ := IntOp.andi_eq_one.1 h4
  obtain ⟨e0, e4⟩ := IntOp.andi_eq_one.1 h5
  exact ⟨real_of_all x0 _ (Host.reduce_andi_all _ _ _ _ _ e0),
    real_of_all x4 _ (Host.reduce_andi_all _ _ _ _ _ e4),
    real_of_all x5 _ (Host.reduce_andi_all _ _ _ _ _ e5),
    real_of_all x6 _ (Host.reduce_andi_all _ _ _ _ _ e6),
    real_of_all x7 _ (Host.reduce_andi_all _ _ _ _ _ e7)⟩

end Cert.Finite

end
-- ==== Proof.KSide.lean ====
/- The kernel program's run read back at its result. Under the precondition every float argument holds real numbers,
   so each layer's products distribute over its sums and the kernel's two pallas_calls on the stacked aggregates compute
   the reference's two layers: on every device the result buffer ends at the readout of layer 2 of the relu of layer 1
   of the launch's arguments, and the ten arguments end as launched. -/
import proofs.«118654_j25211458027582_2_alg».proof.Proof.KValue
import proofs.«118654_j25211458027582_2_alg».proof.Proof.KFrameRun
import proofs.«118654_j25211458027582_2_alg».proof.Proof.LayerTwo
import proofs.«118654_j25211458027582_2_alg».proof.Proof.Finite
import proofs.«118654_j25211458027582_2_alg».proof.Defs

noncomputable section

namespace Cert.KernelIdeal.KValue

open Cert.KernelIdeal Cert.KernelIdeal.Gen Cert.KernelIdeal.KFrame Cert.KernelIdeal.KHost Cert.KernelIdeal.KConv
open Idealize.ShloMosaic Idealize.ShloMosaic.TcCoe Idealize.SL.Sem Cert.LibRealOps

variable (m : (ℓ : Loc nD τ sig) → Buf (Elt Ideal) ℓ) (ρ : Dev nD → PrngReg)

/-- The kernel's result on device `c` in the reference's arrangement, as a function of the launch memory's arguments. -/
def kerOut (c : Dev nD) : Buf (Elt Ideal) ((c.tc : Thread nD τ).loc main_v307) :=
  Cert.Stages.tail (F := Ideal) (Cert.Stages.refLayer (F := Ideal) (Cert.Stages.relu (F := Ideal) (Cert.Stages.refLayer (F := Ideal) (m ((c : Thread nD τ).loc main_arg0)) (m ((c : Thread nD τ).loc main_arg1)) (m ((c : Thread nD τ).loc main_arg2)) (m ((c : Thread nD τ).loc main_arg4)) (m ((c : Thread nD τ).loc main_arg5)))) (m ((c : Thread nD τ).loc main_arg1)) (m ((c : Thread nD τ).loc main_arg2)) (m ((c : Thread nD τ).loc main_arg6)) (m ((c : Thread nD τ).loc main_arg7))) (m ((c : Thread nD τ).loc main_arg3)) (m ((c : Thread nD τ).loc main_arg8)) (m ((c : Thread nD τ).loc main_arg9))

/-- With real features, weights and biases the result buffer ends at `kerOut`. -/
theorem kernel_out_of (c : Dev nD) (H : HostFacts)
    (hx : AllReal (m ((c : Thread nD τ).loc main_arg0))) (hW1 : AllReal (m ((c : Thread nD τ).loc main_arg4))) (hb1 : AllReal (m ((c : Thread nD τ).loc main_arg5)))
    (hW2 : AllReal (m ((c : Thread nD τ).loc main_arg6))) (hb2 : AllReal (m ((c : Thread nD τ).loc main_arg7))) :
    W19 m ρ c (Proc.devRef .tc main_v307) = kerOut m c :=
  (kernel_value_of m ρ c H).trans
    (congrArg (fun h => Cert.Stages.tail (F := Ideal) h (m ((c : Thread nD τ).loc main_arg3)) (m ((c : Thread nD τ).loc main_arg8)) (m ((c : Thread nD τ).loc main_arg9)))
      (Cert.Layer.two_layers (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) hx hW1 hb1 hW2 hb2).1)

/-- On every device, from any memory with zero counters of which the precondition holds: every weakly fair execution
    of @main terminates with the result at `kerOut` and the arguments unchanged. -/
theorem kernel_side_of (H : HostFacts)
    (hpre : Cert.Pre_KernelIdeal (hPre_finite_inputs := Cert.Pre_finite_inputs.Gen.facts) m) :
    θ_run (defs (F := Ideal)) (onTc (τ := τ) (main (F := Ideal))) ⟨m, fun _ => 0, ρ⟩ (fun r => ∀ c : Dev nD,
      r.2.mem ((c.tc : Thread nD τ).loc main_v307) = kerOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => by
    obtain ⟨hx, h4, h5, h6, h7⟩ := Cert.Finite.reals_of_pre _ _ _ _ _ _ _ _ _ _ (hpre c)
    exact ⟨(h c _ (mem_uc main_v307 (by decide))).trans (kernel_out_of m ρ c H hx h4 h5 h6 h7),
      (h c _ (mem_uc main_arg0 (by decide))).trans (W19_main_arg0 m ρ c),
      (h c _ (mem_uc main_arg1 (by decide))).trans (W19_main_arg1 m ρ c),
      (h c _ (mem_uc main_arg2 (by decide))).trans (W19_main_arg2 m ρ c),
      (h c _ (mem_uc main_arg3 (by decide))).trans (W19_main_arg3 m ρ c),
      (h c _ (mem_uc main_arg4 (by decide))).trans (W19_main_arg4 m ρ c),
      (h c _ (mem_uc main_arg5 (by decide))).trans (W19_main_arg5 m ρ c),
      (h c _ (mem_uc main_arg6 (by decide))).trans (W19_main_arg6 m ρ c),
      (h c _ (mem_uc main_arg7 (by decide))).trans (W19_main_arg7 m ρ c),
      (h c _ (mem_uc main_arg8 (by decide))).trans (W19_main_arg8 m ρ c),
      (h c _ (mem_uc main_arg9 (by decide))).trans (W19_main_arg9 m ρ c)⟩)
    (run_main m ρ)

end Cert.KernelIdeal.KValue

end
-- ==== Proof.RefRunOps.lean ====
/- The reference program's @main as a list of its 546 host operations, cut along the mathematics into eight named stretches: three relation blocks per layer, the relu between the layers, and the readout. Each stretch reads the program's arguments, and of the earlier stretches' buffers only the one accumulator named in its docstring. -/
import proofs.«118654_j25211458027582_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Layer 1, relation 0: the zero accumulator, the degree counts of source and destination row 0 clipped below at 1, `h @ W1[0]`, its rows gathered at the sources and scaled by `rsqrt` of the out-degree, scatter-added at the destinations, scaled by `rsqrt` of the in-degree, added to the accumulator, plus the bias row `b1[0]`. Read later: `main_v63`. (86 operations) -/
abbrev chL1r0 : List (HloOp τ sig (Elt F)) :=
  nullary main_cst (constant S_ .f32 0x00000000#32) ::
  unary main_cst main_v0 (broadcastInDim S100000x128 ![] bcast_S_S100000x128 : (⟨S_, .f32⟩ : BufTy).Contents (Elt F) → (⟨S100000x128, .f32⟩ : BufTy).Contents (Elt F)) ::
  unary main_arg1 main_v1 ((extractStridedSlice S1x200000 ![0, 0] · slices_S3x200000_S1x200000_0_0) : (⟨S3x200000, .i32⟩ : BufTy).Contents (Elt F) → (⟨S1x200000, .i32⟩ : BufTy).Contents (Elt F)) ::
  reshape main_v1 main_v2 rfl shapeCasts_S1x200000_S200000 ::
  unary main_arg2 main_v3 ((extractStridedSlice S1x200000 ![0, 0] · slices_S3x200000_S1x200000_0_0) : (⟨S3x200000, .i32⟩ : BufTy).Contents (Elt F) → (⟨S1x200000, .i32⟩ : BufTy).Contents (Elt F)) ::
  reshape main_v3 main_v4 rfl shapeCasts_S1x200000_S200000 ::
  nullary main_cst_0 (constant S_ .f32 0x00000000#32) ::
  unary main_cst_0 main_v5 (broadcastInDim S100000 ![] bcast_S_S100000 : (⟨S_, .f32⟩ : BufTy).Contents (Elt F) → (⟨S100000, .f32⟩ : BufTy).Contents (Elt F)) ::
  nullary main_c (constantI S_ 32 0#32) ::
  unary main_c main_v6 (broadcastInDim S200000 ![] bcast_S_S200000 : (⟨S_, .i32⟩ : BufTy).Contents (Elt F) → (⟨S200000, .i32⟩ : BufTy).Contents (Elt F)) ::
  binary main_v2 main_v6 main_v7 (cmpi .slt : (⟨S200000, .i32⟩ : BufTy).Contents (Elt F) → (⟨S200000, .i32⟩ : BufTy).Contents (Elt F) → (⟨S200000, .i1⟩ : BufTy).Contents (Elt F)) ::
  nullary main_c_1 (constantI S_ 32 100000#32) ::
  unary main_c_1 main_v8 (broadcastInDim S200000 ![] bcast_S_S200000 : (⟨S_, .i32⟩ : BufTy).Contents (Elt F) → (⟨S200000, .i32⟩ : BufTy).Contents (Elt F)) ::
  binary main_v2 main_v8 main_v9 (addi : (⟨S200000, .i32⟩ : BufTy).Contents (Elt F) → (⟨S200000, .i32⟩ : BufTy).Contents (Elt F) → (⟨S200000, .i32⟩ : BufTy).Contents (Elt F)) ::
  ternary main_v7 main_v9 main_v2 main_v10 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v10 main_v11 (broadcastInDim S200000x1 ![0] bcast_S200000_S200000x1_0 : (⟨S200000, .i32⟩ : BufTy).Contents (Elt F) → (⟨S200000x1, .i32⟩ : BufTy).Contents (Elt F)) ::
  nullary main_cst_2 (constant S_ .f32 0x3F800000#32) ::
  unary main_cst_2 main_v12 (broadcastInDim S200000 ![] bcast_S_S200000 : (⟨S_, .f32⟩ : BufTy).Contents (Elt F) → (⟨S200000, .f32⟩ : BufTy).Contents (Elt F)) ::
  ternary main_v5 main_v11 main_v12 main_v13 ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)) ::
  nullary main_cst_3 (constant S_ .f32 0x3F800000#32) ::
  TRef.unary (TRef.of (T := ⟨S_, .f32⟩) main_cst_3) (TRef.of (T := ⟨S_, .f32⟩) main_call0_v0) id ::
  TRef.unary (TRef.of (T := ⟨S_, .f32⟩) main_call0_v0) (TRef.of (T := ⟨S100000, .f32⟩) main_call0_v1) (broadcastInDim S100000 ![] bcast_S_S100000) ::
  TRef.binary (TRef.of (T := ⟨S100000, .f32⟩) main_call0_v1) (TRef.of (T := ⟨S100000, .f32⟩) main_v13) (TRef.of (T := ⟨S100000, .f32⟩) main_v14) maximumf ::
  nullary main_cst_4 (constant S_ .f32 0x00000000#32) ::
  unary main_cst_4 main_v15 (broadcastInDim S100000 ![] bcast_S_S100000 : (⟨S_, .f32⟩ : BufTy).Contents (Elt F) → (⟨S100000, .f32⟩ : BufTy).Contents (Elt F)) ::
  nullary main_c_5 (constantI S_ 32 0#32) ::
  unary main_c_5 main_v16 (broadcastInDim S200000 ![] bcast_S_S200000 : (⟨S_, .i32⟩ : BufTy).Contents (Elt F) → (⟨S200000, .i32⟩ : BufTy).Contents (Elt F)) ::
  binary main_v4 main_v16 main_v17 (cmpi .slt : (⟨S200000, .i32⟩ : BufTy).Contents (Elt F) → (⟨S200000, .i32⟩ : BufTy).Contents (Elt F) → (⟨S200000, .i1⟩ : BufTy).Contents (Elt F)) ::
  nullary main_c_6 (constantI S_ 32 100000#32) ::
  unary main_c_6 main_v18 (broadcastInDim S200000 ![] bcast_S_S200000 : (⟨S_, .i32⟩ : BufTy).Contents (Elt F) → (⟨S200000, .i32⟩ : BufTy).Contents (Elt F)) ::
  binary main_v4 main_v18 main_v19 (addi : (⟨S200000, .i32⟩ : BufTy).Contents (Elt F) → (⟨S200000, .i32⟩ : BufTy).Contents (Elt F) → (⟨S200000, .i32⟩ : BufTy).Contents (Elt F)) ::
  ternary main_v17 main_v19 main_v4 main_v20 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v20 main_v21 (broadcastInDim S200000x1 ![0] bcast_S200000_S200000x1_0 : (⟨S200000, .i32⟩ : BufTy).Contents (Elt F) → (⟨S200000x1, .i32⟩ : BufTy).Contents (Elt F)) ::
  nullary main_cst_7 (constant S_ .f32 0x3F800000#32) ::
  unary main_cst_7 main_v22 (broadcastInDim S200000 ![] bcast_S_S200000 : (⟨S_, .f32⟩ : BufTy).Contents (Elt F) → (⟨S200000, .f32⟩ : BufTy).Contents (Elt F)) ::
  ternary main_v15 main_v21 main_v22 main_v23 ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)) ::
  nullary main_cst_8 (constant S_ .f32 0x3F800000#32) ::
  TRef.unary (TRef.of (T := ⟨S_, .f32⟩) main_cst_8) (TRef.of (T := ⟨S_, .f32⟩) main_call1_v0) id ::
  TRef.unary (TRef.of (T := ⟨S_, .f32⟩) main_call1_v0) (TRef.of (T := ⟨S100000, .f32⟩) main_call1_v1) (broadcastInDim S100000 ![] bcast_S_S100000) ::
  TRef.binary (TRef.of (T := ⟨S100000, .f32⟩) main_call1_v1) (TRef.of (T := ⟨S100000, .f32⟩) main_v23) (TRef.of (T := ⟨S100000, .f32⟩) main_v24) maximumf ::
  unary main_arg4 main_v25 ((extractStridedSlice S1x128x128 ![0, 0, 0] · slices_S3x128x128_S1x128x128_0_0_0) : (⟨S3x128x128, .f32⟩ : BufTy).Contents (Elt F) → (⟨S1x128x128, .f32⟩ : BufTy).Contents (Elt F)) ::
  reshape main_v25 main_v26 rfl shapeCasts_S1x128x128_S128x128 ::
  binary main_arg0 main_v26 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ::
  nullary main_c_9 (constantI S_ 32 0#32) ::
  unary main_c_9 main_v28 (broadcastInDim S200000 ![] bcast_S_S200000 : (⟨S_, .i32⟩ : BufTy).Contents (Elt F) → (⟨S200000, .i32⟩ : BufTy).Contents (Elt F)) ::
  binary main_v2 main_v28 main_v29 (cmpi .slt : (⟨S200000, .i32⟩ : BufTy).Contents (Elt F) → (⟨S200000, .i32⟩ : BufTy).Contents (Elt F) → (⟨S200000, .i1⟩ : BufTy).Contents (Elt F)) ::
  nullary main_c_10 (constantI S_ 32 100000#32) ::
  unary main_c_10 main_v30 (broadcastInDim S200000 ![] bcast_S_S200000 : (⟨S_, .i32⟩ : BufTy).Contents (Elt F) → (⟨S200000, .i32⟩ : BufTy).Contents (Elt F)) ::
  binary main_v2 main_v30 main_v31 (addi : (⟨S200000, .i32⟩ : BufTy).Contents (Elt F) → (⟨S200000, .i32⟩ : BufTy).Contents (Elt F) → (⟨S200000, .i32⟩ : BufTy).Contents (Elt F)) ::
  ternary main_v29 main_v31 main_v2 main_v32 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v32 main_v33 (broadcastInDim S200000x1 ![0] bcast_S200000_S200000x1_0 : (⟨S200000, .i32⟩ : BufTy).Contents (Elt F) → (⟨S200000x1, .i32⟩ : BufTy).Contents (Elt F)) ::
  binary main_v27 main_v33 main_v34 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)) ::
  unary main_v14 main_v35 (Host.rsqrt : (⟨S100000, .f32⟩ : BufTy).Contents (Elt F) → (⟨S100000, .f32⟩ : BufTy).Contents (Elt F)) ::
  nullary main_c_11 (constantI S_ 32 0#32) ::
  unary main_c_11 main_v36 (broadcastInDim S200000 ![] bcast_S_S200000 : (⟨S_, .i32⟩ : BufTy).Contents (Elt F) → (⟨S200000, .i32⟩ : BufTy).Contents (Elt F)) ::
  binary main_v2 main_v36 main_v37 (cmpi .slt : (⟨S200000, .i32⟩ : BufTy).Contents (Elt F) → (⟨S200000, .i32⟩ : BufTy).Contents (Elt F) → (⟨S200000, .i1⟩ : BufTy).Contents (Elt F)) ::
  nullary main_c_12 (constantI S_ 32 100000#32) ::
  unary main_c_12 main_v38 (broadcastInDim S200000 ![] bcast_S_S200000 : (⟨S_, .i32⟩ : BufTy).Contents (Elt F) → (⟨S200000, .i32⟩ : BufTy).Contents (Elt F)) ::
  binary main_v2 main_v38 main_v39 (addi : (⟨S200000, .i32⟩ : BufTy).Contents (Elt F) → (⟨S200000, .i32⟩ : BufTy).Contents (Elt F) → (⟨S200000, .i32⟩ : BufTy).Contents (Elt F)) ::
  ternary main_v37 main_v39 main_v2 main_v40 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v40 main_v41 (broadcastInDim S200000x1 ![0] bcast_S200000_S200000x1_0 : (⟨S200000, .i32⟩ : BufTy).Contents (Elt F) → (⟨S200000x1, .i32⟩ : BufTy).Contents (Elt F)) ::
  binary main_v35 main_v41 main_v42 ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)) ::
  unary main_v42 main_v43 (broadcastInDim S200000x1 ![0] bcast_S200000_S200000x1_0 : (⟨S200000, .f32⟩ : BufTy).Contents (Elt F) → (⟨S200000x1, .f32⟩ : BufTy).Contents (Elt F)) ::
  unary main_v43 main_v44 (broadcastInDim S200000x128 ![0, 1] bcast_S200000x1_S200000x128_0_1 : (⟨S200000x1, .f32⟩ : BufTy).Contents (Elt F) → (⟨S200000x128, .f32⟩ : BufTy).Contents (Elt F)) ::
  binary main_v34 main_v44 main_v45 (mulf : (⟨S200000x128, .f32⟩ : BufTy).Contents (Elt F) → (⟨S200000x128, .f32⟩ : BufTy).Contents (Elt F) → (⟨S200000x128, .f32⟩ : BufTy).Contents (Elt F)) ::
  nullary main_cst_13 (constant S_ .f32 0x00000000#32) ::
  unary main_cst_13 main_v46 (broadcastInDim S100000x128 ![] bcast_S_S100000x128 : (⟨S_, .f32⟩ : BufTy).Contents (Elt F) → (⟨S100000x128, .f32⟩ : BufTy).Contents (Elt F)) ::
  nullary main_c_14 (constantI S_ 32 0#32) ::
  unary main_c_14 main_v47 (broadcastInDim S200000 ![] bcast_S_S200000 : (⟨S_, .i32⟩ : BufTy).Contents (Elt F) → (⟨S200000, .i32⟩ : BufTy).Contents (Elt F)) ::
  binary main_v4 main_v47 main_v48 (cmpi .slt : (⟨S200000, .i32⟩ : BufTy).Contents (Elt F) → (⟨S200000, .i32⟩ : BufTy).Contents (Elt F) → (⟨S200000, .i1⟩ : BufTy).Contents (Elt F)) ::
  nullary main_c_15 (constantI S_ 32 100000#32) ::
  unary main_c_15 main_v49 (broadcastInDim S200000 ![] bcast_S_S200000 : (⟨S_, .i32⟩ : BufTy).Contents (Elt F) → (⟨S200000, .i32⟩ : BufTy).Contents (Elt F)) ::
  binary main_v4 main_v49 main_v50 (addi : (⟨S200000, .i32⟩ : BufTy).Contents (Elt F) → (⟨S200000, .i32⟩ : BufTy).Contents (Elt F) → (⟨S200000, .i32⟩ : BufTy).Contents (Elt F)) ::
  ternary main_v48 main_v50 main_v4 main_v51 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v51 main_v52 (broadcastInDim S200000x1 ![0] bcast_S200000_S200000x1_0 : (⟨S200000, .i32⟩ : BufTy).Contents (Elt F) → (⟨S200000x1, .i32⟩ : BufTy).Contents (Elt F)) ::
  ternary main_v46 main_v52 main_v45 main_v53 ((fun x i u => Host.scatterAdd scatter_S100000x128_S200000x1_S200000x128_1_0_0_1 x i u) : (⟨S100000x128, .f32⟩ : BufTy).Contents (Elt F) → (⟨S200000x1, .i32⟩ : BufTy).Contents (Elt F) → (⟨S200000x128, .f32⟩ : BufTy).Contents (Elt F) → (⟨S100000x128, .f32⟩ : BufTy).Contents (Elt F)) ::
  unary main_v24 main_v54 (Host.rsqrt : (⟨S100000, .f32⟩ : BufTy).Contents (Elt F) → (⟨S100000, .f32⟩ : BufTy).Contents (Elt F)) ::
  unary main_v54 main_v55 (broadcastInDim S100000x1 ![0] bcast_S100000_S100000x1_0 : (⟨S100000, .f32⟩ : BufTy).Contents (Elt F) → (⟨S100000x1, .f32⟩ : BufTy).Contents (Elt F)) ::
  unary main_v55 main_v56 (broadcastInDim S100000x128 ![0, 1] bcast_S100000x1_S100000x128_0_1 : (⟨S100000x1, .f32⟩ : BufTy).Contents (Elt F) → (⟨S100000x128, .f32⟩ : BufTy).Contents (Elt F)) ::
  binary main_v53 main_v56 main_v57 (mulf : (⟨S100000x128, .f32⟩ : BufTy).Contents (Elt F) → (⟨S100000x128, .f32⟩ : BufTy).Contents (Elt F) → (⟨S100000x128, .f32⟩ : BufTy).Contents (Elt F)) ::
  binary main_v0 main_v57 main_v58 (addf : (⟨S100000x128, .f32⟩ : BufTy).Contents (Elt F) → (⟨S100000x128, .f32⟩ : BufTy).Contents (Elt F) → (⟨S100000x128, .f32⟩ : BufTy).Contents (Elt F)) ::
  unary main_arg5 main_v59 ((extractStridedSlice S1x128 ![0, 0] · slices_S3x128_S1x128_0_0) : (⟨S3x128, .f32⟩ : BufTy).Contents (Elt F) → (⟨S1x128, .f32⟩ : BufTy).Contents (Elt F)) ::
  reshape main_v59 main_v60 rfl shapeCasts_S1x128_S128 ::
  unary main_v60 main_v61 (broadcastInDim S1x128 ![1] bcast_S128_S1x128_1 : (⟨S128, .f32⟩ : BufTy).Contents (Elt F) → (⟨S1x128, .f32⟩ : BufTy).Contents (Elt F)) ::
  unary main_v61 main_v62 (broadcastInDim S100000x128 ![0, 1] bcast_S1x128_S100000x128_0_1 : (⟨S1x128, .f32⟩ : BufTy).Contents (Elt F) → (⟨S100000x128, .f32⟩ : BufTy).Contents (Elt F)) ::
  binary main_v58 main_v62 main_v63 (addf : (⟨S100000x128, .f32⟩ : BufTy).Contents (Elt F) → (⟨S100000x128, .f32⟩ : BufTy).Contents (Elt F) → (⟨S100000x128, .f32⟩ : BufTy).Contents (Elt F)) ::
  []

set_option maxRecDepth 8192 in
set_option maxHeartbeats 4000000 in
/-- Layer 1, relation 1: the same over row 1 of the edge lists, `W1[1]`, `b1[1]`, added to `main_v63`. Read later: `main_v126`. (84 operations) -/
abbrev chL1r1 : List (HloOp τ sig (Elt F)) :=
  unary main_arg1 main_v64 ((extractStridedSlice S1x200000 ![1, 0] · slices_S3x200000_S1x200000_1_0) : (⟨S3x200000, .i32⟩ : BufTy).Contents (Elt F) → (⟨S1x200000, .i32⟩ : BufTy).Contents (Elt F)) ::
  reshape main_v64 main_v65 rfl shapeCasts_S1x200000_S200000 ::
  unary main_arg2 main_v66 ((extractStridedSlice S1x200000 ![1, 0] · slices_S3x200000_S1x200000_1_0) : (⟨S3x200000, .i32⟩ : BufTy).Contents (Elt F) → (⟨S1x200000, .i32⟩ : BufTy).Contents (Elt F)) ::
  reshape main_v66 main_v67 rfl shapeCasts_S1x200000_S200000 ::
  nullary main_cst_16 (constant S_ .f32 0x00000000#32) ::
  unary main_cst_16 main_v68 (broadcastInDim S100000 ![] bcast_S_S100000 : (⟨S_, .f32⟩ : BufTy).Contents (Elt F) → (⟨S100000, .f32⟩ : BufTy).Contents (Elt F)) ::
  nullary main_c_17 (constantI S_ 32 0#32) ::
  unary main_c_17 main_v69 (broadcastInDim S200000 ![] bcast_S_S200000 : (⟨S_, .i32⟩ : BufTy).Contents (Elt F) → (⟨S200000, .i32⟩ : BufTy).Contents (Elt F)) ::
  binary main_v65 main_v69 main_v70 (cmpi .slt : (⟨S200000, .i32⟩ : BufTy).Contents (Elt F) → (⟨S200000, .i32⟩ : BufTy).Contents (Elt F) → (⟨S200000, .i1⟩ : BufTy).Contents (Elt F)) ::
  nullary main_c_18 (constantI S_ 32 100000#32) ::
  unary main_c_18 main_v71 (broadcastInDim S200000 ![] bcast_S_S200000 : (⟨S_, .i32⟩ : BufTy).Contents (Elt F) → (⟨S200000, .i32⟩ : BufTy).Contents (Elt F)) ::
  binary main_v65 main_v71 main_v72 (addi : (⟨S200000, .i32⟩ : BufTy).Contents (Elt F) → (⟨S200000, .i32⟩ : BufTy).Contents (Elt F) → (⟨S200000, .i32⟩ : BufTy).Contents (Elt F)) ::
  ternary main_v70 main_v72 main_v65 main_v73 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v73 main_v74 (broadcastInDim S200000x1 ![0] bcast_S200000_S200000x1_0 : (⟨S200000, .i32⟩ : BufTy).Contents (Elt F) → (⟨S200000x1, .i32⟩ : BufTy).Contents (Elt F)) ::
  nullary main_cst_19 (constant S_ .f32 0x3F800000#32) ::
  unary main_cst_19 main_v75 (broadcastInDim S200000 ![] bcast_S_S200000 : (⟨S_, .f32⟩ : BufTy).Contents (Elt F) → (⟨S200000, .f32⟩ : BufTy).Contents (Elt F)) ::
  ternary main_v68 main_v74 main_v75 main_v76 ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)) ::
  nullary main_cst_20 (constant S_ .f32 0x3F800000#32) ::
  TRef.unary (TRef.of (T := ⟨S_, .f32⟩) main_cst_20) (TRef.of (T := ⟨S_, .f32⟩) main_call2_v0) id ::
  TRef.unary (TRef.of (T := ⟨S_, .f32⟩) main_call2_v0) (TRef.of (T := ⟨S100000, .f32⟩) main_call2_v1) (broadcastInDim S100000 ![] bcast_S_S100000) ::
  TRef.binary (TRef.of (T := ⟨S100000, .f32⟩) main_call2_v1) (TRef.of (T := ⟨S100000, .f32⟩) main_v76) (TRef.of (T := ⟨S100000, .f32⟩) main_v77) maximumf ::
  nullary main_cst_21 (constant S_ .f32 0x00000000#32) ::
  unary main_cst_21 main_v78 (broadcastInDim S100000 ![] bcast_S_S100000 : (⟨S_, .f32⟩ : BufTy).Contents (Elt F) → (⟨S100000, .f32⟩ : BufTy).Contents (Elt F)) ::
  nullary main_c_22 (constantI S_ 32 0#32) ::
  unary main_c_22 main_v79 (broadcastInDim S200000 ![] bcast_S_S200000 : (⟨S_, .i32⟩ : BufTy).Contents (Elt F) → (⟨S200000, .i32⟩ : BufTy).Contents (Elt F)) ::
  binary main_v67 main_v79 main_v80 (cmpi .slt : (⟨S200000, .i32⟩ : BufTy).Contents (Elt F) → (⟨S200000, .i32⟩ : BufTy).Contents (Elt F) → (⟨S200000, .i1⟩ : BufTy).Contents (Elt F)) ::
  nullary main_c_23 (constantI S_ 32 100000#32) ::
  unary main_c_23 main_v81 (broadcastInDim S200000 ![] bcast_S_S200000 : (⟨S_, .i32⟩ : BufTy).Contents (Elt F) → (⟨S200000, .i32⟩ : BufTy).Contents (Elt F)) ::
  binary main_v67 main_v81 main_v82 (addi : (⟨S200000, .i32⟩ : BufTy).Contents (Elt F) → (⟨S200000, .i32⟩ : BufTy).Contents (Elt F) → (⟨S200000, .i32⟩ : BufTy).Contents (Elt F)) ::
  ternary main_v80 main_v82 main_v67 main_v83 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v83 main_v84 (broadcastInDim S200000x1 ![0] bcast_S200000_S200000x1_0 : (⟨S200000, .i32⟩ : BufTy).Contents (Elt F) → (⟨S200000x1, .i32⟩ : BufTy).Contents (Elt F)) ::
  nullary main_cst_24 (constant S_ .f32 0x3F800000#32) ::
  unary main_cst_24 main_v85 (broadcastInDim S200000 ![] bcast_S_S200000 : (⟨S_, .f32⟩ : BufTy).Contents (Elt F) → (⟨S200000, .f32⟩ : BufTy).Contents (Elt F)) ::
  ternary main_v78 main_v84 main_v85 main_v86 ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)) ::
  nullary main_cst_25 (constant S_ .f32 0x3F800000#32) ::
  TRef.unary (TRef.of (T := ⟨S_, .f32⟩) main_cst_25) (TRef.of (T := ⟨S_, .f32⟩) main_call3_v0) id ::
  TRef.unary (TRef.of (T := ⟨S_, .f32⟩) main_call3_v0) (TRef.of (T := ⟨S100000, .f32⟩) main_call3_v1) (broadcastInDim S100000 ![] bcast_S_S100000) ::
  TRef.binary (TRef.of (T := ⟨S100000, .f32⟩) main_call3_v1) (TRef.of (T := ⟨S100000, .f32⟩) main_v86) (TRef.of (T := ⟨S100000, .f32⟩) main_v87) maximumf ::
  unary main_arg4 main_v88 ((extractStridedSlice S1x128x128 ![1, 0, 0] · slices_S3x128x128_S1x128x128_1_0_0) : (⟨S3x128x128, .f32⟩ : BufTy).Contents (Elt F) → (⟨S1x128x128, .f32⟩ : BufTy).Contents (Elt F)) ::
  reshape main_v88 main_v89 rfl shapeCasts_S1x128x128_S128x128 ::
  binary main_arg0 main_v89 main_v90 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ::
  nullary main_c_26 (constantI S_ 32 0#32) ::
  unary main_c_26 main_v91 (broadcastInDim S200000 ![] bcast_S_S200000 : (⟨S_, .i32⟩ : BufTy).Contents (Elt F) → (⟨S200000, .i32⟩ : BufTy).Contents (Elt F)) ::
  binary main_v65 main_v91 main_v92 (cmpi .slt : (⟨S200000, .i32⟩ : BufTy).Contents (Elt F) → (⟨S200000, .i32⟩ : BufTy).Contents (Elt F) → (⟨S200000, .i1⟩ : BufTy).Contents (Elt F)) ::
  nullary main_c_27 (constantI S_ 32 100000#32) ::
  unary main_c_27 main_v93 (broadcastInDim S200000 ![] bcast_S_S200000 : (⟨S_, .i32⟩ : BufTy).Contents (Elt F) → (⟨S200000, .i32⟩ : BufTy).Contents (Elt F)) ::
  binary main_v65 main_v93 main_v94 (addi : (⟨S200000, .i32⟩ : BufTy).Contents (Elt F) → (⟨S200000, .i32⟩ : BufTy).Contents (Elt F) → (⟨S200000, .i32⟩ : BufTy).Contents (Elt F)) ::
  ternary main_v92 main_v94 main_v65 main_v95 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v95 main_v96 (broadcastInDim S200000x1 ![0] bcast_S200000_S200000x1_0 : (⟨S200000, .i32⟩ : BufTy).Contents (Elt F) → (⟨S200000x1, .i32⟩ : BufTy).Contents (Elt F)) ::
  binary main_v90 main_v96 main_v97 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)) ::
  unary main_v77 main_v98 (Host.rsqrt : (⟨S100000, .f32⟩ : BufTy).Contents (Elt F) → (⟨S100000, .f32⟩ : BufTy).Contents (Elt F)) ::
  nullary main_c_28 (constantI S_ 32 0#32) ::
  unary main_c_28 main_v99 (broadcastInDim S200000 ![] bcast_S_S200000 : (⟨S_, .i32⟩ : BufTy).Contents (Elt F) → (⟨S200000, .i32⟩ : BufTy).Contents (Elt F)) ::
  binary main_v65 main_v99 main_v100 (cmpi .slt : (⟨S200000, .i32⟩ : BufTy).Contents (Elt F) → (⟨S200000, .i32⟩ : BufTy).Contents (Elt F) → (⟨S200000, .i1⟩ : BufTy).Contents (Elt F)) ::
  nullary main_c_29 (constantI S_ 32 100000#32) ::
  unary main_c_29 main_v101 (broadcastInDim S200000 ![] bcast_S_S200000 : (⟨S_, .i32⟩ : BufTy).Contents (Elt F) → (⟨S200000, .i32⟩ : BufTy).Contents (Elt F)) ::
  binary main_v65 main_v101 main_v102 (addi : (⟨S200000, .i32⟩ : BufTy).Contents (Elt F) → (⟨S200000, .i32⟩ : BufTy).Contents (Elt F) → (⟨S200000, .i32⟩ : BufTy).Contents (Elt F)) ::
  ternary main_v100 main_v102 main_v65 main_v103 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v103 main_v104 (broadcastInDim S200000x1 ![0] bcast_S200000_S200000x1_0 : (⟨S200000, .i32⟩ : BufTy).Contents (Elt F) → (⟨S200000x1, .i32⟩ : BufTy).Contents (Elt F)) ::
  binary main_v98 main_v104 main_v105 ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)) ::
  unary main_v105 main_v106 (broadcastInDim S200000x1 ![0] bcast_S200000_S200000x1_0 : (⟨S200000, .f32⟩ : BufTy).Contents (Elt F) → (⟨S200000x1, .f32⟩ : BufTy).Contents (Elt F)) ::
  unary main_v106 main_v107 (broadcastInDim S200000x128 ![0, 1] bcast_S200000x1_S200000x128_0_1 : (⟨S200000x1, .f32⟩ : BufTy).Contents (Elt F) → (⟨S200000x128, .f32⟩ : BufTy).Contents (Elt F)) ::
  binary main_v97 main_v107 main_v108 (mulf : (⟨S200000x128, .f32⟩ : BufTy).Contents (Elt F) → (⟨S200000x128, .f32⟩ : BufTy).Contents (Elt F) → (⟨S200000x128, .f32⟩ : BufTy).Contents (Elt F)) ::
  nullary main_cst_30 (constant S_ .f32 0x00000000#32) ::
  unary main_cst_30 main_v109 (broadcastInDim S100000x128 ![] bcast_S_S100000x128 : (⟨S_, .f32⟩ : BufTy).Contents (Elt F) → (⟨S100000x128, .f32⟩ : BufTy).Contents (Elt F)) ::
  nullary main_c_31 (constantI S_ 32 0#32) ::
  unary main_c_31 main_v110 (broadcastInDim S200000 ![] bcast_S_S200000 : (⟨S_, .i32⟩ : BufTy).Contents (Elt F) → (⟨S200000, .i32⟩ : BufTy).Contents (Elt F)) ::
  binary main_v67 main_v110 main_v111 (cmpi .slt : (⟨S200000, .i32⟩ : BufTy).Contents (Elt F) → (⟨S200000, .i32⟩ : BufTy).Contents (Elt F) → (⟨S200000, .i1⟩ : BufTy).Contents (Elt F)) ::
  nullary main_c_32 (constantI S_ 32 100000#32) ::
  unary main_c_32 main_v112 (broadcastInDim S200000 ![] bcast_S_S200000 : (⟨S_, .i32⟩ : BufTy).Contents (Elt F) → (⟨S200000, .i32⟩ : BufTy).Contents (Elt F)) ::
  binary main_v67 main_v112 main_v113 (addi : (⟨S200000, .i32⟩ : BufTy).Contents (Elt F) → (⟨S200000, .i32⟩ : BufTy).Contents (Elt F) → (⟨S200000, .i32⟩ : BufTy).Contents (Elt F)) ::
  ternary main_v111 main_v113 main_v67 main_v114 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v114 main_v115 (broadcastInDim S200000x1 ![0] bcast_S200000_S200000x1_0 : (⟨S200000, .i32⟩ : BufTy).Contents (Elt F) → (⟨S200000x1, .i32⟩ : BufTy).Contents (Elt F)) ::
  ternary main_v109 main_v115 main_v108 main_v116 ((fun x i u => Host.scatterAdd scatter_S100000x128_S200000x1_S200000x128_1_0_0_1 x i u) : (⟨S100000x128, .f32⟩ : BufTy).Contents (Elt F) → (⟨S200000x1, .i32⟩ : BufTy).Contents (Elt F) → (⟨S200000x128, .f32⟩ : BufTy).Contents (Elt F) → (⟨S100000x128, .f32⟩ : BufTy).Contents (Elt F)) ::
  unary main_v87 main_v117 (Host.rsqrt : (⟨S100000, .f32⟩ : BufTy).Contents (Elt F) → (⟨S100000, .f32⟩ : BufTy).Contents (Elt F)) ::
  unary main_v117 main_v118 (broadcastInDim S100000x1 ![0] bcast_S100000_S100000x1_0 : (⟨S100000, .f32⟩ : BufTy).Contents (Elt F) → (⟨S100000x1, .f32⟩ : BufTy).Contents (Elt F)) ::
  unary main_v118 main_v119 (broadcastInDim S100000x128 ![0, 1] bcast_S100000x1_S100000x128_0_1 : (⟨S100000x1, .f32⟩ : BufTy).Contents (Elt F) → (⟨S100000x128, .f32⟩ : BufTy).Contents (Elt F)) ::
  binary main_v116 main_v119 main_v120 (mulf : (⟨S100000x128, .f32⟩ : BufTy).Contents (Elt F) → (⟨S100000x128, .f32⟩ : BufTy).Contents (Elt F) → (⟨S100000x128, .f32⟩ : BufTy).Contents (Elt F)) ::
  binary main_v63 main_v120 main_v121 (addf : (⟨S100000x128, .f32⟩ : BufTy).Contents (Elt F) → (⟨S100000x128, .f32⟩ : BufTy).Contents (Elt F) → (⟨S100000x128, .f32⟩ : BufTy).Contents (Elt F)) ::
  unary main_arg5 main_v122 ((extractStridedSlice S1x128 ![1, 0] · slices_S3x128_S1x128_1_0) : (⟨S3x128, .f32⟩ : BufTy).Contents (Elt F) → (⟨S1x128, .f32⟩ : BufTy).Contents (Elt F)) ::
  reshape main_v122 main_v123 rfl shapeCasts_S1x128_S128 ::
  unary main_v123 main_v124 (broadcastInDim S1x128 ![1] bcast_S128_S1x128_1 : (⟨S128, .f32⟩ : BufTy).Contents (Elt F) → (⟨S1x128, .f32⟩ : BufTy).Contents (Elt F)) ::
  unary main_v124 main_v125 (broadcastInDim S100000x128 ![0, 1] bcast_S1x128_S100000x128_0_1 : (⟨S1x128, .f32⟩ : BufTy).Contents (Elt F) → (⟨S100000x128, .f32⟩ : BufTy).Contents (Elt F)) ::
  binary main_v121 main_v125 main_v126 (addf : (⟨S100000x128, .f32⟩ : BufTy).Contents (Elt F) → (⟨S100000x128, .f32⟩ : BufTy).Contents (Elt F) → (⟨S100000x128, .f32⟩ : BufTy).Contents (Elt F)) ::
  []

set_option maxRecDepth 8192 in
set_option maxHeartbeats 4000000 in
/-- Layer 1, relation 2: the same over row 2, added to `main_v126`. Read later: `main_v189`. (84 operations) -/
abbrev chL1r2 : List (HloOp τ sig (Elt F)) :=
  unary main_arg1 main_v127 ((extractStridedSlice S1x200000 ![2, 0] · slices_S3x200000_S1x200000_2_0) : (⟨S3x200000, .i32⟩ : BufTy).Contents (Elt F) → (⟨S1x200000, .i32⟩ : BufTy).Contents (Elt F)) ::
  reshape main_v127 main_v128 rfl shapeCasts_S1x200000_S200000 ::
  unary main_arg2 main_v129 ((extractStridedSlice S1x200000 ![2, 0] · slices_S3x200000_S1x200000_2_0) : (⟨S3x200000, .i32⟩ : BufTy).Contents (Elt F) → (⟨S1x200000, .i32⟩ : BufTy).Contents (Elt F)) ::
  reshape main_v129 main_v130 rfl shapeCasts_S1x200000_S200000 ::
  nullary main_cst_33 (constant S_ .f32 0x00000000#32) ::
  unary main_cst_33 main_v131 (broadcastInDim S100000 ![] bcast_S_S100000 : (⟨S_, .f32⟩ : BufTy).Contents (Elt F) → (⟨S100000, .f32⟩ : BufTy).Contents (Elt F)) ::
  nullary main_c_34 (constantI S_ 32 0#32) ::
  unary main_c_34 main_v132 (broadcastInDim S200000 ![] bcast_S_S200000 : (⟨S_, .i32⟩ : BufTy).Contents (Elt F) → (⟨S200000, .i32⟩ : BufTy).Contents (Elt F)) ::
  binary main_v128 main_v132 main_v133 (cmpi .slt : (⟨S200000, .i32⟩ : BufTy).Contents (Elt F) → (⟨S200000, .i32⟩ : BufTy).Contents (Elt F) → (⟨S200000, .i1⟩ : BufTy).Contents (Elt F)) ::
  nullary main_c_35 (constantI S_ 32 100000#32) ::
  unary main_c_35 main_v134 (broadcastInDim S200000 ![] bcast_S_S200000 : (⟨S_, .i32⟩ : BufTy).Contents (Elt F) → (⟨S200000, .i32⟩ : BufTy).Contents (Elt F)) ::
  binary main_v128 main_v134 main_v135 (addi : (⟨S200000, .i32⟩ : BufTy).Contents (Elt F) → (⟨S200000, .i32⟩ : BufTy).Contents (Elt F) → (⟨S200000, .i32⟩ : BufTy).Contents (Elt F)) ::
  ternary main_v133 main_v135 main_v128 main_v136 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v136 main_v137 (broadcastInDim S200000x1 ![0] bcast_S200000_S200000x1_0 : (⟨S200000, .i32⟩ : BufTy).Contents (Elt F) → (⟨S200000x1, .i32⟩ : BufTy).Contents (Elt F)) ::
  nullary main_cst_36 (constant S_ .f32 0x3F800000#32) ::
  unary main_cst_36 main_v138 (broadcastInDim S200000 ![] bcast_S_S200000 : (⟨S_, .f32⟩ : BufTy).Contents (Elt F) → (⟨S200000, .f32⟩ : BufTy).Contents (Elt F)) ::
  ternary main_v131 main_v137 main_v138 main_v139 ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)) ::
  nullary main_cst_37 (constant S_ .f32 0x3F800000#32) ::
  TRef.unary (TRef.of (T := ⟨S_, .f32⟩) main_cst_37) (TRef.of (T := ⟨S_, .f32⟩) main_call4_v0) id ::
  TRef.unary (TRef.of (T := ⟨S_, .f32⟩) main_call4_v0) (TRef.of (T := ⟨S100000, .f32⟩) main_call4_v1) (broadcastInDim S100000 ![] bcast_S_S100000) ::
  TRef.binary (TRef.of (T := ⟨S100000, .f32⟩) main_call4_v1) (TRef.of (T := ⟨S100000, .f32⟩) main_v139) (TRef.of (T := ⟨S100000, .f32⟩) main_v140) maximumf ::
  nullary main_cst_38 (constant S_ .f32 0x00000000#32) ::
  unary main_cst_38 main_v141 (broadcastInDim S100000 ![] bcast_S_S100000 : (⟨S_, .f32⟩ : BufTy).Contents (Elt F) → (⟨S100000, .f32⟩ : BufTy).Contents (Elt F)) ::
  nullary main_c_39 (constantI S_ 32 0#32) ::
  unary main_c_39 main_v142 (broadcastInDim S200000 ![] bcast_S_S200000 : (⟨S_, .i32⟩ : BufTy).Contents (Elt F) → (⟨S200000, .i32⟩ : BufTy).Contents (Elt F)) ::
  binary main_v130 main_v142 main_v143 (cmpi .slt : (⟨S200000, .i32⟩ : BufTy).Contents (Elt F) → (⟨S200000, .i32⟩ : BufTy).Contents (Elt F) → (⟨S200000, .i1⟩ : BufTy).Contents (Elt F)) ::
  nullary main_c_40 (constantI S_ 32 100000#32) ::
  unary main_c_40 main_v144 (broadcastInDim S200000 ![] bcast_S_S200000 : (⟨S_, .i32⟩ : BufTy).Contents (Elt F) → (⟨S200000, .i32⟩ : BufTy).Contents (Elt F)) ::
  binary main_v130 main_v144 main_v145 (addi : (⟨S200000, .i32⟩ : BufTy).Contents (Elt F) → (⟨S200000, .i32⟩ : BufTy).Contents (Elt F) → (⟨S200000, .i32⟩ : BufTy).Contents (Elt F)) ::
  ternary main_v143 main_v145 main_v130 main_v146 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v146 main_v147 (broadcastInDim S200000x1 ![0] bcast_S200000_S200000x1_0 : (⟨S200000, .i32⟩ : BufTy).Contents (Elt F) → (⟨S200000x1, .i32⟩ : BufTy).Contents (Elt F)) ::
  nullary main_cst_41 (constant S_ .f32 0x3F800000#32) ::
  unary main_cst_41 main_v148 (broadcastInDim S200000 ![] bcast_S_S200000 : (⟨S_, .f32⟩ : BufTy).Contents (Elt F) → (⟨S200000, .f32⟩ : BufTy).Contents (Elt F)) ::
  ternary main_v141 main_v147 main_v148 main_v149 ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)) ::
  nullary main_cst_42 (constant S_ .f32 0x3F800000#32) ::
  TRef.unary (TRef.of (T := ⟨S_, .f32⟩) main_cst_42) (TRef.of (T := ⟨S_, .f32⟩) main_call5_v0) id ::
  TRef.unary (TRef.of (T := ⟨S_, .f32⟩) main_call5_v0) (TRef.of (T := ⟨S100000, .f32⟩) main_call5_v1) (broadcastInDim S100000 ![] bcast_S_S100000) ::
  TRef.binary (TRef.of (T := ⟨S100000, .f32⟩) main_call5_v1) (TRef.of (T := ⟨S100000, .f32⟩) main_v149) (TRef.of (T := ⟨S100000, .f32⟩) main_v150) maximumf ::
  unary main_arg4 main_v151 ((extractStridedSlice S1x128x128 ![2, 0, 0] · slices_S3x128x128_S1x128x128_2_0_0) : (⟨S3x128x128, .f32⟩ : BufTy).Contents (Elt F) → (⟨S1x128x128, .f32⟩ : BufTy).Contents (Elt F)) ::
  reshape main_v151 main_v152 rfl shapeCasts_S1x128x128_S128x128 ::
  binary main_arg0 main_v152 main_v153 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ::
  nullary main_c_43 (constantI S_ 32 0#32) ::
  unary main_c_43 main_v154 (broadcastInDim S200000 ![] bcast_S_S200000 : (⟨S_, .i32⟩ : BufTy).Contents (Elt F) → (⟨S200000, .i32⟩ : BufTy).Contents (Elt F)) ::
  binary main_v128 main_v154 main_v155 (cmpi .slt : (⟨S200000, .i32⟩ : BufTy).Contents (Elt F) → (⟨S200000, .i32⟩ : BufTy).Contents (Elt F) → (⟨S200000, .i1⟩ : BufTy).Contents (Elt F)) ::
  nullary main_c_44 (constantI S_ 32 100000#32) ::
  unary main_c_44 main_v156 (broadcastInDim S200000 ![] bcast_S_S200000 : (⟨S_, .i32⟩ : BufTy).Contents (Elt F) → (⟨S200000, .i32⟩ : BufTy).Contents (Elt F)) ::
  binary main_v128 main_v156 main_v157 (addi : (⟨S200000, .i32⟩ : BufTy).Contents (Elt F) → (⟨S200000, .i32⟩ : BufTy).Contents (Elt F) → (⟨S200000, .i32⟩ : BufTy).Contents (Elt F)) ::
  ternary main_v155 main_v157 main_v128 main_v158 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v158 main_v159 (broadcastInDim S200000x1 ![0] bcast_S200000_S200000x1_0 : (⟨S200000, .i32⟩ : BufTy).Contents (Elt F) → (⟨S200000x1, .i32⟩ : BufTy).Contents (Elt F)) ::
  binary main_v153 main_v159 main_v160 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)) ::
  unary main_v140 main_v161 (Host.rsqrt : (⟨S100000, .f32⟩ : BufTy).Contents (Elt F) → (⟨S100000, .f32⟩ : BufTy).Contents (Elt F)) ::
  nullary main_c_45 (constantI S_ 32 0#32) ::
  unary main_c_45 main_v162 (broadcastInDim S200000 ![] bcast_S_S200000 : (⟨S_, .i32⟩ : BufTy).Contents (Elt F) → (⟨S200000, .i32⟩ : BufTy).Contents (Elt F)) ::
  binary main_v128 main_v162 main_v163 (cmpi .slt : (⟨S200000, .i32⟩ : BufTy).Contents (Elt F) → (⟨S200000, .i32⟩ : BufTy).Contents (Elt F) → (⟨S200000, .i1⟩ : BufTy).Contents (Elt F)) ::
  nullary main_c_46 (constantI S_ 32 100000#32) ::
  unary main_c_46 main_v164 (broadcastInDim S200000 ![] bcast_S_S200000 : (⟨S_, .i32⟩ : BufTy).Contents (Elt F) → (⟨S200000, .i32⟩ : BufTy).Contents (Elt F)) ::
  binary main_v128 main_v164 main_v165 (addi : (⟨S200000, .i32⟩ : BufTy).Contents (Elt F) → (⟨S200000, .i32⟩ : BufTy).Contents (Elt F) → (⟨S200000, .i32⟩ : BufTy).Contents (Elt F)) ::
  ternary main_v163 main_v165 main_v128 main_v166 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v166 main_v167 (broadcastInDim S200000x1 ![0] bcast_S200000_S200000x1_0 : (⟨S200000, .i32⟩ : BufTy).Contents (Elt F) → (⟨S200000x1, .i32⟩ : BufTy).Contents (Elt F)) ::
  binary main_v161 main_v167 main_v168 ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)) ::
  unary main_v168 main_v169 (broadcastInDim S200000x1 ![0] bcast_S200000_S200000x1_0 : (⟨S200000, .f32⟩ : BufTy).Contents (Elt F) → (⟨S200000x1, .f32⟩ : BufTy).Contents (Elt F)) ::
  unary main_v169 main_v170 (broadcastInDim S200000x128 ![0, 1] bcast_S200000x1_S200000x128_0_1 : (⟨S200000x1, .f32⟩ : BufTy).Contents (Elt F) → (⟨S200000x128, .f32⟩ : BufTy).Contents (Elt F)) ::
  binary main_v160 main_v170 main_v171 (mulf : (⟨S200000x128, .f32⟩ : BufTy).Contents (Elt F) → (⟨S200000x128, .f32⟩ : BufTy).Contents (Elt F) → (⟨S200000x128, .f32⟩ : BufTy).Contents (Elt F)) ::
  nullary main_cst_47 (constant S_ .f32 0x00000000#32) ::
  unary main_cst_47 main_v172 (broadcastInDim S100000x128 ![] bcast_S_S100000x128 : (⟨S_, .f32⟩ : BufTy).Contents (Elt F) → (⟨S100000x128, .f32⟩ : BufTy).Contents (Elt F)) ::
  nullary main_c_48 (constantI S_ 32 0#32) ::
  unary main_c_48 main_v173 (broadcastInDim S200000 ![] bcast_S_S200000 : (⟨S_, .i32⟩ : BufTy).Contents (Elt F) → (⟨S200000, .i32⟩ : BufTy).Contents (Elt F)) ::
  binary main_v130 main_v173 main_v174 (cmpi .slt : (⟨S200000, .i32⟩ : BufTy).Contents (Elt F) → (⟨S200000, .i32⟩ : BufTy).Contents (Elt F) → (⟨S200000, .i1⟩ : BufTy).Contents (Elt F)) ::
  nullary main_c_49 (constantI S_ 32 100000#32) ::
  unary main_c_49 main_v175 (broadcastInDim S200000 ![] bcast_S_S200000 : (⟨S_, .i32⟩ : BufTy).Contents (Elt F) → (⟨S200000, .i32⟩ : BufTy).Contents (Elt F)) ::
  binary main_v130 main_v175 main_v176 (addi : (⟨S200000, .i32⟩ : BufTy).Contents (Elt F) → (⟨S200000, .i32⟩ : BufTy).Contents (Elt F) → (⟨S200000, .i32⟩ : BufTy).Contents (Elt F)) ::
  ternary main_v174 main_v176 main_v130 main_v177 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v177 main_v178 (broadcastInDim S200000x1 ![0] bcast_S200000_S200000x1_0 : (⟨S200000, .i32⟩ : BufTy).Contents (Elt F) → (⟨S200000x1, .i32⟩ : BufTy).Contents (Elt F)) ::
  ternary main_v172 main_v178 main_v171 main_v179 ((fun x i u => Host.scatterAdd scatter_S100000x128_S200000x1_S200000x128_1_0_0_1 x i u) : (⟨S100000x128, .f32⟩ : BufTy).Contents (Elt F) → (⟨S200000x1, .i32⟩ : BufTy).Contents (Elt F) → (⟨S200000x128, .f32⟩ : BufTy).Contents (Elt F) → (⟨S100000x128, .f32⟩ : BufTy).Contents (Elt F)) ::
  unary main_v150 main_v180 (Host.rsqrt : (⟨S100000, .f32⟩ : BufTy).Contents (Elt F) → (⟨S100000, .f32⟩ : BufTy).Contents (Elt F)) ::
  unary main_v180 main_v181 (broadcastInDim S100000x1 ![0] bcast_S100000_S100000x1_0 : (⟨S100000, .f32⟩ : BufTy).Contents (Elt F) → (⟨S100000x1, .f32⟩ : BufTy).Contents (Elt F)) ::
  unary main_v181 main_v182 (broadcastInDim S100000x128 ![0, 1] bcast_S100000x1_S100000x128_0_1 : (⟨S100000x1, .f32⟩ : BufTy).Contents (Elt F) → (⟨S100000x128, .f32⟩ : BufTy).Contents (Elt F)) ::
  binary main_v179 main_v182 main_v183 (mulf : (⟨S100000x128, .f32⟩ : BufTy).Contents (Elt F) → (⟨S100000x128, .f32⟩ : BufTy).Contents (Elt F) → (⟨S100000x128, .f32⟩ : BufTy).Contents (Elt F)) ::
  binary main_v126 main_v183 main_v184 (addf : (⟨S100000x128, .f32⟩ : BufTy).Contents (Elt F) → (⟨S100000x128, .f32⟩ : BufTy).Contents (Elt F) → (⟨S100000x128, .f32⟩ : BufTy).Contents (Elt F)) ::
  unary main_arg5 main_v185 ((extractStridedSlice S1x128 ![2, 0] · slices_S3x128_S1x128_2_0) : (⟨S3x128, .f32⟩ : BufTy).Contents (Elt F) → (⟨S1x128, .f32⟩ : BufTy).Contents (Elt F)) ::
  reshape main_v185 main_v186 rfl shapeCasts_S1x128_S128 ::
  unary main_v186 main_v187 (broadcastInDim S1x128 ![1] bcast_S128_S1x128_1 : (⟨S128, .f32⟩ : BufTy).Contents (Elt F) → (⟨S1x128, .f32⟩ : BufTy).Contents (Elt F)) ::
  unary main_v187 main_v188 (broadcastInDim S100000x128 ![0, 1] bcast_S1x128_S100000x128_0_1 : (⟨S1x128, .f32⟩ : BufTy).Contents (Elt F) → (⟨S100000x128, .f32⟩ : BufTy).Contents (Elt F)) ::
  binary main_v184 main_v188 main_v189 (addf : (⟨S100000x128, .f32⟩ : BufTy).Contents (Elt F) → (⟨S100000x128, .f32⟩ : BufTy).Contents (Elt F) → (⟨S100000x128, .f32⟩ : BufTy).Contents (Elt F)) ::
  []

set_option maxRecDepth 8192 in
set_option maxHeartbeats 4000000 in
/-- The relu between the layers: `max(main_v189, 0)`. Read later: `main_v190`. (3 operations) -/
abbrev chRelu : List (HloOp τ sig (Elt F)) :=
  TRef.nullary (TRef.of (T := ⟨S_, .f32⟩) main_call6_cst) (constant S_ .f32 0x00000000#32) ::
  TRef.unary (TRef.of (T := ⟨S_, .f32⟩) main_call6_cst) (TRef.of (T := ⟨S100000x128, .f32⟩) main_call6_v0) (broadcastInDim S100000x128 ![] bcast_S_S100000x128) ::
  TRef.binary (TRef.of (T := ⟨S100000x128, .f32⟩) main_v189) (TRef.of (T := ⟨S100000x128, .f32⟩) main_call6_v0) (TRef.of (T := ⟨S100000x128, .f32⟩) main_v190) maximumf ::
  []

set_option maxRecDepth 8192 in
set_option maxHeartbeats 4000000 in
/-- Layer 2, relation 0: a fresh zero accumulator, then relation 0's block over the relu's result `main_v190` with `W2[0]`, `b2[0]`. Read later: `main_v254`. (86 operations) -/
abbrev chL2r0 : List (HloOp τ sig (Elt F)) :=
  nullary main_cst_50 (constant S_ .f32 0x00000000#32) ::
  unary main_cst_50 main_v191 (broadcastInDim S100000x128 ![] bcast_S_S100000x128 : (⟨S_, .f32⟩ : BufTy).Contents (Elt F) → (⟨S100000x128, .f32⟩ : BufTy).Contents (Elt F)) ::
  unary main_arg1 main_v192 ((extractStridedSlice S1x200000 ![0, 0] · slices_S3x200000_S1x200000_0_0) : (⟨S3x200000, .i32⟩ : BufTy).Contents (Elt F) → (⟨S1x200000, .i32⟩ : BufTy).Contents (Elt F)) ::
  reshape main_v192 main_v193 rfl shapeCasts_S1x200000_S200000 ::
  unary main_arg2 main_v194 ((extractStridedSlice S1x200000 ![0, 0] · slices_S3x200000_S1x200000_0_0) : (⟨S3x200000, .i32⟩ : BufTy).Contents (Elt F) → (⟨S1x200000, .i32⟩ : BufTy).Contents (Elt F)) ::
  reshape main_v194 main_v195 rfl shapeCasts_S1x200000_S200000 ::
  nullary main_cst_51 (constant S_ .f32 0x00000000#32) ::
  unary main_cst_51 main_v196 (broadcastInDim S100000 ![] bcast_S_S100000 : (⟨S_, .f32⟩ : BufTy).Contents (Elt F) → (⟨S100000, .f32⟩ : BufTy).Contents (Elt F)) ::
  nullary main_c_52 (constantI S_ 32 0#32) ::
  unary main_c_52 main_v197 (broadcastInDim S200000 ![] bcast_S_S200000 : (⟨S_, .i32⟩ : BufTy).Contents (Elt F) → (⟨S200000, .i32⟩ : BufTy).Contents (Elt F)) ::
  binary main_v193 main_v197 main_v198 (cmpi .slt : (⟨S200000, .i32⟩ : BufTy).Contents (Elt F) → (⟨S200000, .i32⟩ : BufTy).Contents (Elt F) → (⟨S200000, .i1⟩ : BufTy).Contents (Elt F)) ::
  nullary main_c_53 (constantI S_ 32 100000#32) ::
  unary main_c_53 main_v199 (broadcastInDim S200000 ![] bcast_S_S200000 : (⟨S_, .i32⟩ : BufTy).Contents (Elt F) → (⟨S200000, .i32⟩ : BufTy).Contents (Elt F)) ::
  binary main_v193 main_v199 main_v200 (addi : (⟨S200000, .i32⟩ : BufTy).Contents (Elt F) → (⟨S200000, .i32⟩ : BufTy).Contents (Elt F) → (⟨S200000, .i32⟩ : BufTy).Contents (Elt F)) ::
  ternary main_v198 main_v200 main_v193 main_v201 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v201 main_v202 (broadcastInDim S200000x1 ![0] bcast_S200000_S200000x1_0 : (⟨S200000, .i32⟩ : BufTy).Contents (Elt F) → (⟨S200000x1, .i32⟩ : BufTy).Contents (Elt F)) ::
  nullary main_cst_54 (constant S_ .f32 0x3F800000#32) ::
  unary main_cst_54 main_v203 (broadcastInDim S200000 ![] bcast_S_S200000 : (⟨S_, .f32⟩ : BufTy).Contents (Elt F) → (⟨S200000, .f32⟩ : BufTy).Contents (Elt F)) ::
  ternary main_v196 main_v202 main_v203 main_v204 ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)) ::
  nullary main_cst_55 (constant S_ .f32 0x3F800000#32) ::
  TRef.unary (TRef.of (T := ⟨S_, .f32⟩) main_cst_55) (TRef.of (T := ⟨S_, .f32⟩) main_call7_v0) id ::
  TRef.unary (TRef.of (T := ⟨S_, .f32⟩) main_call7_v0) (TRef.of (T := ⟨S100000, .f32⟩) main_call7_v1) (broadcastInDim S100000 ![] bcast_S_S100000) ::
  TRef.binary (TRef.of (T := ⟨S100000, .f32⟩) main_call7_v1) (TRef.of (T := ⟨S100000, .f32⟩) main_v204) (TRef.of (T := ⟨S100000, .f32⟩) main_v205) maximumf ::
  nullary main_cst_56 (constant S_ .f32 0x00000000#32) ::
  unary main_cst_56 main_v206 (broadcastInDim S100000 ![] bcast_S_S100000 : (⟨S_, .f32⟩ : BufTy).Contents (Elt F) → (⟨S100000, .f32⟩ : BufTy).Contents (Elt F)) ::
  nullary main_c_57 (constantI S_ 32 0#32) ::
  unary main_c_57 main_v207 (broadcastInDim S200000 ![] bcast_S_S200000 : (⟨S_, .i32⟩ : BufTy).Contents (Elt F) → (⟨S200000, .i32⟩ : BufTy).Contents (Elt F)) ::
  binary main_v195 main_v207 main_v208 (cmpi .slt : (⟨S200000, .i32⟩ : BufTy).Contents (Elt F) → (⟨S200000, .i32⟩ : BufTy).Contents (Elt F) → (⟨S200000, .i1⟩ : BufTy).Contents (Elt F)) ::
  nullary main_c_58 (constantI S_ 32 100000#32) ::
  unary main_c_58 main_v209 (broadcastInDim S200000 ![] bcast_S_S200000 : (⟨S_, .i32⟩ : BufTy).Contents (Elt F) → (⟨S200000, .i32⟩ : BufTy).Contents (Elt F)) ::
  binary main_v195 main_v209 main_v210 (addi : (⟨S200000, .i32⟩ : BufTy).Contents (Elt F) → (⟨S200000, .i32⟩ : BufTy).Contents (Elt F) → (⟨S200000, .i32⟩ : BufTy).Contents (Elt F)) ::
  ternary main_v208 main_v210 main_v195 main_v211 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v211 main_v212 (broadcastInDim S200000x1 ![0] bcast_S200000_S200000x1_0 : (⟨S200000, .i32⟩ : BufTy).Contents (Elt F) → (⟨S200000x1, .i32⟩ : BufTy).Contents (Elt F)) ::
  nullary main_cst_59 (constant S_ .f32 0x3F800000#32) ::
  unary main_cst_59 main_v213 (broadcastInDim S200000 ![] bcast_S_S200000 : (⟨S_, .f32⟩ : BufTy).Contents (Elt F) → (⟨S200000, .f32⟩ : BufTy).Contents (Elt F)) ::
  ternary main_v206 main_v212 main_v213 main_v214 ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)) ::
  nullary main_cst_60 (constant S_ .f32 0x3F800000#32) ::
  TRef.unary (TRef.of (T := ⟨S_, .f32⟩) main_cst_60) (TRef.of (T := ⟨S_, .f32⟩) main_call8_v0) id ::
  TRef.unary (TRef.of (T := ⟨S_, .f32⟩) main_call8_v0) (TRef.of (T := ⟨S100000, .f32⟩) main_call8_v1) (broadcastInDim S100000 ![] bcast_S_S100000) ::
  TRef.binary (TRef.of (T := ⟨S100000, .f32⟩) main_call8_v1) (TRef.of (T := ⟨S100000, .f32⟩) main_v214) (TRef.of (T := ⟨S100000, .f32⟩) main_v215) maximumf ::
  unary main_arg6 main_v216 ((extractStridedSlice S1x128x128 ![0, 0, 0] · slices_S3x128x128_S1x128x128_0_0_0) : (⟨S3x128x128, .f32⟩ : BufTy).Contents (Elt F) → (⟨S1x128x128, .f32⟩ : BufTy).Contents (Elt F)) ::
  reshape main_v216 main_v217 rfl shapeCasts_S1x128x128_S128x128 ::
  binary main_v190 main_v217 main_v218 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ::
  nullary main_c_61 (constantI S_ 32 0#32) ::
  unary main_c_61 main_v219 (broadcastInDim S200000 ![] bcast_S_S200000 : (⟨S_, .i32⟩ : BufTy).Contents (Elt F) → (⟨S200000, .i32⟩ : BufTy).Contents (Elt F)) ::
  binary main_v193 main_v219 main_v220 (cmpi .slt : (⟨S200000, .i32⟩ : BufTy).Contents (Elt F) → (⟨S200000, .i32⟩ : BufTy).Contents (Elt F) → (⟨S200000, .i1⟩ : BufTy).Contents (Elt F)) ::
  nullary main_c_62 (constantI S_ 32 100000#32) ::
  unary main_c_62 main_v221 (broadcastInDim S200000 ![] bcast_S_S200000 : (⟨S_, .i32⟩ : BufTy).Contents (Elt F) → (⟨S200000, .i32⟩ : BufTy).Contents (Elt F)) ::
  binary main_v193 main_v221 main_v222 (addi : (⟨S200000, .i32⟩ : BufTy).Contents (Elt F) → (⟨S200000, .i32⟩ : BufTy).Contents (Elt F) → (⟨S200000, .i32⟩ : BufTy).Contents (Elt F)) ::
  ternary main_v220 main_v222 main_v193 main_v223 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v223 main_v224 (broadcastInDim S200000x1 ![0] bcast_S200000_S200000x1_0 : (⟨S200000, .i32⟩ : BufTy).Contents (Elt F) → (⟨S200000x1, .i32⟩ : BufTy).Contents (Elt F)) ::
  binary main_v218 main_v224 main_v225 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)) ::
  unary main_v205 main_v226 (Host.rsqrt : (⟨S100000, .f32⟩ : BufTy).Contents (Elt F) → (⟨S100000, .f32⟩ : BufTy).Contents (Elt F)) ::
  nullary main_c_63 (constantI S_ 32 0#32) ::
  unary main_c_63 main_v227 (broadcastInDim S200000 ![] bcast_S_S200000 : (⟨S_, .i32⟩ : BufTy).Contents (Elt F) → (⟨S200000, .i32⟩ : BufTy).Contents (Elt F)) ::
  binary main_v193 main_v227 main_v228 (cmpi .slt : (⟨S200000, .i32⟩ : BufTy).Contents (Elt F) → (⟨S200000, .i32⟩ : BufTy).Contents (Elt F) → (⟨S200000, .i1⟩ : BufTy).Contents (Elt F)) ::
  nullary main_c_64 (constantI S_ 32 100000#32) ::
  unary main_c_64 main_v229 (broadcastInDim S200000 ![] bcast_S_S200000 : (⟨S_, .i32⟩ : BufTy).Contents (Elt F) → (⟨S200000, .i32⟩ : BufTy).Contents (Elt F)) ::
  binary main_v193 main_v229 main_v230 (addi : (⟨S200000, .i32⟩ : BufTy).Contents (Elt F) → (⟨S200000, .i32⟩ : BufTy).Contents (Elt F) → (⟨S200000, .i32⟩ : BufTy).Contents (Elt F)) ::
  ternary main_v228 main_v230 main_v193 main_v231 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v231 main_v232 (broadcastInDim S200000x1 ![0] bcast_S200000_S200000x1_0 : (⟨S200000, .i32⟩ : BufTy).Contents (Elt F) → (⟨S200000x1, .i32⟩ : BufTy).Contents (Elt F)) ::
  binary main_v226 main_v232 main_v233 ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)) ::
  unary main_v233 main_v234 (broadcastInDim S200000x1 ![0] bcast_S200000_S200000x1_0 : (⟨S200000, .f32⟩ : BufTy).Contents (Elt F) → (⟨S200000x1, .f32⟩ : BufTy).Contents (Elt F)) ::
  unary main_v234 main_v235 (broadcastInDim S200000x128 ![0, 1] bcast_S200000x1_S200000x128_0_1 : (⟨S200000x1, .f32⟩ : BufTy).Contents (Elt F) → (⟨S200000x128, .f32⟩ : BufTy).Contents (Elt F)) ::
  binary main_v225 main_v235 main_v236 (mulf : (⟨S200000x128, .f32⟩ : BufTy).Contents (Elt F) → (⟨S200000x128, .f32⟩ : BufTy).Contents (Elt F) → (⟨S200000x128, .f32⟩ : BufTy).Contents (Elt F)) ::
  nullary main_cst_65 (constant S_ .f32 0x00000000#32) ::
  unary main_cst_65 main_v237 (broadcastInDim S100000x128 ![] bcast_S_S100000x128 : (⟨S_, .f32⟩ : BufTy).Contents (Elt F) → (⟨S100000x128, .f32⟩ : BufTy).Contents (Elt F)) ::
  nullary main_c_66 (constantI S_ 32 0#32) ::
  unary main_c_66 main_v238 (broadcastInDim S200000 ![] bcast_S_S200000 : (⟨S_, .i32⟩ : BufTy).Contents (Elt F) → (⟨S200000, .i32⟩ : BufTy).Contents (Elt F)) ::
  binary main_v195 main_v238 main_v239 (cmpi .slt : (⟨S200000, .i32⟩ : BufTy).Contents (Elt F) → (⟨S200000, .i32⟩ : BufTy).Contents (Elt F) → (⟨S200000, .i1⟩ : BufTy).Contents (Elt F)) ::
  nullary main_c_67 (constantI S_ 32 100000#32) ::
  unary main_c_67 main_v240 (broadcastInDim S200000 ![] bcast_S_S200000 : (⟨S_, .i32⟩ : BufTy).Contents (Elt F) → (⟨S200000, .i32⟩ : BufTy).Contents (Elt F)) ::
  binary main_v195 main_v240 main_v241 (addi : (⟨S200000, .i32⟩ : BufTy).Contents (Elt F) → (⟨S200000, .i32⟩ : BufTy).Contents (Elt F) → (⟨S200000, .i32⟩ : BufTy).Contents (Elt F)) ::
  ternary main_v239 main_v241 main_v195 main_v242 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v242 main_v243 (broadcastInDim S200000x1 ![0] bcast_S200000_S200000x1_0 : (⟨S200000, .i32⟩ : BufTy).Contents (Elt F) → (⟨S200000x1, .i32⟩ : BufTy).Contents (Elt F)) ::
  ternary main_v237 main_v243 main_v236 main_v244 ((fun x i u => Host.scatterAdd scatter_S100000x128_S200000x1_S200000x128_1_0_0_1 x i u) : (⟨S100000x128, .f32⟩ : BufTy).Contents (Elt F) → (⟨S200000x1, .i32⟩ : BufTy).Contents (Elt F) → (⟨S200000x128, .f32⟩ : BufTy).Contents (Elt F) → (⟨S100000x128, .f32⟩ : BufTy).Contents (Elt F)) ::
  unary main_v215 main_v245 (Host.rsqrt : (⟨S100000, .f32⟩ : BufTy).Contents (Elt F) → (⟨S100000, .f32⟩ : BufTy).Contents (Elt F)) ::
  unary main_v245 main_v246 (broadcastInDim S100000x1 ![0] bcast_S100000_S100000x1_0 : (⟨S100000, .f32⟩ : BufTy).Contents (Elt F) → (⟨S100000x1, .f32⟩ : BufTy).Contents (Elt F)) ::
  unary main_v246 main_v247 (broadcastInDim S100000x128 ![0, 1] bcast_S100000x1_S100000x128_0_1 : (⟨S100000x1, .f32⟩ : BufTy).Contents (Elt F) → (⟨S100000x128, .f32⟩ : BufTy).Contents (Elt F)) ::
  binary main_v244 main_v247 main_v248 (mulf : (⟨S100000x128, .f32⟩ : BufTy).Contents (Elt F) → (⟨S100000x128, .f32⟩ : BufTy).Contents (Elt F) → (⟨S100000x128, .f32⟩ : BufTy).Contents (Elt F)) ::
  binary main_v191 main_v248 main_v249 (addf : (⟨S100000x128, .f32⟩ : BufTy).Contents (Elt F) → (⟨S100000x128, .f32⟩ : BufTy).Contents (Elt F) → (⟨S100000x128, .f32⟩ : BufTy).Contents (Elt F)) ::
  unary main_arg7 main_v250 ((extractStridedSlice S1x128 ![0, 0] · slices_S3x128_S1x128_0_0) : (⟨S3x128, .f32⟩ : BufTy).Contents (Elt F) → (⟨S1x128, .f32⟩ : BufTy).Contents (Elt F)) ::
  reshape main_v250 main_v251 rfl shapeCasts_S1x128_S128 ::
  unary main_v251 main_v252 (broadcastInDim S1x128 ![1] bcast_S128_S1x128_1 : (⟨S128, .f32⟩ : BufTy).Contents (Elt F) → (⟨S1x128, .f32⟩ : BufTy).Contents (Elt F)) ::
  unary main_v252 main_v253 (broadcastInDim S100000x128 ![0, 1] bcast_S1x128_S100000x128_0_1 : (⟨S1x128, .f32⟩ : BufTy).Contents (Elt F) → (⟨S100000x128, .f32⟩ : BufTy).Contents (Elt F)) ::
  binary main_v249 main_v253 main_v254 (addf : (⟨S100000x128, .f32⟩ : BufTy).Contents (Elt F) → (⟨S100000x128, .f32⟩ : BufTy).Contents (Elt F) → (⟨S100000x128, .f32⟩ : BufTy).Contents (Elt F)) ::
  []

set_option maxRecDepth 8192 in
set_option maxHeartbeats 4000000 in
/-- Layer 2, relation 1, added to `main_v254`. Read later: `main_v317`. (84 operations) -/
abbrev chL2r1 : List (HloOp τ sig (Elt F)) :=
  unary main_arg1 main_v255 ((extractStridedSlice S1x200000 ![1, 0] · slices_S3x200000_S1x200000_1_0) : (⟨S3x200000, .i32⟩ : BufTy).Contents (Elt F) → (⟨S1x200000, .i32⟩ : BufTy).Contents (Elt F)) ::
  reshape main_v255 main_v256 rfl shapeCasts_S1x200000_S200000 ::
  unary main_arg2 main_v257 ((extractStridedSlice S1x200000 ![1, 0] · slices_S3x200000_S1x200000_1_0) : (⟨S3x200000, .i32⟩ : BufTy).Contents (Elt F) → (⟨S1x200000, .i32⟩ : BufTy).Contents (Elt F)) ::
  reshape main_v257 main_v258 rfl shapeCasts_S1x200000_S200000 ::
  nullary main_cst_68 (constant S_ .f32 0x00000000#32) ::
  unary main_cst_68 main_v259 (broadcastInDim S100000 ![] bcast_S_S100000 : (⟨S_, .f32⟩ : BufTy).Contents (Elt F) → (⟨S100000, .f32⟩ : BufTy).Contents (Elt F)) ::
  nullary main_c_69 (constantI S_ 32 0#32) ::
  unary main_c_69 main_v260 (broadcastInDim S200000 ![] bcast_S_S200000 : (⟨S_, .i32⟩ : BufTy).Contents (Elt F) → (⟨S200000, .i32⟩ : BufTy).Contents (Elt F)) ::
  binary main_v256 main_v260 main_v261 (cmpi .slt : (⟨S200000, .i32⟩ : BufTy).Contents (Elt F) → (⟨S200000, .i32⟩ : BufTy).Contents (Elt F) → (⟨S200000, .i1⟩ : BufTy).Contents (Elt F)) ::
  nullary main_c_70 (constantI S_ 32 100000#32) ::
  unary main_c_70 main_v262 (broadcastInDim S200000 ![] bcast_S_S200000 : (⟨S_, .i32⟩ : BufTy).Contents (Elt F) → (⟨S200000, .i32⟩ : BufTy).Contents (Elt F)) ::
  binary main_v256 main_v262 main_v263 (addi : (⟨S200000, .i32⟩ : BufTy).Contents (Elt F) → (⟨S200000, .i32⟩ : BufTy).Contents (Elt F) → (⟨S200000, .i32⟩ : BufTy).Contents (Elt F)) ::
  ternary main_v261 main_v263 main_v256 main_v264 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v264 main_v265 (broadcastInDim S200000x1 ![0] bcast_S200000_S200000x1_0 : (⟨S200000, .i32⟩ : BufTy).Contents (Elt F) → (⟨S200000x1, .i32⟩ : BufTy).Contents (Elt F)) ::
  nullary main_cst_71 (constant S_ .f32 0x3F800000#32) ::
  unary main_cst_71 main_v266 (broadcastInDim S200000 ![] bcast_S_S200000 : (⟨S_, .f32⟩ : BufTy).Contents (Elt F) → (⟨S200000, .f32⟩ : BufTy).Contents (Elt F)) ::
  ternary main_v259 main_v265 main_v266 main_v267 ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)) ::
  nullary main_cst_72 (constant S_ .f32 0x3F800000#32) ::
  TRef.unary (TRef.of (T := ⟨S_, .f32⟩) main_cst_72) (TRef.of (T := ⟨S_, .f32⟩) main_call9_v0) id ::
  TRef.unary (TRef.of (T := ⟨S_, .f32⟩) main_call9_v0) (TRef.of (T := ⟨S100000, .f32⟩) main_call9_v1) (broadcastInDim S100000 ![] bcast_S_S100000) ::
  TRef.binary (TRef.of (T := ⟨S100000, .f32⟩) main_call9_v1) (TRef.of (T := ⟨S100000, .f32⟩) main_v267) (TRef.of (T := ⟨S100000, .f32⟩) main_v268) maximumf ::
  nullary main_cst_73 (constant S_ .f32 0x00000000#32) ::
  unary main_cst_73 main_v269 (broadcastInDim S100000 ![] bcast_S_S100000 : (⟨S_, .f32⟩ : BufTy).Contents (Elt F) → (⟨S100000, .f32⟩ : BufTy).Contents (Elt F)) ::
  nullary main_c_74 (constantI S_ 32 0#32) ::
  unary main_c_74 main_v270 (broadcastInDim S200000 ![] bcast_S_S200000 : (⟨S_, .i32⟩ : BufTy).Contents (Elt F) → (⟨S200000, .i32⟩ : BufTy).Contents (Elt F)) ::
  binary main_v258 main_v270 main_v271 (cmpi .slt : (⟨S200000, .i32⟩ : BufTy).Contents (Elt F) → (⟨S200000, .i32⟩ : BufTy).Contents (Elt F) → (⟨S200000, .i1⟩ : BufTy).Contents (Elt F)) ::
  nullary main_c_75 (constantI S_ 32 100000#32) ::
  unary main_c_75 main_v272 (broadcastInDim S200000 ![] bcast_S_S200000 : (⟨S_, .i32⟩ : BufTy).Contents (Elt F) → (⟨S200000, .i32⟩ : BufTy).Contents (Elt F)) ::
  binary main_v258 main_v272 main_v273 (addi : (⟨S200000, .i32⟩ : BufTy).Contents (Elt F) → (⟨S200000, .i32⟩ : BufTy).Contents (Elt F) → (⟨S200000, .i32⟩ : BufTy).Contents (Elt F)) ::
  ternary main_v271 main_v273 main_v258 main_v274 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v274 main_v275 (broadcastInDim S200000x1 ![0] bcast_S200000_S200000x1_0 : (⟨S200000, .i32⟩ : BufTy).Contents (Elt F) → (⟨S200000x1, .i32⟩ : BufTy).Contents (Elt F)) ::
  nullary main_cst_76 (constant S_ .f32 0x3F800000#32) ::
  unary main_cst_76 main_v276 (broadcastInDim S200000 ![] bcast_S_S200000 : (⟨S_, .f32⟩ : BufTy).Contents (Elt F) → (⟨S200000, .f32⟩ : BufTy).Contents (Elt F)) ::
  ternary main_v269 main_v275 main_v276 main_v277 ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)) ::
  nullary main_cst_77 (constant S_ .f32 0x3F800000#32) ::
  TRef.unary (TRef.of (T := ⟨S_, .f32⟩) main_cst_77) (TRef.of (T := ⟨S_, .f32⟩) main_call10_v0) id ::
  TRef.unary (TRef.of (T := ⟨S_, .f32⟩) main_call10_v0) (TRef.of (T := ⟨S100000, .f32⟩) main_call10_v1) (broadcastInDim S100000 ![] bcast_S_S100000) ::
  TRef.binary (TRef.of (T := ⟨S100000, .f32⟩) main_call10_v1) (TRef.of (T := ⟨S100000, .f32⟩) main_v277) (TRef.of (T := ⟨S100000, .f32⟩) main_v278) maximumf ::
  unary main_arg6 main_v279 ((extractStridedSlice S1x128x128 ![1, 0, 0] · slices_S3x128x128_S1x128x128_1_0_0) : (⟨S3x128x128, .f32⟩ : BufTy).Contents (Elt F) → (⟨S1x128x128, .f32⟩ : BufTy).Contents (Elt F)) ::
  reshape main_v279 main_v280 rfl shapeCasts_S1x128x128_S128x128 ::
  binary main_v190 main_v280 main_v281 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ::
  nullary main_c_78 (constantI S_ 32 0#32) ::
  unary main_c_78 main_v282 (broadcastInDim S200000 ![] bcast_S_S200000 : (⟨S_, .i32⟩ : BufTy).Contents (Elt F) → (⟨S200000, .i32⟩ : BufTy).Contents (Elt F)) ::
  binary main_v256 main_v282 main_v283 (cmpi .slt : (⟨S200000, .i32⟩ : BufTy).Contents (Elt F) → (⟨S200000, .i32⟩ : BufTy).Contents (Elt F) → (⟨S200000, .i1⟩ : BufTy).Contents (Elt F)) ::
  nullary main_c_79 (constantI S_ 32 100000#32) ::
  unary main_c_79 main_v284 (broadcastInDim S200000 ![] bcast_S_S200000 : (⟨S_, .i32⟩ : BufTy).Contents (Elt F) → (⟨S200000, .i32⟩ : BufTy).Contents (Elt F)) ::
  binary main_v256 main_v284 main_v285 (addi : (⟨S200000, .i32⟩ : BufTy).Contents (Elt F) → (⟨S200000, .i32⟩ : BufTy).Contents (Elt F) → (⟨S200000, .i32⟩ : BufTy).Contents (Elt F)) ::
  ternary main_v283 main_v285 main_v256 main_v286 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v286 main_v287 (broadcastInDim S200000x1 ![0] bcast_S200000_S200000x1_0 : (⟨S200000, .i32⟩ : BufTy).Contents (Elt F) → (⟨S200000x1, .i32⟩ : BufTy).Contents (Elt F)) ::
  binary main_v281 main_v287 main_v288 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)) ::
  unary main_v268 main_v289 (Host.rsqrt : (⟨S100000, .f32⟩ : BufTy).Contents (Elt F) → (⟨S100000, .f32⟩ : BufTy).Contents (Elt F)) ::
  nullary main_c_80 (constantI S_ 32 0#32) ::
  unary main_c_80 main_v290 (broadcastInDim S200000 ![] bcast_S_S200000 : (⟨S_, .i32⟩ : BufTy).Contents (Elt F) → (⟨S200000, .i32⟩ : BufTy).Contents (Elt F)) ::
  binary main_v256 main_v290 main_v291 (cmpi .slt : (⟨S200000, .i32⟩ : BufTy).Contents (Elt F) → (⟨S200000, .i32⟩ : BufTy).Contents (Elt F) → (⟨S200000, .i1⟩ : BufTy).Contents (Elt F)) ::
  nullary main_c_81 (constantI S_ 32 100000#32) ::
  unary main_c_81 main_v292 (broadcastInDim S200000 ![] bcast_S_S200000 : (⟨S_, .i32⟩ : BufTy).Contents (Elt F) → (⟨S200000, .i32⟩ : BufTy).Contents (Elt F)) ::
  binary main_v256 main_v292 main_v293 (addi : (⟨S200000, .i32⟩ : BufTy).Contents (Elt F) → (⟨S200000, .i32⟩ : BufTy).Contents (Elt F) → (⟨S200000, .i32⟩ : BufTy).Contents (Elt F)) ::
  ternary main_v291 main_v293 main_v256 main_v294 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v294 main_v295 (broadcastInDim S200000x1 ![0] bcast_S200000_S200000x1_0 : (⟨S200000, .i32⟩ : BufTy).Contents (Elt F) → (⟨S200000x1, .i32⟩ : BufTy).Contents (Elt F)) ::
  binary main_v289 main_v295 main_v296 ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)) ::
  unary main_v296 main_v297 (broadcastInDim S200000x1 ![0] bcast_S200000_S200000x1_0 : (⟨S200000, .f32⟩ : BufTy).Contents (Elt F) → (⟨S200000x1, .f32⟩ : BufTy).Contents (Elt F)) ::
  unary main_v297 main_v298 (broadcastInDim S200000x128 ![0, 1] bcast_S200000x1_S200000x128_0_1 : (⟨S200000x1, .f32⟩ : BufTy).Contents (Elt F) → (⟨S200000x128, .f32⟩ : BufTy).Contents (Elt F)) ::
  binary main_v288 main_v298 main_v299 (mulf : (⟨S200000x128, .f32⟩ : BufTy).Contents (Elt F) → (⟨S200000x128, .f32⟩ : BufTy).Contents (Elt F) → (⟨S200000x128, .f32⟩ : BufTy).Contents (Elt F)) ::
  nullary main_cst_82 (constant S_ .f32 0x00000000#32) ::
  unary main_cst_82 main_v300 (broadcastInDim S100000x128 ![] bcast_S_S100000x128 : (⟨S_, .f32⟩ : BufTy).Contents (Elt F) → (⟨S100000x128, .f32⟩ : BufTy).Contents (Elt F)) ::
  nullary main_c_83 (constantI S_ 32 0#32) ::
  unary main_c_83 main_v301 (broadcastInDim S200000 ![] bcast_S_S200000 : (⟨S_, .i32⟩ : BufTy).Contents (Elt F) → (⟨S200000, .i32⟩ : BufTy).Contents (Elt F)) ::
  binary main_v258 main_v301 main_v302 (cmpi .slt : (⟨S200000, .i32⟩ : BufTy).Contents (Elt F) → (⟨S200000, .i32⟩ : BufTy).Contents (Elt F) → (⟨S200000, .i1⟩ : BufTy).Contents (Elt F)) ::
  nullary main_c_84 (constantI S_ 32 100000#32) ::
  unary main_c_84 main_v303 (broadcastInDim S200000 ![] bcast_S_S200000 : (⟨S_, .i32⟩ : BufTy).Contents (Elt F) → (⟨S200000, .i32⟩ : BufTy).Contents (Elt F)) ::
  binary main_v258 main_v303 main_v304 (addi : (⟨S200000, .i32⟩ : BufTy).Contents (Elt F) → (⟨S200000, .i32⟩ : BufTy).Contents (Elt F) → (⟨S200000, .i32⟩ : BufTy).Contents (Elt F)) ::
  ternary main_v302 main_v304 main_v258 main_v305 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v305 main_v306 (broadcastInDim S200000x1 ![0] bcast_S200000_S200000x1_0 : (⟨S200000, .i32⟩ : BufTy).Contents (Elt F) → (⟨S200000x1, .i32⟩ : BufTy).Contents (Elt F)) ::
  ternary main_v300 main_v306 main_v299 main_v307 ((fun x i u => Host.scatterAdd scatter_S100000x128_S200000x1_S200000x128_1_0_0_1 x i u) : (⟨S100000x128, .f32⟩ : BufTy).Contents (Elt F) → (⟨S200000x1, .i32⟩ : BufTy).Contents (Elt F) → (⟨S200000x128, .f32⟩ : BufTy).Contents (Elt F) → (⟨S100000x128, .f32⟩ : BufTy).Contents (Elt F)) ::
  unary main_v278 main_v308 (Host.rsqrt : (⟨S100000, .f32⟩ : BufTy).Contents (Elt F) → (⟨S100000, .f32⟩ : BufTy).Contents (Elt F)) ::
  unary main_v308 main_v309 (broadcastInDim S100000x1 ![0] bcast_S100000_S100000x1_0 : (⟨S100000, .f32⟩ : BufTy).Contents (Elt F) → (⟨S100000x1, .f32⟩ : BufTy).Contents (Elt F)) ::
  unary main_v309 main_v310 (broadcastInDim S100000x128 ![0, 1] bcast_S100000x1_S100000x128_0_1 : (⟨S100000x1, .f32⟩ : BufTy).Contents (Elt F) → (⟨S100000x128, .f32⟩ : BufTy).Contents (Elt F)) ::
  binary main_v307 main_v310 main_v311 (mulf : (⟨S100000x128, .f32⟩ : BufTy).Contents (Elt F) → (⟨S100000x128, .f32⟩ : BufTy).Contents (Elt F) → (⟨S100000x128, .f32⟩ : BufTy).Contents (Elt F)) ::
  binary main_v254 main_v311 main_v312 (addf : (⟨S100000x128, .f32⟩ : BufTy).Contents (Elt F) → (⟨S100000x128, .f32⟩ : BufTy).Contents (Elt F) → (⟨S100000x128, .f32⟩ : BufTy).Contents (Elt F)) ::
  unary main_arg7 main_v313 ((extractStridedSlice S1x128 ![1, 0] · slices_S3x128_S1x128_1_0) : (⟨S3x128, .f32⟩ : BufTy).Contents (Elt F) → (⟨S1x128, .f32⟩ : BufTy).Contents (Elt F)) ::
  reshape main_v313 main_v314 rfl shapeCasts_S1x128_S128 ::
  unary main_v314 main_v315 (broadcastInDim S1x128 ![1] bcast_S128_S1x128_1 : (⟨S128, .f32⟩ : BufTy).Contents (Elt F) → (⟨S1x128, .f32⟩ : BufTy).Contents (Elt F)) ::
  unary main_v315 main_v316 (broadcastInDim S100000x128 ![0, 1] bcast_S1x128_S100000x128_0_1 : (⟨S1x128, .f32⟩ : BufTy).Contents (Elt F) → (⟨S100000x128, .f32⟩ : BufTy).Contents (Elt F)) ::
  binary main_v312 main_v316 main_v317 (addf : (⟨S100000x128, .f32⟩ : BufTy).Contents (Elt F) → (⟨S100000x128, .f32⟩ : BufTy).Contents (Elt F) → (⟨S100000x128, .f32⟩ : BufTy).Contents (Elt F)) ::
  []

set_option maxRecDepth 8192 in
set_option maxHeartbeats 4000000 in
/-- Layer 2, relation 2, added to `main_v317`. Read later: `main_v380`. (84 operations) -/
abbrev chL2r2 : List (HloOp τ sig (Elt F)) :=
  unary main_arg1 main_v318 ((extractStridedSlice S1x200000 ![2, 0] · slices_S3x200000_S1x200000_2_0) : (⟨S3x200000, .i32⟩ : BufTy).Contents (Elt F) → (⟨S1x200000, .i32⟩ : BufTy).Contents (Elt F)) ::
  reshape main_v318 main_v319 rfl shapeCasts_S1x200000_S200000 ::
  unary main_arg2 main_v320 ((extractStridedSlice S1x200000 ![2, 0] · slices_S3x200000_S1x200000_2_0) : (⟨S3x200000, .i32⟩ : BufTy).Contents (Elt F) → (⟨S1x200000, .i32⟩ : BufTy).Contents (Elt F)) ::
  reshape main_v320 main_v321 rfl shapeCasts_S1x200000_S200000 ::
  nullary main_cst_85 (constant S_ .f32 0x00000000#32) ::
  unary main_cst_85 main_v322 (broadcastInDim S100000 ![] bcast_S_S100000 : (⟨S_, .f32⟩ : BufTy).Contents (Elt F) → (⟨S100000, .f32⟩ : BufTy).Contents (Elt F)) ::
  nullary main_c_86 (constantI S_ 32 0#32) ::
  unary main_c_86 main_v323 (broadcastInDim S200000 ![] bcast_S_S200000 : (⟨S_, .i32⟩ : BufTy).Contents (Elt F) → (⟨S200000, .i32⟩ : BufTy).Contents (Elt F)) ::
  binary main_v319 main_v323 main_v324 (cmpi .slt : (⟨S200000, .i32⟩ : BufTy).Contents (Elt F) → (⟨S200000, .i32⟩ : BufTy).Contents (Elt F) → (⟨S200000, .i1⟩ : BufTy).Contents (Elt F)) ::
  nullary main_c_87 (constantI S_ 32 100000#32) ::
  unary main_c_87 main_v325 (broadcastInDim S200000 ![] bcast_S_S200000 : (⟨S_, .i32⟩ : BufTy).Contents (Elt F) → (⟨S200000, .i32⟩ : BufTy).Contents (Elt F)) ::
  binary main_v319 main_v325 main_v326 (addi : (⟨S200000, .i32⟩ : BufTy).Contents (Elt F) → (⟨S200000, .i32⟩ : BufTy).Contents (Elt F) → (⟨S200000, .i32⟩ : BufTy).Contents (Elt F)) ::
  ternary main_v324 main_v326 main_v319 main_v327 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v327 main_v328 (broadcastInDim S200000x1 ![0] bcast_S200000_S200000x1_0 : (⟨S200000, .i32⟩ : BufTy).Contents (Elt F) → (⟨S200000x1, .i32⟩ : BufTy).Contents (Elt F)) ::
  nullary main_cst_88 (constant S_ .f32 0x3F800000#32) ::
  unary main_cst_88 main_v329 (broadcastInDim S200000 ![] bcast_S_S200000 : (⟨S_, .f32⟩ : BufTy).Contents (Elt F) → (⟨S200000, .f32⟩ : BufTy).Contents (Elt F)) ::
  ternary main_v322 main_v328 main_v329 main_v330 ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)) ::
  nullary main_cst_89 (constant S_ .f32 0x3F800000#32) ::
  TRef.unary (TRef.of (T := ⟨S_, .f32⟩) main_cst_89) (TRef.of (T := ⟨S_, .f32⟩) main_call11_v0) id ::
  TRef.unary (TRef.of (T := ⟨S_, .f32⟩) main_call11_v0) (TRef.of (T := ⟨S100000, .f32⟩) main_call11_v1) (broadcastInDim S100000 ![] bcast_S_S100000) ::
  TRef.binary (TRef.of (T := ⟨S100000, .f32⟩) main_call11_v1) (TRef.of (T := ⟨S100000, .f32⟩) main_v330) (TRef.of (T := ⟨S100000, .f32⟩) main_v331) maximumf ::
  nullary main_cst_90 (constant S_ .f32 0x00000000#32) ::
  unary main_cst_90 main_v332 (broadcastInDim S100000 ![] bcast_S_S100000 : (⟨S_, .f32⟩ : BufTy).Contents (Elt F) → (⟨S100000, .f32⟩ : BufTy).Contents (Elt F)) ::
  nullary main_c_91 (constantI S_ 32 0#32) ::
  unary main_c_91 main_v333 (broadcastInDim S200000 ![] bcast_S_S200000 : (⟨S_, .i32⟩ : BufTy).Contents (Elt F) → (⟨S200000, .i32⟩ : BufTy).Contents (Elt F)) ::
  binary main_v321 main_v333 main_v334 (cmpi .slt : (⟨S200000, .i32⟩ : BufTy).Contents (Elt F) → (⟨S200000, .i32⟩ : BufTy).Contents (Elt F) → (⟨S200000, .i1⟩ : BufTy).Contents (Elt F)) ::
  nullary main_c_92 (constantI S_ 32 100000#32) ::
  unary main_c_92 main_v335 (broadcastInDim S200000 ![] bcast_S_S200000 : (⟨S_, .i32⟩ : BufTy).Contents (Elt F) → (⟨S200000, .i32⟩ : BufTy).Contents (Elt F)) ::
  binary main_v321 main_v335 main_v336 (addi : (⟨S200000, .i32⟩ : BufTy).Contents (Elt F) → (⟨S200000, .i32⟩ : BufTy).Contents (Elt F) → (⟨S200000, .i32⟩ : BufTy).Contents (Elt F)) ::
  ternary main_v334 main_v336 main_v321 main_v337 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v337 main_v338 (broadcastInDim S200000x1 ![0] bcast_S200000_S200000x1_0 : (⟨S200000, .i32⟩ : BufTy).Contents (Elt F) → (⟨S200000x1, .i32⟩ : BufTy).Contents (Elt F)) ::
  nullary main_cst_93 (constant S_ .f32 0x3F800000#32) ::
  unary main_cst_93 main_v339 (broadcastInDim S200000 ![] bcast_S_S200000 : (⟨S_, .f32⟩ : BufTy).Contents (Elt F) → (⟨S200000, .f32⟩ : BufTy).Contents (Elt F)) ::
  ternary main_v332 main_v338 main_v339 main_v340 ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)) ::
  nullary main_cst_94 (constant S_ .f32 0x3F800000#32) ::
  TRef.unary (TRef.of (T := ⟨S_, .f32⟩) main_cst_94) (TRef.of (T := ⟨S_, .f32⟩) main_call12_v0) id ::
  TRef.unary (TRef.of (T := ⟨S_, .f32⟩) main_call12_v0) (TRef.of (T := ⟨S100000, .f32⟩) main_call12_v1) (broadcastInDim S100000 ![] bcast_S_S100000) ::
  TRef.binary (TRef.of (T := ⟨S100000, .f32⟩) main_call12_v1) (TRef.of (T := ⟨S100000, .f32⟩) main_v340) (TRef.of (T := ⟨S100000, .f32⟩) main_v341) maximumf ::
  unary main_arg6 main_v342 ((extractStridedSlice S1x128x128 ![2, 0, 0] · slices_S3x128x128_S1x128x128_2_0_0) : (⟨S3x128x128, .f32⟩ : BufTy).Contents (Elt F) → (⟨S1x128x128, .f32⟩ : BufTy).Contents (Elt F)) ::
  reshape main_v342 main_v343 rfl shapeCasts_S1x128x128_S128x128 ::
  binary main_v190 main_v343 main_v344 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ::
  nullary main_c_95 (constantI S_ 32 0#32) ::
  unary main_c_95 main_v345 (broadcastInDim S200000 ![] bcast_S_S200000 : (⟨S_, .i32⟩ : BufTy).Contents (Elt F) → (⟨S200000, .i32⟩ : BufTy).Contents (Elt F)) ::
  binary main_v319 main_v345 main_v346 (cmpi .slt : (⟨S200000, .i32⟩ : BufTy).Contents (Elt F) → (⟨S200000, .i32⟩ : BufTy).Contents (Elt F) → (⟨S200000, .i1⟩ : BufTy).Contents (Elt F)) ::
  nullary main_c_96 (constantI S_ 32 100000#32) ::
  unary main_c_96 main_v347 (broadcastInDim S200000 ![] bcast_S_S200000 : (⟨S_, .i32⟩ : BufTy).Contents (Elt F) → (⟨S200000, .i32⟩ : BufTy).Contents (Elt F)) ::
  binary main_v319 main_v347 main_v348 (addi : (⟨S200000, .i32⟩ : BufTy).Contents (Elt F) → (⟨S200000, .i32⟩ : BufTy).Contents (Elt F) → (⟨S200000, .i32⟩ : BufTy).Contents (Elt F)) ::
  ternary main_v346 main_v348 main_v319 main_v349 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v349 main_v350 (broadcastInDim S200000x1 ![0] bcast_S200000_S200000x1_0 : (⟨S200000, .i32⟩ : BufTy).Contents (Elt F) → (⟨S200000x1, .i32⟩ : BufTy).Contents (Elt F)) ::
  binary main_v344 main_v350 main_v351 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)) ::
  unary main_v331 main_v352 (Host.rsqrt : (⟨S100000, .f32⟩ : BufTy).Contents (Elt F) → (⟨S100000, .f32⟩ : BufTy).Contents (Elt F)) ::
  nullary main_c_97 (constantI S_ 32 0#32) ::
  unary main_c_97 main_v353 (broadcastInDim S200000 ![] bcast_S_S200000 : (⟨S_, .i32⟩ : BufTy).Contents (Elt F) → (⟨S200000, .i32⟩ : BufTy).Contents (Elt F)) ::
  binary main_v319 main_v353 main_v354 (cmpi .slt : (⟨S200000, .i32⟩ : BufTy).Contents (Elt F) → (⟨S200000, .i32⟩ : BufTy).Contents (Elt F) → (⟨S200000, .i1⟩ : BufTy).Contents (Elt F)) ::
  nullary main_c_98 (constantI S_ 32 100000#32) ::
  unary main_c_98 main_v355 (broadcastInDim S200000 ![] bcast_S_S200000 : (⟨S_, .i32⟩ : BufTy).Contents (Elt F) → (⟨S200000, .i32⟩ : BufTy).Contents (Elt F)) ::
  binary main_v319 main_v355 main_v356 (addi : (⟨S200000, .i32⟩ : BufTy).Contents (Elt F) → (⟨S200000, .i32⟩ : BufTy).Contents (Elt F) → (⟨S200000, .i32⟩ : BufTy).Contents (Elt F)) ::
  ternary main_v354 main_v356 main_v319 main_v357 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v357 main_v358 (broadcastInDim S200000x1 ![0] bcast_S200000_S200000x1_0 : (⟨S200000, .i32⟩ : BufTy).Contents (Elt F) → (⟨S200000x1, .i32⟩ : BufTy).Contents (Elt F)) ::
  binary main_v352 main_v358 main_v359 ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)) ::
  unary main_v359 main_v360 (broadcastInDim S200000x1 ![0] bcast_S200000_S200000x1_0 : (⟨S200000, .f32⟩ : BufTy).Contents (Elt F) → (⟨S200000x1, .f32⟩ : BufTy).Contents (Elt F)) ::
  unary main_v360 main_v361 (broadcastInDim S200000x128 ![0, 1] bcast_S200000x1_S200000x128_0_1 : (⟨S200000x1, .f32⟩ : BufTy).Contents (Elt F) → (⟨S200000x128, .f32⟩ : BufTy).Contents (Elt F)) ::
  binary main_v351 main_v361 main_v362 (mulf : (⟨S200000x128, .f32⟩ : BufTy).Contents (Elt F) → (⟨S200000x128, .f32⟩ : BufTy).Contents (Elt F) → (⟨S200000x128, .f32⟩ : BufTy).Contents (Elt F)) ::
  nullary main_cst_99 (constant S_ .f32 0x00000000#32) ::
  unary main_cst_99 main_v363 (broadcastInDim S100000x128 ![] bcast_S_S100000x128 : (⟨S_, .f32⟩ : BufTy).Contents (Elt F) → (⟨S100000x128, .f32⟩ : BufTy).Contents (Elt F)) ::
  nullary main_c_100 (constantI S_ 32 0#32) ::
  unary main_c_100 main_v364 (broadcastInDim S200000 ![] bcast_S_S200000 : (⟨S_, .i32⟩ : BufTy).Contents (Elt F) → (⟨S200000, .i32⟩ : BufTy).Contents (Elt F)) ::
  binary main_v321 main_v364 main_v365 (cmpi .slt : (⟨S200000, .i32⟩ : BufTy).Contents (Elt F) → (⟨S200000, .i32⟩ : BufTy).Contents (Elt F) → (⟨S200000, .i1⟩ : BufTy).Contents (Elt F)) ::
  nullary main_c_101 (constantI S_ 32 100000#32) ::
  unary main_c_101 main_v366 (broadcastInDim S200000 ![] bcast_S_S200000 : (⟨S_, .i32⟩ : BufTy).Contents (Elt F) → (⟨S200000, .i32⟩ : BufTy).Contents (Elt F)) ::
  binary main_v321 main_v366 main_v367 (addi : (⟨S200000, .i32⟩ : BufTy).Contents (Elt F) → (⟨S200000, .i32⟩ : BufTy).Contents (Elt F) → (⟨S200000, .i32⟩ : BufTy).Contents (Elt F)) ::
  ternary main_v365 main_v367 main_v321 main_v368 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ::
  unary main_v368 main_v369 (broadcastInDim S200000x1 ![0] bcast_S200000_S200000x1_0 : (⟨S200000, .i32⟩ : BufTy).Contents (Elt F) → (⟨S200000x1, .i32⟩ : BufTy).Contents (Elt F)) ::
  ternary main_v363 main_v369 main_v362 main_v370 ((fun x i u => Host.scatterAdd scatter_S100000x128_S200000x1_S200000x128_1_0_0_1 x i u) : (⟨S100000x128, .f32⟩ : BufTy).Contents (Elt F) → (⟨S200000x1, .i32⟩ : BufTy).Contents (Elt F) → (⟨S200000x128, .f32⟩ : BufTy).Contents (Elt F) → (⟨S100000x128, .f32⟩ : BufTy).Contents (Elt F)) ::
  unary main_v341 main_v371 (Host.rsqrt : (⟨S100000, .f32⟩ : BufTy).Contents (Elt F) → (⟨S100000, .f32⟩ : BufTy).Contents (Elt F)) ::
  unary main_v371 main_v372 (broadcastInDim S100000x1 ![0] bcast_S100000_S100000x1_0 : (⟨S100000, .f32⟩ : BufTy).Contents (Elt F) → (⟨S100000x1, .f32⟩ : BufTy).Contents (Elt F)) ::
  unary main_v372 main_v373 (broadcastInDim S100000x128 ![0, 1] bcast_S100000x1_S100000x128_0_1 : (⟨S100000x1, .f32⟩ : BufTy).Contents (Elt F) → (⟨S100000x128, .f32⟩ : BufTy).Contents (Elt F)) ::
  binary main_v370 main_v373 main_v374 (mulf : (⟨S100000x128, .f32⟩ : BufTy).Contents (Elt F) → (⟨S100000x128, .f32⟩ : BufTy).Contents (Elt F) → (⟨S100000x128, .f32⟩ : BufTy).Contents (Elt F)) ::
  binary main_v317 main_v374 main_v375 (addf : (⟨S100000x128, .f32⟩ : BufTy).Contents (Elt F) → (⟨S100000x128, .f32⟩ : BufTy).Contents (Elt F) → (⟨S100000x128, .f32⟩ : BufTy).Contents (Elt F)) ::
  unary main_arg7 main_v376 ((extractStridedSlice S1x128 ![2, 0] · slices_S3x128_S1x128_2_0) : (⟨S3x128, .f32⟩ : BufTy).Contents (Elt F) → (⟨S1x128, .f32⟩ : BufTy).Contents (Elt F)) ::
  reshape main_v376 main_v377 rfl shapeCasts_S1x128_S128 ::
  unary main_v377 main_v378 (broadcastInDim S1x128 ![1] bcast_S128_S1x128_1 : (⟨S128, .f32⟩ : BufTy).Contents (Elt F) → (⟨S1x128, .f32⟩ : BufTy).Contents (Elt F)) ::
  unary main_v378 main_v379 (broadcastInDim S100000x128 ![0, 1] bcast_S1x128_S100000x128_0_1 : (⟨S1x128, .f32⟩ : BufTy).Contents (Elt F) → (⟨S100000x128, .f32⟩ : BufTy).Contents (Elt F)) ::
  binary main_v375 main_v379 main_v380 (addf : (⟨S100000x128, .f32⟩ : BufTy).Contents (Elt F) → (⟨S100000x128, .f32⟩ : BufTy).Contents (Elt F) → (⟨S100000x128, .f32⟩ : BufTy).Contents (Elt F)) ::
  []

set_option maxRecDepth 8192 in
set_option maxHeartbeats 4000000 in
/-- The readout: per-graph node counts and feature sums (segment sums over the graph ids), their quotient with the count clipped below at 1, the dense layer, and the softmax along axis 0. The program's result: `main_v406`. (35 operations) -/
abbrev chTail : List (HloOp τ sig (Elt F)) :=
  nullary main_cst_102 (constant S_ .f32 0x3F800000#32) ::
  unary main_cst_102 main_v381 (broadcastInDim S100000 ![] bcast_S_S100000 : (⟨S_, .f32⟩ : BufTy).Contents (Elt F) → (⟨S100000, .f32⟩ : BufTy).Contents (Elt F)) ::
  nullary main_cst_103 (constant S_ .f32 0x00000000#32) ::
  unary main_cst_103 main_v382 (broadcastInDim S64 ![] bcast_S_S64 : (⟨S_, .f32⟩ : BufTy).Contents (Elt F) → (⟨S64, .f32⟩ : BufTy).Contents (Elt F)) ::
  unary main_arg3 main_v383 (broadcastInDim S100000x1 ![0] bcast_S100000_S100000x1_0 : (⟨S100000, .i32⟩ : BufTy).Contents (Elt F) → (⟨S100000x1, .i32⟩ : BufTy).Contents (Elt F)) ::
  ternary main_v382 main_v383 main_v381 main_v384 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)) ::
  nullary main_cst_104 (constant S_ .f32 0x00000000#32) ::
  unary main_cst_104 main_v385 (broadcastInDim S64x128 ![] bcast_S_S64x128 : (⟨S_, .f32⟩ : BufTy).Contents (Elt F) → (⟨S64x128, .f32⟩ : BufTy).Contents (Elt F)) ::
  unary main_arg3 main_v386 (broadcastInDim S100000x1 ![0] bcast_S100000_S100000x1_0 : (⟨S100000, .i32⟩ : BufTy).Contents (Elt F) → (⟨S100000x1, .i32⟩ : BufTy).Contents (Elt F)) ::
  ternary main_v385 main_v386 main_v380 main_v387 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)) ::
  nullary main_cst_105 (constant S_ .f32 0x3F800000#32) ::
  TRef.unary (TRef.of (T := ⟨S_, .f32⟩) main_cst_105) (TRef.of (T := ⟨S_, .f32⟩) main_call13_v0) id ::
  TRef.unary (TRef.of (T := ⟨S_, .f32⟩) main_call13_v0) (TRef.of (T := ⟨S64, .f32⟩) main_call13_v1) (broadcastInDim S64 ![] bcast_S_S64) ::
  TRef.binary (TRef.of (T := ⟨S64, .f32⟩) main_call13_v1) (TRef.of (T := ⟨S64, .f32⟩) main_v384) (TRef.of (T := ⟨S64, .f32⟩) main_v388) maximumf ::
  unary main_v388 main_v389 (broadcastInDim S64x1 ![0] bcast_S64_S64x1_0 : (⟨S64, .f32⟩ : BufTy).Contents (Elt F) → (⟨S64x1, .f32⟩ : BufTy).Contents (Elt F)) ::
  unary main_v389 main_v390 (broadcastInDim S64x128 ![0, 1] bcast_S64x1_S64x128_0_1 : (⟨S64x1, .f32⟩ : BufTy).Contents (Elt F) → (⟨S64x128, .f32⟩ : BufTy).Contents (Elt F)) ::
  binary main_v387 main_v390 main_v391 (Host.divf : (⟨S64x128, .f32⟩ : BufTy).Contents (Elt F) → (⟨S64x128, .f32⟩ : BufTy).Contents (Elt F) → (⟨S64x128, .f32⟩ : BufTy).Contents (Elt F)) ::
  binary main_v391 main_arg8 main_v392 ((fun l r => Host.dotGeneral dot_S64x128_S128x10_S64x10_1_0_0_1_n_n none l r) : (⟨S64x128, .f32⟩ : BufTy).Contents (Elt F) → (⟨S128x10, .f32⟩ : BufTy).Contents (Elt F) → (⟨S64x10, .f32⟩ : BufTy).Contents (Elt F)) ::
  unary main_arg9 main_v393 (broadcastInDim S1x10 ![1] bcast_S10_S1x10_1 : (⟨S10, .f32⟩ : BufTy).Contents (Elt F) → (⟨S1x10, .f32⟩ : BufTy).Contents (Elt F)) ::
  unary main_v393 main_v394 (broadcastInDim S64x10 ![0, 1] bcast_S1x10_S64x10_0_1 : (⟨S1x10, .f32⟩ : BufTy).Contents (Elt F) → (⟨S64x10, .f32⟩ : BufTy).Contents (Elt F)) ::
  binary main_v392 main_v394 main_v395 (addf : (⟨S64x10, .f32⟩ : BufTy).Contents (Elt F) → (⟨S64x10, .f32⟩ : BufTy).Contents (Elt F) → (⟨S64x10, .f32⟩ : BufTy).Contents (Elt F)) ::
  nullary main_cst_106 (constant S_ .f32 0xFF800000#32) ::
  binary main_v395 main_cst_106 main_v396 ((fun x v => Host.reduce FloatOps.maximumf x v reducesTo_S64x10_S10_d0 h_S_) : (⟨S64x10, .f32⟩ : BufTy).Contents (Elt F) → (⟨S_, .f32⟩ : BufTy).Contents (Elt F) → (⟨S10, .f32⟩ : BufTy).Contents (Elt F)) ::
  nullary main_cst_107 (constant S_ .f32 0xFF800000#32) ::
  unary main_cst_107 main_v397 (broadcastInDim S10 ![] bcast_S_S10 : (⟨S_, .f32⟩ : BufTy).Contents (Elt F) → (⟨S10, .f32⟩ : BufTy).Contents (Elt F)) ::
  binary main_v397 main_v396 main_v398 (maximumf : (⟨S10, .f32⟩ : BufTy).Contents (Elt F) → (⟨S10, .f32⟩ : BufTy).Contents (Elt F) → (⟨S10, .f32⟩ : BufTy).Contents (Elt F)) ::
  unary main_v398 main_v399 (broadcastInDim S1x10 ![1] bcast_S10_S1x10_1 : (⟨S10, .f32⟩ : BufTy).Contents (Elt F) → (⟨S1x10, .f32⟩ : BufTy).Contents (Elt F)) ::
  unary main_v399 main_v400 (broadcastInDim S64x10 ![0, 1] bcast_S1x10_S64x10_0_1 : (⟨S1x10, .f32⟩ : BufTy).Contents (Elt F) → (⟨S64x10, .f32⟩ : BufTy).Contents (Elt F)) ::
  binary main_v395 main_v400 main_v401 (subf : (⟨S64x10, .f32⟩ : BufTy).Contents (Elt F) → (⟨S64x10, .f32⟩ : BufTy).Contents (Elt F) → (⟨S64x10, .f32⟩ : BufTy).Contents (Elt F)) ::
  unary main_v401 main_v402 (Host.exp : (⟨S64x10, .f32⟩ : BufTy).Contents (Elt F) → (⟨S64x10, .f32⟩ : BufTy).Contents (Elt F)) ::
  nullary main_cst_108 (constant S_ .f32 0x00000000#32) ::
  binary main_v402 main_cst_108 main_v403 ((fun x v => Host.reduceAdd x v reducesTo_S64x10_S10_d0 h_S_) : (⟨S64x10, .f32⟩ : BufTy).Contents (Elt F) → (⟨S_, .f32⟩ : BufTy).Contents (Elt F) → (⟨S10, .f32⟩ : BufTy).Contents (Elt F)) ::
  unary main_v403 main_v404 (broadcastInDim S1x10 ![1] bcast_S10_S1x10_1 : (⟨S10, .f32⟩ : BufTy).Contents (Elt F) → (⟨S1x10, .f32⟩ : BufTy).Contents (Elt F)) ::
  unary main_v404 main_v405 (broadcastInDim S64x10 ![0, 1] bcast_S1x10_S64x10_0_1 : (⟨S1x10, .f32⟩ : BufTy).Contents (Elt F) → (⟨S64x10, .f32⟩ : BufTy).Contents (Elt F)) ::
  binary main_v402 main_v405 main_v406 (Host.divf : (⟨S64x10, .f32⟩ : BufTy).Contents (Elt F) → (⟨S64x10, .f32⟩ : BufTy).Contents (Elt F) → (⟨S64x10, .f32⟩ : BufTy).Contents (Elt F)) ::
  []

/-- @main's 546 operations, in order (a called function's operations stand in its call's place). -/
abbrev ops : List (HloOp τ sig (Elt F)) :=
  chL1r0 ++ (chL1r1 ++ (chL1r2 ++ (chRelu ++ (chL2r0 ++ (chL2r1 ++ (chL2r2 ++ chTail))))))

end Cert.ReferenceIdeal.RefRun

end
-- ==== Proof.RefRun.lean ====
/- The run of the reference program: @main is the straight line of its 546 operations, so every weakly fair execution terminates with each buffer at the fold of the operations' results over its launch contents. -/
import proofs.«118654_j25211458027582_2_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A predicate holding on every element of two lists holds on every element of their concatenation. -/
theorem forall_append {α : Type*} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-! ## Every operation touches TensorCore references only, and determines its results -/

set_option maxRecDepth 8192 in
theorem chL1r0_sub : (chL1r0 : List (HloOp τ sig (Elt F))).Forall fun op => op.bufs ⊆ tcRefs τ sig :=
  ⟨nullary_bufs_sub .., unary_bufs_sub .., unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., unary_bufs_sub .., binary_bufs_sub .., binary_bufs_sub .., unary_bufs_sub .., reshape_bufs_sub .., unary_bufs_sub .., unary_bufs_sub .., binary_bufs_sub ..⟩
set_option maxRecDepth 8192 in
theorem chL1r0_fresh : (chL1r0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem chL1r1_sub : (chL1r1 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., unary_bufs_sub .., binary_bufs_sub .., binary_bufs_sub .., unary_bufs_sub .., reshape_bufs_sub .., unary_bufs_sub .., unary_bufs_sub .., binary_bufs_sub ..⟩
set_option maxRecDepth 8192 in
theorem chL1r1_fresh : (chL1r1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem chL1r2_sub : (chL1r2 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., unary_bufs_sub .., binary_bufs_sub .., binary_bufs_sub .., unary_bufs_sub .., reshape_bufs_sub .., unary_bufs_sub .., unary_bufs_sub .., binary_bufs_sub ..⟩
set_option maxRecDepth 8192 in
theorem chL1r2_fresh : (chL1r2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem chRelu_sub : (chRelu : List (HloOp τ sig (Elt F))).Forall fun op => op.bufs ⊆ tcRefs τ sig :=
  ⟨nullary_bufs_sub .., unary_bufs_sub .., binary_bufs_sub ..⟩
set_option maxRecDepth 8192 in
theorem chRelu_fresh : (chRelu : List (HloOp τ sig (Elt F))).Forall fun op => op.fresh = ∅ :=
  ⟨rfl, rfl, rfl⟩

set_option maxRecDepth 8192 in
theorem chL2r0_sub : (chL2r0 : List (HloOp τ sig (Elt F))).Forall fun op => op.bufs ⊆ tcRefs τ sig :=
  ⟨nullary_bufs_sub .., unary_bufs_sub .., unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., unary_bufs_sub .., binary_bufs_sub .., binary_bufs_sub .., unary_bufs_sub .., reshape_bufs_sub .., unary_bufs_sub .., unary_bufs_sub .., binary_bufs_sub ..⟩
set_option maxRecDepth 8192 in
theorem chL2r0_fresh : (chL2r0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem chL2r1_sub : (chL2r1 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., unary_bufs_sub .., binary_bufs_sub .., binary_bufs_sub .., unary_bufs_sub .., reshape_bufs_sub .., unary_bufs_sub .., unary_bufs_sub .., binary_bufs_sub ..⟩
set_option maxRecDepth 8192 in
theorem chL2r1_fresh : (chL2r1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem chL2r2_sub : (chL2r2 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., unary_bufs_sub .., binary_bufs_sub .., binary_bufs_sub .., unary_bufs_sub .., reshape_bufs_sub .., unary_bufs_sub .., unary_bufs_sub .., binary_bufs_sub ..⟩
set_option maxRecDepth 8192 in
theorem chL2r2_fresh : (chL2r2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem chTail_sub : (chTail : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
set_option maxRecDepth 8192 in
theorem chTail_fresh : (chTail : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  forall_append chL1r0_sub (forall_append chL1r1_sub (forall_append chL1r2_sub (forall_append chRelu_sub (forall_append chL2r0_sub (forall_append chL2r1_sub (forall_append chL2r2_sub (chTail_sub)))))))
theorem ops_fresh : (ops : List (HloOp τ sig (Elt F))).Forall fun op => op.fresh = ∅ :=
  forall_append chL1r0_fresh (forall_append chL1r1_fresh (forall_append chL1r2_fresh (forall_append chRelu_fresh (forall_append chL2r0_fresh (forall_append chL2r1_fresh (forall_append chL2r2_fresh (chTail_fresh)))))))

/-! ## @main is the line of its operations -/

set_option maxRecDepth 16384 in
set_option maxHeartbeats 40000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of
    @main terminates with each buffer at the fold of the 546 operations' results over the device's launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (fun b => m (c, b)) (Proc.devRef .tc b) :=
  run_seq scopedRefs_eq scopedSems_eq defs main (fun _ => ops) main_eq (fun _ => ops_sub) m ρ
    (fun _ => List.forall_iff_forall_mem.mp ops_fresh)

end Cert.ReferenceIdeal.RefRun

end
-- ==== Proof.RefRunFrame.lean ====
/- The fold of the reference's operations taken stretch by stretch, and what each stretch leaves alone: a buffer no operation of a stretch writes keeps its contents, so every argument is unchanged by every stretch, each stretch's accumulator is unchanged by the later ones, and the program's arguments end as launched. -/
import proofs.«118654_j25211458027582_2_alg».proof.Proof.RefRun
import proofs.«118654_j25211458027582_2_alg».proof.Defs
import proofs.«118654_j25211458027582_2_alg».proof.Proof.Gen.Pre_finite_inputs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over two lines in a row is the second line's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- An operation whose one written buffer is among the references `W` writes within `W`. -/
theorem writes_sub_of_mem {W : List (Ref sig .tc)} (y : Ref sig .tc) {op : HloOp τ sig (Elt F)}
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

/-- The program's ten arguments. -/
abbrev args : List (Ref sig .tc) :=
  [main_arg0, main_arg1, main_arg2, main_arg3, main_arg4, main_arg5, main_arg6, main_arg7, main_arg8, main_arg9]

/-! ## What each stretch writes, and the frame lemma it gives -/

/-- The references `chL1r0` writes: one per operation, in order. -/
abbrev chL1r0_W : List (Ref sig .tc) :=
  [main_cst, main_v0, main_v1, main_v2, main_v3, main_v4, main_cst_0, main_v5, main_c, main_v6, main_v7, main_c_1, main_v8, main_v9, main_v10, main_v11, main_cst_2, main_v12, main_v13, main_cst_3, main_call0_v0, main_call0_v1, main_v14, main_cst_4, main_v15, main_c_5, main_v16, main_v17, main_c_6, main_v18, main_v19, main_v20, main_v21, main_cst_7, main_v22, main_v23, main_cst_8, main_call1_v0, main_call1_v1, main_v24, main_v25, main_v26, main_v27, main_c_9, main_v28, main_v29, main_c_10, main_v30, main_v31, main_v32, main_v33, main_v34, main_v35, main_c_11, main_v36, main_v37, main_c_12, main_v38, main_v39, main_v40, main_v41, main_v42, main_v43, main_v44, main_v45, main_cst_13, main_v46, main_c_14, main_v47, main_v48, main_c_15, main_v49, main_v50, main_v51, main_v52, main_v53, main_v54, main_v55, main_v56, main_v57, main_v58, main_v59, main_v60, main_v61, main_v62, main_v63]

set_option maxRecDepth 8192 in
set_option maxHeartbeats 4000000 in
theorem chL1r0_writes : (chL1r0 : List (HloOp τ sig (Elt F))).Forall fun op =>
    op.writes ⊆ (chL1r0_W.map (Proc.devRef (τ := τ) .tc)).toFinset :=
  ⟨writes_sub_of_mem main_cst rfl (by decide),
   writes_sub_of_mem main_v0 rfl (by decide),
   writes_sub_of_mem main_v1 rfl (by decide),
   writes_sub_of_mem main_v2 rfl (by decide),
   writes_sub_of_mem main_v3 rfl (by decide),
   writes_sub_of_mem main_v4 rfl (by decide),
   writes_sub_of_mem main_cst_0 rfl (by decide),
   writes_sub_of_mem main_v5 rfl (by decide),
   writes_sub_of_mem main_c rfl (by decide),
   writes_sub_of_mem main_v6 rfl (by decide),
   writes_sub_of_mem main_v7 rfl (by decide),
   writes_sub_of_mem main_c_1 rfl (by decide),
   writes_sub_of_mem main_v8 rfl (by decide),
   writes_sub_of_mem main_v9 rfl (by decide),
   writes_sub_of_mem main_v10 rfl (by decide),
   writes_sub_of_mem main_v11 rfl (by decide),
   writes_sub_of_mem main_cst_2 rfl (by decide),
   writes_sub_of_mem main_v12 rfl (by decide),
   writes_sub_of_mem main_v13 rfl (by decide),
   writes_sub_of_mem main_cst_3 rfl (by decide),
   writes_sub_of_mem main_call0_v0 rfl (by decide),
   writes_sub_of_mem main_call0_v1 rfl (by decide),
   writes_sub_of_mem main_v14 rfl (by decide),
   writes_sub_of_mem main_cst_4 rfl (by decide),
   writes_sub_of_mem main_v15 rfl (by decide),
   writes_sub_of_mem main_c_5 rfl (by decide),
   writes_sub_of_mem main_v16 rfl (by decide),
   writes_sub_of_mem main_v17 rfl (by decide),
   writes_sub_of_mem main_c_6 rfl (by decide),
   writes_sub_of_mem main_v18 rfl (by decide),
   writes_sub_of_mem main_v19 rfl (by decide),
   writes_sub_of_mem main_v20 rfl (by decide),
   writes_sub_of_mem main_v21 rfl (by decide),
   writes_sub_of_mem main_cst_7 rfl (by decide),
   writes_sub_of_mem main_v22 rfl (by decide),
   writes_sub_of_mem main_v23 rfl (by decide),
   writes_sub_of_mem main_cst_8 rfl (by decide),
   writes_sub_of_mem main_call1_v0 rfl (by decide),
   writes_sub_of_mem main_call1_v1 rfl (by decide),
   writes_sub_of_mem main_v24 rfl (by decide),
   writes_sub_of_mem main_v25 rfl (by decide),
   writes_sub_of_mem main_v26 rfl (by decide),
   writes_sub_of_mem main_v27 rfl (by decide),
   writes_sub_of_mem main_c_9 rfl (by decide),
   writes_sub_of_mem main_v28 rfl (by decide),
   writes_sub_of_mem main_v29 rfl (by decide),
   writes_sub_of_mem main_c_10 rfl (by decide),
   writes_sub_of_mem main_v30 rfl (by decide),
   writes_sub_of_mem main_v31 rfl (by decide),
   writes_sub_of_mem main_v32 rfl (by decide),
   writes_sub_of_mem main_v33 rfl (by decide),
   writes_sub_of_mem main_v34 rfl (by decide),
   writes_sub_of_mem main_v35 rfl (by decide),
   writes_sub_of_mem main_c_11 rfl (by decide),
   writes_sub_of_mem main_v36 rfl (by decide),
   writes_sub_of_mem main_v37 rfl (by decide),
   writes_sub_of_mem main_c_12 rfl (by decide),
   writes_sub_of_mem main_v38 rfl (by decide),
   writes_sub_of_mem main_v39 rfl (by decide),
   writes_sub_of_mem main_v40 rfl (by decide),
   writes_sub_of_mem main_v41 rfl (by decide),
   writes_sub_of_mem main_v42 rfl (by decide),
   writes_sub_of_mem main_v43 rfl (by decide),
   writes_sub_of_mem main_v44 rfl (by decide),
   writes_sub_of_mem main_v45 rfl (by decide),
   writes_sub_of_mem main_cst_13 rfl (by decide),
   writes_sub_of_mem main_v46 rfl (by decide),
   writes_sub_of_mem main_c_14 rfl (by decide),
   writes_sub_of_mem main_v47 rfl (by decide),
   writes_sub_of_mem main_v48 rfl (by decide),
   writes_sub_of_mem main_c_15 rfl (by decide),
   writes_sub_of_mem main_v49 rfl (by decide),
   writes_sub_of_mem main_v50 rfl (by decide),
   writes_sub_of_mem main_v51 rfl (by decide),
   writes_sub_of_mem main_v52 rfl (by decide),
   writes_sub_of_mem main_v53 rfl (by decide),
   writes_sub_of_mem main_v54 rfl (by decide),
   writes_sub_of_mem main_v55 rfl (by decide),
   writes_sub_of_mem main_v56 rfl (by decide),
   writes_sub_of_mem main_v57 rfl (by decide),
   writes_sub_of_mem main_v58 rfl (by decide),
   writes_sub_of_mem main_v59 rfl (by decide),
   writes_sub_of_mem main_v60 rfl (by decide),
   writes_sub_of_mem main_v61 rfl (by decide),
   writes_sub_of_mem main_v62 rfl (by decide),
   writes_sub_of_mem main_v63 rfl (by decide)⟩

/-- A reference `chL1r0` does not write keeps its contents through it. -/
theorem chL1r0_frame (V : Valuation τ sig (Elt F)) {r : Ref sig .tc} (hr : r ∉ chL1r0_W) :
    after chL1r0 V (Proc.devRef .tc r) = V (Proc.devRef .tc r) :=
  after_of_writes_sub chL1r0 V chL1r0_writes hr

/-- No argument is written by `chL1r0`. -/
theorem chL1r0_args (V : Valuation τ sig (Elt F)) {r : Ref sig .tc} (hr : r ∈ args) :
    after chL1r0 V (Proc.devRef .tc r) = V (Proc.devRef .tc r) :=
  chL1r0_frame V (by revert r; decide)

/-- The references `chL1r1` writes: one per operation, in order. -/
abbrev chL1r1_W : List (Ref sig .tc) :=
  [main_v64, main_v65, main_v66, main_v67, main_cst_16, main_v68, main_c_17, main_v69, main_v70, main_c_18, main_v71, main_v72, main_v73, main_v74, main_cst_19, main_v75, main_v76, main_cst_20, main_call2_v0, main_call2_v1, main_v77, main_cst_21, main_v78, main_c_22, main_v79, main_v80, main_c_23, main_v81, main_v82, main_v83, main_v84, main_cst_24, main_v85, main_v86, main_cst_25, main_call3_v0, main_call3_v1, main_v87, main_v88, main_v89, main_v90, main_c_26, main_v91, main_v92, main_c_27, main_v93, main_v94, main_v95, main_v96, main_v97, main_v98, main_c_28, main_v99, main_v100, main_c_29, main_v101, main_v102, main_v103, main_v104, main_v105, main_v106, main_v107, main_v108, main_cst_30, main_v109, main_c_31, main_v110, main_v111, main_c_32, main_v112, main_v113, main_v114, main_v115, main_v116, main_v117, main_v118, main_v119, main_v120, main_v121, main_v122, main_v123, main_v124, main_v125, main_v126]

set_option maxRecDepth 8192 in
set_option maxHeartbeats 4000000 in
theorem chL1r1_writes : (chL1r1 : List (HloOp τ sig (Elt F))).Forall fun op =>
    op.writes ⊆ (chL1r1_W.map (Proc.devRef (τ := τ) .tc)).toFinset :=
  ⟨writes_sub_of_mem main_v64 rfl (by decide),
   writes_sub_of_mem main_v65 rfl (by decide),
   writes_sub_of_mem main_v66 rfl (by decide),
   writes_sub_of_mem main_v67 rfl (by decide),
   writes_sub_of_mem main_cst_16 rfl (by decide),
   writes_sub_of_mem main_v68 rfl (by decide),
   writes_sub_of_mem main_c_17 rfl (by decide),
   writes_sub_of_mem main_v69 rfl (by decide),
   writes_sub_of_mem main_v70 rfl (by decide),
   writes_sub_of_mem main_c_18 rfl (by decide),
   writes_sub_of_mem main_v71 rfl (by decide),
   writes_sub_of_mem main_v72 rfl (by decide),
   writes_sub_of_mem main_v73 rfl (by decide),
   writes_sub_of_mem main_v74 rfl (by decide),
   writes_sub_of_mem main_cst_19 rfl (by decide),
   writes_sub_of_mem main_v75 rfl (by decide),
   writes_sub_of_mem main_v76 rfl (by decide),
   writes_sub_of_mem main_cst_20 rfl (by decide),
   writes_sub_of_mem main_call2_v0 rfl (by decide),
   writes_sub_of_mem main_call2_v1 rfl (by decide),
   writes_sub_of_mem main_v77 rfl (by decide),
   writes_sub_of_mem main_cst_21 rfl (by decide),
   writes_sub_of_mem main_v78 rfl (by decide),
   writes_sub_of_mem main_c_22 rfl (by decide),
   writes_sub_of_mem main_v79 rfl (by decide),
   writes_sub_of_mem main_v80 rfl (by decide),
   writes_sub_of_mem main_c_23 rfl (by decide),
   writes_sub_of_mem main_v81 rfl (by decide),
   writes_sub_of_mem main_v82 rfl (by decide),
   writes_sub_of_mem main_v83 rfl (by decide),
   writes_sub_of_mem main_v84 rfl (by decide),
   writes_sub_of_mem main_cst_24 rfl (by decide),
   writes_sub_of_mem main_v85 rfl (by decide),
   writes_sub_of_mem main_v86 rfl (by decide),
   writes_sub_of_mem main_cst_25 rfl (by decide),
   writes_sub_of_mem main_call3_v0 rfl (by decide),
   writes_sub_of_mem main_call3_v1 rfl (by decide),
   writes_sub_of_mem main_v87 rfl (by decide),
   writes_sub_of_mem main_v88 rfl (by decide),
   writes_sub_of_mem main_v89 rfl (by decide),
   writes_sub_of_mem main_v90 rfl (by decide),
   writes_sub_of_mem main_c_26 rfl (by decide),
   writes_sub_of_mem main_v91 rfl (by decide),
   writes_sub_of_mem main_v92 rfl (by decide),
   writes_sub_of_mem main_c_27 rfl (by decide),
   writes_sub_of_mem main_v93 rfl (by decide),
   writes_sub_of_mem main_v94 rfl (by decide),
   writes_sub_of_mem main_v95 rfl (by decide),
   writes_sub_of_mem main_v96 rfl (by decide),
   writes_sub_of_mem main_v97 rfl (by decide),
   writes_sub_of_mem main_v98 rfl (by decide),
   writes_sub_of_mem main_c_28 rfl (by decide),
   writes_sub_of_mem main_v99 rfl (by decide),
   writes_sub_of_mem main_v100 rfl (by decide),
   writes_sub_of_mem main_c_29 rfl (by decide),
   writes_sub_of_mem main_v101 rfl (by decide),
   writes_sub_of_mem main_v102 rfl (by decide),
   writes_sub_of_mem main_v103 rfl (by decide),
   writes_sub_of_mem main_v104 rfl (by decide),
   writes_sub_of_mem main_v105 rfl (by decide),
   writes_sub_of_mem main_v106 rfl (by decide),
   writes_sub_of_mem main_v107 rfl (by decide),
   writes_sub_of_mem main_v108 rfl (by decide),
   writes_sub_of_mem main_cst_30 rfl (by decide),
   writes_sub_of_mem main_v109 rfl (by decide),
   writes_sub_of_mem main_c_31 rfl (by decide),
   writes_sub_of_mem main_v110 rfl (by decide),
   writes_sub_of_mem main_v111 rfl (by decide),
   writes_sub_of_mem main_c_32 rfl (by decide),
   writes_sub_of_mem main_v112 rfl (by decide),
   writes_sub_of_mem main_v113 rfl (by decide),
   writes_sub_of_mem main_v114 rfl (by decide),
   writes_sub_of_mem main_v115 rfl (by decide),
   writes_sub_of_mem main_v116 rfl (by decide),
   writes_sub_of_mem main_v117 rfl (by decide),
   writes_sub_of_mem main_v118 rfl (by decide),
   writes_sub_of_mem main_v119 rfl (by decide),
   writes_sub_of_mem main_v120 rfl (by decide),
   writes_sub_of_mem main_v121 rfl (by decide),
   writes_sub_of_mem main_v122 rfl (by decide),
   writes_sub_of_mem main_v123 rfl (by decide),
   writes_sub_of_mem main_v124 rfl (by decide),
   writes_sub_of_mem main_v125 rfl (by decide),
   writes_sub_of_mem main_v126 rfl (by decide)⟩

/-- A reference `chL1r1` does not write keeps its contents through it. -/
theorem chL1r1_frame (V : Valuation τ sig (Elt F)) {r : Ref sig .tc} (hr : r ∉ chL1r1_W) :
    after chL1r1 V (Proc.devRef .tc r) = V (Proc.devRef .tc r) :=
  after_of_writes_sub chL1r1 V chL1r1_writes hr

/-- No argument is written by `chL1r1`. -/
theorem chL1r1_args (V : Valuation τ sig (Elt F)) {r : Ref sig .tc} (hr : r ∈ args) :
    after chL1r1 V (Proc.devRef .tc r) = V (Proc.devRef .tc r) :=
  chL1r1_frame V (by revert r; decide)

/-- The references `chL1r2` writes: one per operation, in order. -/
abbrev chL1r2_W : List (Ref sig .tc) :=
  [main_v127, main_v128, main_v129, main_v130, main_cst_33, main_v131, main_c_34, main_v132, main_v133, main_c_35, main_v134, main_v135, main_v136, main_v137, main_cst_36, main_v138, main_v139, main_cst_37, main_call4_v0, main_call4_v1, main_v140, main_cst_38, main_v141, main_c_39, main_v142, main_v143, main_c_40, main_v144, main_v145, main_v146, main_v147, main_cst_41, main_v148, main_v149, main_cst_42, main_call5_v0, main_call5_v1, main_v150, main_v151, main_v152, main_v153, main_c_43, main_v154, main_v155, main_c_44, main_v156, main_v157, main_v158, main_v159, main_v160, main_v161, main_c_45, main_v162, main_v163, main_c_46, main_v164, main_v165, main_v166, main_v167, main_v168, main_v169, main_v170, main_v171, main_cst_47, main_v172, main_c_48, main_v173, main_v174, main_c_49, main_v175, main_v176, main_v177, main_v178, main_v179, main_v180, main_v181, main_v182, main_v183, main_v184, main_v185, main_v186, main_v187, main_v188, main_v189]

set_option maxRecDepth 8192 in
set_option maxHeartbeats 4000000 in
theorem chL1r2_writes : (chL1r2 : List (HloOp τ sig (Elt F))).Forall fun op =>
    op.writes ⊆ (chL1r2_W.map (Proc.devRef (τ := τ) .tc)).toFinset :=
  ⟨writes_sub_of_mem main_v127 rfl (by decide),
   writes_sub_of_mem main_v128 rfl (by decide),
   writes_sub_of_mem main_v129 rfl (by decide),
   writes_sub_of_mem main_v130 rfl (by decide),
   writes_sub_of_mem main_cst_33 rfl (by decide),
   writes_sub_of_mem main_v131 rfl (by decide),
   writes_sub_of_mem main_c_34 rfl (by decide),
   writes_sub_of_mem main_v132 rfl (by decide),
   writes_sub_of_mem main_v133 rfl (by decide),
   writes_sub_of_mem main_c_35 rfl (by decide),
   writes_sub_of_mem main_v134 rfl (by decide),
   writes_sub_of_mem main_v135 rfl (by decide),
   writes_sub_of_mem main_v136 rfl (by decide),
   writes_sub_of_mem main_v137 rfl (by decide),
   writes_sub_of_mem main_cst_36 rfl (by decide),
   writes_sub_of_mem main_v138 rfl (by decide),
   writes_sub_of_mem main_v139 rfl (by decide),
   writes_sub_of_mem main_cst_37 rfl (by decide),
   writes_sub_of_mem main_call4_v0 rfl (by decide),
   writes_sub_of_mem main_call4_v1 rfl (by decide),
   writes_sub_of_mem main_v140 rfl (by decide),
   writes_sub_of_mem main_cst_38 rfl (by decide),
   writes_sub_of_mem main_v141 rfl (by decide),
   writes_sub_of_mem main_c_39 rfl (by decide),
   writes_sub_of_mem main_v142 rfl (by decide),
   writes_sub_of_mem main_v143 rfl (by decide),
   writes_sub_of_mem main_c_40 rfl (by decide),
   writes_sub_of_mem main_v144 rfl (by decide),
   writes_sub_of_mem main_v145 rfl (by decide),
   writes_sub_of_mem main_v146 rfl (by decide),
   writes_sub_of_mem main_v147 rfl (by decide),
   writes_sub_of_mem main_cst_41 rfl (by decide),
   writes_sub_of_mem main_v148 rfl (by decide),
   writes_sub_of_mem main_v149 rfl (by decide),
   writes_sub_of_mem main_cst_42 rfl (by decide),
   writes_sub_of_mem main_call5_v0 rfl (by decide),
   writes_sub_of_mem main_call5_v1 rfl (by decide),
   writes_sub_of_mem main_v150 rfl (by decide),
   writes_sub_of_mem main_v151 rfl (by decide),
   writes_sub_of_mem main_v152 rfl (by decide),
   writes_sub_of_mem main_v153 rfl (by decide),
   writes_sub_of_mem main_c_43 rfl (by decide),
   writes_sub_of_mem main_v154 rfl (by decide),
   writes_sub_of_mem main_v155 rfl (by decide),
   writes_sub_of_mem main_c_44 rfl (by decide),
   writes_sub_of_mem main_v156 rfl (by decide),
   writes_sub_of_mem main_v157 rfl (by decide),
   writes_sub_of_mem main_v158 rfl (by decide),
   writes_sub_of_mem main_v159 rfl (by decide),
   writes_sub_of_mem main_v160 rfl (by decide),
   writes_sub_of_mem main_v161 rfl (by decide),
   writes_sub_of_mem main_c_45 rfl (by decide),
   writes_sub_of_mem main_v162 rfl (by decide),
   writes_sub_of_mem main_v163 rfl (by decide),
   writes_sub_of_mem main_c_46 rfl (by decide),
   writes_sub_of_mem main_v164 rfl (by decide),
   writes_sub_of_mem main_v165 rfl (by decide),
   writes_sub_of_mem main_v166 rfl (by decide),
   writes_sub_of_mem main_v167 rfl (by decide),
   writes_sub_of_mem main_v168 rfl (by decide),
   writes_sub_of_mem main_v169 rfl (by decide),
   writes_sub_of_mem main_v170 rfl (by decide),
   writes_sub_of_mem main_v171 rfl (by decide),
   writes_sub_of_mem main_cst_47 rfl (by decide),
   writes_sub_of_mem main_v172 rfl (by decide),
   writes_sub_of_mem main_c_48 rfl (by decide),
   writes_sub_of_mem main_v173 rfl (by decide),
   writes_sub_of_mem main_v174 rfl (by decide),
   writes_sub_of_mem main_c_49 rfl (by decide),
   writes_sub_of_mem main_v175 rfl (by decide),
   writes_sub_of_mem main_v176 rfl (by decide),
   writes_sub_of_mem main_v177 rfl (by decide),
   writes_sub_of_mem main_v178 rfl (by decide),
   writes_sub_of_mem main_v179 rfl (by decide),
   writes_sub_of_mem main_v180 rfl (by decide),
   writes_sub_of_mem main_v181 rfl (by decide),
   writes_sub_of_mem main_v182 rfl (by decide),
   writes_sub_of_mem main_v183 rfl (by decide),
   writes_sub_of_mem main_v184 rfl (by decide),
   writes_sub_of_mem main_v185 rfl (by decide),
   writes_sub_of_mem main_v186 rfl (by decide),
   writes_sub_of_mem main_v187 rfl (by decide),
   writes_sub_of_mem main_v188 rfl (by decide),
   writes_sub_of_mem main_v189 rfl (by decide)⟩

/-- A reference `chL1r2` does not write keeps its contents through it. -/
theorem chL1r2_frame (V : Valuation τ sig (Elt F)) {r : Ref sig .tc} (hr : r ∉ chL1r2_W) :
    after chL1r2 V (Proc.devRef .tc r) = V (Proc.devRef .tc r) :=
  after_of_writes_sub chL1r2 V chL1r2_writes hr

/-- No argument is written by `chL1r2`. -/
theorem chL1r2_args (V : Valuation τ sig (Elt F)) {r : Ref sig .tc} (hr : r ∈ args) :
    after chL1r2 V (Proc.devRef .tc r) = V (Proc.devRef .tc r) :=
  chL1r2_frame V (by revert r; decide)

/-- The references `chRelu` writes: one per operation, in order. -/
abbrev chRelu_W : List (Ref sig .tc) :=
  [main_call6_cst, main_call6_v0, main_v190]

set_option maxRecDepth 8192 in
set_option maxHeartbeats 4000000 in
theorem chRelu_writes : (chRelu : List (HloOp τ sig (Elt F))).Forall fun op =>
    op.writes ⊆ (chRelu_W.map (Proc.devRef (τ := τ) .tc)).toFinset :=
  ⟨writes_sub_of_mem main_call6_cst rfl (by decide),
   writes_sub_of_mem main_call6_v0 rfl (by decide),
   writes_sub_of_mem main_v190 rfl (by decide)⟩

/-- A reference `chRelu` does not write keeps its contents through it. -/
theorem chRelu_frame (V : Valuation τ sig (Elt F)) {r : Ref sig .tc} (hr : r ∉ chRelu_W) :
    after chRelu V (Proc.devRef .tc r) = V (Proc.devRef .tc r) :=
  after_of_writes_sub chRelu V chRelu_writes hr

/-- No argument is written by `chRelu`. -/
theorem chRelu_args (V : Valuation τ sig (Elt F)) {r : Ref sig .tc} (hr : r ∈ args) :
    after chRelu V (Proc.devRef .tc r) = V (Proc.devRef .tc r) :=
  chRelu_frame V (by revert r; decide)

/-- The references `chL2r0` writes: one per operation, in order. -/
abbrev chL2r0_W : List (Ref sig .tc) :=
  [main_cst_50, main_v191, main_v192, main_v193, main_v194, main_v195, main_cst_51, main_v196, main_c_52, main_v197, main_v198, main_c_53, main_v199, main_v200, main_v201, main_v202, main_cst_54, main_v203, main_v204, main_cst_55, main_call7_v0, main_call7_v1, main_v205, main_cst_56, main_v206, main_c_57, main_v207, main_v208, main_c_58, main_v209, main_v210, main_v211, main_v212, main_cst_59, main_v213, main_v214, main_cst_60, main_call8_v0, main_call8_v1, main_v215, main_v216, main_v217, main_v218, main_c_61, main_v219, main_v220, main_c_62, main_v221, main_v222, main_v223, main_v224, main_v225, main_v226, main_c_63, main_v227, main_v228, main_c_64, main_v229, main_v230, main_v231, main_v232, main_v233, main_v234, main_v235, main_v236, main_cst_65, main_v237, main_c_66, main_v238, main_v239, main_c_67, main_v240, main_v241, main_v242, main_v243, main_v244, main_v245, main_v246, main_v247, main_v248, main_v249, main_v250, main_v251, main_v252, main_v253, main_v254]

set_option maxRecDepth 8192 in
set_option maxHeartbeats 4000000 in
theorem chL2r0_writes : (chL2r0 : List (HloOp τ sig (Elt F))).Forall fun op =>
    op.writes ⊆ (chL2r0_W.map (Proc.devRef (τ := τ) .tc)).toFinset :=
  ⟨writes_sub_of_mem main_cst_50 rfl (by decide),
   writes_sub_of_mem main_v191 rfl (by decide),
   writes_sub_of_mem main_v192 rfl (by decide),
   writes_sub_of_mem main_v193 rfl (by decide),
   writes_sub_of_mem main_v194 rfl (by decide),
   writes_sub_of_mem main_v195 rfl (by decide),
   writes_sub_of_mem main_cst_51 rfl (by decide),
   writes_sub_of_mem main_v196 rfl (by decide),
   writes_sub_of_mem main_c_52 rfl (by decide),
   writes_sub_of_mem main_v197 rfl (by decide),
   writes_sub_of_mem main_v198 rfl (by decide),
   writes_sub_of_mem main_c_53 rfl (by decide),
   writes_sub_of_mem main_v199 rfl (by decide),
   writes_sub_of_mem main_v200 rfl (by decide),
   writes_sub_of_mem main_v201 rfl (by decide),
   writes_sub_of_mem main_v202 rfl (by decide),
   writes_sub_of_mem main_cst_54 rfl (by decide),
   writes_sub_of_mem main_v203 rfl (by decide),
   writes_sub_of_mem main_v204 rfl (by decide),
   writes_sub_of_mem main_cst_55 rfl (by decide),
   writes_sub_of_mem main_call7_v0 rfl (by decide),
   writes_sub_of_mem main_call7_v1 rfl (by decide),
   writes_sub_of_mem main_v205 rfl (by decide),
   writes_sub_of_mem main_cst_56 rfl (by decide),
   writes_sub_of_mem main_v206 rfl (by decide),
   writes_sub_of_mem main_c_57 rfl (by decide),
   writes_sub_of_mem main_v207 rfl (by decide),
   writes_sub_of_mem main_v208 rfl (by decide),
   writes_sub_of_mem main_c_58 rfl (by decide),
   writes_sub_of_mem main_v209 rfl (by decide),
   writes_sub_of_mem main_v210 rfl (by decide),
   writes_sub_of_mem main_v211 rfl (by decide),
   writes_sub_of_mem main_v212 rfl (by decide),
   writes_sub_of_mem main_cst_59 rfl (by decide),
   writes_sub_of_mem main_v213 rfl (by decide),
   writes_sub_of_mem main_v214 rfl (by decide),
   writes_sub_of_mem main_cst_60 rfl (by decide),
   writes_sub_of_mem main_call8_v0 rfl (by decide),
   writes_sub_of_mem main_call8_v1 rfl (by decide),
   writes_sub_of_mem main_v215 rfl (by decide),
   writes_sub_of_mem main_v216 rfl (by decide),
   writes_sub_of_mem main_v217 rfl (by decide),
   writes_sub_of_mem main_v218 rfl (by decide),
   writes_sub_of_mem main_c_61 rfl (by decide),
   writes_sub_of_mem main_v219 rfl (by decide),
   writes_sub_of_mem main_v220 rfl (by decide),
   writes_sub_of_mem main_c_62 rfl (by decide),
   writes_sub_of_mem main_v221 rfl (by decide),
   writes_sub_of_mem main_v222 rfl (by decide),
   writes_sub_of_mem main_v223 rfl (by decide),
   writes_sub_of_mem main_v224 rfl (by decide),
   writes_sub_of_mem main_v225 rfl (by decide),
   writes_sub_of_mem main_v226 rfl (by decide),
   writes_sub_of_mem main_c_63 rfl (by decide),
   writes_sub_of_mem main_v227 rfl (by decide),
   writes_sub_of_mem main_v228 rfl (by decide),
   writes_sub_of_mem main_c_64 rfl (by decide),
   writes_sub_of_mem main_v229 rfl (by decide),
   writes_sub_of_mem main_v230 rfl (by decide),
   writes_sub_of_mem main_v231 rfl (by decide),
   writes_sub_of_mem main_v232 rfl (by decide),
   writes_sub_of_mem main_v233 rfl (by decide),
   writes_sub_of_mem main_v234 rfl (by decide),
   writes_sub_of_mem main_v235 rfl (by decide),
   writes_sub_of_mem main_v236 rfl (by decide),
   writes_sub_of_mem main_cst_65 rfl (by decide),
   writes_sub_of_mem main_v237 rfl (by decide),
   writes_sub_of_mem main_c_66 rfl (by decide),
   writes_sub_of_mem main_v238 rfl (by decide),
   writes_sub_of_mem main_v239 rfl (by decide),
   writes_sub_of_mem main_c_67 rfl (by decide),
   writes_sub_of_mem main_v240 rfl (by decide),
   writes_sub_of_mem main_v241 rfl (by decide),
   writes_sub_of_mem main_v242 rfl (by decide),
   writes_sub_of_mem main_v243 rfl (by decide),
   writes_sub_of_mem main_v244 rfl (by decide),
   writes_sub_of_mem main_v245 rfl (by decide),
   writes_sub_of_mem main_v246 rfl (by decide),
   writes_sub_of_mem main_v247 rfl (by decide),
   writes_sub_of_mem main_v248 rfl (by decide),
   writes_sub_of_mem main_v249 rfl (by decide),
   writes_sub_of_mem main_v250 rfl (by decide),
   writes_sub_of_mem main_v251 rfl (by decide),
   writes_sub_of_mem main_v252 rfl (by decide),
   writes_sub_of_mem main_v253 rfl (by decide),
   writes_sub_of_mem main_v254 rfl (by decide)⟩

/-- A reference `chL2r0` does not write keeps its contents through it. -/
theorem chL2r0_frame (V : Valuation τ sig (Elt F)) {r : Ref sig .tc} (hr : r ∉ chL2r0_W) :
    after chL2r0 V (Proc.devRef .tc r) = V (Proc.devRef .tc r) :=
  after_of_writes_sub chL2r0 V chL2r0_writes hr

/-- No argument is written by `chL2r0`. -/
theorem chL2r0_args (V : Valuation τ sig (Elt F)) {r : Ref sig .tc} (hr : r ∈ args) :
    after chL2r0 V (Proc.devRef .tc r) = V (Proc.devRef .tc r) :=
  chL2r0_frame V (by revert r; decide)

/-- The references `chL2r1` writes: one per operation, in order. -/
abbrev chL2r1_W : List (Ref sig .tc) :=
  [main_v255, main_v256, main_v257, main_v258, main_cst_68, main_v259, main_c_69, main_v260, main_v261, main_c_70, main_v262, main_v263, main_v264, main_v265, main_cst_71, main_v266, main_v267, main_cst_72, main_call9_v0, main_call9_v1, main_v268, main_cst_73, main_v269, main_c_74, main_v270, main_v271, main_c_75, main_v272, main_v273, main_v274, main_v275, main_cst_76, main_v276, main_v277, main_cst_77, main_call10_v0, main_call10_v1, main_v278, main_v279, main_v280, main_v281, main_c_78, main_v282, main_v283, main_c_79, main_v284, main_v285, main_v286, main_v287, main_v288, main_v289, main_c_80, main_v290, main_v291, main_c_81, main_v292, main_v293, main_v294, main_v295, main_v296, main_v297, main_v298, main_v299, main_cst_82, main_v300, main_c_83, main_v301, main_v302, main_c_84, main_v303, main_v304, main_v305, main_v306, main_v307, main_v308, main_v309, main_v310, main_v311, main_v312, main_v313, main_v314, main_v315, main_v316, main_v317]

set_option maxRecDepth 8192 in
set_option maxHeartbeats 4000000 in
theorem chL2r1_writes : (chL2r1 : List (HloOp τ sig (Elt F))).Forall fun op =>
    op.writes ⊆ (chL2r1_W.map (Proc.devRef (τ := τ) .tc)).toFinset :=
  ⟨writes_sub_of_mem main_v255 rfl (by decide),
   writes_sub_of_mem main_v256 rfl (by decide),
   writes_sub_of_mem main_v257 rfl (by decide),
   writes_sub_of_mem main_v258 rfl (by decide),
   writes_sub_of_mem main_cst_68 rfl (by decide),
   writes_sub_of_mem main_v259 rfl (by decide),
   writes_sub_of_mem main_c_69 rfl (by decide),
   writes_sub_of_mem main_v260 rfl (by decide),
   writes_sub_of_mem main_v261 rfl (by decide),
   writes_sub_of_mem main_c_70 rfl (by decide),
   writes_sub_of_mem main_v262 rfl (by decide),
   writes_sub_of_mem main_v263 rfl (by decide),
   writes_sub_of_mem main_v264 rfl (by decide),
   writes_sub_of_mem main_v265 rfl (by decide),
   writes_sub_of_mem main_cst_71 rfl (by decide),
   writes_sub_of_mem main_v266 rfl (by decide),
   writes_sub_of_mem main_v267 rfl (by decide),
   writes_sub_of_mem main_cst_72 rfl (by decide),
   writes_sub_of_mem main_call9_v0 rfl (by decide),
   writes_sub_of_mem main_call9_v1 rfl (by decide),
   writes_sub_of_mem main_v268 rfl (by decide),
   writes_sub_of_mem main_cst_73 rfl (by decide),
   writes_sub_of_mem main_v269 rfl (by decide),
   writes_sub_of_mem main_c_74 rfl (by decide),
   writes_sub_of_mem main_v270 rfl (by decide),
   writes_sub_of_mem main_v271 rfl (by decide),
   writes_sub_of_mem main_c_75 rfl (by decide),
   writes_sub_of_mem main_v272 rfl (by decide),
   writes_sub_of_mem main_v273 rfl (by decide),
   writes_sub_of_mem main_v274 rfl (by decide),
   writes_sub_of_mem main_v275 rfl (by decide),
   writes_sub_of_mem main_cst_76 rfl (by decide),
   writes_sub_of_mem main_v276 rfl (by decide),
   writes_sub_of_mem main_v277 rfl (by decide),
   writes_sub_of_mem main_cst_77 rfl (by decide),
   writes_sub_of_mem main_call10_v0 rfl (by decide),
   writes_sub_of_mem main_call10_v1 rfl (by decide),
   writes_sub_of_mem main_v278 rfl (by decide),
   writes_sub_of_mem main_v279 rfl (by decide),
   writes_sub_of_mem main_v280 rfl (by decide),
   writes_sub_of_mem main_v281 rfl (by decide),
   writes_sub_of_mem main_c_78 rfl (by decide),
   writes_sub_of_mem main_v282 rfl (by decide),
   writes_sub_of_mem main_v283 rfl (by decide),
   writes_sub_of_mem main_c_79 rfl (by decide),
   writes_sub_of_mem main_v284 rfl (by decide),
   writes_sub_of_mem main_v285 rfl (by decide),
   writes_sub_of_mem main_v286 rfl (by decide),
   writes_sub_of_mem main_v287 rfl (by decide),
   writes_sub_of_mem main_v288 rfl (by decide),
   writes_sub_of_mem main_v289 rfl (by decide),
   writes_sub_of_mem main_c_80 rfl (by decide),
   writes_sub_of_mem main_v290 rfl (by decide),
   writes_sub_of_mem main_v291 rfl (by decide),
   writes_sub_of_mem main_c_81 rfl (by decide),
   writes_sub_of_mem main_v292 rfl (by decide),
   writes_sub_of_mem main_v293 rfl (by decide),
   writes_sub_of_mem main_v294 rfl (by decide),
   writes_sub_of_mem main_v295 rfl (by decide),
   writes_sub_of_mem main_v296 rfl (by decide),
   writes_sub_of_mem main_v297 rfl (by decide),
   writes_sub_of_mem main_v298 rfl (by decide),
   writes_sub_of_mem main_v299 rfl (by decide),
   writes_sub_of_mem main_cst_82 rfl (by decide),
   writes_sub_of_mem main_v300 rfl (by decide),
   writes_sub_of_mem main_c_83 rfl (by decide),
   writes_sub_of_mem main_v301 rfl (by decide),
   writes_sub_of_mem main_v302 rfl (by decide),
   writes_sub_of_mem main_c_84 rfl (by decide),
   writes_sub_of_mem main_v303 rfl (by decide),
   writes_sub_of_mem main_v304 rfl (by decide),
   writes_sub_of_mem main_v305 rfl (by decide),
   writes_sub_of_mem main_v306 rfl (by decide),
   writes_sub_of_mem main_v307 rfl (by decide),
   writes_sub_of_mem main_v308 rfl (by decide),
   writes_sub_of_mem main_v309 rfl (by decide),
   writes_sub_of_mem main_v310 rfl (by decide),
   writes_sub_of_mem main_v311 rfl (by decide),
   writes_sub_of_mem main_v312 rfl (by decide),
   writes_sub_of_mem main_v313 rfl (by decide),
   writes_sub_of_mem main_v314 rfl (by decide),
   writes_sub_of_mem main_v315 rfl (by decide),
   writes_sub_of_mem main_v316 rfl (by decide),
   writes_sub_of_mem main_v317 rfl (by decide)⟩

/-- A reference `chL2r1` does not write keeps its contents through it. -/
theorem chL2r1_frame (V : Valuation τ sig (Elt F)) {r : Ref sig .tc} (hr : r ∉ chL2r1_W) :
    after chL2r1 V (Proc.devRef .tc r) = V (Proc.devRef .tc r) :=
  after_of_writes_sub chL2r1 V chL2r1_writes hr

/-- No argument is written by `chL2r1`. -/
theorem chL2r1_args (V : Valuation τ sig (Elt F)) {r : Ref sig .tc} (hr : r ∈ args) :
    after chL2r1 V (Proc.devRef .tc r) = V (Proc.devRef .tc r) :=
  chL2r1_frame V (by revert r; decide)

/-- The references `chL2r2` writes: one per operation, in order. -/
abbrev chL2r2_W : List (Ref sig .tc) :=
  [main_v318, main_v319, main_v320, main_v321, main_cst_85, main_v322, main_c_86, main_v323, main_v324, main_c_87, main_v325, main_v326, main_v327, main_v328, main_cst_88, main_v329, main_v330, main_cst_89, main_call11_v0, main_call11_v1, main_v331, main_cst_90, main_v332, main_c_91, main_v333, main_v334, main_c_92, main_v335, main_v336, main_v337, main_v338, main_cst_93, main_v339, main_v340, main_cst_94, main_call12_v0, main_call12_v1, main_v341, main_v342, main_v343, main_v344, main_c_95, main_v345, main_v346, main_c_96, main_v347, main_v348, main_v349, main_v350, main_v351, main_v352, main_c_97, main_v353, main_v354, main_c_98, main_v355, main_v356, main_v357, main_v358, main_v359, main_v360, main_v361, main_v362, main_cst_99, main_v363, main_c_100, main_v364, main_v365, main_c_101, main_v366, main_v367, main_v368, main_v369, main_v370, main_v371, main_v372, main_v373, main_v374, main_v375, main_v376, main_v377, main_v378, main_v379, main_v380]

set_option maxRecDepth 8192 in
set_option maxHeartbeats 4000000 in
theorem chL2r2_writes : (chL2r2 : List (HloOp τ sig (Elt F))).Forall fun op =>
    op.writes ⊆ (chL2r2_W.map (Proc.devRef (τ := τ) .tc)).toFinset :=
  ⟨writes_sub_of_mem main_v318 rfl (by decide),
   writes_sub_of_mem main_v319 rfl (by decide),
   writes_sub_of_mem main_v320 rfl (by decide),
   writes_sub_of_mem main_v321 rfl (by decide),
   writes_sub_of_mem main_cst_85 rfl (by decide),
   writes_sub_of_mem main_v322 rfl (by decide),
   writes_sub_of_mem main_c_86 rfl (by decide),
   writes_sub_of_mem main_v323 rfl (by decide),
   writes_sub_of_mem main_v324 rfl (by decide),
   writes_sub_of_mem main_c_87 rfl (by decide),
   writes_sub_of_mem main_v325 rfl (by decide),
   writes_sub_of_mem main_v326 rfl (by decide),
   writes_sub_of_mem main_v327 rfl (by decide),
   writes_sub_of_mem main_v328 rfl (by decide),
   writes_sub_of_mem main_cst_88 rfl (by decide),
   writes_sub_of_mem main_v329 rfl (by decide),
   writes_sub_of_mem main_v330 rfl (by decide),
   writes_sub_of_mem main_cst_89 rfl (by decide),
   writes_sub_of_mem main_call11_v0 rfl (by decide),
   writes_sub_of_mem main_call11_v1 rfl (by decide),
   writes_sub_of_mem main_v331 rfl (by decide),
   writes_sub_of_mem main_cst_90 rfl (by decide),
   writes_sub_of_mem main_v332 rfl (by decide),
   writes_sub_of_mem main_c_91 rfl (by decide),
   writes_sub_of_mem main_v333 rfl (by decide),
   writes_sub_of_mem main_v334 rfl (by decide),
   writes_sub_of_mem main_c_92 rfl (by decide),
   writes_sub_of_mem main_v335 rfl (by decide),
   writes_sub_of_mem main_v336 rfl (by decide),
   writes_sub_of_mem main_v337 rfl (by decide),
   writes_sub_of_mem main_v338 rfl (by decide),
   writes_sub_of_mem main_cst_93 rfl (by decide),
   writes_sub_of_mem main_v339 rfl (by decide),
   writes_sub_of_mem main_v340 rfl (by decide),
   writes_sub_of_mem main_cst_94 rfl (by decide),
   writes_sub_of_mem main_call12_v0 rfl (by decide),
   writes_sub_of_mem main_call12_v1 rfl (by decide),
   writes_sub_of_mem main_v341 rfl (by decide),
   writes_sub_of_mem main_v342 rfl (by decide),
   writes_sub_of_mem main_v343 rfl (by decide),
   writes_sub_of_mem main_v344 rfl (by decide),
   writes_sub_of_mem main_c_95 rfl (by decide),
   writes_sub_of_mem main_v345 rfl (by decide),
   writes_sub_of_mem main_v346 rfl (by decide),
   writes_sub_of_mem main_c_96 rfl (by decide),
   writes_sub_of_mem main_v347 rfl (by decide),
   writes_sub_of_mem main_v348 rfl (by decide),
   writes_sub_of_mem main_v349 rfl (by decide),
   writes_sub_of_mem main_v350 rfl (by decide),
   writes_sub_of_mem main_v351 rfl (by decide),
   writes_sub_of_mem main_v352 rfl (by decide),
   writes_sub_of_mem main_c_97 rfl (by decide),
   writes_sub_of_mem main_v353 rfl (by decide),
   writes_sub_of_mem main_v354 rfl (by decide),
   writes_sub_of_mem main_c_98 rfl (by decide),
   writes_sub_of_mem main_v355 rfl (by decide),
   writes_sub_of_mem main_v356 rfl (by decide),
   writes_sub_of_mem main_v357 rfl (by decide),
   writes_sub_of_mem main_v358 rfl (by decide),
   writes_sub_of_mem main_v359 rfl (by decide),
   writes_sub_of_mem main_v360 rfl (by decide),
   writes_sub_of_mem main_v361 rfl (by decide),
   writes_sub_of_mem main_v362 rfl (by decide),
   writes_sub_of_mem main_cst_99 rfl (by decide),
   writes_sub_of_mem main_v363 rfl (by decide),
   writes_sub_of_mem main_c_100 rfl (by decide),
   writes_sub_of_mem main_v364 rfl (by decide),
   writes_sub_of_mem main_v365 rfl (by decide),
   writes_sub_of_mem main_c_101 rfl (by decide),
   writes_sub_of_mem main_v366 rfl (by decide),
   writes_sub_of_mem main_v367 rfl (by decide),
   writes_sub_of_mem main_v368 rfl (by decide),
   writes_sub_of_mem main_v369 rfl (by decide),
   writes_sub_of_mem main_v370 rfl (by decide),
   writes_sub_of_mem main_v371 rfl (by decide),
   writes_sub_of_mem main_v372 rfl (by decide),
   writes_sub_of_mem main_v373 rfl (by decide),
   writes_sub_of_mem main_v374 rfl (by decide),
   writes_sub_of_mem main_v375 rfl (by decide),
   writes_sub_of_mem main_v376 rfl (by decide),
   writes_sub_of_mem main_v377 rfl (by decide),
   writes_sub_of_mem main_v378 rfl (by decide),
   writes_sub_of_mem main_v379 rfl (by decide),
   writes_sub_of_mem main_v380 rfl (by decide)⟩

/-- A reference `chL2r2` does not write keeps its contents through it. -/
theorem chL2r2_frame (V : Valuation τ sig (Elt F)) {r : Ref sig .tc} (hr : r ∉ chL2r2_W) :
    after chL2r2 V (Proc.devRef .tc r) = V (Proc.devRef .tc r) :=
  after_of_writes_sub chL2r2 V chL2r2_writes hr

/-- No argument is written by `chL2r2`. -/
theorem chL2r2_args (V : Valuation τ sig (Elt F)) {r : Ref sig .tc} (hr : r ∈ args) :
    after chL2r2 V (Proc.devRef .tc r) = V (Proc.devRef .tc r) :=
  chL2r2_frame V (by revert r; decide)

/-- The references `chTail` writes: one per operation, in order. -/
abbrev chTail_W : List (Ref sig .tc) :=
  [main_cst_102, main_v381, main_cst_103, main_v382, main_v383, main_v384, main_cst_104, main_v385, main_v386, main_v387, main_cst_105, main_call13_v0, main_call13_v1, main_v388, main_v389, main_v390, main_v391, main_v392, main_v393, main_v394, main_v395, main_cst_106, main_v396, main_cst_107, main_v397, main_v398, main_v399, main_v400, main_v401, main_v402, main_cst_108, main_v403, main_v404, main_v405, main_v406]

set_option maxRecDepth 8192 in
set_option maxHeartbeats 4000000 in
theorem chTail_writes : (chTail : List (HloOp τ sig (Elt F))).Forall fun op =>
    op.writes ⊆ (chTail_W.map (Proc.devRef (τ := τ) .tc)).toFinset :=
  ⟨writes_sub_of_mem main_cst_102 rfl (by decide),
   writes_sub_of_mem main_v381 rfl (by decide),
   writes_sub_of_mem main_cst_103 rfl (by decide),
   writes_sub_of_mem main_v382 rfl (by decide),
   writes_sub_of_mem main_v383 rfl (by decide),
   writes_sub_of_mem main_v384 rfl (by decide),
   writes_sub_of_mem main_cst_104 rfl (by decide),
   writes_sub_of_mem main_v385 rfl (by decide),
   writes_sub_of_mem main_v386 rfl (by decide),
   writes_sub_of_mem main_v387 rfl (by decide),
   writes_sub_of_mem main_cst_105 rfl (by decide),
   writes_sub_of_mem main_call13_v0 rfl (by decide),
   writes_sub_of_mem main_call13_v1 rfl (by decide),
   writes_sub_of_mem main_v388 rfl (by decide),
   writes_sub_of_mem main_v389 rfl (by decide),
   writes_sub_of_mem main_v390 rfl (by decide),
   writes_sub_of_mem main_v391 rfl (by decide),
   writes_sub_of_mem main_v392 rfl (by decide),
   writes_sub_of_mem main_v393 rfl (by decide),
   writes_sub_of_mem main_v394 rfl (by decide),
   writes_sub_of_mem main_v395 rfl (by decide),
   writes_sub_of_mem main_cst_106 rfl (by decide),
   writes_sub_of_mem main_v396 rfl (by decide),
   writes_sub_of_mem main_cst_107 rfl (by decide),
   writes_sub_of_mem main_v397 rfl (by decide),
   writes_sub_of_mem main_v398 rfl (by decide),
   writes_sub_of_mem main_v399 rfl (by decide),
   writes_sub_of_mem main_v400 rfl (by decide),
   writes_sub_of_mem main_v401 rfl (by decide),
   writes_sub_of_mem main_v402 rfl (by decide),
   writes_sub_of_mem main_cst_108 rfl (by decide),
   writes_sub_of_mem main_v403 rfl (by decide),
   writes_sub_of_mem main_v404 rfl (by decide),
   writes_sub_of_mem main_v405 rfl (by decide),
   writes_sub_of_mem main_v406 rfl (by decide)⟩

/-- A reference `chTail` does not write keeps its contents through it. -/
theorem chTail_frame (V : Valuation τ sig (Elt F)) {r : Ref sig .tc} (hr : r ∉ chTail_W) :
    after chTail V (Proc.devRef .tc r) = V (Proc.devRef .tc r) :=
  after_of_writes_sub chTail V chTail_writes hr

/-- No argument is written by `chTail`. -/
theorem chTail_args (V : Valuation τ sig (Elt F)) {r : Ref sig .tc} (hr : r ∈ args) :
    after chTail V (Proc.devRef .tc r) = V (Proc.devRef .tc r) :=
  chTail_frame V (by revert r; decide)

/-! ## The fold, stretch by stretch -/

section Chain

variable (V : Valuation τ sig (Elt F))

/-- The device's contents after layer 1's relation 0, from contents `V`. -/
def U1 : Valuation τ sig (Elt F) := after chL1r0 V
/-- … after layer 1's relation 1. -/
def U2 : Valuation τ sig (Elt F) := after chL1r1 (U1 V)
/-- … after layer 1's relation 2. -/
def U3 : Valuation τ sig (Elt F) := after chL1r2 (U2 V)
/-- … after the relu. -/
def U4 : Valuation τ sig (Elt F) := after chRelu (U3 V)
/-- … after layer 2's relation 0. -/
def U5 : Valuation τ sig (Elt F) := after chL2r0 (U4 V)
/-- … after layer 2's relation 1. -/
def U6 : Valuation τ sig (Elt F) := after chL2r1 (U5 V)
/-- … after layer 2's relation 2. -/
def U7 : Valuation τ sig (Elt F) := after chL2r2 (U6 V)
/-- … after the readout: the end of the program. -/
def U8 : Valuation τ sig (Elt F) := after chTail (U7 V)

/-- The whole program's fold is the stretches' folds in a row. -/
theorem after_ops : after ops V = U8 V :=
  show after (chL1r0 ++ (chL1r1 ++ (chL1r2 ++ (chRelu ++ (chL2r0 ++ (chL2r1 ++ (chL2r2 ++ chTail))))))) V = _ by
    rw [after_app, after_app, after_app, after_app, after_app, after_app, after_app]; rfl

variable {r : Ref sig .tc} (hr : r ∈ args)
include hr

/-- Every argument is unchanged through every prefix of the program. -/
theorem U1_args : U1 V (Proc.devRef .tc r) = V (Proc.devRef .tc r) := chL1r0_args V hr
theorem U2_args : U2 V (Proc.devRef .tc r) = V (Proc.devRef .tc r) := (chL1r1_args _ hr).trans (U1_args V hr)
theorem U3_args : U3 V (Proc.devRef .tc r) = V (Proc.devRef .tc r) := (chL1r2_args _ hr).trans (U2_args V hr)
theorem U4_args : U4 V (Proc.devRef .tc r) = V (Proc.devRef .tc r) := (chRelu_args _ hr).trans (U3_args V hr)
theorem U5_args : U5 V (Proc.devRef .tc r) = V (Proc.devRef .tc r) := (chL2r0_args _ hr).trans (U4_args V hr)
theorem U6_args : U6 V (Proc.devRef .tc r) = V (Proc.devRef .tc r) := (chL2r1_args _ hr).trans (U5_args V hr)
theorem U7_args : U7 V (Proc.devRef .tc r) = V (Proc.devRef .tc r) := (chL2r2_args _ hr).trans (U6_args V hr)
theorem U8_args : U8 V (Proc.devRef .tc r) = V (Proc.devRef .tc r) := (chTail_args _ hr).trans (U7_args V hr)

/-- Every argument is unchanged by the whole program. -/
theorem ops_args : after ops V (Proc.devRef .tc r) = V (Proc.devRef .tc r) := by
  rw [after_ops]; exact U8_args V hr

omit hr

/-- The relu's result is unchanged by layer 2's relations 0 and 1, which read it too. -/
theorem U5_v190 : U5 V (Proc.devRef .tc main_v190) = U4 V (Proc.devRef .tc main_v190) := chL2r0_frame _ (by decide)
theorem U6_v190 : U6 V (Proc.devRef .tc main_v190) = U4 V (Proc.devRef .tc main_v190) :=
  (chL2r1_frame _ (by decide)).trans (U5_v190 V)

end Chain

/-! ## The program's arguments end as launched -/

/-- The reference's frame: every weakly fair execution terminates with the ten arguments unchanged. -/
theorem frame : Cert.frame_ReferenceIdeal (hReferenceIdeal := Cert.ReferenceIdeal.Gen.facts)
    (hPre_finite_inputs := Cert.Pre_finite_inputs.Gen.facts) :=
  fun m g _ => (θ_run defs _ _).mono (fun _ h c =>
    ⟨(h c main_arg0).trans (ops_args _ (by decide)),
     (h c main_arg1).trans (ops_args _ (by decide)),
     (h c main_arg2).trans (ops_args _ (by decide)),
     (h c main_arg3).trans (ops_args _ (by decide)),
     (h c main_arg4).trans (ops_args _ (by decide)),
     (h c main_arg5).trans (ops_args _ (by decide)),
     (h c main_arg6).trans (ops_args _ (by decide)),
     (h c main_arg7).trans (ops_args _ (by decide)),
     (h c main_arg8).trans (ops_args _ (by decide)),
     (h c main_arg9).trans (ops_args _ (by decide))⟩)
    (run m g)

end Cert.ReferenceIdeal.RefRun

end
-- ==== Proof.RefRunStages.lean ====
/- Each stretch of the reference's operations, over an arbitrary valuation of the buffers, writes into its accumulator the corresponding stage function of the arrays it reads; chained along the program: the reference's result is the readout of layer 2 of the relu of layer 1 of the arguments. -/
import proofs.«118654_j25211458027582_2_alg».proof.Proof.RefRunFrame
import proofs.«118654_j25211458027582_2_alg».proof.Proof.Stages
import proofs.«118654_j25211458027582_2_alg».proof.Proof.StagesTail

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## One stretch, from any contents -/

set_option maxRecDepth 8192 in
set_option maxHeartbeats 2000000 in
theorem chL1r0_stage (W : Valuation τ sig (Elt F)) :
    after chL1r0 W (Proc.devRef .tc main_v63)
      = Cert.Stages.refStep (broadcastInDim S100000x128 ![] bcast_S_S100000x128 (constant S_ .f32 0x00000000#32)) (W (Proc.devRef .tc main_arg0)) (Cert.Stages.row0 (W (Proc.devRef .tc main_arg1))) (Cert.Stages.row0 (W (Proc.devRef .tc main_arg2))) (Cert.Stages.wsel0 (W (Proc.devRef .tc main_arg4))) (Cert.Stages.bsel0 (W (Proc.devRef .tc main_arg5))) := by
  simp only [chL1r0]
  after_results_simp
  rfl

set_option maxRecDepth 8192 in
set_option maxHeartbeats 2000000 in
theorem chL1r1_stage (W : Valuation τ sig (Elt F)) :
    after chL1r1 W (Proc.devRef .tc main_v126)
      = Cert.Stages.refStep (W (Proc.devRef .tc main_v63)) (W (Proc.devRef .tc main_arg0)) (Cert.Stages.row1 (W (Proc.devRef .tc main_arg1))) (Cert.Stages.row1 (W (Proc.devRef .tc main_arg2))) (Cert.Stages.wsel1 (W (Proc.devRef .tc main_arg4))) (Cert.Stages.bsel1 (W (Proc.devRef .tc main_arg5))) := by
  simp only [chL1r1]
  after_results_simp
  rfl

set_option maxRecDepth 8192 in
set_option maxHeartbeats 2000000 in
theorem chL1r2_stage (W : Valuation τ sig (Elt F)) :
    after chL1r2 W (Proc.devRef .tc main_v189)
      = Cert.Stages.refStep (W (Proc.devRef .tc main_v126)) (W (Proc.devRef .tc main_arg0)) (Cert.Stages.row2 (W (Proc.devRef .tc main_arg1))) (Cert.Stages.row2 (W (Proc.devRef .tc main_arg2))) (Cert.Stages.wsel2 (W (Proc.devRef .tc main_arg4))) (Cert.Stages.bsel2 (W (Proc.devRef .tc main_arg5))) := by
  simp only [chL1r2]
  after_results_simp
  rfl

set_option maxRecDepth 8192 in
set_option maxHeartbeats 2000000 in
theorem chRelu_stage (W : Valuation τ sig (Elt F)) :
    after chRelu W (Proc.devRef .tc main_v190)
      = Cert.Stages.relu (W (Proc.devRef .tc main_v189)) := by
  simp only [chRelu]
  after_results_simp
  rfl

set_option maxRecDepth 8192 in
set_option maxHeartbeats 2000000 in
theorem chL2r0_stage (W : Valuation τ sig (Elt F)) :
    after chL2r0 W (Proc.devRef .tc main_v254)
      = Cert.Stages.refStep (broadcastInDim S100000x128 ![] bcast_S_S100000x128 (constant S_ .f32 0x00000000#32)) (W (Proc.devRef .tc main_v190)) (Cert.Stages.row0 (W (Proc.devRef .tc main_arg1))) (Cert.Stages.row0 (W (Proc.devRef .tc main_arg2))) (Cert.Stages.wsel0 (W (Proc.devRef .tc main_arg6))) (Cert.Stages.bsel0 (W (Proc.devRef .tc main_arg7))) := by
  simp only [chL2r0]
  after_results_simp
  rfl

set_option maxRecDepth 8192 in
set_option maxHeartbeats 2000000 in
theorem chL2r1_stage (W : Valuation τ sig (Elt F)) :
    after chL2r1 W (Proc.devRef .tc main_v317)
      = Cert.Stages.refStep (W (Proc.devRef .tc main_v254)) (W (Proc.devRef .tc main_v190)) (Cert.Stages.row1 (W (Proc.devRef .tc main_arg1))) (Cert.Stages.row1 (W (Proc.devRef .tc main_arg2))) (Cert.Stages.wsel1 (W (Proc.devRef .tc main_arg6))) (Cert.Stages.bsel1 (W (Proc.devRef .tc main_arg7))) := by
  simp only [chL2r1]
  after_results_simp
  rfl

set_option maxRecDepth 8192 in
set_option maxHeartbeats 2000000 in
theorem chL2r2_stage (W : Valuation τ sig (Elt F)) :
    after chL2r2 W (Proc.devRef .tc main_v380)
      = Cert.Stages.refStep (W (Proc.devRef .tc main_v317)) (W (Proc.devRef .tc main_v190)) (Cert.Stages.row2 (W (Proc.devRef .tc main_arg1))) (Cert.Stages.row2 (W (Proc.devRef .tc main_arg2))) (Cert.Stages.wsel2 (W (Proc.devRef .tc main_arg6))) (Cert.Stages.bsel2 (W (Proc.devRef .tc main_arg7))) := by
  simp only [chL2r2]
  after_results_simp
  rfl

set_option maxRecDepth 8192 in
set_option maxHeartbeats 2000000 in
theorem chTail_stage (W : Valuation τ sig (Elt F)) :
    after chTail W (Proc.devRef .tc main_v406)
      = Cert.Stages.tail (W (Proc.devRef .tc main_v380)) (W (Proc.devRef .tc main_arg3)) (W (Proc.devRef .tc main_arg8)) (W (Proc.devRef .tc main_arg9)) := by
  simp only [chTail]
  after_results_simp
  rfl

/-! ## The stretches in a row -/

section Chain

variable (V : Valuation τ sig (Elt F))

theorem U1_v63 : U1 V (Proc.devRef .tc main_v63) = Cert.Stages.refStep (broadcastInDim S100000x128 ![] bcast_S_S100000x128 (constant S_ .f32 0x00000000#32)) (V (Proc.devRef .tc main_arg0)) (Cert.Stages.row0 (V (Proc.devRef .tc main_arg1))) (Cert.Stages.row0 (V (Proc.devRef .tc main_arg2))) (Cert.Stages.wsel0 (V (Proc.devRef .tc main_arg4))) (Cert.Stages.bsel0 (V (Proc.devRef .tc main_arg5))) :=
  chL1r0_stage V

theorem U2_v126 : U2 V (Proc.devRef .tc main_v126) = Cert.Stages.refStep (Cert.Stages.refStep (broadcastInDim S100000x128 ![] bcast_S_S100000x128 (constant S_ .f32 0x00000000#32)) (V (Proc.devRef .tc main_arg0)) (Cert.Stages.row0 (V (Proc.devRef .tc main_arg1))) (Cert.Stages.row0 (V (Proc.devRef .tc main_arg2))) (Cert.Stages.wsel0 (V (Proc.devRef .tc main_arg4))) (Cert.Stages.bsel0 (V (Proc.devRef .tc main_arg5)))) (V (Proc.devRef .tc main_arg0)) (Cert.Stages.row1 (V (Proc.devRef .tc main_arg1))) (Cert.Stages.row1 (V (Proc.devRef .tc main_arg2))) (Cert.Stages.wsel1 (V (Proc.devRef .tc main_arg4))) (Cert.Stages.bsel1 (V (Proc.devRef .tc main_arg5))) :=
  (chL1r1_stage (U1 V)).trans (by rw [U1_v63 V, U1_args V (r := main_arg0) (by decide), U1_args V (r := main_arg1) (by decide), U1_args V (r := main_arg2) (by decide), U1_args V (r := main_arg4) (by decide), U1_args V (r := main_arg5) (by decide)])

/-- Layer 1: the three relations' contributions added to zero. -/
theorem U3_v189 : U3 V (Proc.devRef .tc main_v189) = Cert.Stages.refLayer (V (Proc.devRef .tc main_arg0)) (V (Proc.devRef .tc main_arg1)) (V (Proc.devRef .tc main_arg2)) (V (Proc.devRef .tc main_arg4)) (V (Proc.devRef .tc main_arg5)) :=
  (chL1r2_stage (U2 V)).trans (by rw [U2_v126 V, U2_args V (r := main_arg0) (by decide), U2_args V (r := main_arg1) (by decide), U2_args V (r := main_arg2) (by decide), U2_args V (r := main_arg4) (by decide), U2_args V (r := main_arg5) (by decide)]; rfl)

theorem U4_v190 : U4 V (Proc.devRef .tc main_v190) = Cert.Stages.relu (Cert.Stages.refLayer (V (Proc.devRef .tc main_arg0)) (V (Proc.devRef .tc main_arg1)) (V (Proc.devRef .tc main_arg2)) (V (Proc.devRef .tc main_arg4)) (V (Proc.devRef .tc main_arg5))) :=
  (chRelu_stage (U3 V)).trans (by rw [U3_v189 V])

theorem U5_v254 : U5 V (Proc.devRef .tc main_v254) = Cert.Stages.refStep (broadcastInDim S100000x128 ![] bcast_S_S100000x128 (constant S_ .f32 0x00000000#32)) (Cert.Stages.relu (Cert.Stages.refLayer (V (Proc.devRef .tc main_arg0)) (V (Proc.devRef .tc main_arg1)) (V (Proc.devRef .tc main_arg2)) (V (Proc.devRef .tc main_arg4)) (V (Proc.devRef .tc main_arg5)))) (Cert.Stages.row0 (V (Proc.devRef .tc main_arg1))) (Cert.Stages.row0 (V (Proc.devRef .tc main_arg2))) (Cert.Stages.wsel0 (V (Proc.devRef .tc main_arg6))) (Cert.Stages.bsel0 (V (Proc.devRef .tc main_arg7))) :=
  (chL2r0_stage (U4 V)).trans (by rw [U4_v190 V, U4_args V (r := main_arg1) (by decide), U4_args V (r := main_arg2) (by decide), U4_args V (r := main_arg6) (by decide), U4_args V (r := main_arg7) (by decide)])

theorem U6_v317 : U6 V (Proc.devRef .tc main_v317) = Cert.Stages.refStep (Cert.Stages.refStep (broadcastInDim S100000x128 ![] bcast_S_S100000x128 (constant S_ .f32 0x00000000#32)) (Cert.Stages.relu (Cert.Stages.refLayer (V (Proc.devRef .tc main_arg0)) (V (Proc.devRef .tc main_arg1)) (V (Proc.devRef .tc main_arg2)) (V (Proc.devRef .tc main_arg4)) (V (Proc.devRef .tc main_arg5)))) (Cert.Stages.row0 (V (Proc.devRef .tc main_arg1))) (Cert.Stages.row0 (V (Proc.devRef .tc main_arg2))) (Cert.Stages.wsel0 (V (Proc.devRef .tc main_arg6))) (Cert.Stages.bsel0 (V (Proc.devRef .tc main_arg7)))) (Cert.Stages.relu (Cert.Stages.refLayer (V (Proc.devRef .tc main_arg0)) (V (Proc.devRef .tc main_arg1)) (V (Proc.devRef .tc main_arg2)) (V (Proc.devRef .tc main_arg4)) (V (Proc.devRef .tc main_arg5)))) (Cert.Stages.row1 (V (Proc.devRef .tc main_arg1))) (Cert.Stages.row1 (V (Proc.devRef .tc main_arg2))) (Cert.Stages.wsel1 (V (Proc.devRef .tc main_arg6))) (Cert.Stages.bsel1 (V (Proc.devRef .tc main_arg7))) :=
  (chL2r1_stage (U5 V)).trans (by rw [U5_v254 V, U5_v190 V, U4_v190 V, U5_args V (r := main_arg1) (by decide), U5_args V (r := main_arg2) (by decide), U5_args V (r := main_arg6) (by decide), U5_args V (r := main_arg7) (by decide)])

/-- Layer 2, over the relu of layer 1. -/
theorem U7_v380 : U7 V (Proc.devRef .tc main_v380) = Cert.Stages.refLayer (Cert.Stages.relu (Cert.Stages.refLayer (V (Proc.devRef .tc main_arg0)) (V (Proc.devRef .tc main_arg1)) (V (Proc.devRef .tc main_arg2)) (V (Proc.devRef .tc main_arg4)) (V (Proc.devRef .tc main_arg5)))) (V (Proc.devRef .tc main_arg1)) (V (Proc.devRef .tc main_arg2)) (V (Proc.devRef .tc main_arg6)) (V (Proc.devRef .tc main_arg7)) :=
  (chL2r2_stage (U6 V)).trans (by rw [U6_v317 V, U6_v190 V, U4_v190 V, U6_args V (r := main_arg1) (by decide), U6_args V (r := main_arg2) (by decide), U6_args V (r := main_arg6) (by decide), U6_args V (r := main_arg7) (by decide)]; rfl)

/-- The program's result, from any contents of the buffers: the readout of layer 2 of the relu of layer 1. -/
theorem result_eqV : after ops V (Proc.devRef .tc main_v406) = Cert.Stages.tail (Cert.Stages.refLayer (Cert.Stages.relu (Cert.Stages.refLayer (V (Proc.devRef .tc main_arg0)) (V (Proc.devRef .tc main_arg1)) (V (Proc.devRef .tc main_arg2)) (V (Proc.devRef .tc main_arg4)) (V (Proc.devRef .tc main_arg5)))) (V (Proc.devRef .tc main_arg1)) (V (Proc.devRef .tc main_arg2)) (V (Proc.devRef .tc main_arg6)) (V (Proc.devRef .tc main_arg7))) (V (Proc.devRef .tc main_arg3)) (V (Proc.devRef .tc main_arg8)) (V (Proc.devRef .tc main_arg9)) := by
  rw [after_ops]
  exact (chTail_stage (U7 V)).trans (by rw [U7_v380 V, U7_args V (r := main_arg3) (by decide), U7_args V (r := main_arg8) (by decide), U7_args V (r := main_arg9) (by decide)])

end Chain

/-- The program's result on device `c`, from the launch memory `m`. -/
theorem result_eq (m : (ℓ : Loc nD τ sig) → Buf (Elt F) ℓ) (c : Dev nD) :
    after ops (fun b => m (c, b)) (Proc.devRef .tc main_v406)
      = Cert.Stages.tail (Cert.Stages.refLayer (Cert.Stages.relu (Cert.Stages.refLayer (m ((c.tc : Thread nD τ).loc main_arg0)) (m ((c.tc : Thread nD τ).loc main_arg1))
            (m ((c.tc : Thread nD τ).loc main_arg2)) (m ((c.tc : Thread nD τ).loc main_arg4)) (m ((c.tc : Thread nD τ).loc main_arg5))))
          (m ((c.tc : Thread nD τ).loc main_arg1)) (m ((c.tc : Thread nD τ).loc main_arg2))
          (m ((c.tc : Thread nD τ).loc main_arg6)) (m ((c.tc : Thread nD τ).loc main_arg7)))
        (m ((c.tc : Thread nD τ).loc main_arg3)) (m ((c.tc : Thread nD τ).loc main_arg8)) (m ((c.tc : Thread nD τ).loc main_arg9)) :=
  result_eqV (fun b => m (c, b))

end Cert.ReferenceIdeal.RefRun

end
-- ==== Proof.RefSide.lean ====
/- The reference's run read back at its result: on every device the result buffer ends at the readout of layer 2 of the relu of layer 1 of the launch's arguments, and the ten arguments end as launched. -/
import proofs.«118654_j25211458027582_2_alg».proof.Proof.RefRunStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's result on device `c` as a function of the launch memory's arguments. -/
def refOut (m : (ℓ : Loc nD τ sig) → Buf (Elt F) ℓ) (c : Dev nD) : Buf (Elt F) ((c.tc : Thread nD τ).loc main_v406) :=
  Cert.Stages.tail (Cert.Stages.refLayer (Cert.Stages.relu (Cert.Stages.refLayer (m ((c.tc : Thread nD τ).loc main_arg0)) (m ((c.tc : Thread nD τ).loc main_arg1))
          (m ((c.tc : Thread nD τ).loc main_arg2)) (m ((c.tc : Thread nD τ).loc main_arg4)) (m ((c.tc : Thread nD τ).loc main_arg5))))
        (m ((c.tc : Thread nD τ).loc main_arg1)) (m ((c.tc : Thread nD τ).loc main_arg2)) (m ((c.tc : Thread nD τ).loc main_arg6)) (m ((c.tc : Thread nD τ).loc main_arg7)))
      (m ((c.tc : Thread nD τ).loc main_arg3)) (m ((c.tc : Thread nD τ).loc main_arg8)) (m ((c.tc : Thread nD τ).loc main_arg9))

/-- On every device, for any float values, from any memory with zero counters: every weakly fair execution of
    @main terminates with the result at `refOut` and the arguments unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v406) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(h c main_v406).trans (result_eq m c),
     (h c main_arg0).trans (ops_args _ (by decide)),
     (h c main_arg1).trans (ops_args _ (by decide)),
     (h c main_arg2).trans (ops_args _ (by decide)),
     (h c main_arg3).trans (ops_args _ (by decide)),
     (h c main_arg4).trans (ops_args _ (by decide)),
     (h c main_arg5).trans (ops_args _ (by decide)),
     (h c main_arg6).trans (ops_args _ (by decide)),
     (h c main_arg7).trans (ops_args _ (by decide)),
     (h c main_arg8).trans (ops_args _ (by decide)),
     (h c main_arg9).trans (ops_args _ (by decide))⟩)
    (run m ρ)

end Cert.ReferenceIdeal.RefRun

end
-- ==== Proof.Algebraic.lean ====
/- The two idealized programs, run from memories that agree on the arguments, end with equal results: both results
   are the readout of layer 2 of the relu of layer 1 of the arguments. -/
import proofs.«118654_j25211458027582_2_alg».proof.Proof.KSide
import proofs.«118654_j25211458027582_2_alg».proof.Proof.RefSide

noncomputable section

namespace Cert.Proof

open Idealize.ShloMosaic Idealize.SL.Sem

/-- The reference's result from a memory agreeing with the kernel's on the arguments is the kernel's result in the
    reference's arrangement. -/
theorem refOut_eq_kerOut
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.RefRun.refOut (F := Ideal) m' c = Cert.KernelIdeal.KValue.kerOut m c := by
  unfold Cert.ReferenceIdeal.RefRun.refOut Cert.KernelIdeal.KValue.kerOut
  rw [h0, h1, h2, h3, h4, h5, h6, h7, h8, h9]

/-- The algebraic claim, given what the kernel's host stretches before its first call compute. -/
theorem algebraic_of (H : Cert.KernelIdeal.KValue.HostFacts) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) :=
  fun m g m' g' hpre hag =>
    ⟨fun c => Cert.KernelIdeal.KValue.kerOut m c, Cert.KernelIdeal.KValue.kernel_side_of m g H hpre,
      (θ_run _ _ _).mono (fun r h c =>
        ⟨(h c).1.trans (refOut_eq_kerOut m m' c (hag c).1 (hag c).2.1 (hag c).2.2.1 (hag c).2.2.2.1 (hag c).2.2.2.2.1
            (hag c).2.2.2.2.2.1 (hag c).2.2.2.2.2.2.1 (hag c).2.2.2.2.2.2.2.1 (hag c).2.2.2.2.2.2.2.2.1 (hag c).2.2.2.2.2.2.2.2.2),
          (h c).2⟩)
        (Cert.ReferenceIdeal.RefRun.run_value (F := Ideal) m' g')⟩

end Cert.Proof

end
-- ==== Proof.KHostPreSo.lean ====
/-
  When the first pallas_call is entered, the two weight tables it reads hold the inverse square roots of the
  clipped degrees: of the source positions, stacked as rows, and of the destination positions, stacked as columns.
-/
import proofs.«118654_j25211458027582_2_alg».proof.Proof.KHostPreDef
import proofs.«118654_j25211458027582_2_alg».proof.Proof.Stages

noncomputable section

namespace Cert.KernelIdeal.KHost

open Idealize.ShloMosaic Cert.KernelIdeal Cert.KernelIdeal.Gen

variable {F : FTy → Type} [FloatOps F]

set_option maxHeartbeats 8000000 in
/-- The stacked source weights. -/
theorem pre_v81 (W : Valuation τ sig (Elt F)) :
    pre W (Proc.devRef .tc main_v81) = Cert.Stages.kSo (W (Proc.devRef .tc main_arg1)) := by
  simp only [pre, hostOps0, hostOps0_1, hostOps0_2, hostOps0_3, hostOps0_4, hostOps0_5, hostOps0_6, hostOps0_7,
    hostOps0_8, hostOps0_9, hostOps0_10, hostOps0_11, hostOps0_12]
  host_results
  rfl

set_option maxHeartbeats 8000000 in
/-- The stacked destination weights. -/
theorem pre_v85 (W : Valuation τ sig (Elt F)) :
    pre W (Proc.devRef .tc main_v85) = Cert.Stages.kSi (W (Proc.devRef .tc main_arg2)) := by
  simp only [pre, hostOps0, hostOps0_1, hostOps0_2, hostOps0_3, hostOps0_4, hostOps0_5, hostOps0_6, hostOps0_7,
    hostOps0_8, hostOps0_9, hostOps0_10, hostOps0_11, hostOps0_12]
  host_results
  rfl

end Cert.KernelIdeal.KHost

end
-- ==== Proof.KHostPreAgg.lean ====
/-
  When the first pallas_call is entered, the buffer it reads its stacked aggregates from holds the three
  relations' aggregates of the input features (gathered at the sources, scaled by the stacked source weights read
  back row by row, added into the destinations), stacked.
-/
import proofs.«118654_j25211458027582_2_alg».proof.Proof.KHostPreDef
import proofs.«118654_j25211458027582_2_alg».proof.Proof.Stages
import Idealize.ShloMosaic.Lib.Tactic

noncomputable section

namespace Cert.KernelIdeal.KHost

open Idealize.ShloMosaic Cert.KernelIdeal Cert.KernelIdeal.Gen

variable {F : FTy → Type} [FloatOps F]

set_option maxHeartbeats 8000000 in
/-- The stacked aggregates handed to the first pallas_call: the host operations' composed term and the stage
    functions' are the same term once the stage functions are unfolded. -/
theorem pre_v182 (W : Valuation τ sig (Elt F)) :
    pre W (Proc.devRef .tc main_v182)
      = Cert.Stages.kAgg (W (Proc.devRef .tc main_arg0)) (W (Proc.devRef .tc main_arg1)) (W (Proc.devRef .tc main_arg2))
          (Cert.Stages.kSo (W (Proc.devRef .tc main_arg1))) := by
  simp only [pre, hostOps0, hostOps0_1, hostOps0_2, hostOps0_3, hostOps0_4, hostOps0_5, hostOps0_6, hostOps0_7,
    hostOps0_8, hostOps0_9, hostOps0_10, hostOps0_11, hostOps0_12]
  host_results
  sl_kernel_rfl

end Cert.KernelIdeal.KHost

end
-- ==== Proof.KKernel.lean ====
/- The kernel program's value with nothing assumed of its host code: the three facts about the host stretches before
   the first pallas_call are the lemmas proved over those stretches. -/
import proofs.«118654_j25211458027582_2_alg».proof.Proof.KSide
import proofs.«118654_j25211458027582_2_alg».proof.Proof.Algebraic
import proofs.«118654_j25211458027582_2_alg».proof.Proof.KHostPreSo
import proofs.«118654_j25211458027582_2_alg».proof.Proof.KHostPreAgg

noncomputable section

namespace Cert.KernelIdeal.KValue

open Cert.KernelIdeal Cert.KernelIdeal.Gen Cert.KernelIdeal.KFrame Cert.KernelIdeal.KHost
open Idealize.ShloMosaic Idealize.ShloMosaic.TcCoe Idealize.SL.Sem

/-- What the host stretches before the first call compute. -/
theorem hostFacts : HostFacts := ⟨fun W => pre_v81 W, fun W => pre_v85 W, fun W => pre_v182 W⟩

variable (m : (ℓ : Loc nD τ sig) → Buf (Elt Ideal) ℓ) (ρ : Dev nD → PrngReg)

/-- The kernel program's result buffer at the end, as a function of the launch memory's arguments. -/
theorem kernel_value (c : Dev nD) : W19 m ρ c (Proc.devRef .tc main_v307) = Cert.Stages.tail (F := Ideal) (Cert.Stages.conv2 (Cert.Stages.kAgg (F := Ideal) (Cert.Stages.conv1 (Cert.Stages.kAgg (F := Ideal) (m ((c : Thread nD τ).loc main_arg0)) (m ((c : Thread nD τ).loc main_arg1)) (m ((c : Thread nD τ).loc main_arg2)) (Cert.Stages.kSo (F := Ideal) (m ((c : Thread nD τ).loc main_arg1)))) (Cert.Stages.kSi (F := Ideal) (m ((c : Thread nD τ).loc main_arg2))) (m ((c : Thread nD τ).loc main_arg4)) (m ((c : Thread nD τ).loc main_arg5))) (m ((c : Thread nD τ).loc main_arg1)) (m ((c : Thread nD τ).loc main_arg2)) (Cert.Stages.kSo (F := Ideal) (m ((c : Thread nD τ).loc main_arg1)))) (Cert.Stages.kSi (F := Ideal) (m ((c : Thread nD τ).loc main_arg2))) (m ((c : Thread nD τ).loc main_arg6)) (m ((c : Thread nD τ).loc main_arg7))) (m ((c : Thread nD τ).loc main_arg3)) (m ((c : Thread nD τ).loc main_arg8)) (m ((c : Thread nD τ).loc main_arg9)) :=
  kernel_value_of m ρ c hostFacts

/-- On every device, from any memory with zero counters of which the precondition holds: every weakly fair execution
    of @main terminates with the result at `kerOut` and the arguments unchanged. -/
theorem kernel_side (hpre : Cert.Pre_KernelIdeal (hPre_finite_inputs := Cert.Pre_finite_inputs.Gen.facts) m) :
    θ_run (defs (F := Ideal)) (onTc (τ := τ) (main (F := Ideal))) ⟨m, fun _ => 0, ρ⟩ (fun r => ∀ c : Dev nD,
      r.2.mem ((c.tc : Thread nD τ).loc main_v307) = kerOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  kernel_side_of m ρ hostFacts hpre

end Cert.KernelIdeal.KValue

namespace Cert.Proof

/-- The two idealized programs, run from memories that agree on the arguments, both terminate with equal results and
    unchanged arguments. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) :=
  algebraic_of Cert.KernelIdeal.KValue.hostFacts

end Cert.Proof

end
-- ==== Proof.lean ====
/-
  A two-layer relational graph convolution followed by a per-graph mean, a dense layer and a softmax
  over the batch axis: the kernel against its plain reference, on the extended reals.

  Per relation r the reference projects the node features first (h · W r), looks the projected rows up at
  the edge sources, scales each by the source's inverse-square-root degree, adds them into the rows of the
  edge destinations, scales row d by the destination's inverse-square-root degree and adds the bias row;
  the three relations are added up from zero. The kernel aggregates the UNPROJECTED rows the same way,
  stacks the three aggregates, and a pallas_call over 25 tiles of 4000 rows forms
  sum over r of ((aggregate r, row d scaled by the destination weight) · W r) plus the summed biases,
  with the maximum with zero fused into the first layer. Looking up, scaling and adding rows all commute
  with multiplying every row by one matrix, because every number in play is REAL: the inputs are finite
  (the precondition), degrees are counts clipped below at one, so their inverse square roots are real, and
  sums and products of reals are real. On reals the two arrangements are one double sum. The tail (counts
  per graph, mean, dense layer, softmax) is the same function on both sides.

  The frames: the kernel program is thirteen stretches of host operations, a pallas_call, one stretch, a
  second pallas_call and three more stretches; each pallas_call's body loads its windows' blocks,
  computes, and stores one whole output tile, so every run terminates with the arguments unchanged. The
  reference is a straight line of host operations.
-/
import proofs.«118654_j25211458027582_2_alg».proof.Defs
import proofs.«118654_j25211458027582_2_alg».proof.Proof.Gen.Kernel
import proofs.«118654_j25211458027582_2_alg».proof.Proof.Gen.KernelIdeal
import proofs.«118654_j25211458027582_2_alg».proof.Proof.Gen.ReferenceIdeal
import proofs.«118654_j25211458027582_2_alg».proof.Proof.Gen.Pre_finite_inputs
import proofs.«118654_j25211458027582_2_alg».proof.Proof.KFrameRun
import proofs.«118654_j25211458027582_2_alg».proof.Proof.KFrameBRun
import proofs.«118654_j25211458027582_2_alg».proof.Proof.KKernel
import Idealize.ShloMosaic.Adequacy
import Idealize.ShloMosaic.Init

noncomputable section

namespace Cert.Proof

open Idealize.ShloMosaic Idealize.SL.Sem

/-- The word-level kernel program runs to the end with its arguments unchanged. -/
theorem frame_k : Cert.frame_Kernel (hKernel := Cert.Kernel.Gen.facts) (hPre_finite_inputs := Cert.Pre_finite_inputs.Gen.facts) :=
  fun m ρ _ => Cert.Kernel.KFrame.frame m ρ

/-- So does the same program read on the extended reals. -/
theorem frame_ki : Cert.frame_KernelIdeal (hKernelIdeal := Cert.KernelIdeal.Gen.facts) (hPre_finite_inputs := Cert.Pre_finite_inputs.Gen.facts) :=
  fun m ρ _ => Cert.KernelIdeal.KFrame.frame m ρ

/-- The reference is a straight line of host operations, none of which writes an argument. -/
theorem frame_ri : Cert.frame_ReferenceIdeal (hReferenceIdeal := Cert.ReferenceIdeal.Gen.facts) (hPre_finite_inputs := Cert.Pre_finite_inputs.Gen.facts) :=
  Cert.ReferenceIdeal.RefRun.frame

/-- Nothing was rewritten between the kernel as printed and its reading on the extended reals. -/
theorem preserves : Cert.preserves_Kernel_KernelIdeal := trivial

/-- The five claims together: the three frames, the (empty) list of rewrites, and the equality of the two
    idealized programs' results on finite inputs (`algebraic`: the kernel's two pallas_calls on the stacked
    aggregates are the reference's two layers, and the tails are one function). -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
